-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v176)) (v1 : (c : Dev Cert.KernelIdeal.nD) → Buf (Elt Ideal) ((c.tc : Thread Cert.KernelIdeal.nD Cert.KernelIdeal.τ).loc Cert.KernelIdeal.main_v161)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v176) = v0 c
          ∧ r.2.mem ((c.tc : Thread Cert.KernelIdeal.nD Cert.KernelIdeal.τ).loc Cert.KernelIdeal.main_v161) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v283) = v0 c
          ∧ r.2.mem ((c.tc : Thread Cert.ReferenceIdeal.nD Cert.ReferenceIdeal.τ).loc Cert.ReferenceIdeal.main_v261) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S_ : Shape := ⟨0, ![]⟩
abbrev S128x64 : Shape := ⟨2, ![128, 64]⟩
abbrev S64 : Shape := ⟨1, ![64]⟩
abbrev S64x64 : Shape := ⟨2, ![64, 64]⟩
abbrev S4 : Shape := ⟨1, ![4]⟩
abbrev S4x64x64 : Shape := ⟨3, ![4, 64, 64]⟩
abbrev S4x64 : Shape := ⟨2, ![4, 64]⟩
abbrev S320x64 : Shape := ⟨2, ![320, 64]⟩
abbrev S64x10 : Shape := ⟨2, ![64, 10]⟩
abbrev S10 : Shape := ⟨1, ![10]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  reducesTo_S_S_d : S_.ReducesTo [] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S4 : S_.BroadcastsInDim S4 (![] : Fin 0 → Fin S4.rank)
  reducesTo_S4_S_d0 : S4.ReducesTo [0] S_
  bcast_S_S4x64x64 : S_.BroadcastsInDim S4x64x64 (![] : Fin 0 → Fin S4x64x64.rank)
  reducesTo_S4x64x64_S_d0_1_2 : S4x64x64.ReducesTo [0, 1, 2] S_
  bcast_S_S4x64 : S_.BroadcastsInDim S4x64 (![] : Fin 0 → Fin S4x64.rank)
  reducesTo_S4x64_S_d0_1 : S4x64.ReducesTo [0, 1] S_
  bcast_S_S320x64 : S_.BroadcastsInDim S320x64 (![] : Fin 0 → Fin S320x64.rank)
  reducesTo_S320x64_S_d0_1 : S320x64.ReducesTo [0, 1] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part7 {F : FTy → Type} [FloatOps F] (main_arg20 : FVec F S4x64 .f32) (main_v118 : IVec S_ 1) : IVec S_ 1 :=
  let main_cst_47 : FVec F S_ .f32 := constant S_ .f32 0x3727C5AC#32
  let main_v119 : FVec F S4x64 .f32 := broadcastInDim S4x64 ![] bcast_S_S4x64 main_cst_47
  let main_v120 : FVec F S4x64 .f32 := addf main_arg20 main_v119
  let main_cst_48 : FVec F S_ .f32 := constant S_ .f32 0x00000000#32
  let main_v121 : FVec F S4x64 .f32 := broadcastInDim S4x64 ![] bcast_S_S4x64 main_cst_48
  let main_v122 : IVec S4x64 1 := cmpf .ogt main_v120 main_v121
  let main_c_49 : IVec S_ 1 := constantI S_ 1 1#1
  let main_v123 : IVec S_ 1 := (fun x v => Host.reduce IntOp.andi x v reducesTo_S4x64_S_d0_1 h_S_) main_v122 main_c_49
  let main_v124 : IVec S_ 1 := andi main_v118 main_v123
  main_v124

def fn_part6 {F : FTy → Type} [FloatOps F] (main_arg11 : FVec F S64 .f32) (main_arg20 : FVec F S4x64 .f32) (main_arg23 : FVec F S64x10 .f32) (main_arg24 : FVec F S10 .f32) (main_v97 : IVec S_ 1) (main_v101 : IVec S_ 1) : IVec S_ 1 :=
  let main_v102 : IVec S_ 1 := andi main_v97 main_v101
  let main_v103 : FVec F S64x10 .f32 := Host.absf main_arg23
  let main_cst_40 : FVec F S_ .f32 := constant S_ .f32 0x7F800000#32
  let main_v104 : FVec F S64x10 .f32 := broadcastInDim S64x10 ![] bcast_S_S64x10 main_cst_40
  let main_v105 : IVec S64x10 1 := cmpf .olt main_v103 main_v104
  let main_c_41 : IVec S_ 1 := constantI S_ 1 1#1
  let main_v106 : IVec S_ 1 := (fun x v => Host.reduce IntOp.andi x v reducesTo_S64x10_S_d0_1 h_S_) main_v105 main_c_41
  let main_v107 : IVec S_ 1 := andi main_v102 main_v106
  let main_v108 : FVec F S10 .f32 := Host.absf main_arg24
  let main_cst_42 : FVec F S_ .f32 := constant S_ .f32 0x7F800000#32
  let main_v109 : FVec F S10 .f32 := broadcastInDim S10 ![] bcast_S_S10 main_cst_42
  let main_v110 : IVec S10 1 := cmpf .olt main_v108 main_v109
  let main_c_43 : IVec S_ 1 := constantI S_ 1 1#1
  let main_v111 : IVec S_ 1 := (fun x v => Host.reduce IntOp.andi x v reducesTo_S10_S_d0 h_S_) main_v110 main_c_43
  let main_v112 : IVec S_ 1 := andi main_v107 main_v111
  let main_cst_44 : FVec F S_ .f32 := constant S_ .f32 0x3727C5AC#32
  let main_v113 : FVec F S64 .f32 := broadcastInDim S64 ![] bcast_S_S64 main_cst_44
  let main_v114 : FVec F S64 .f32 := addf main_arg11 main_v113
  let main_cst_45 : FVec F S_ .f32 := constant S_ .f32 0x00000000#32
  let main_v115 : FVec F S64 .f32 := broadcastInDim S64 ![] bcast_S_S64 main_cst_45
  let main_v116 : IVec S64 1 := cmpf .ogt main_v114 main_v115
  let main_c_46 : IVec S_ 1 := constantI S_ 1 1#1
  let main_v117 : IVec S_ 1 := (fun x v => Host.reduce IntOp.andi x v reducesTo_S64_S_d0 h_S_) main_v116 main_c_46
  let main_v118 : IVec S_ 1 := andi main_v112 main_v117
  fn_part7 (F := F) main_arg20 main_v118

def fn_part5 {F : FTy → Type} [FloatOps F] (main_arg11 : FVec F S64 .f32) (main_arg20 : FVec F S4x64 .f32) (main_arg21 : FVec F S320x64 .f32) (main_arg22 : FVec F S64 .f32) (main_arg23 : FVec F S64x10 .f32) (main_arg24 : FVec F S10 .f32) (main_v82 : IVec S_ 1) (main_v83 : FVec F S4x64 .f32) (main_v84 : FVec F S4x64 .f32) : IVec S_ 1 :=
  let main_v85 : IVec S4x64 1 := cmpf .olt main_v83 main_v84
  let main_c_33 : IVec S_ 1 := constantI S_ 1 1#1
  let main_v86 : IVec S_ 1 := (fun x v => Host.reduce IntOp.andi x v reducesTo_S4x64_S_d0_1 h_S_) main_v85 main_c_33
  let main_v87 : IVec S_ 1 := andi main_v82 main_v86
  let main_v88 : FVec F S4x64 .f32 := Host.absf main_arg20
  let main_cst_34 : FVec F S_ .f32 := constant S_ .f32 0x7F800000#32
  let main_v89 : FVec F S4x64 .f32 := broadcastInDim S4x64 ![] bcast_S_S4x64 main_cst_34
  let main_v90 : IVec S4x64 1 := cmpf .olt main_v88 main_v89
  let main_c_35 : IVec S_ 1 := constantI S_ 1 1#1
  let main_v91 : IVec S_ 1 := (fun x v => Host.reduce IntOp.andi x v reducesTo_S4x64_S_d0_1 h_S_) main_v90 main_c_35
  let main_v92 : IVec S_ 1 := andi main_v87 main_v91
  let main_v93 : FVec F S320x64 .f32 := Host.absf main_arg21
  let main_cst_36 : FVec F S_ .f32 := constant S_ .f32 0x7F800000#32
  let main_v94 : FVec F S320x64 .f32 := broadcastInDim S320x64 ![] bcast_S_S320x64 main_cst_36
  let main_v95 : IVec S320x64 1 := cmpf .olt main_v93 main_v94
  let main_c_37 : IVec S_ 1 := constantI S_ 1 1#1
  let main_v96 : IVec S_ 1 := (fun x v => Host.reduce IntOp.andi x v reducesTo_S320x64_S_d0_1 h_S_) main_v95 main_c_37
  let main_v97 : IVec S_ 1 := andi main_v92 main_v96
  let main_v98 : FVec F S64 .f32 := Host.absf main_arg22
  let main_cst_38 : FVec F S_ .f32 := constant S_ .f32 0x7F800000#32
  let main_v99 : FVec F S64 .f32 := broadcastInDim S64 ![] bcast_S_S64 main_cst_38
  let main_v100 : IVec S64 1 := cmpf .olt main_v98 main_v99
  let main_c_39 : IVec S_ 1 := constantI S_ 1 1#1
  let main_v101 : IVec S_ 1 := (fun x v => Host.reduce IntOp.andi x v reducesTo_S64_S_d0 h_S_) main_v100 main_c_39
  fn_part6 (F := F) main_arg11 main_arg20 main_arg23 main_arg24 main_v97 main_v101

def fn_part4 {F : FTy → Type} [FloatOps F] (main_arg11 : FVec F S64 .f32) (main_arg16 : FVec F S4x64 .f32) (main_arg17 : FVec F S4x64 .f32) (main_arg18 : FVec F S4x64 .f32) (main_arg19 : FVec F S4x64 .f32) (main_arg20 : FVec F S4x64 .f32) (main_arg21 : FVec F S320x64 .f32) (main_arg22 : FVec F S64 .f32) (main_arg23 : FVec F S64x10 .f32) (main_arg24 : FVec F S10 .f32) (main_v67 : IVec S_ 1) : IVec S_ 1 :=
  let main_v68 : FVec F S4x64 .f32 := Host.absf main_arg16
  let main_cst_26 : FVec F S_ .f32 := constant S_ .f32 0x7F800000#32
  let main_v69 : FVec F S4x64 .f32 := broadcastInDim S4x64 ![] bcast_S_S4x64 main_cst_26
  let main_v70 : IVec S4x64 1 := cmpf .olt main_v68 main_v69
  let main_c_27 : IVec S_ 1 := constantI S_ 1 1#1
  let main_v71 : IVec S_ 1 := (fun x v => Host.reduce IntOp.andi x v reducesTo_S4x64_S_d0_1 h_S_) main_v70 main_c_27
  let main_v72 : IVec S_ 1 := andi main_v67 main_v71
  let main_v73 : FVec F S4x64 .f32 := Host.absf main_arg17
  let main_cst_28 : FVec F S_ .f32 := constant S_ .f32 0x7F800000#32
  let main_v74 : FVec F S4x64 .f32 := broadcastInDim S4x64 ![] bcast_S_S4x64 main_cst_28
  let main_v75 : IVec S4x64 1 := cmpf .olt main_v73 main_v74
  let main_c_29 : IVec S_ 1 := constantI S_ 1 1#1
  let main_v76 : IVec S_ 1 := (fun x v => Host.reduce IntOp.andi x v reducesTo_S4x64_S_d0_1 h_S_) main_v75 main_c_29
  let main_v77 : IVec S_ 1 := andi main_v72 main_v76
  let main_v78 : FVec F S4x64 .f32 := Host.absf main_arg18
  let main_cst_30 : FVec F S_ .f32 := constant S_ .f32 0x7F800000#32
  let main_v79 : FVec F S4x64 .f32 := broadcastInDim S4x64 ![] bcast_S_S4x64 main_cst_30
  let main_v80 : IVec S4x64 1 := cmpf .olt main_v78 main_v79
  let main_c_31 : IVec S_ 1 := constantI S_ 1 1#1
  let main_v81 : IVec S_ 1 := (fun x v => Host.reduce IntOp.andi x v reducesTo_S4x64_S_d0_1 h_S_) main_v80 main_c_31
  let main_v82 : IVec S_ 1 := andi main_v77 main_v81
  let main_v83 : FVec F S4x64 .f32 := Host.absf main_arg19
  let main_cst_32 : FVec F S_ .f32 := constant S_ .f32 0x7F800000#32
  let main_v84 : FVec F S4x64 .f32 := broadcastInDim S4x64 ![] bcast_S_S4x64 main_cst_32
  fn_part5 (F := F) main_arg11 main_arg20 main_arg21 main_arg22 main_arg23 main_arg24 main_v82 main_v83 main_v84

def fn_part3 {F : FTy → Type} [FloatOps F] (main_arg11 : FVec F S64 .f32) (main_arg13 : FVec F S4x64x64 .f32) (main_arg14 : FVec F S4x64 .f32) (main_arg15 : FVec F S4x64x64 .f32) (main_arg16 : FVec F S4x64 .f32) (main_arg17 : FVec F S4x64 .f32) (main_arg18 : FVec F S4x64 .f32) (main_arg19 : FVec F S4x64 .f32) (main_arg20 : FVec F S4x64 .f32) (main_arg21 : FVec F S320x64 .f32) (main_arg22 : FVec F S64 .f32) (main_arg23 : FVec F S64x10 .f32) (main_arg24 : FVec F S10 .f32) (main_v47 : IVec S_ 1) (main_v50 : IVec S4 1) : IVec S_ 1 :=
  let main_c_19 : IVec S_ 1 := constantI S_ 1 1#1
  let main_v51 : IVec S_ 1 := (fun x v => Host.reduce IntOp.andi x v reducesTo_S4_S_d0 h_S_) main_v50 main_c_19
  let main_v52 : IVec S_ 1 := andi main_v47 main_v51
  let main_v53 : FVec F S4x64x64 .f32 := Host.absf main_arg13
  let main_cst_20 : FVec F S_ .f32 := constant S_ .f32 0x7F800000#32
  let main_v54 : FVec F S4x64x64 .f32 := broadcastInDim S4x64x64 ![] bcast_S_S4x64x64 main_cst_20
  let main_v55 : IVec S4x64x64 1 := cmpf .olt main_v53 main_v54
  let main_c_21 : IVec S_ 1 := constantI S_ 1 1#1
  let main_v56 : IVec S_ 1 := (fun x v => Host.reduce IntOp.andi x v reducesTo_S4x64x64_S_d0_1_2 h_S_) main_v55 main_c_21
  let main_v57 : IVec S_ 1 := andi main_v52 main_v56
  let main_v58 : FVec F S4x64 .f32 := Host.absf main_arg14
  let main_cst_22 : FVec F S_ .f32 := constant S_ .f32 0x7F800000#32
  let main_v59 : FVec F S4x64 .f32 := broadcastInDim S4x64 ![] bcast_S_S4x64 main_cst_22
  let main_v60 : IVec S4x64 1 := cmpf .olt main_v58 main_v59
  let main_c_23 : IVec S_ 1 := constantI S_ 1 1#1
  let main_v61 : IVec S_ 1 := (fun x v => Host.reduce IntOp.andi x v reducesTo_S4x64_S_d0_1 h_S_) main_v60 main_c_23
  let main_v62 : IVec S_ 1 := andi main_v57 main_v61
  let main_v63 : FVec F S4x64x64 .f32 := Host.absf main_arg15
  let main_cst_24 : FVec F S_ .f32 := constant S_ .f32 0x7F800000#32
  let main_v64 : FVec F S4x64x64 .f32 := broadcastInDim S4x64x64 ![] bcast_S_S4x64x64 main_cst_24
  let main_v65 : IVec S4x64x64 1 := cmpf .olt main_v63 main_v64
  let main_c_25 : IVec S_ 1 := constantI S_ 1 1#1
  let main_v66 : IVec S_ 1 := (fun x v => Host.reduce IntOp.andi x v reducesTo_S4x64x64_S_d0_1_2 h_S_) main_v65 main_c_25
  let main_v67 : IVec S_ 1 := andi main_v62 main_v66
  fn_part4 (F := F) main_arg11 main_arg16 main_arg17 main_arg18 main_arg19 main_arg20 main_arg21 main_arg22 main_arg23 main_arg24 main_v67

def fn_part2 {F : FTy → Type} [FloatOps F] (main_arg10 : FVec F S64 .f32) (main_arg11 : FVec F S64 .f32) (main_arg12 : FVec F S4 .f32) (main_arg13 : FVec F S4x64x64 .f32) (main_arg14 : FVec F S4x64 .f32) (main_arg15 : FVec F S4x64x64 .f32) (main_arg16 : FVec F S4x64 .f32) (main_arg17 : FVec F S4x64 .f32) (main_arg18 : FVec F S4x64 .f32) (main_arg19 : FVec F S4x64 .f32) (main_arg20 : FVec F S4x64 .f32) (main_arg21 : FVec F S320x64 .f32) (main_arg22 : FVec F S64 .f32) (main_arg23 : FVec F S64x10 .f32) (main_arg24 : FVec F S10 .f32) (main_v32 : IVec S_ 1) (main_v33 : FVec F S64 .f32) : IVec S_ 1 :=
  let main_cst_12 : FVec F S_ .f32 := constant S_ .f32 0x7F800000#32
  let main_v34 : FVec F S64 .f32 := broadcastInDim S64 ![] bcast_S_S64 main_cst_12
  let main_v35 : IVec S64 1 := cmpf .olt main_v33 main_v34
  let main_c_13 : IVec S_ 1 := constantI S_ 1 1#1
  let main_v36 : IVec S_ 1 := (fun x v => Host.reduce IntOp.andi x v reducesTo_S64_S_d0 h_S_) main_v35 main_c_13
  let main_v37 : IVec S_ 1 := andi main_v32 main_v36
  let main_v38 : FVec F S64 .f32 := Host.absf main_arg10
  let main_cst_14 : FVec F S_ .f32 := constant S_ .f32 0x7F800000#32
  let main_v39 : FVec F S64 .f32 := broadcastInDim S64 ![] bcast_S_S64 main_cst_14
  let main_v40 : IVec S64 1 := cmpf .olt main_v38 main_v39
  let main_c_15 : IVec S_ 1 := constantI S_ 1 1#1
  let main_v41 : IVec S_ 1 := (fun x v => Host.reduce IntOp.andi x v reducesTo_S64_S_d0 h_S_) main_v40 main_c_15
  let main_v42 : IVec S_ 1 := andi main_v37 main_v41
  let main_v43 : FVec F S64 .f32 := Host.absf main_arg11
  let main_cst_16 : FVec F S_ .f32 := constant S_ .f32 0x7F800000#32
  let main_v44 : FVec F S64 .f32 := broadcastInDim S64 ![] bcast_S_S64 main_cst_16
  let main_v45 : IVec S64 1 := cmpf .olt main_v43 main_v44
  let main_c_17 : IVec S_ 1 := constantI S_ 1 1#1
  let main_v46 : IVec S_ 1 := (fun x v => Host.reduce IntOp.andi x v reducesTo_S64_S_d0 h_S_) main_v45 main_c_17
  let main_v47 : IVec S_ 1 := andi main_v42 main_v46
  let main_v48 : FVec F S4 .f32 := Host.absf main_arg12
  let main_cst_18 : FVec F S_ .f32 := constant S_ .f32 0x7F800000#32
  let main_v49 : FVec F S4 .f32 := broadcastInDim S4 ![] bcast_S_S4 main_cst_18
  let main_v50 : IVec S4 1 := cmpf .olt main_v48 main_v49
  fn_part3 (F := F) main_arg11 main_arg13 main_arg14 main_arg15 main_arg16 main_arg17 main_arg18 main_arg19 main_arg20 main_arg21 main_arg22 main_arg23 main_arg24 main_v47 main_v50

def fn_part1 {F : FTy → Type} [FloatOps F] (main_arg6 : FVec F S64x64 .f32) (main_arg7 : FVec F S64 .f32) (main_arg8 : FVec F S64 .f32) (main_arg9 : FVec F S64 .f32) (main_arg10 : FVec F S64 .f32) (main_arg11 : FVec F S64 .f32) (main_arg12 : FVec F S4 .f32) (main_arg13 : FVec F S4x64x64 .f32) (main_arg14 : FVec F S4x64 .f32) (main_arg15 : FVec F S4x64x64 .f32) (main_arg16 : FVec F S4x64 .f32) (main_arg17 : FVec F S4x64 .f32) (main_arg18 : FVec F S4x64 .f32) (main_arg19 : FVec F S4x64 .f32) (main_arg20 : FVec F S4x64 .f32) (main_arg21 : FVec F S320x64 .f32) (main_arg22 : FVec F S64 .f32) (main_arg23 : FVec F S64x10 .f32) (main_arg24 : FVec F S10 .f32) (main_v12 : IVec S_ 1) (main_v15 : IVec S64 1) (main_c_5 : IVec S_ 1) : IVec S_ 1 :=
  let main_v16 : IVec S_ 1 := (fun x v => Host.reduce IntOp.andi x v reducesTo_S64_S_d0 h_S_) main_v15 main_c_5
  let main_v17 : IVec S_ 1 := andi main_v12 main_v16
  let main_v18 : FVec F S64x64 .f32 := Host.absf main_arg6
  let main_cst_6 : FVec F S_ .f32 := constant S_ .f32 0x7F800000#32
  let main_v19 : FVec F S64x64 .f32 := broadcastInDim S64x64 ![] bcast_S_S64x64 main_cst_6
  let main_v20 : IVec S64x64 1 := cmpf .olt main_v18 main_v19
  let main_c_7 : IVec S_ 1 := constantI S_ 1 1#1
  let main_v21 : IVec S_ 1 := (fun x v => Host.reduce IntOp.andi x v reducesTo_S64x64_S_d0_1 h_S_) main_v20 main_c_7
  let main_v22 : IVec S_ 1 := andi main_v17 main_v21
  let main_v23 : FVec F S64 .f32 := Host.absf main_arg7
  let main_cst_8 : FVec F S_ .f32 := constant S_ .f32 0x7F800000#32
  let main_v24 : FVec F S64 .f32 := broadcastInDim S64 ![] bcast_S_S64 main_cst_8
  let main_v25 : IVec S64 1 := cmpf .olt main_v23 main_v24
  let main_c_9 : IVec S_ 1 := constantI S_ 1 1#1
  let main_v26 : IVec S_ 1 := (fun x v => Host.reduce IntOp.andi x v reducesTo_S64_S_d0 h_S_) main_v25 main_c_9
  let main_v27 : IVec S_ 1 := andi main_v22 main_v26
  let main_v28 : FVec F S64 .f32 := Host.absf main_arg8
  let main_cst_10 : FVec F S_ .f32 := constant S_ .f32 0x7F800000#32
  let main_v29 : FVec F S64 .f32 := broadcastInDim S64 ![] bcast_S_S64 main_cst_10
  let main_v30 : IVec S64 1 := cmpf .olt main_v28 main_v29
  let main_c_11 : IVec S_ 1 := constantI S_ 1 1#1
  let main_v31 : IVec S_ 1 := (fun x v => Host.reduce IntOp.andi x v reducesTo_S64_S_d0 h_S_) main_v30 main_c_11
  let main_v32 : IVec S_ 1 := andi main_v27 main_v31
  let main_v33 : FVec F S64 .f32 := Host.absf main_arg9
  fn_part2 (F := F) main_arg10 main_arg11 main_arg12 main_arg13 main_arg14 main_arg15 main_arg16 main_arg17 main_arg18 main_arg19 main_arg20 main_arg21 main_arg22 main_arg23 main_arg24 main_v32 main_v33

def fn {F : FTy → Type} [FloatOps F] (main_arg0 : FVec F S50000x128 .f32) (main_arg1 : IVec S2x800000 32) (main_arg2 : IVec S50000 32) (main_arg3 : FVec F S_ .f32) (main_arg4 : FVec F S128x64 .f32) (main_arg5 : FVec F S64 .f32) (main_arg6 : FVec F S64x64 .f32) (main_arg7 : FVec F S64 .f32) (main_arg8 : FVec F S64 .f32) (main_arg9 : FVec F S64 .f32) (main_arg10 : FVec F S64 .f32) (main_arg11 : FVec F S64 .f32) (main_arg12 : FVec F S4 .f32) (main_arg13 : FVec F S4x64x64 .f32) (main_arg14 : FVec F S4x64 .f32) (main_arg15 : FVec F S4x64x64 .f32) (main_arg16 : FVec F S4x64 .f32) (main_arg17 : FVec F S4x64 .f32) (main_arg18 : FVec F S4x64 .f32) (main_arg19 : FVec F S4x64 .f32) (main_arg20 : FVec F S4x64 .f32) (main_arg21 : FVec F S320x64 .f32) (main_arg22 : FVec F S64 .f32) (main_arg23 : FVec F S64x10 .f32) (main_arg24 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S_ .f32 := Host.absf main_arg3
  let main_cst_0 : FVec F S_ .f32 := constant S_ .f32 0x7F800000#32
  let main_v5 : IVec S_ 1 := cmpf .olt main_v4 main_cst_0
  let main_c_1 : IVec S_ 1 := constantI S_ 1 1#1
  let main_v6 : IVec S_ 1 := (fun x v => Host.reduce IntOp.andi x v reducesTo_S_S_d h_S_) main_v5 main_c_1
  let main_v7 : IVec S_ 1 := andi main_v3 main_v6
  let main_v8 : FVec F S128x64 .f32 := Host.absf main_arg4
  let main_cst_2 : FVec F S_ .f32 := constant S_ .f32 0x7F800000#32
  let main_v9 : FVec F S128x64 .f32 := broadcastInDim S128x64 ![] bcast_S_S128x64 main_cst_2
  let main_v10 : IVec S128x64 1 := cmpf .olt main_v8 main_v9
  let main_c_3 : IVec S_ 1 := constantI S_ 1 1#1
  let main_v11 : IVec S_ 1 := (fun x v => Host.reduce IntOp.andi x v reducesTo_S128x64_S_d0_1 h_S_) main_v10 main_c_3
  let main_v12 : IVec S_ 1 := andi main_v7 main_v11
  let main_v13 : FVec F S64 .f32 := Host.absf main_arg5
  let main_cst_4 : FVec F S_ .f32 := constant S_ .f32 0x7F800000#32
  let main_v14 : FVec F S64 .f32 := broadcastInDim S64 ![] bcast_S_S64 main_cst_4
  let main_v15 : IVec S64 1 := cmpf .olt main_v13 main_v14
  let main_c_5 : IVec S_ 1 := constantI S_ 1 1#1
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_v12 main_v15 main_c_5
-- ==== Kernel.lean ====
abbrev S50000x128 : Shape := ⟨2, ![50000, 128]⟩
abbrev S2x800000 : Shape := ⟨2, ![2, 800000]⟩
abbrev S50000 : Shape := ⟨1, ![50000]⟩
abbrev S_ : Shape := ⟨0, ![]⟩
abbrev S128x64 : Shape := ⟨2, ![128, 64]⟩
abbrev S64 : Shape := ⟨1, ![64]⟩
abbrev S64x64 : Shape := ⟨2, ![64, 64]⟩
abbrev S4 : Shape := ⟨1, ![4]⟩
abbrev S4x64x64 : Shape := ⟨3, ![4, 64, 64]⟩
abbrev S4x64 : Shape := ⟨2, ![4, 64]⟩
abbrev S320x64 : Shape := ⟨2, ![320, 64]⟩
abbrev S64x10 : Shape := ⟨2, ![64, 10]⟩
abbrev S10 : Shape := ⟨1, ![10]⟩
abbrev S1x800000 : Shape := ⟨2, ![1, 800000]⟩
abbrev S800000 : Shape := ⟨1, ![800000]⟩
abbrev S800000x1 : Shape := ⟨2, ![800000, 1]⟩
abbrev S800000x128 : Shape := ⟨2, ![800000, 128]⟩
abbrev S50000x64 : Shape := ⟨2, ![50000, 64]⟩
abbrev S5000x128 : Shape := ⟨2, ![5000, 128]⟩
abbrev S5000x64 : Shape := ⟨2, ![5000, 64]⟩
abbrev S1x64 : Shape := ⟨2, ![1, 64]⟩
abbrev S1 : Shape := ⟨1, ![1]⟩
abbrev S1x64x64 : Shape := ⟨3, ![1, 64, 64]⟩
abbrev S800000x64 : Shape := ⟨2, ![800000, 64]⟩
abbrev S50000x320 : Shape := ⟨2, ![50000, 320]⟩
abbrev S512x320 : Shape := ⟨2, ![512, 320]⟩
abbrev S50000x1 : Shape := ⟨2, ![50000, 1]⟩
abbrev S512 : Shape := ⟨1, ![512]⟩
abbrev S512x1 : Shape := ⟨2, ![512, 1]⟩
abbrev S512x10 : Shape := ⟨2, ![512, 10]⟩
abbrev S512x64 : Shape := ⟨2, ![512, 64]⟩
abbrev S1x10 : Shape := ⟨2, ![1, 10]⟩

abbrev nBuf : Space → Nat
  | .hbm => 226
  | .vmem => 66
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S_, .f32⟩
  | 4 => ⟨S128x64, .f32⟩
  | 5 => ⟨S64, .f32⟩
  | 6 => ⟨S64x64, .f32⟩
  | 7 => ⟨S64, .f32⟩
  | 8 => ⟨S64, .f32⟩
  | 9 => ⟨S64, .f32⟩
  | 10 => ⟨S64, .f32⟩
  | 11 => ⟨S64, .f32⟩
  | 12 => ⟨S4, .f32⟩
  | 13 => ⟨S4x64x64, .f32⟩
  | 14 => ⟨S4x64, .f32⟩
  | 15 => ⟨S4x64x64, .f32⟩
  | 16 => ⟨S4x64, .f32⟩
  | 17 => ⟨S4x64, .f32⟩
  | 18 => ⟨S4x64, .f32⟩
  | 19 => ⟨S4x64, .f32⟩
  | 20 => ⟨S4x64, .f32⟩
  | 21 => ⟨S320x64, .f32⟩
  | 22 => ⟨S64, .f32⟩
  | 23 => ⟨S64x10, .f32⟩
  | 24 => ⟨S10, .f32⟩
  | 25 => ⟨S1x800000, .i32⟩
  | 26 => ⟨S800000, .i32⟩
  | 27 => ⟨S1x800000, .i32⟩
  | 28 => ⟨S800000, .i32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000x128, .f32⟩
  | 38 => ⟨S_, .f32⟩
  | 39 => ⟨S50000x128, .f32⟩
  | 40 => ⟨S800000x1, .i32⟩
  | 41 => ⟨S50000x128, .f32⟩
  | 42 => ⟨S_, .f32⟩
  | 43 => ⟨S_, .f32⟩
  | 44 => ⟨S50000x128, .f32⟩
  | 45 => ⟨S50000x128, .f32⟩
  | 46 => ⟨S50000x128, .f32⟩
  | 47 => ⟨S128x64, .bf16⟩
  | 48 => ⟨S64x64, .bf16⟩
  | 49 => ⟨S50000x64, .f32⟩
  | 50 => ⟨S1, .f32⟩
  | 51 => ⟨S_, .f32⟩
  | 52 => ⟨S1x64x64, .f32⟩
  | 53 => ⟨S64x64, .f32⟩
  | 54 => ⟨S1x64, .f32⟩
  | 55 => ⟨S64, .f32⟩
  | 56 => ⟨S1x64x64, .f32⟩
  | 57 => ⟨S64x64, .f32⟩
  | 58 => ⟨S1x64, .f32⟩
  | 59 => ⟨S64, .f32⟩
  | 60 => ⟨S1x64, .f32⟩
  | 61 => ⟨S64, .f32⟩
  | 62 => ⟨S1x64, .f32⟩
  | 63 => ⟨S64, .f32⟩
  | 64 => ⟨S1x64, .f32⟩
  | 65 => ⟨S64, .f32⟩
  | 66 => ⟨S1x64, .f32⟩
  | 67 => ⟨S64, .f32⟩
  | 68 => ⟨S_, .i32⟩
  | 69 => ⟨S800000, .i32⟩
  | 70 => ⟨S800000, .i1⟩
  | 71 => ⟨S_, .i32⟩
  | 72 => ⟨S800000, .i32⟩
  | 73 => ⟨S800000, .i32⟩
  | 74 => ⟨S800000, .i32⟩
  | 75 => ⟨S800000x1, .i32⟩
  | 76 => ⟨S800000x64, .f32⟩
  | 77 => ⟨S_, .f32⟩
  | 78 => ⟨S50000x64, .f32⟩
  | 79 => ⟨S800000x1, .i32⟩
  | 80 => ⟨S50000x64, .f32⟩
  | 81 => ⟨S_, .f32⟩
  | 82 => ⟨S_, .f32⟩
  | 83 => ⟨S50000x64, .f32⟩
  | 84 => ⟨S50000x64, .f32⟩
  | 85 => ⟨S50000x64, .f32⟩
  | 86 => ⟨S64x64, .bf16⟩
  | 87 => ⟨S64x64, .bf16⟩
  | 88 => ⟨S50000x64, .f32⟩
  | 89 => ⟨S1, .f32⟩
  | 90 => ⟨S_, .f32⟩
  | 91 => ⟨S1x64x64, .f32⟩
  | 92 => ⟨S64x64, .f32⟩
  | 93 => ⟨S1x64, .f32⟩
  | 94 => ⟨S64, .f32⟩
  | 95 => ⟨S1x64x64, .f32⟩
  | 96 => ⟨S64x64, .f32⟩
  | 97 => ⟨S1x64, .f32⟩
  | 98 => ⟨S64, .f32⟩
  | 99 => ⟨S1x64, .f32⟩
  | 100 => ⟨S64, .f32⟩
  | 101 => ⟨S1x64, .f32⟩
  | 102 => ⟨S64, .f32⟩
  | 103 => ⟨S1x64, .f32⟩
  | 104 => ⟨S64, .f32⟩
  | 105 => ⟨S1x64, .f32⟩
  | 106 => ⟨S64, .f32⟩
  | 107 => ⟨S_, .i32⟩
  | 108 => ⟨S800000, .i32⟩
  | 109 => ⟨S800000, .i1⟩
  | 110 => ⟨S_, .i32⟩
  | 111 => ⟨S800000, .i32⟩
  | 112 => ⟨S800000, .i32⟩
  | 113 => ⟨S800000, .i32⟩
  | 114 => ⟨S800000x1, .i32⟩
  | 115 => ⟨S800000x64, .f32⟩
  | 116 => ⟨S_, .f32⟩
  | 117 => ⟨S50000x64, .f32⟩
  | 118 => ⟨S800000x1, .i32⟩
  | 119 => ⟨S50000x64, .f32⟩
  | 120 => ⟨S_, .f32⟩
  | 121 => ⟨S_, .f32⟩
  | 122 => ⟨S50000x64, .f32⟩
  | 123 => ⟨S50000x64, .f32⟩
  | 124 => ⟨S50000x64, .f32⟩
  | 125 => ⟨S64x64, .bf16⟩
  | 126 => ⟨S64x64, .bf16⟩
  | 127 => ⟨S50000x64, .f32⟩
  | _ => ⟨S50000x128, .f32⟩

abbrev hbmTy0_1 (i : Nat) : BufTy := match i % 128 with
  | 0 => ⟨S1, .f32⟩
  | 1 => ⟨S_, .f32⟩
  | 2 => ⟨S1x64x64, .f32⟩
  | 3 => ⟨S64x64, .f32⟩
  | 4 => ⟨S1x64, .f32⟩
  | 5 => ⟨S64, .f32⟩
  | 6 => ⟨S1x64x64, .f32⟩
  | 7 => ⟨S64x64, .f32⟩
  | 8 => ⟨S1x64, .f32⟩
  | 9 => ⟨S64, .f32⟩
  | 10 => ⟨S1x64, .f32⟩
  | 11 => ⟨S64, .f32⟩
  | 12 => ⟨S1x64, .f32⟩
  | 13 => ⟨S64, .f32⟩
  | 14 => ⟨S1x64, .f32⟩
  | 15 => ⟨S64, .f32⟩
  | 16 => ⟨S1x64, .f32⟩
  | 17 => ⟨S64, .f32⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S800000x64, .f32⟩
  | 27 => ⟨S_, .f32⟩
  | 28 => ⟨S50000x64, .f32⟩
  | 29 => ⟨S800000x1, .i32⟩
  | 30 => ⟨S50000x64, .f32⟩
  | 31 => ⟨S_, .f32⟩
  | 32 => ⟨S_, .f32⟩
  | 33 => ⟨S50000x64, .f32⟩
  | 34 => ⟨S50000x64, .f32⟩
  | 35 => ⟨S50000x64, .f32⟩
  | 36 => ⟨S64x64, .bf16⟩
  | 37 => ⟨S64x64, .bf16⟩
  | 38 => ⟨S50000x64, .f32⟩
  | 39 => ⟨S1, .f32⟩
  | 40 => ⟨S_, .f32⟩
  | 41 => ⟨S1x64x64, .f32⟩
  | 42 => ⟨S64x64, .f32⟩
  | 43 => ⟨S1x64, .f32⟩
  | 44 => ⟨S64, .f32⟩
  | 45 => ⟨S1x64x64, .f32⟩
  | 46 => ⟨S64x64, .f32⟩
  | 47 => ⟨S1x64, .f32⟩
  | 48 => ⟨S64, .f32⟩
  | 49 => ⟨S1x64, .f32⟩
  | 50 => ⟨S64, .f32⟩
  | 51 => ⟨S1x64, .f32⟩
  | 52 => ⟨S64, .f32⟩
  | 53 => ⟨S1x64, .f32⟩
  | 54 => ⟨S64, .f32⟩
  | 55 => ⟨S1x64, .f32⟩
  | 56 => ⟨S64, .f32⟩
  | 57 => ⟨S_, .i32⟩
  | 58 => ⟨S800000, .i32⟩
  | 59 => ⟨S800000, .i1⟩
  | 60 => ⟨S_, .i32⟩
  | 61 => ⟨S800000, .i32⟩
  | 62 => ⟨S800000, .i32⟩
  | 63 => ⟨S800000, .i32⟩
  | 64 => ⟨S800000x1, .i32⟩
  | 65 => ⟨S800000x64, .f32⟩
  | 66 => ⟨S_, .f32⟩
  | 67 => ⟨S50000x64, .f32⟩
  | 68 => ⟨S800000x1, .i32⟩
  | 69 => ⟨S50000x64, .f32⟩
  | 70 => ⟨S_, .f32⟩
  | 71 => ⟨S_, .f32⟩
  | 72 => ⟨S50000x64, .f32⟩
  | 73 => ⟨S50000x64, .f32⟩
  | 74 => ⟨S50000x64, .f32⟩
  | 75 => ⟨S64x64, .bf16⟩
  | 76 => ⟨S64x64, .bf16⟩
  | 77 => ⟨S50000x64, .f32⟩
  | 78 => ⟨S50000x320, .f32⟩
  | 79 => ⟨S_, .f32⟩
  | 80 => ⟨S512x320, .f32⟩
  | 81 => ⟨S50000x1, .i32⟩
  | 82 => ⟨S512x320, .f32⟩
  | 83 => ⟨S_, .f32⟩
  | 84 => ⟨S50000, .f32⟩
  | 85 => ⟨S_, .f32⟩
  | 86 => ⟨S512, .f32⟩
  | 87 => ⟨S50000x1, .i32⟩
  | 88 => ⟨S512, .f32⟩
  | 89 => ⟨S_, .f32⟩
  | 90 => ⟨S512, .f32⟩
  | 91 => ⟨S512, .f32⟩
  | 92 => ⟨S512x1, .f32⟩
  | 93 => ⟨S512x320, .f32⟩
  | 94 => ⟨S512x320, .f32⟩
  | 95 => ⟨S320x64, .bf16⟩
  | 96 => ⟨S64x10, .bf16⟩
  | 97 => ⟨S512x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x64, .bf16⟩
  | .local _ .vmem, ⟨3, _⟩ => ⟨S64, .f32⟩
  | .local _ .vmem, ⟨4, _⟩ => ⟨S64x64, .bf16⟩
  | .local _ .vmem, ⟨5, _⟩ => ⟨S64, .f32⟩
  | .local _ .vmem, ⟨6, _⟩ => ⟨S64, .f32⟩
  | .local _ .vmem, ⟨7, _⟩ => ⟨S64, .f32⟩
  | .local _ .vmem, ⟨8, _⟩ => ⟨S64, .f32⟩
  | .local _ .vmem, ⟨9, _⟩ => ⟨S64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S64x64, .bf16⟩
  | .local _ .vmem, ⟨15, _⟩ => ⟨S64, .f32⟩
  | .local _ .vmem, ⟨16, _⟩ => ⟨S64x64, .bf16⟩
  | .local _ .vmem, ⟨17, _⟩ => ⟨S64, .f32⟩
  | .local _ .vmem, ⟨18, _⟩ => ⟨S64, .f32⟩
  | .local _ .vmem, ⟨19, _⟩ => ⟨S64, .f32⟩
  | .local _ .vmem, ⟨20, _⟩ => ⟨S64, .f32⟩
  | .local _ .vmem, ⟨21, _⟩ => ⟨S64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S64x64, .bf16⟩
  | .local _ .vmem, ⟨27, _⟩ => ⟨S64, .f32⟩
  | .local _ .vmem, ⟨28, _⟩ => ⟨S64x64, .bf16⟩
  | .local _ .vmem, ⟨29, _⟩ => ⟨S64, .f32⟩
  | .local _ .vmem, ⟨30, _⟩ => ⟨S64, .f32⟩
  | .local _ .vmem, ⟨31, _⟩ => ⟨S64, .f32⟩
  | .local _ .vmem, ⟨32, _⟩ => ⟨S64, .f32⟩
  | .local _ .vmem, ⟨33, _⟩ => ⟨S64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x64, .f32⟩
  | .local _ .vmem, ⟨38, _⟩ => ⟨S64x64, .bf16⟩
  | .local _ .vmem, ⟨39, _⟩ => ⟨S64, .f32⟩
  | .local _ .vmem, ⟨40, _⟩ => ⟨S64x64, .bf16⟩
  | .local _ .vmem, ⟨41, _⟩ => ⟨S64, .f32⟩
  | .local _ .vmem, ⟨42, _⟩ => ⟨S64, .f32⟩
  | .local _ .vmem, ⟨43, _⟩ => ⟨S64, .f32⟩
  | .local _ .vmem, ⟨44, _⟩ => ⟨S64, .f32⟩
  | .local _ .vmem, ⟨45, _⟩ => ⟨S64, .f32⟩
  | .local _ .vmem, ⟨46, _⟩ => ⟨S5000x64, .f32⟩
  | .local _ .vmem, ⟨47, _⟩ => ⟨S5000x64, .f32⟩
  | .local _ .vmem, ⟨48, _⟩ => ⟨S5000x64, .f32⟩
  | .local _ .vmem, ⟨49, _⟩ => ⟨S5000x64, .f32⟩
  | .local _ .vmem, ⟨50, _⟩ => ⟨S64x64, .bf16⟩
  | .local _ .vmem, ⟨51, _⟩ => ⟨S64, .f32⟩
  | .local _ .vmem, ⟨52, _⟩ => ⟨S64x64, .bf16⟩
  | .local _ .vmem, ⟨53, _⟩ => ⟨S64, .f32⟩
  | .local _ .vmem, ⟨54, _⟩ => ⟨S64, .f32⟩
  | .local _ .vmem, ⟨55, _⟩ => ⟨S64, .f32⟩
  | .local _ .vmem, ⟨56, _⟩ => ⟨S64, .f32⟩
  | .local _ .vmem, ⟨57, _⟩ => ⟨S64, .f32⟩
  | .local _ .vmem, ⟨58, _⟩ => ⟨S5000x64, .f32⟩
  | .local _ .vmem, ⟨59, _⟩ => ⟨S5000x64, .f32⟩
  | .local _ .vmem, ⟨60, _⟩ => ⟨S512x320, .f32⟩
  | .local _ .vmem, ⟨61, _⟩ => ⟨S320x64, .bf16⟩
  | .local _ .vmem, ⟨62, _⟩ => ⟨S64, .f32⟩
  | .local _ .vmem, ⟨63, _⟩ => ⟨S64x10, .bf16⟩
  | .local _ .vmem, ⟨64, _⟩ => ⟨S10, .f32⟩
  | .local _ .vmem, ⟨65, _⟩ => ⟨S512x10, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_c : Ref sig .tc := ⟨.hbm, 29, rfl⟩
abbrev main_v4 : Ref sig .tc := ⟨.hbm, 30, rfl⟩
abbrev main_v5 : Ref sig .tc := ⟨.hbm, 31, rfl⟩
abbrev main_c_0 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_cst : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_cst_1 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_c_2 : Ref sig .tc := ⟨.hbm, 68, rfl⟩
abbrev main_v39 : Ref sig .tc := ⟨.hbm, 69, rfl⟩
abbrev main_v40 : Ref sig .tc := ⟨.hbm, 70, rfl⟩
abbrev main_c_3 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_cst_4 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_cst_5 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_c_6 : Ref sig .tc := ⟨.hbm, 107, rfl⟩
abbrev main_v74 : Ref sig .tc := ⟨.hbm, 108, rfl⟩
abbrev main_v75 : Ref sig .tc := ⟨.hbm, 109, rfl⟩
abbrev main_c_7 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_cst_8 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_cst_9 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_c_10 : Ref sig .tc := ⟨.hbm, 146, rfl⟩
abbrev main_v109 : Ref sig .tc := ⟨.hbm, 147, rfl⟩
abbrev main_v110 : Ref sig .tc := ⟨.hbm, 148, rfl⟩
abbrev main_c_11 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_cst_12 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_cst_13 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_c_14 : Ref sig .tc := ⟨.hbm, 185, rfl⟩
abbrev main_v144 : Ref sig .tc := ⟨.hbm, 186, rfl⟩
abbrev main_v145 : Ref sig .tc := ⟨.hbm, 187, rfl⟩
abbrev main_c_15 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_cst_16 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_cst_17 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_cst_18 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_cst_19 : Ref sig .tc := ⟨.hbm, 211, rfl⟩
abbrev main_v165 : Ref sig .tc := ⟨.hbm, 212, rfl⟩
abbrev main_cst_20 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_cst_21 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_v174 : Ref sig .tc := ⟨.hbm, 223, rfl⟩
abbrev main_v175 : Ref sig .tc := ⟨.hbm, 224, rfl⟩
abbrev main_v176 : Ref sig .tc := ⟨.hbm, 225, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg9_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg7_0 : Ref sig .tc := ⟨.vmem, 32, rfl⟩
abbrev cc2_stg8_0 : Ref sig .tc := ⟨.vmem, 33, rfl⟩
abbrev cc2_stg9_0 : Ref sig .tc := ⟨.vmem, 34, rfl⟩
abbrev cc2_stg9_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg2_0 : Ref sig .tc := ⟨.vmem, 39, rfl⟩
abbrev cc3_stg3_0 : Ref sig .tc := ⟨.vmem, 40, rfl⟩
abbrev cc3_stg4_0 : Ref sig .tc := ⟨.vmem, 41, rfl⟩
abbrev cc3_stg5_0 : Ref sig .tc := ⟨.vmem, 42, rfl⟩
abbrev cc3_stg6_0 : Ref sig .tc := ⟨.vmem, 43, rfl⟩
abbrev cc3_stg7_0 : Ref sig .tc := ⟨.vmem, 44, rfl⟩
abbrev cc3_stg8_0 : Ref sig .tc := ⟨.vmem, 45, rfl⟩
abbrev cc3_stg9_0 : Ref sig .tc := ⟨.vmem, 46, rfl⟩
abbrev cc3_stg9_1 : Ref sig .tc := ⟨.vmem, 47, rfl⟩
abbrev cc4_stg0_0 : Ref sig .tc := ⟨.vmem, 48, rfl⟩
abbrev cc4_stg0_1 : Ref sig .tc := ⟨.vmem, 49, rfl⟩
abbrev cc4_stg1_0 : Ref sig .tc := ⟨.vmem, 50, rfl⟩
abbrev cc4_stg2_0 : Ref sig .tc := ⟨.vmem, 51, rfl⟩
abbrev cc4_stg3_0 : Ref sig .tc := ⟨.vmem, 52, rfl⟩
abbrev cc4_stg4_0 : Ref sig .tc := ⟨.vmem, 53, rfl⟩
abbrev cc4_stg5_0 : Ref sig .tc := ⟨.vmem, 54, rfl⟩
abbrev cc4_stg6_0 : Ref sig .tc := ⟨.vmem, 55, rfl⟩
abbrev cc4_stg7_0 : Ref sig .tc := ⟨.vmem, 56, rfl⟩
abbrev cc4_stg8_0 : Ref sig .tc := ⟨.vmem, 57, rfl⟩
abbrev cc4_stg9_0 : Ref sig .tc := ⟨.vmem, 58, rfl⟩
abbrev cc4_stg9_1 : Ref sig .tc := ⟨.vmem, 59, rfl⟩
abbrev cc5_stg0_0 : Ref sig .tc := ⟨.vmem, 60, rfl⟩
abbrev cc5_stg1_0 : Ref sig .tc := ⟨.vmem, 61, rfl⟩
abbrev cc5_stg2_0 : Ref sig .tc := ⟨.vmem, 62, rfl⟩
abbrev cc5_stg3_0 : Ref sig .tc := ⟨.vmem, 63, rfl⟩
abbrev cc5_stg4_0 : Ref sig .tc := ⟨.vmem, 64, rfl⟩
abbrev cc5_stg5_0 : Ref sig .tc := ⟨.vmem, 65, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem9_0 : DmaSem sig := 22
abbrev cc1_sem9_1 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem7_0 : DmaSem sig := 32
abbrev cc2_sem8_0 : DmaSem sig := 33
abbrev cc2_sem9_0 : DmaSem sig := 34
abbrev cc2_sem9_1 : DmaSem sig := 35
abbrev cc3_sem0_0 : DmaSem sig := 36
abbrev cc3_sem0_1 : DmaSem sig := 37
abbrev cc3_sem1_0 : DmaSem sig := 38
abbrev cc3_sem2_0 : DmaSem sig := 39
abbrev cc3_sem3_0 : DmaSem sig := 40
abbrev cc3_sem4_0 : DmaSem sig := 41
abbrev cc3_sem5_0 : DmaSem sig := 42
abbrev cc3_sem6_0 : DmaSem sig := 43
abbrev cc3_sem7_0 : DmaSem sig := 44
abbrev cc3_sem8_0 : DmaSem sig := 45
abbrev cc3_sem9_0 : DmaSem sig := 46
abbrev cc3_sem9_1 : DmaSem sig := 47
abbrev cc4_sem0_0 : DmaSem sig := 48
abbrev cc4_sem0_1 : DmaSem sig := 49
abbrev cc4_sem1_0 : DmaSem sig := 50
abbrev cc4_sem2_0 : DmaSem sig := 51
abbrev cc4_sem3_0 : DmaSem sig := 52
abbrev cc4_sem4_0 : DmaSem sig := 53
abbrev cc4_sem5_0 : DmaSem sig := 54
abbrev cc4_sem6_0 : DmaSem sig := 55
abbrev cc4_sem7_0 : DmaSem sig := 56
abbrev cc4_sem8_0 : DmaSem sig := 57
abbrev cc4_sem9_0 : DmaSem sig := 58
abbrev cc4_sem9_1 : DmaSem sig := 59
abbrev cc5_sem0_0 : DmaSem sig := 60
abbrev cc5_sem1_0 : DmaSem sig := 61
abbrev cc5_sem2_0 : DmaSem sig := 62
abbrev cc5_sem3_0 : DmaSem sig := 63
abbrev cc5_sem4_0 : DmaSem sig := 64
abbrev cc5_sem5_0 : DmaSem sig := 65

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S5000x64 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_8 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S64 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S5000x64 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_6 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_7 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_8 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x64 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S64 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S64 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 2 → Memref sig .tc .vmem S5000x64 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 1 → Memref sig .tc .vmem S512x320 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S320x64 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S64x10 .bf16 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S10 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S512x10 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bitsLt_bf16_f32 : FTy.bits .bf16 < FTy.bits .f32
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S5000x64_S5000x64_0_0 : ∀ a, (![0, 0] : Fin 2 → Nat) a + S5000x64.size a ≤ S5000x64.size a
  h_S5000x64 : 0 < S5000x64.numel
  slices_S4_S1_0 : S4.Slices ![0] S1
  shapeCasts_S1_S_ : S1.ShapeCasts S_
  slices_S4x64x64_S1x64x64_0_0_0 : S4x64x64.Slices ![0, 0, 0] S1x64x64
  shapeCasts_S1x64x64_S64x64 : S1x64x64.ShapeCasts S64x64
  slices_S4x64_S1x64_0_0 : S4x64.Slices ![0, 0] S1x64
  shapeCasts_S1x64_S64 : S1x64.ShapeCasts S64
  bcast_S_S50000x64 : S_.BroadcastsInDim S50000x64 (![] : Fin 0 → Fin S50000x64.rank)
  shapeCasts_S5000x64_S5000x64 : S5000x64.ShapeCasts S5000x64
  shapeCasts_S64_S64 : S64.ShapeCasts S64
  slices_S4_S1_1 : S4.Slices ![1] S1
  slices_S4x64x64_S1x64x64_1_0_0 : S4x64x64.Slices ![1, 0, 0] S1x64x64
  slices_S4x64_S1x64_1_0 : S4x64.Slices ![1, 0] S1x64
  slices_S4_S1_2 : S4.Slices ![2] S1
  slices_S4x64x64_S1x64x64_2_0_0 : S4x64x64.Slices ![2, 0, 0] S1x64x64
  slices_S4x64_S1x64_2_0 : S4x64.Slices ![2, 0] S1x64
  slices_S4_S1_3 : S4.Slices ![3] S1
  slices_S4x64x64_S1x64x64_3_0_0 : S4x64x64.Slices ![3, 0, 0] S1x64x64
  slices_S4x64_S1x64_3_0 : S4x64.Slices ![3, 0] S1x64
  concatenates_S50000x64_S50000x64_S50000x64_S50000x64_S50000x64_S50000x320_d1 : Shape.Concatenates [S50000x64, S50000x64, S50000x64, S50000x64, S50000x64] S50000x320 1
  bcast_S_S512x320 : S_.BroadcastsInDim S512x320 (![] : Fin 0 → Fin S512x320.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S512 : S_.BroadcastsInDim S512 (![] : Fin 0 → Fin S512.rank)
  bcast_S512_S512x1_0 : S512.BroadcastsInDim S512x1 (![0] : Fin 1 → Fin S512x1.rank)
  bcast_S512x1_S512x320_0_1 : S512x1.BroadcastsInDim S512x320 (![0, 1] : Fin 2 → Fin S512x320.rank)
  inb_S512x320_S512x320_0_0 : ∀ a, (![0, 0] : Fin 2 → Nat) a + S512x320.size a ≤ S512x320.size a
  h_S512x320 : 0 < S512x320.numel
  shapeCasts_S512x320_S512x320 : S512x320.ShapeCasts S512x320
  inb_S320x64_S320x64_0_0 : ∀ a, (![0, 0] : Fin 2 → Nat) a + S320x64.size a ≤ S320x64.size a
  h_S320x64 : 0 < S320x64.numel
  shapeCasts_S320x64_S320x64 : S320x64.ShapeCasts S320x64
  broadcasts_S1x64_S512x64 : S1x64.Broadcasts S512x64
  inb_S64x10_S64x10_0_0 : ∀ a, (![0, 0] : Fin 2 → Nat) a + S64x10.size a ≤ S64x10.size a
  h_S64x10 : 0 < S64x10.numel
  shapeCasts_S64x10_S64x10 : S64x10.ShapeCasts S64x10
  inb_S10_S10_0 : ∀ a, (![0] : Fin 1 → Nat) a + S10.size a ≤ S10.size a
  h_S10 : 0 < S10.numel
  shapeCasts_S10_S1x10 : S10.ShapeCasts S1x10
  broadcasts_S1x10_S512x10 : S1x10.Broadcasts S512x10
  reduces_S512x10_S512 : S512x10.Reduces [1] S512
  shapeCasts_S512_S512x1 : S512.ShapeCasts S512x1
  broadcasts_S512x1_S512x10 : S512x1.Broadcasts S512x10
  inb_S512x10_S512x10_0_0 : ∀ a, (![0, 0] : Fin 2 → Nat) a + S512x10.size a ≤ S512x10.size a
  h_S512x10 : 0 < S512x10.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x64_S5000x64_1_0_0_1_n_n_wf : DotDims.WF S5000x128 S128x64 S5000x64 [1] [0] [0] [1] [] []
  dot_S5000x64_S64x64_S5000x64_1_0_0_1_n_n_wf : DotDims.WF S5000x64 S64x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S512x320_S50000x1_S50000x320_1_0_0_1_wf : ScatterDims.WF S512x320 S50000x1 S50000x320 [1] [0] [0] 1
  scatter_S512_S50000x1_S50000_n_0_0_1_wf : ScatterDims.WF S512 S50000x1 S50000 [] [0] [0] 1
  dot_S512x320_S320x64_S512x64_1_0_0_1_n_n_wf : DotDims.WF S512x320 S320x64 S512x64 [1] [0] [0] [1] [] []
  dot_S512x64_S64x10_S512x10_1_0_0_1_n_n_wf : DotDims.WF S512x64 S64x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .bf16 = 32 ∨ (Rect.block (s := S128x64) S128x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .bf16 = 32 ∨ (Rect.block (s := S64x64) S64x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64.size a ≤ S64.size a
  hwx0_7 : ∀ i : grid0.Coords, EltTy.bits .f32 = 32 ∨ (Rect.block (s := S64) S64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x64.size a ≤ S50000x64.size a
  hwx0_9 : ∀ i : grid0.Coords, EltTy.bits .f32 = 32 ∨ (Rect.block (s := S50000x64) S5000x64.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .bf16 = 32 ∨ (Rect.block (s := S64x64) S64x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .bf16 = 32 ∨ (Rect.block (s := S64x64) S64x64.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64.size a ≤ S64.size a
  hwx1_5 : ∀ i : grid1.Coords, EltTy.bits .f32 = 32 ∨ (Rect.block (s := S64) S64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64.size a ≤ S64.size a
  hwx1_6 : ∀ i : grid1.Coords, EltTy.bits .f32 = 32 ∨ (Rect.block (s := S64) S64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64.size a ≤ S64.size a
  hwx1_7 : ∀ i : grid1.Coords, EltTy.bits .f32 = 32 ∨ (Rect.block (s := S64) S64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64.size a ≤ S64.size a
  hwx1_8 : ∀ i : grid1.Coords, EltTy.bits .f32 = 32 ∨ (Rect.block (s := S64) S64.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x64.size a ≤ S50000x64.size a
  hwx1_9 : ∀ i : grid1.Coords, EltTy.bits .f32 = 32 ∨ (Rect.block (s := S50000x64) S5000x64.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .bf16 = 32 ∨ (Rect.block (s := S64x64) S64x64.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64.size a ≤ S64.size a
  hwx2_2 : ∀ i : grid2.Coords, EltTy.bits .f32 = 32 ∨ (Rect.block (s := S64) S64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .bf16 = 32 ∨ (Rect.block (s := S64x64) S64x64.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64.size a ≤ S64.size a
  hwx2_4 : ∀ i : grid2.Coords, EltTy.bits .f32 = 32 ∨ (Rect.block (s := S64) S64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64.size a ≤ S64.size a
  hwx2_5 : ∀ i : grid2.Coords, EltTy.bits .f32 = 32 ∨ (Rect.block (s := S64) S64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64.size a ≤ S64.size a
  hwx2_6 : ∀ i : grid2.Coords, EltTy.bits .f32 = 32 ∨ (Rect.block (s := S64) S64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S64.size a ≤ S64.size a
  hwx2_7 : ∀ i : grid2.Coords, EltTy.bits .f32 = 32 ∨ (Rect.block (s := S64) S64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S64.size a ≤ S64.size a
  hwx2_8 : ∀ i : grid2.Coords, EltTy.bits .f32 = 32 ∨ (Rect.block (s := S64) S64.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S5000x64.size a ≤ S50000x64.size a
  hwx2_9 : ∀ i : grid2.Coords, EltTy.bits .f32 = 32 ∨ (Rect.block (s := S50000x64) S5000x64.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .bf16 = 32 ∨ (Rect.block (s := S64x64) S64x64.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64.size a ≤ S64.size a
  hwx3_2 : ∀ i : grid3.Coords, EltTy.bits .f32 = 32 ∨ (Rect.block (s := S64) S64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .bf16 = 32 ∨ (Rect.block (s := S64x64) S64x64.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64.size a ≤ S64.size a
  hwx3_4 : ∀ i : grid3.Coords, EltTy.bits .f32 = 32 ∨ (Rect.block (s := S64) S64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64.size a ≤ S64.size a
  hwx3_5 : ∀ i : grid3.Coords, EltTy.bits .f32 = 32 ∨ (Rect.block (s := S64) S64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S64.size a ≤ S64.size a
  hwx3_6 : ∀ i : grid3.Coords, EltTy.bits .f32 = 32 ∨ (Rect.block (s := S64) S64.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S64.size a ≤ S64.size a
  hwx3_7 : ∀ i : grid3.Coords, EltTy.bits .f32 = 32 ∨ (Rect.block (s := S64) S64.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S64.size a ≤ S64.size a
  hwx3_8 : ∀ i : grid3.Coords, EltTy.bits .f32 = 32 ∨ (Rect.block (s := S64) S64.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S5000x64.size a ≤ S50000x64.size a
  hwx3_9 : ∀ i : grid3.Coords, EltTy.bits .f32 = 32 ∨ (Rect.block (s := S50000x64) S5000x64.size (cc3_transform_9 i) (hinb3_9 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .bf16 = 32 ∨ (Rect.block (s := S64x64) S64x64.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64.size a ≤ S64.size a
  hwx4_2 : ∀ i : grid4.Coords, EltTy.bits .f32 = 32 ∨ (Rect.block (s := S64) S64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .bf16 = 32 ∨ (Rect.block (s := S64x64) S64x64.size (cc4_transform_3 i) (hinb4_3 i)).WholeWords (EltTy.packing .bf16)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64.size a ≤ S64.size a
  hwx4_4 : ∀ i : grid4.Coords, EltTy.bits .f32 = 32 ∨ (Rect.block (s := S64) S64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S64.size a ≤ S64.size a
  hwx4_5 : ∀ i : grid4.Coords, EltTy.bits .f32 = 32 ∨ (Rect.block (s := S64) S64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S64.size a ≤ S64.size a
  hwx4_6 : ∀ i : grid4.Coords, EltTy.bits .f32 = 32 ∨ (Rect.block (s := S64) S64.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S64.size a ≤ S64.size a
  hwx4_7 : ∀ i : grid4.Coords, EltTy.bits .f32 = 32 ∨ (Rect.block (s := S64) S64.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S64.size a ≤ S64.size a
  hwx4_8 : ∀ i : grid4.Coords, EltTy.bits .f32 = 32 ∨ (Rect.block (s := S64) S64.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S5000x64.size a ≤ S50000x64.size a
  hwx4_9 : ∀ i : grid4.Coords, EltTy.bits .f32 = 32 ∨ (Rect.block (s := S50000x64) S5000x64.size (cc4_transform_9 i) (hinb4_9 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S512x320.size a ≤ S512x320.size a
  hwx5_0 : ∀ i : grid5.Coords, EltTy.bits .f32 = 32 ∨ (Rect.block (s := S512x320) S512x320.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S320x64.size a ≤ S320x64.size a
  hwx5_1 : ∀ i : grid5.Coords, EltTy.bits .bf16 = 32 ∨ (Rect.block (s := S320x64) S320x64.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64.size a ≤ S64.size a
  hwx5_2 : ∀ i : grid5.Coords, EltTy.bits .f32 = 32 ∨ (Rect.block (s := S64) S64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x10.size a ≤ S64x10.size a
  hwx5_3 : ∀ i : grid5.Coords, EltTy.bits .bf16 = 32 ∨ (Rect.block (s := S64x10) S64x10.size (cc5_transform_3 i) (hinb5_3 i)).WholeWords (EltTy.packing .bf16)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S10.size a ≤ S10.size a
  hwx5_4 : ∀ i : grid5.Coords, EltTy.bits .f32 = 32 ∨ (Rect.block (s := S10) S10.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S512x10.size a ≤ S512x10.size a
  hwx5_5 : ∀ i : grid5.Coords, EltTy.bits .f32 = 32 ∨ (Rect.block (s := S512x10) S512x10.size (cc5_transform_5 i) (hinb5_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S512x320_S50000x1_S50000x320_1_0_0_1 : ScatterDims S512x320 S50000x1 S50000x320 where
  updateWindowDims := [1]
  insertedWindowDims := [0]
  scatterDimsToOperandDims := [0]
  indexVectorDim := 1
  wf := scatter_S512x320_S50000x1_S50000x320_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x320_S320x64_S512x64_1_0_0_1_n_n : DotDims S512x320 S320x64 S512x64 where
  lhsContracting := [1]
  rhsContracting := [0]
  lhsNonContracting := [0]
  rhsNonContracting := [1]
  lhsBatch := []
  rhsBatch := []
  wf := dot_S512x320_S320x64_S512x64_1_0_0_1_n_n_wf
def dot_S512x64_S64x10_S512x10_1_0_0_1_n_n : DotDims S512x64 S64x10 S512x10 where
  lhsContracting := [1]
  rhsContracting := [0]
  lhsNonContracting := [0]
  rhsNonContracting := [1]
  lhsBatch := []
  rhsBatch := []
  wf := dot_S512x64_S64x10_S512x10_1_0_0_1_n_n_wf

abbrev win0_0 : Pipeline.Window sig grid0 :=
  Pipeline.Window.ofSpec (Memref.whole main_v17) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg9) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg10) S64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg11) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v20) S5000x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v52) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v53) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v26) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v54) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v34) S64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v36) S64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v38) S64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v55) S5000x64.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v87) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v88) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v61) S64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v89) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v65) S64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v67) S64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v69) S64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v71) S64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v73) S64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v90) S5000x64.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v122) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v123) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v96) S64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v124) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v100) S64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v102) S64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v104) S64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v106) S64.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v108) S64.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v125) S5000x64.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev win4_0 : Pipeline.Window sig grid4 :=
  Pipeline.Window.ofSpec (Memref.whole main_v157) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v158) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v131) S64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v159) S64x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v135) S64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v137) S64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v139) S64.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v141) S64.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v143) S64.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v160) S5000x64.size cc4_transform_9 reads4_9 true false 2 stage4_9 sem4_9
    hrank4 hreads4_9 hinb4_9 nbuf4_9 (Memref.isWhole_whole _) hwx4_9 hstage4_9

abbrev win4 : Fin 10 → Pipeline.Window sig grid4 := fun | 0 => win4_0 | 1 => win4_1 | 2 => win4_2 | 3 => win4_3 | 4 => win4_4 | 5 => win4_5 | 6 => win4_6 | 7 => win4_7 | 8 => win4_8 | 9 => win4_9 | ⟨_ + 10, h⟩ => absurd h (Nat.not_lt.2 (Nat.le_add_left _ _))
abbrev spec4 : Fin 10 → Pipeline.WinSpec sig grid4.rank := fun w => (win4 w).toWinSpec

abbrev win5_0 : Pipeline.Window sig grid5 :=
  Pipeline.Window.ofSpec (Memref.whole main_v173) S512x320.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_v174) S320x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg22) S64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v175) S64x10.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg24) S10.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v176) S512x10.size cc5_transform_5 reads5_5 true true 1 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S_ : Shape := ⟨0, ![]⟩
abbrev S128x64 : Shape := ⟨2, ![128, 64]⟩
abbrev S64 : Shape := ⟨1, ![64]⟩
abbrev S64x64 : Shape := ⟨2, ![64, 64]⟩
abbrev S4 : Shape := ⟨1, ![4]⟩
abbrev S4x64x64 : Shape := ⟨3, ![4, 64, 64]⟩
abbrev S4x64 : Shape := ⟨2, ![4, 64]⟩
abbrev S320x64 : Shape := ⟨2, ![320, 64]⟩
abbrev S64x10 : Shape := ⟨2, ![64, 10]⟩
abbrev S10 : Shape := ⟨1, ![10]⟩
abbrev S1x800000 : Shape := ⟨2, ![1, 800000]⟩
abbrev S800000 : Shape := ⟨1, ![800000]⟩
abbrev S800000x1 : Shape := ⟨2, ![800000, 1]⟩
abbrev S800000x128 : Shape := ⟨2, ![800000, 128]⟩
abbrev S50000x64 : Shape := ⟨2, ![50000, 64]⟩
abbrev S1x64 : Shape := ⟨2, ![1, 64]⟩
abbrev S1 : Shape := ⟨1, ![1]⟩
abbrev S1x64x64 : Shape := ⟨3, ![1, 64, 64]⟩
abbrev S800000x64 : Shape := ⟨2, ![800000, 64]⟩
abbrev S50000x320 : Shape := ⟨2, ![50000, 320]⟩
abbrev S512x320 : Shape := ⟨2, ![512, 320]⟩
abbrev S50000x1 : Shape := ⟨2, ![50000, 1]⟩
abbrev S512 : Shape := ⟨1, ![512]⟩
abbrev S512x1 : Shape := ⟨2, ![512, 1]⟩
abbrev S512x64 : Shape := ⟨2, ![512, 64]⟩
abbrev S512x10 : Shape := ⟨2, ![512, 10]⟩
abbrev S1x10 : Shape := ⟨2, ![1, 10]⟩

abbrev nBuf : Space → Nat
  | .hbm => 374
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S_, .f32⟩
  | 4 => ⟨S128x64, .f32⟩
  | 5 => ⟨S64, .f32⟩
  | 6 => ⟨S64x64, .f32⟩
  | 7 => ⟨S64, .f32⟩
  | 8 => ⟨S64, .f32⟩
  | 9 => ⟨S64, .f32⟩
  | 10 => ⟨S64, .f32⟩
  | 11 => ⟨S64, .f32⟩
  | 12 => ⟨S4, .f32⟩
  | 13 => ⟨S4x64x64, .f32⟩
  | 14 => ⟨S4x64, .f32⟩
  | 15 => ⟨S4x64x64, .f32⟩
  | 16 => ⟨S4x64, .f32⟩
  | 17 => ⟨S4x64, .f32⟩
  | 18 => ⟨S4x64, .f32⟩
  | 19 => ⟨S4x64, .f32⟩
  | 20 => ⟨S4x64, .f32⟩
  | 21 => ⟨S320x64, .f32⟩
  | 22 => ⟨S64, .f32⟩
  | 23 => ⟨S64x10, .f32⟩
  | 24 => ⟨S10, .f32⟩
  | 25 => ⟨S1x800000, .i32⟩
  | 26 => ⟨S800000, .i32⟩
  | 27 => ⟨S1x800000, .i32⟩
  | 28 => ⟨S800000, .i32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000x128, .f32⟩
  | 38 => ⟨S_, .f32⟩
  | 39 => ⟨S50000x128, .f32⟩
  | 40 => ⟨S800000x1, .i32⟩
  | 41 => ⟨S50000x128, .f32⟩
  | 42 => ⟨S_, .f32⟩
  | 43 => ⟨S_, .f32⟩
  | 44 => ⟨S50000x128, .f32⟩
  | 45 => ⟨S50000x128, .f32⟩
  | 46 => ⟨S50000x128, .f32⟩
  | 47 => ⟨S50000x64, .f32⟩
  | 48 => ⟨S1x64, .f32⟩
  | 49 => ⟨S50000x64, .f32⟩
  | 50 => ⟨S50000x64, .f32⟩
  | 51 => ⟨S_, .f32⟩
  | 52 => ⟨S50000x64, .f32⟩
  | 53 => ⟨S50000x64, .f32⟩
  | 54 => ⟨S50000x64, .f32⟩
  | 55 => ⟨S1x64, .f32⟩
  | 56 => ⟨S50000x64, .f32⟩
  | 57 => ⟨S50000x64, .f32⟩
  | 58 => ⟨S_, .f32⟩
  | 59 => ⟨S50000x64, .f32⟩
  | 60 => ⟨S50000x64, .f32⟩
  | 61 => ⟨S1x64, .f32⟩
  | 62 => ⟨S50000x64, .f32⟩
  | 63 => ⟨S50000x64, .f32⟩
  | 64 => ⟨S_, .f32⟩
  | 65 => ⟨S64, .f32⟩
  | 66 => ⟨S64, .f32⟩
  | 67 => ⟨S64, .f32⟩
  | 68 => ⟨S64, .f32⟩
  | 69 => ⟨S1x64, .f32⟩
  | 70 => ⟨S50000x64, .f32⟩
  | 71 => ⟨S50000x64, .f32⟩
  | 72 => ⟨S1x64, .f32⟩
  | 73 => ⟨S50000x64, .f32⟩
  | 74 => ⟨S50000x64, .f32⟩
  | 75 => ⟨S1, .f32⟩
  | 76 => ⟨S_, .f32⟩
  | 77 => ⟨S1x64x64, .f32⟩
  | 78 => ⟨S64x64, .f32⟩
  | 79 => ⟨S1x64, .f32⟩
  | 80 => ⟨S64, .f32⟩
  | 81 => ⟨S1x64x64, .f32⟩
  | 82 => ⟨S64x64, .f32⟩
  | 83 => ⟨S1x64, .f32⟩
  | 84 => ⟨S64, .f32⟩
  | 85 => ⟨S1x64, .f32⟩
  | 86 => ⟨S64, .f32⟩
  | 87 => ⟨S1x64, .f32⟩
  | 88 => ⟨S64, .f32⟩
  | 89 => ⟨S1x64, .f32⟩
  | 90 => ⟨S64, .f32⟩
  | 91 => ⟨S1x64, .f32⟩
  | 92 => ⟨S64, .f32⟩
  | 93 => ⟨S_, .i32⟩
  | 94 => ⟨S800000, .i32⟩
  | 95 => ⟨S800000, .i1⟩
  | 96 => ⟨S_, .i32⟩
  | 97 => ⟨S800000, .i32⟩
  | 98 => ⟨S800000, .i32⟩
  | 99 => ⟨S800000, .i32⟩
  | 100 => ⟨S800000x1, .i32⟩
  | 101 => ⟨S800000x64, .f32⟩
  | 102 => ⟨S_, .f32⟩
  | 103 => ⟨S50000x64, .f32⟩
  | 104 => ⟨S800000x1, .i32⟩
  | 105 => ⟨S50000x64, .f32⟩
  | 106 => ⟨S_, .f32⟩
  | 107 => ⟨S_, .f32⟩
  | 108 => ⟨S50000x64, .f32⟩
  | 109 => ⟨S50000x64, .f32⟩
  | 110 => ⟨S50000x64, .f32⟩
  | 111 => ⟨S50000x64, .f32⟩
  | 112 => ⟨S1x64, .f32⟩
  | 113 => ⟨S50000x64, .f32⟩
  | 114 => ⟨S50000x64, .f32⟩
  | 115 => ⟨S_, .f32⟩
  | 116 => ⟨S50000x64, .f32⟩
  | 117 => ⟨S50000x64, .f32⟩
  | 118 => ⟨S50000x64, .f32⟩
  | 119 => ⟨S1x64, .f32⟩
  | 120 => ⟨S50000x64, .f32⟩
  | 121 => ⟨S50000x64, .f32⟩
  | 122 => ⟨S_, .f32⟩
  | 123 => ⟨S50000x64, .f32⟩
  | 124 => ⟨S50000x64, .f32⟩
  | 125 => ⟨S1x64, .f32⟩
  | 126 => ⟨S50000x64, .f32⟩
  | 127 => ⟨S50000x64, .f32⟩
  | _ => ⟨S50000x128, .f32⟩

abbrev hbmTy0_1 (i : Nat) : BufTy := match i % 128 with
  | 0 => ⟨S_, .f32⟩
  | 1 => ⟨S64, .f32⟩
  | 2 => ⟨S64, .f32⟩
  | 3 => ⟨S64, .f32⟩
  | 4 => ⟨S64, .f32⟩
  | 5 => ⟨S1x64, .f32⟩
  | 6 => ⟨S50000x64, .f32⟩
  | 7 => ⟨S50000x64, .f32⟩
  | 8 => ⟨S1x64, .f32⟩
  | 9 => ⟨S50000x64, .f32⟩
  | 10 => ⟨S50000x64, .f32⟩
  | 11 => ⟨S1, .f32⟩
  | 12 => ⟨S_, .f32⟩
  | 13 => ⟨S1x64x64, .f32⟩
  | 14 => ⟨S64x64, .f32⟩
  | 15 => ⟨S1x64, .f32⟩
  | 16 => ⟨S64, .f32⟩
  | 17 => ⟨S1x64x64, .f32⟩
  | 18 => ⟨S64x64, .f32⟩
  | 19 => ⟨S1x64, .f32⟩
  | 20 => ⟨S64, .f32⟩
  | 21 => ⟨S1x64, .f32⟩
  | 22 => ⟨S64, .f32⟩
  | 23 => ⟨S1x64, .f32⟩
  | 24 => ⟨S64, .f32⟩
  | 25 => ⟨S1x64, .f32⟩
  | 26 => ⟨S64, .f32⟩
  | 27 => ⟨S1x64, .f32⟩
  | 28 => ⟨S64, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000x64, .f32⟩
  | 38 => ⟨S_, .f32⟩
  | 39 => ⟨S50000x64, .f32⟩
  | 40 => ⟨S800000x1, .i32⟩
  | 41 => ⟨S50000x64, .f32⟩
  | 42 => ⟨S_, .f32⟩
  | 43 => ⟨S_, .f32⟩
  | 44 => ⟨S50000x64, .f32⟩
  | 45 => ⟨S50000x64, .f32⟩
  | 46 => ⟨S50000x64, .f32⟩
  | 47 => ⟨S50000x64, .f32⟩
  | 48 => ⟨S1x64, .f32⟩
  | 49 => ⟨S50000x64, .f32⟩
  | 50 => ⟨S50000x64, .f32⟩
  | 51 => ⟨S_, .f32⟩
  | 52 => ⟨S50000x64, .f32⟩
  | 53 => ⟨S50000x64, .f32⟩
  | 54 => ⟨S50000x64, .f32⟩
  | 55 => ⟨S1x64, .f32⟩
  | 56 => ⟨S50000x64, .f32⟩
  | 57 => ⟨S50000x64, .f32⟩
  | 58 => ⟨S_, .f32⟩
  | 59 => ⟨S50000x64, .f32⟩
  | 60 => ⟨S50000x64, .f32⟩
  | 61 => ⟨S1x64, .f32⟩
  | 62 => ⟨S50000x64, .f32⟩
  | 63 => ⟨S50000x64, .f32⟩
  | 64 => ⟨S_, .f32⟩
  | 65 => ⟨S64, .f32⟩
  | 66 => ⟨S64, .f32⟩
  | 67 => ⟨S64, .f32⟩
  | 68 => ⟨S64, .f32⟩
  | 69 => ⟨S1x64, .f32⟩
  | 70 => ⟨S50000x64, .f32⟩
  | 71 => ⟨S50000x64, .f32⟩
  | 72 => ⟨S1x64, .f32⟩
  | 73 => ⟨S50000x64, .f32⟩
  | 74 => ⟨S50000x64, .f32⟩
  | 75 => ⟨S1, .f32⟩
  | 76 => ⟨S_, .f32⟩
  | 77 => ⟨S1x64x64, .f32⟩
  | 78 => ⟨S64x64, .f32⟩
  | 79 => ⟨S1x64, .f32⟩
  | 80 => ⟨S64, .f32⟩
  | 81 => ⟨S1x64x64, .f32⟩
  | 82 => ⟨S64x64, .f32⟩
  | 83 => ⟨S1x64, .f32⟩
  | 84 => ⟨S64, .f32⟩
  | 85 => ⟨S1x64, .f32⟩
  | 86 => ⟨S64, .f32⟩
  | 87 => ⟨S1x64, .f32⟩
  | 88 => ⟨S64, .f32⟩
  | 89 => ⟨S1x64, .f32⟩
  | 90 => ⟨S64, .f32⟩
  | 91 => ⟨S1x64, .f32⟩
  | 92 => ⟨S64, .f32⟩
  | 93 => ⟨S_, .i32⟩
  | 94 => ⟨S800000, .i32⟩
  | 95 => ⟨S800000, .i1⟩
  | 96 => ⟨S_, .i32⟩
  | 97 => ⟨S800000, .i32⟩
  | 98 => ⟨S800000, .i32⟩
  | 99 => ⟨S800000, .i32⟩
  | 100 => ⟨S800000x1, .i32⟩
  | 101 => ⟨S800000x64, .f32⟩
  | 102 => ⟨S_, .f32⟩
  | 103 => ⟨S50000x64, .f32⟩
  | 104 => ⟨S800000x1, .i32⟩
  | 105 => ⟨S50000x64, .f32⟩
  | 106 => ⟨S_, .f32⟩
  | 107 => ⟨S_, .f32⟩
  | 108 => ⟨S50000x64, .f32⟩
  | 109 => ⟨S50000x64, .f32⟩
  | 110 => ⟨S50000x64, .f32⟩
  | 111 => ⟨S50000x64, .f32⟩
  | 112 => ⟨S1x64, .f32⟩
  | 113 => ⟨S50000x64, .f32⟩
  | 114 => ⟨S50000x64, .f32⟩
  | 115 => ⟨S_, .f32⟩
  | 116 => ⟨S50000x64, .f32⟩
  | 117 => ⟨S50000x64, .f32⟩
  | 118 => ⟨S50000x64, .f32⟩
  | 119 => ⟨S1x64, .f32⟩
  | 120 => ⟨S50000x64, .f32⟩
  | 121 => ⟨S50000x64, .f32⟩
  | 122 => ⟨S_, .f32⟩
  | 123 => ⟨S50000x64, .f32⟩
  | 124 => ⟨S50000x64, .f32⟩
  | 125 => ⟨S1x64, .f32⟩
  | 126 => ⟨S50000x64, .f32⟩
  | 127 => ⟨S50000x64, .f32⟩
  | _ => ⟨S50000x128, .f32⟩

abbrev hbmTy0_2 (i : Nat) : BufTy := match i % 128 with
  | 0 => ⟨S_, .f32⟩
  | 1 => ⟨S64, .f32⟩
  | 2 => ⟨S64, .f32⟩
  | 3 => ⟨S64, .f32⟩
  | 4 => ⟨S64, .f32⟩
  | 5 => ⟨S1x64, .f32⟩
  | 6 => ⟨S50000x64, .f32⟩
  | 7 => ⟨S50000x64, .f32⟩
  | 8 => ⟨S1x64, .f32⟩
  | 9 => ⟨S50000x64, .f32⟩
  | 10 => ⟨S50000x64, .f32⟩
  | 11 => ⟨S1, .f32⟩
  | 12 => ⟨S_, .f32⟩
  | 13 => ⟨S1x64x64, .f32⟩
  | 14 => ⟨S64x64, .f32⟩
  | 15 => ⟨S1x64, .f32⟩
  | 16 => ⟨S64, .f32⟩
  | 17 => ⟨S1x64x64, .f32⟩
  | 18 => ⟨S64x64, .f32⟩
  | 19 => ⟨S1x64, .f32⟩
  | 20 => ⟨S64, .f32⟩
  | 21 => ⟨S1x64, .f32⟩
  | 22 => ⟨S64, .f32⟩
  | 23 => ⟨S1x64, .f32⟩
  | 24 => ⟨S64, .f32⟩
  | 25 => ⟨S1x64, .f32⟩
  | 26 => ⟨S64, .f32⟩
  | 27 => ⟨S1x64, .f32⟩
  | 28 => ⟨S64, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000x64, .f32⟩
  | 38 => ⟨S_, .f32⟩
  | 39 => ⟨S50000x64, .f32⟩
  | 40 => ⟨S800000x1, .i32⟩
  | 41 => ⟨S50000x64, .f32⟩
  | 42 => ⟨S_, .f32⟩
  | 43 => ⟨S_, .f32⟩
  | 44 => ⟨S50000x64, .f32⟩
  | 45 => ⟨S50000x64, .f32⟩
  | 46 => ⟨S50000x64, .f32⟩
  | 47 => ⟨S50000x64, .f32⟩
  | 48 => ⟨S1x64, .f32⟩
  | 49 => ⟨S50000x64, .f32⟩
  | 50 => ⟨S50000x64, .f32⟩
  | 51 => ⟨S_, .f32⟩
  | 52 => ⟨S50000x64, .f32⟩
  | 53 => ⟨S50000x64, .f32⟩
  | 54 => ⟨S50000x64, .f32⟩
  | 55 => ⟨S1x64, .f32⟩
  | 56 => ⟨S50000x64, .f32⟩
  | 57 => ⟨S50000x64, .f32⟩
  | 58 => ⟨S_, .f32⟩
  | 59 => ⟨S50000x64, .f32⟩
  | 60 => ⟨S50000x64, .f32⟩
  | 61 => ⟨S1x64, .f32⟩
  | 62 => ⟨S50000x64, .f32⟩
  | 63 => ⟨S50000x64, .f32⟩
  | 64 => ⟨S_, .f32⟩
  | 65 => ⟨S64, .f32⟩
  | 66 => ⟨S64, .f32⟩
  | 67 => ⟨S64, .f32⟩
  | 68 => ⟨S64, .f32⟩
  | 69 => ⟨S1x64, .f32⟩
  | 70 => ⟨S50000x64, .f32⟩
  | 71 => ⟨S50000x64, .f32⟩
  | 72 => ⟨S1x64, .f32⟩
  | 73 => ⟨S50000x64, .f32⟩
  | 74 => ⟨S50000x64, .f32⟩
  | 75 => ⟨S50000x320, .f32⟩
  | 76 => ⟨S_, .f32⟩
  | 77 => ⟨S512x320, .f32⟩
  | 78 => ⟨S50000x1, .i32⟩
  | 79 => ⟨S512x320, .f32⟩
  | 80 => ⟨S_, .f32⟩
  | 81 => ⟨S50000, .f32⟩
  | 82 => ⟨S_, .f32⟩
  | 83 => ⟨S512, .f32⟩
  | 84 => ⟨S50000x1, .i32⟩
  | 85 => ⟨S512, .f32⟩
  | 86 => ⟨S_, .f32⟩
  | 87 => ⟨S512, .f32⟩
  | 88 => ⟨S512, .f32⟩
  | 89 => ⟨S512x1, .f32⟩
  | 90 => ⟨S512x320, .f32⟩
  | 91 => ⟨S512x320, .f32⟩
  | 92 => ⟨S512x64, .f32⟩
  | 93 => ⟨S1x64, .f32⟩
  | 94 => ⟨S512x64, .f32⟩
  | 95 => ⟨S512x64, .f32⟩
  | 96 => ⟨S_, .f32⟩
  | 97 => ⟨S512x64, .f32⟩
  | 98 => ⟨S512x64, .f32⟩
  | 99 => ⟨S512x10, .f32⟩
  | 100 => ⟨S1x10, .f32⟩
  | 101 => ⟨S512x10, .f32⟩
  | 102 => ⟨S512x10, .f32⟩
  | 103 => ⟨S_, .f32⟩
  | 104 => ⟨S512, .f32⟩
  | 105 => ⟨S_, .f32⟩
  | 106 => ⟨S512, .f32⟩
  | 107 => ⟨S512, .f32⟩
  | 108 => ⟨S512x1, .f32⟩
  | 109 => ⟨S512x10, .f32⟩
  | 110 => ⟨S512x10, .f32⟩
  | 111 => ⟨S512x10, .f32⟩
  | 112 => ⟨S_, .f32⟩
  | 113 => ⟨S512, .f32⟩
  | 114 => ⟨S512x1, .f32⟩
  | 115 => ⟨S512x1, .f32⟩
  | 116 => ⟨S512x10, .f32⟩
  | 117 => ⟨S512x10, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_c : Ref sig .tc := ⟨.hbm, 29, rfl⟩
abbrev main_v4 : Ref sig .tc := ⟨.hbm, 30, rfl⟩
abbrev main_v5 : Ref sig .tc := ⟨.hbm, 31, rfl⟩
abbrev main_c_0 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_cst : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_cst_1 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_call0_cst : Ref sig .tc := ⟨.hbm, 51, rfl⟩
abbrev main_call0_v0 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_call1_cst : Ref sig .tc := ⟨.hbm, 58, rfl⟩
abbrev main_call1_v0 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_cst_2 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_c_3 : Ref sig .tc := ⟨.hbm, 93, rfl⟩
abbrev main_v59 : Ref sig .tc := ⟨.hbm, 94, rfl⟩
abbrev main_v60 : Ref sig .tc := ⟨.hbm, 95, rfl⟩
abbrev main_c_4 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_cst_5 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_cst_6 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_call2_cst : Ref sig .tc := ⟨.hbm, 115, rfl⟩
abbrev main_call2_v0 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_call3_cst : Ref sig .tc := ⟨.hbm, 122, rfl⟩
abbrev main_call3_v0 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_cst_7 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_c_8 : Ref sig .tc := ⟨.hbm, 157, rfl⟩
abbrev main_v114 : Ref sig .tc := ⟨.hbm, 158, rfl⟩
abbrev main_v115 : Ref sig .tc := ⟨.hbm, 159, rfl⟩
abbrev main_c_9 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_cst_10 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_cst_11 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_call4_cst : Ref sig .tc := ⟨.hbm, 179, rfl⟩
abbrev main_call4_v0 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_call5_cst : Ref sig .tc := ⟨.hbm, 186, rfl⟩
abbrev main_call5_v0 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_cst_12 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_v167 : Ref sig .tc := ⟨.hbm, 219, rfl⟩
abbrev main_v168 : Ref sig .tc := ⟨.hbm, 220, rfl⟩
abbrev main_c_13 : Ref sig .tc := ⟨.hbm, 221, rfl⟩
abbrev main_v169 : Ref sig .tc := ⟨.hbm, 222, rfl⟩
abbrev main_v170 : Ref sig .tc := ⟨.hbm, 223, rfl⟩
abbrev main_c_14 : Ref sig .tc := ⟨.hbm, 224, rfl⟩
abbrev main_v171 : Ref sig .tc := ⟨.hbm, 225, rfl⟩
abbrev main_v172 : Ref sig .tc := ⟨.hbm, 226, rfl⟩
abbrev main_v173 : Ref sig .tc := ⟨.hbm, 227, rfl⟩
abbrev main_v174 : Ref sig .tc := ⟨.hbm, 228, rfl⟩
abbrev main_v175 : Ref sig .tc := ⟨.hbm, 229, rfl⟩
abbrev main_cst_15 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_cst_16 : Ref sig .tc := ⟨.hbm, 234, rfl⟩
abbrev main_v179 : Ref sig .tc := ⟨.hbm, 235, rfl⟩
abbrev main_v180 : Ref sig .tc := ⟨.hbm, 236, rfl⟩
abbrev main_v181 : Ref sig .tc := ⟨.hbm, 237, rfl⟩
abbrev main_v182 : Ref sig .tc := ⟨.hbm, 238, rfl⟩
abbrev main_v183 : Ref sig .tc := ⟨.hbm, 239, rfl⟩
abbrev main_v184 : Ref sig .tc := ⟨.hbm, 240, rfl⟩
abbrev main_v185 : Ref sig .tc := ⟨.hbm, 241, rfl⟩
abbrev main_v186 : Ref sig .tc := ⟨.hbm, 242, rfl⟩
abbrev main_call6_cst : Ref sig .tc := ⟨.hbm, 243, rfl⟩
abbrev main_call6_v0 : Ref sig .tc := ⟨.hbm, 244, rfl⟩
abbrev main_v187 : Ref sig .tc := ⟨.hbm, 245, rfl⟩
abbrev main_v188 : Ref sig .tc := ⟨.hbm, 246, rfl⟩
abbrev main_v189 : Ref sig .tc := ⟨.hbm, 247, rfl⟩
abbrev main_v190 : Ref sig .tc := ⟨.hbm, 248, rfl⟩
abbrev main_v191 : Ref sig .tc := ⟨.hbm, 249, rfl⟩
abbrev main_call7_cst : Ref sig .tc := ⟨.hbm, 250, rfl⟩
abbrev main_call7_v0 : Ref sig .tc := ⟨.hbm, 251, rfl⟩
abbrev main_v192 : Ref sig .tc := ⟨.hbm, 252, rfl⟩
abbrev main_v193 : Ref sig .tc := ⟨.hbm, 253, rfl⟩
abbrev main_v194 : Ref sig .tc := ⟨.hbm, 254, rfl⟩
abbrev main_v195 : Ref sig .tc := ⟨.hbm, 255, rfl⟩
abbrev main_cst_17 : Ref sig .tc := ⟨.hbm, 256, rfl⟩
abbrev main_v196 : Ref sig .tc := ⟨.hbm, 257, rfl⟩
abbrev main_v197 : Ref sig .tc := ⟨.hbm, 258, rfl⟩
abbrev main_v198 : Ref sig .tc := ⟨.hbm, 259, rfl⟩
abbrev main_v199 : Ref sig .tc := ⟨.hbm, 260, rfl⟩
abbrev main_v200 : Ref sig .tc := ⟨.hbm, 261, rfl⟩
abbrev main_v201 : Ref sig .tc := ⟨.hbm, 262, rfl⟩
abbrev main_v202 : Ref sig .tc := ⟨.hbm, 263, rfl⟩
abbrev main_v203 : Ref sig .tc := ⟨.hbm, 264, rfl⟩
abbrev main_v204 : Ref sig .tc := ⟨.hbm, 265, rfl⟩
abbrev main_v205 : Ref sig .tc := ⟨.hbm, 266, rfl⟩
abbrev main_v206 : Ref sig .tc := ⟨.hbm, 267, rfl⟩
abbrev main_v207 : Ref sig .tc := ⟨.hbm, 268, rfl⟩
abbrev main_v208 : Ref sig .tc := ⟨.hbm, 269, rfl⟩
abbrev main_v209 : Ref sig .tc := ⟨.hbm, 270, rfl⟩
abbrev main_v210 : Ref sig .tc := ⟨.hbm, 271, rfl⟩
abbrev main_v211 : Ref sig .tc := ⟨.hbm, 272, rfl⟩
abbrev main_v212 : Ref sig .tc := ⟨.hbm, 273, rfl⟩
abbrev main_v213 : Ref sig .tc := ⟨.hbm, 274, rfl⟩
abbrev main_v214 : Ref sig .tc := ⟨.hbm, 275, rfl⟩
abbrev main_v215 : Ref sig .tc := ⟨.hbm, 276, rfl⟩
abbrev main_v216 : Ref sig .tc := ⟨.hbm, 277, rfl⟩
abbrev main_v217 : Ref sig .tc := ⟨.hbm, 278, rfl⟩
abbrev main_v218 : Ref sig .tc := ⟨.hbm, 279, rfl⟩
abbrev main_v219 : Ref sig .tc := ⟨.hbm, 280, rfl⟩
abbrev main_v220 : Ref sig .tc := ⟨.hbm, 281, rfl⟩
abbrev main_v221 : Ref sig .tc := ⟨.hbm, 282, rfl⟩
abbrev main_v222 : Ref sig .tc := ⟨.hbm, 283, rfl⟩
abbrev main_v223 : Ref sig .tc := ⟨.hbm, 284, rfl⟩
abbrev main_c_18 : Ref sig .tc := ⟨.hbm, 285, rfl⟩
abbrev main_v224 : Ref sig .tc := ⟨.hbm, 286, rfl⟩
abbrev main_v225 : Ref sig .tc := ⟨.hbm, 287, rfl⟩
abbrev main_c_19 : Ref sig .tc := ⟨.hbm, 288, rfl⟩
abbrev main_v226 : Ref sig .tc := ⟨.hbm, 289, rfl⟩
abbrev main_v227 : Ref sig .tc := ⟨.hbm, 290, rfl⟩
abbrev main_v228 : Ref sig .tc := ⟨.hbm, 291, rfl⟩
abbrev main_v229 : Ref sig .tc := ⟨.hbm, 292, rfl⟩
abbrev main_v230 : Ref sig .tc := ⟨.hbm, 293, rfl⟩
abbrev main_cst_20 : Ref sig .tc := ⟨.hbm, 294, rfl⟩
abbrev main_v231 : Ref sig .tc := ⟨.hbm, 295, rfl⟩
abbrev main_v232 : Ref sig .tc := ⟨.hbm, 296, rfl⟩
abbrev main_v233 : Ref sig .tc := ⟨.hbm, 297, rfl⟩
abbrev main_cst_21 : Ref sig .tc := ⟨.hbm, 298, rfl⟩
abbrev main_v234 : Ref sig .tc := ⟨.hbm, 299, rfl⟩
abbrev main_v235 : Ref sig .tc := ⟨.hbm, 300, rfl⟩
abbrev main_v236 : Ref sig .tc := ⟨.hbm, 301, rfl⟩
abbrev main_v237 : Ref sig .tc := ⟨.hbm, 302, rfl⟩
abbrev main_v238 : Ref sig .tc := ⟨.hbm, 303, rfl⟩
abbrev main_v239 : Ref sig .tc := ⟨.hbm, 304, rfl⟩
abbrev main_v240 : Ref sig .tc := ⟨.hbm, 305, rfl⟩
abbrev main_v241 : Ref sig .tc := ⟨.hbm, 306, rfl⟩
abbrev main_call8_cst : Ref sig .tc := ⟨.hbm, 307, rfl⟩
abbrev main_call8_v0 : Ref sig .tc := ⟨.hbm, 308, rfl⟩
abbrev main_v242 : Ref sig .tc := ⟨.hbm, 309, rfl⟩
abbrev main_v243 : Ref sig .tc := ⟨.hbm, 310, rfl⟩
abbrev main_v244 : Ref sig .tc := ⟨.hbm, 311, rfl⟩
abbrev main_v245 : Ref sig .tc := ⟨.hbm, 312, rfl⟩
abbrev main_v246 : Ref sig .tc := ⟨.hbm, 313, rfl⟩
abbrev main_call9_cst : Ref sig .tc := ⟨.hbm, 314, rfl⟩
abbrev main_call9_v0 : Ref sig .tc := ⟨.hbm, 315, rfl⟩
abbrev main_v247 : Ref sig .tc := ⟨.hbm, 316, rfl⟩
abbrev main_v248 : Ref sig .tc := ⟨.hbm, 317, rfl⟩
abbrev main_v249 : Ref sig .tc := ⟨.hbm, 318, rfl⟩
abbrev main_v250 : Ref sig .tc := ⟨.hbm, 319, rfl⟩
abbrev main_cst_22 : Ref sig .tc := ⟨.hbm, 320, rfl⟩
abbrev main_v251 : Ref sig .tc := ⟨.hbm, 321, rfl⟩
abbrev main_v252 : Ref sig .tc := ⟨.hbm, 322, rfl⟩
abbrev main_v253 : Ref sig .tc := ⟨.hbm, 323, rfl⟩
abbrev main_v254 : Ref sig .tc := ⟨.hbm, 324, rfl⟩
abbrev main_v255 : Ref sig .tc := ⟨.hbm, 325, rfl⟩
abbrev main_v256 : Ref sig .tc := ⟨.hbm, 326, rfl⟩
abbrev main_v257 : Ref sig .tc := ⟨.hbm, 327, rfl⟩
abbrev main_v258 : Ref sig .tc := ⟨.hbm, 328, rfl⟩
abbrev main_v259 : Ref sig .tc := ⟨.hbm, 329, rfl⟩
abbrev main_v260 : Ref sig .tc := ⟨.hbm, 330, rfl⟩
abbrev main_v261 : Ref sig .tc := ⟨.hbm, 331, rfl⟩
abbrev main_cst_23 : Ref sig .tc := ⟨.hbm, 332, rfl⟩
abbrev main_v262 : Ref sig .tc := ⟨.hbm, 333, rfl⟩
abbrev main_v263 : Ref sig .tc := ⟨.hbm, 334, rfl⟩
abbrev main_v264 : Ref sig .tc := ⟨.hbm, 335, rfl⟩
abbrev main_cst_24 : Ref sig .tc := ⟨.hbm, 336, rfl⟩
abbrev main_v265 : Ref sig .tc := ⟨.hbm, 337, rfl⟩
abbrev main_cst_25 : Ref sig .tc := ⟨.hbm, 338, rfl⟩
abbrev main_v266 : Ref sig .tc := ⟨.hbm, 339, rfl⟩
abbrev main_v267 : Ref sig .tc := ⟨.hbm, 340, rfl⟩
abbrev main_v268 : Ref sig .tc := ⟨.hbm, 341, rfl⟩
abbrev main_cst_26 : Ref sig .tc := ⟨.hbm, 342, rfl⟩
abbrev main_v269 : Ref sig .tc := ⟨.hbm, 343, rfl⟩
abbrev main_v270 : Ref sig .tc := ⟨.hbm, 344, rfl⟩
abbrev main_v271 : Ref sig .tc := ⟨.hbm, 345, rfl⟩
abbrev main_v272 : Ref sig .tc := ⟨.hbm, 346, rfl⟩
abbrev main_v273 : Ref sig .tc := ⟨.hbm, 347, rfl⟩
abbrev main_v274 : Ref sig .tc := ⟨.hbm, 348, rfl⟩
abbrev main_v275 : Ref sig .tc := ⟨.hbm, 349, rfl⟩
abbrev main_v276 : Ref sig .tc := ⟨.hbm, 350, rfl⟩
abbrev main_v277 : Ref sig .tc := ⟨.hbm, 351, rfl⟩
abbrev main_call10_cst : Ref sig .tc := ⟨.hbm, 352, rfl⟩
abbrev main_call10_v0 : Ref sig .tc := ⟨.hbm, 353, rfl⟩
abbrev main_v278 : Ref sig .tc := ⟨.hbm, 354, rfl⟩
abbrev main_v279 : Ref sig .tc := ⟨.hbm, 355, rfl⟩
abbrev main_v280 : Ref sig .tc := ⟨.hbm, 356, rfl⟩
abbrev main_v281 : Ref sig .tc := ⟨.hbm, 357, rfl⟩
abbrev main_v282 : Ref sig .tc := ⟨.hbm, 358, rfl⟩
abbrev main_call11_cst : Ref sig .tc := ⟨.hbm, 359, rfl⟩
abbrev main_call11_v0 : Ref sig .tc := ⟨.hbm, 360, rfl⟩
abbrev main_call11_cst_0 : Ref sig .tc := ⟨.hbm, 361, rfl⟩
abbrev main_call11_v1 : Ref sig .tc := ⟨.hbm, 362, rfl⟩
abbrev main_call11_v2 : Ref sig .tc := ⟨.hbm, 363, rfl⟩
abbrev main_call11_v3 : Ref sig .tc := ⟨.hbm, 364, rfl⟩
abbrev main_call11_v4 : Ref sig .tc := ⟨.hbm, 365, rfl⟩
abbrev main_call11_v5 : Ref sig .tc := ⟨.hbm, 366, rfl⟩
abbrev main_call11_v6 : Ref sig .tc := ⟨.hbm, 367, rfl⟩
abbrev main_call11_cst_1 : Ref sig .tc := ⟨.hbm, 368, rfl⟩
abbrev main_call11_v7 : Ref sig .tc := ⟨.hbm, 369, rfl⟩
abbrev main_call11_v8 : Ref sig .tc := ⟨.hbm, 370, rfl⟩
abbrev main_call11_v9 : Ref sig .tc := ⟨.hbm, 371, rfl⟩
abbrev main_call11_v10 : Ref sig .tc := ⟨.hbm, 372, rfl⟩
abbrev main_v283 : Ref sig .tc := ⟨.hbm, 373, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S_S64 : S_.BroadcastsInDim S64 (![] : Fin 0 → Fin S64.rank)
  slices_S4_S1_0 : S4.Slices ![0] S1
  shapeCasts_S1_S_ : S1.ShapeCasts S_
  slices_S4x64x64_S1x64x64_0_0_0 : S4x64x64.Slices ![0, 0, 0] S1x64x64
  shapeCasts_S1x64x64_S64x64 : S1x64x64.ShapeCasts S64x64
  slices_S4x64_S1x64_0_0 : S4x64.Slices ![0, 0] S1x64
  shapeCasts_S1x64_S64 : S1x64.ShapeCasts S64
  slices_S4_S1_1 : S4.Slices ![1] S1
  slices_S4x64x64_S1x64x64_1_0_0 : S4x64x64.Slices ![1, 0, 0] S1x64x64
  slices_S4x64_S1x64_1_0 : S4x64.Slices ![1, 0] S1x64
  slices_S4_S1_2 : S4.Slices ![2] S1
  slices_S4x64x64_S1x64x64_2_0_0 : S4x64x64.Slices ![2, 0, 0] S1x64x64
  slices_S4x64_S1x64_2_0 : S4x64.Slices ![2, 0] S1x64
  slices_S4_S1_3 : S4.Slices ![3] S1
  slices_S4x64x64_S1x64x64_3_0_0 : S4x64x64.Slices ![3, 0, 0] S1x64x64
  slices_S4x64_S1x64_3_0 : S4x64.Slices ![3, 0] S1x64
  concatenates_S50000x64_S50000x64_S50000x64_S50000x64_S50000x64_S50000x320_d1 : Shape.Concatenates [S50000x64, S50000x64, S50000x64, S50000x64, S50000x64] S50000x320 1
  bcast_S_S512x320 : S_.BroadcastsInDim S512x320 (![] : Fin 0 → Fin S512x320.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S512 : S_.BroadcastsInDim S512 (![] : Fin 0 → Fin S512.rank)
  bcast_S512_S512x1_0 : S512.BroadcastsInDim S512x1 (![0] : Fin 1 → Fin S512x1.rank)
  bcast_S512x1_S512x320_0_1 : S512x1.BroadcastsInDim S512x320 (![0, 1] : Fin 2 → Fin S512x320.rank)
  bcast_S1x64_S512x64_0_1 : S1x64.BroadcastsInDim S512x64 (![0, 1] : Fin 2 → Fin S512x64.rank)
  bcast_S_S512x64 : S_.BroadcastsInDim S512x64 (![] : Fin 0 → Fin S512x64.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  reducesTo_S512x10_S512_d1 : S512x10.ReducesTo [1] S512
  h_S_ : 0 < S_.numel
  bcast_S512x1_S512x10_0_1 : S512x1.BroadcastsInDim S512x10 (![0, 1] : Fin 2 → Fin S512x10.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  dot_S50000x64_S64x64_S50000x64_1_0_0_1_n_n_wf : DotDims.WF S50000x64 S64x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S512x320_S50000x1_S50000x320_1_0_0_1_wf : ScatterDims.WF S512x320 S50000x1 S50000x320 [1] [0] [0] 1
  scatter_S512_S50000x1_S50000_n_0_0_1_wf : ScatterDims.WF S512 S50000x1 S50000 [] [0] [0] 1
  dot_S512x320_S320x64_S512x64_1_0_0_1_n_n_wf : DotDims.WF S512x320 S320x64 S512x64 [1] [0] [0] [1] [] []
  dot_S512x64_S64x10_S512x10_1_0_0_1_n_n_wf : DotDims.WF S512x64 S64x10 S512x10 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S512x320_S50000x1_S50000x320_1_0_0_1 : ScatterDims S512x320 S50000x1 S50000x320 where
  updateWindowDims := [1]
  insertedWindowDims := [0]
  scatterDimsToOperandDims := [0]
  indexVectorDim := 1
  wf := scatter_S512x320_S50000x1_S50000x320_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x320_S320x64_S512x64_1_0_0_1_n_n : DotDims S512x320 S320x64 S512x64 where
  lhsContracting := [1]
  rhsContracting := [0]
  lhsNonContracting := [0]
  rhsNonContracting := [1]
  lhsBatch := []
  rhsBatch := []
  wf := dot_S512x320_S320x64_S512x64_1_0_0_1_n_n_wf
def dot_S512x64_S64x10_S512x10_1_0_0_1_n_n : DotDims S512x64 S64x10 S512x10 where
  lhsContracting := [1]
  rhsContracting := [0]
  lhsNonContracting := [0]
  rhsNonContracting := [1]
  lhsBatch := []
  rhsBatch := []
  wf := dot_S512x64_S64x10_S512x10_1_0_0_1_n_n_wf

class Facts : Prop extends Facts₀ where

variable [Facts]
-- ==== Proof.KB.Reg0.lean ====
/-
  Region 0 of the program (the dense-dense-normalise kernel of layer 1), at a parameter `V`: the buffer contents when the region is entered.
  Each input window's staging buffer holds, at every grid point, the block of its array that the point's index
  map names; the body reads those blocks whole, computes one value and stores it whole into the output window's
  buffer. So after the body at point `t` the output buffer holds `out0_9` of the input blocks at `t`, and the input
  buffers are as they were: that is the proof data, and the body's triple under the symbolic executor is its
  obligation at every point.
-/
import proofs.«109974_j38371237822822_1_alg».proof.Proof.Gen.Kernel.Launch
import proofs.«109974_j38371237822822_1_alg».proof.Proof.Gen.Kernel.Skeleton
import proofs.«109974_j38371237822822_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether the point fetches it or the block
    index has not moved since it was fetched. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether the point fetches it or the block
    index has not moved since it was fetched. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether the point fetches it or the block
    index has not moved since it was fetched. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, whether the point fetches it or the block
    index has not moved since it was fetched. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, whether the point fetches it or the block
    index has not moved since it was fetched. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, whether the point fetches it or the block
    index has not moved since it was fetched. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, whether the point fetches it or the block
    index has not moved since it was fetched. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current staging buffer holds its block at every point, whether the point fetches it or the block
    index has not moved since it was fetched. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8's current staging buffer holds its block at every point, whether the point fetches it or the block
    index has not moved since it was fetched. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take a whole buffer -/

abbrev r0_S5000x128 : Rect S5000x128 := Rect.unit (s := S5000x128) ![0, 0] S5000x128.size inb_S5000x128_S5000x128_0_0
abbrev r0_S128x64 : Rect S128x64 := Rect.unit (s := S128x64) ![0, 0] S128x64.size inb_S128x64_S128x64_0_0
abbrev r0_S64 : Rect S64 := Rect.unit (s := S64) ![0] S64.size inb_S64_S64_0
abbrev r0_S64x64 : Rect S64x64 := Rect.unit (s := S64x64) ![0, 0] S64x64.size inb_S64x64_S64x64_0_0
abbrev r0_S5000x64 : Rect S5000x64 := Rect.unit (s := S5000x64) ![0, 0] S5000x64.size inb_S5000x64_S5000x64_0_0

/-- The output window's staging buffer after the body, from the input windows' blocks: the one store's value. -/
def out0_9 (x0 : Vec F S5000x128 .f32) (x1 : Vec F S128x64 .bf16) (x2 : Vec F S64 .f32) (x3 : Vec F S64x64 .bf16) (x4 : Vec F S64 .f32) (x5 : Vec F S64 .f32) (x6 : Vec F S64 .f32) (x7 : Vec F S64 .f32) (x8 : Vec F S64 .f32) : Vec F S5000x64 .f32 :=
  View.canon [⟨r0_S5000x64, k0_pay1 (View.ld x0 r0_S5000x128) (View.ld x1 r0_S128x64) (View.ld x2 r0_S64) (View.ld x3 r0_S64x64) (View.ld x4 r0_S64) (View.ld x5 r0_S64) (View.ld x8 r0_S64) (View.ld x7 r0_S64) (View.ld x6 r0_S64)⟩]

/-- The one store covers the buffer. -/
theorem cover0_9 (p0 : Vec F S5000x64 .f32) (y : S5000x64.Idx) :
    ∃ pc ∈ ([⟨r0_S5000x64, p0⟩] : List (View.Piece (Elt F) S5000x64 .f32)), y ∈ pc.1.set :=
  View.cover_of_tiled [⟨r0_S5000x64, p0⟩] S5000x64.size (by rfl) y

set_option maxHeartbeats 4000000 in
/-- The body on whole staging buffers, the inputs' at contents `xW` and the output's at anything, runs to the
    continuation holding the inputs' as they were and the output's at `out0_9` of the inputs'. -/
theorem sound_kernel0 (c : Dev nD) (E : Set ℕ) (i : grid0.Coords) (arg1 : Memref sig .tc .vmem S5000x128 .f32) (harg1 : arg1.IsWhole) (arg2 : Memref sig .tc .vmem S128x64 .bf16) (harg2 : arg2.IsWhole) (arg3 : Memref sig .tc .vmem S64 .f32) (harg3 : arg3.IsWhole) (arg4 : Memref sig .tc .vmem S64x64 .bf16) (harg4 : arg4.IsWhole) (arg5 : Memref sig .tc .vmem S64 .f32) (harg5 : arg5.IsWhole) (arg6 : Memref sig .tc .vmem S64 .f32) (harg6 : arg6.IsWhole) (arg7 : Memref sig .tc .vmem S64 .f32) (harg7 : arg7.IsWhole) (arg8 : Memref sig .tc .vmem S64 .f32) (harg8 : arg8.IsWhole) (arg9 : Memref sig .tc .vmem S64 .f32) (harg9 : arg9.IsWhole) (arg10 : Memref sig .tc .vmem S5000x64 .f32) (harg10 : arg10.IsWhole)
    (x0 : Vec F S5000x128 .f32) (x1 : Vec F S128x64 .bf16) (x2 : Vec F S64 .f32) (x3 : Vec F S64x64 .bf16) (x4 : Vec F S64 .f32) (x5 : Vec F S64 .f32) (x6 : Vec F S64 .f32) (x7 : Vec F S64 .f32) (x8 : Vec F S64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4 x5 x6 x7 x8)) -∗ K ⟨⟩))
      ⊢ wp frame (wpE (defs₀ (F := F)) Variants.none c none) E (cc0__gin_mlp_bn_kernel i arg1 harg1 arg2 harg2 arg3 harg3 arg4 harg4 arg5 harg5 arg6 harg6 arg7 harg7 arg8 harg8 arg9 harg9 arg10 harg10) K := by
  simp only [cc0__gin_mlp_bn_kernel_eq_skeleton]; unfold cc0__gin_mlp_bn_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover0_9 _)

/-- The proof data of this region on core `c`: the arrays as the region finds them; after the body at point `t` each
    input's buffer at its block and the output's at `out0_9` of the input blocks; nothing owed, full shares, and the
    invariant that only carries the scoped rest and the generator register through. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 1 t) (iblk0 V c 2 t) (iblk0 V c 3 t) (iblk0 V c 4 t) (iblk0 V c 5 t) (iblk0 V c 6 t) (iblk0 V c 7 t) (iblk0 V c 8 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 2000000 in
/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.Reg1.lean ====
/-
  Region 1 of the program (the dense-dense-normalise kernel of layer 2), at a parameter `V`: the buffer contents when the region is entered.
  Each input window's staging buffer holds, at every grid point, the block of its array that the point's index
  map names; the body reads those blocks whole, computes one value and stores it whole into the output window's
  buffer. So after the body at point `t` the output buffer holds `out1_9` of the input blocks at `t`, and the input
  buffers are as they were: that is the proof data, and the body's triple under the symbolic executor is its
  obligation at every point.
-/
import proofs.«109974_j38371237822822_1_alg».proof.Proof.Gen.Kernel.Launch
import proofs.«109974_j38371237822822_1_alg».proof.Proof.Gen.Kernel.Skeleton
import proofs.«109974_j38371237822822_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether the point fetches it or the block
    index has not moved since it was fetched. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether the point fetches it or the block
    index has not moved since it was fetched. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether the point fetches it or the block
    index has not moved since it was fetched. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, whether the point fetches it or the block
    index has not moved since it was fetched. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, whether the point fetches it or the block
    index has not moved since it was fetched. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, whether the point fetches it or the block
    index has not moved since it was fetched. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, whether the point fetches it or the block
    index has not moved since it was fetched. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, whether the point fetches it or the block
    index has not moved since it was fetched. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's current staging buffer holds its block at every point, whether the point fetches it or the block
    index has not moved since it was fetched. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take a whole buffer -/

abbrev r1_S5000x64 : Rect S5000x64 := Rect.unit (s := S5000x64) ![0, 0] S5000x64.size inb_S5000x64_S5000x64_0_0
abbrev r1_S64x64 : Rect S64x64 := Rect.unit (s := S64x64) ![0, 0] S64x64.size inb_S64x64_S64x64_0_0
abbrev r1_S64 : Rect S64 := Rect.unit (s := S64) ![0] S64.size inb_S64_S64_0

/-- The output window's staging buffer after the body, from the input windows' blocks: the one store's value. -/
def out1_9 (x0 : Vec F S5000x64 .f32) (x1 : Vec F S64x64 .bf16) (x2 : Vec F S64 .f32) (x3 : Vec F S64x64 .bf16) (x4 : Vec F S64 .f32) (x5 : Vec F S64 .f32) (x6 : Vec F S64 .f32) (x7 : Vec F S64 .f32) (x8 : Vec F S64 .f32) : Vec F S5000x64 .f32 :=
  View.canon [⟨r1_S5000x64, k1_pay1 (k1_pay2 (View.ld x0 r1_S5000x64) (View.ld x1 r1_S64x64) (View.ld x2 r1_S64) (View.ld x3 r1_S64x64) (View.ld x4 r1_S64) (View.ld x5 r1_S64) (View.ld x8 r1_S64) (View.ld x7 r1_S64)) (k1_pay3 (View.ld x6 r1_S64))⟩]

/-- The one store covers the buffer. -/
theorem cover1_9 (p0 : Vec F S5000x64 .f32) (y : S5000x64.Idx) :
    ∃ pc ∈ ([⟨r1_S5000x64, p0⟩] : List (View.Piece (Elt F) S5000x64 .f32)), y ∈ pc.1.set :=
  View.cover_of_tiled [⟨r1_S5000x64, p0⟩] S5000x64.size (by rfl) y

set_option maxHeartbeats 4000000 in
/-- The body on whole staging buffers, the inputs' at contents `xW` and the output's at anything, runs to the
    continuation holding the inputs' as they were and the output's at `out1_9` of the inputs'. -/
theorem sound_kernel1 (c : Dev nD) (E : Set ℕ) (i : grid1.Coords) (arg1 : Memref sig .tc .vmem S5000x64 .f32) (harg1 : arg1.IsWhole) (arg2 : Memref sig .tc .vmem S64x64 .bf16) (harg2 : arg2.IsWhole) (arg3 : Memref sig .tc .vmem S64 .f32) (harg3 : arg3.IsWhole) (arg4 : Memref sig .tc .vmem S64x64 .bf16) (harg4 : arg4.IsWhole) (arg5 : Memref sig .tc .vmem S64 .f32) (harg5 : arg5.IsWhole) (arg6 : Memref sig .tc .vmem S64 .f32) (harg6 : arg6.IsWhole) (arg7 : Memref sig .tc .vmem S64 .f32) (harg7 : arg7.IsWhole) (arg8 : Memref sig .tc .vmem S64 .f32) (harg8 : arg8.IsWhole) (arg9 : Memref sig .tc .vmem S64 .f32) (harg9 : arg9.IsWhole) (arg10 : Memref sig .tc .vmem S5000x64 .f32) (harg10 : arg10.IsWhole)
    (x0 : Vec F S5000x64 .f32) (x1 : Vec F S64x64 .bf16) (x2 : Vec F S64 .f32) (x3 : Vec F S64x64 .bf16) (x4 : Vec F S64 .f32) (x5 : Vec F S64 .f32) (x6 : Vec F S64 .f32) (x7 : Vec F S64 .f32) (x8 : Vec F S64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out1_9 x0 x1 x2 x3 x4 x5 x6 x7 x8)) -∗ K ⟨⟩))
      ⊢ wp frame (wpE (defs₀ (F := F)) Variants.none c none) E (cc1__gin_mlp_bn_kernel i arg1 harg1 arg2 harg2 arg3 harg3 arg4 harg4 arg5 harg5 arg6 harg6 arg7 harg7 arg8 harg8 arg9 harg9 arg10 harg10) K := by
  simp only [cc1__gin_mlp_bn_kernel_eq_skeleton]; unfold cc1__gin_mlp_bn_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover1_9 _)

/-- The proof data of this region on core `c`: the arrays as the region finds them; after the body at point `t` each
    input's buffer at its block and the output's at `out1_9` of the input blocks; nothing owed, full shares, and the
    invariant that only carries the scoped rest and the generator register through. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

set_option maxHeartbeats 2000000 in
/-- The body at any point: the inputs' buffers hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.Reg2.lean ====
/-
  Region 2 of the program (the dense-dense-normalise kernel of layer 3), at a parameter `V`: the buffer contents when the region is entered.
  Each input window's staging buffer holds, at every grid point, the block of its array that the point's index
  map names; the body reads those blocks whole, computes one value and stores it whole into the output window's
  buffer. So after the body at point `t` the output buffer holds `out2_9` of the input blocks at `t`, and the input
  buffers are as they were: that is the proof data, and the body's triple under the symbolic executor is its
  obligation at every point.
-/
import proofs.«109974_j38371237822822_1_alg».proof.Proof.Gen.Kernel.Launch
import proofs.«109974_j38371237822822_1_alg».proof.Proof.Gen.Kernel.Skeleton
import proofs.«109974_j38371237822822_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether the point fetches it or the block
    index has not moved since it was fetched. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, whether the point fetches it or the block
    index has not moved since it was fetched. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, whether the point fetches it or the block
    index has not moved since it was fetched. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, whether the point fetches it or the block
    index has not moved since it was fetched. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, whether the point fetches it or the block
    index has not moved since it was fetched. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, whether the point fetches it or the block
    index has not moved since it was fetched. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, whether the point fetches it or the block
    index has not moved since it was fetched. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds its block at every point, whether the point fetches it or the block
    index has not moved since it was fetched. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- Input window 8's current staging buffer holds its block at every point, whether the point fetches it or the block
    index has not moved since it was fetched. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the one store take a whole buffer -/

abbrev r2_S5000x64 : Rect S5000x64 := Rect.unit (s := S5000x64) ![0, 0] S5000x64.size inb_S5000x64_S5000x64_0_0
abbrev r2_S64x64 : Rect S64x64 := Rect.unit (s := S64x64) ![0, 0] S64x64.size inb_S64x64_S64x64_0_0
abbrev r2_S64 : Rect S64 := Rect.unit (s := S64) ![0] S64.size inb_S64_S64_0

/-- The output window's staging buffer after the body, from the input windows' blocks: the one store's value. -/
def out2_9 (x0 : Vec F S5000x64 .f32) (x1 : Vec F S64x64 .bf16) (x2 : Vec F S64 .f32) (x3 : Vec F S64x64 .bf16) (x4 : Vec F S64 .f32) (x5 : Vec F S64 .f32) (x6 : Vec F S64 .f32) (x7 : Vec F S64 .f32) (x8 : Vec F S64 .f32) : Vec F S5000x64 .f32 :=
  View.canon [⟨r2_S5000x64, k2_pay1 (k2_pay2 (View.ld x0 r2_S5000x64) (View.ld x1 r2_S64x64) (View.ld x2 r2_S64) (View.ld x3 r2_S64x64) (View.ld x4 r2_S64) (View.ld x5 r2_S64) (View.ld x8 r2_S64) (View.ld x7 r2_S64)) (k2_pay3 (View.ld x6 r2_S64))⟩]

/-- The one store covers the buffer. -/
theorem cover2_9 (p0 : Vec F S5000x64 .f32) (y : S5000x64.Idx) :
    ∃ pc ∈ ([⟨r2_S5000x64, p0⟩] : List (View.Piece (Elt F) S5000x64 .f32)), y ∈ pc.1.set :=
  View.cover_of_tiled [⟨r2_S5000x64, p0⟩] S5000x64.size (by rfl) y

set_option maxHeartbeats 4000000 in
/-- The body on whole staging buffers, the inputs' at contents `xW` and the output's at anything, runs to the
    continuation holding the inputs' as they were and the output's at `out2_9` of the inputs'. -/
theorem sound_kernel2 (c : Dev nD) (E : Set ℕ) (i : grid2.Coords) (arg1 : Memref sig .tc .vmem S5000x64 .f32) (harg1 : arg1.IsWhole) (arg2 : Memref sig .tc .vmem S64x64 .bf16) (harg2 : arg2.IsWhole) (arg3 : Memref sig .tc .vmem S64 .f32) (harg3 : arg3.IsWhole) (arg4 : Memref sig .tc .vmem S64x64 .bf16) (harg4 : arg4.IsWhole) (arg5 : Memref sig .tc .vmem S64 .f32) (harg5 : arg5.IsWhole) (arg6 : Memref sig .tc .vmem S64 .f32) (harg6 : arg6.IsWhole) (arg7 : Memref sig .tc .vmem S64 .f32) (harg7 : arg7.IsWhole) (arg8 : Memref sig .tc .vmem S64 .f32) (harg8 : arg8.IsWhole) (arg9 : Memref sig .tc .vmem S64 .f32) (harg9 : arg9.IsWhole) (arg10 : Memref sig .tc .vmem S5000x64 .f32) (harg10 : arg10.IsWhole)
    (x0 : Vec F S5000x64 .f32) (x1 : Vec F S64x64 .bf16) (x2 : Vec F S64 .f32) (x3 : Vec F S64x64 .bf16) (x4 : Vec F S64 .f32) (x5 : Vec F S64 .f32) (x6 : Vec F S64 .f32) (x7 : Vec F S64 .f32) (x8 : Vec F S64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out2_9 x0 x1 x2 x3 x4 x5 x6 x7 x8)) -∗ K ⟨⟩))
      ⊢ wp frame (wpE (defs₀ (F := F)) Variants.none c none) E (cc2__gin_mlp_bn_kernel i arg1 harg1 arg2 harg2 arg3 harg3 arg4 harg4 arg5 harg5 arg6 harg6 arg7 harg7 arg8 harg8 arg9 harg9 arg10 harg10) K := by
  simp only [cc2__gin_mlp_bn_kernel_eq_skeleton]; unfold cc2__gin_mlp_bn_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover2_9 _)

/-- The proof data of this region on core `c`: the arrays as the region finds them; after the body at point `t` each
    input's buffer at its block and the output's at `out2_9` of the input blocks; nothing owed, full shares, and the
    invariant that only carries the scoped rest and the generator register through. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => out2_9 (iblk2 V c 0 t) (iblk2 V c 1 t) (iblk2 V c 2 t) (iblk2 V c 3 t) (iblk2 V c 4 t) (iblk2 V c 5 t) (iblk2 V c 6 t) (iblk2 V c 7 t) (iblk2 V c 8 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = out2_9 (iblk2 V c 0 t) (iblk2 V c 1 t) (iblk2 V c 2 t) (iblk2 V c 3 t) (iblk2 V c 4 t) (iblk2 V c 5 t) (iblk2 V c 6 t) (iblk2 V c 7 t) (iblk2 V c 8 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t))

set_option maxHeartbeats 2000000 in
/-- The body at any point: the inputs' buffers hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel2 c Set.univ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KB.Reg3.lean ====
/-
  Region 3 of the program (the dense-dense-normalise kernel of layer 4), at a parameter `V`: the buffer contents when the region is entered.
  Each input window's staging buffer holds, at every grid point, the block of its array that the point's index
  map names; the body reads those blocks whole, computes one value and stores it whole into the output window's
  buffer. So after the body at point `t` the output buffer holds `out3_9` of the input blocks at `t`, and the input
  buffers are as they were: that is the proof data, and the body's triple under the symbolic executor is its
  obligation at every point.
-/
import proofs.«109974_j38371237822822_1_alg».proof.Proof.Gen.Kernel.Launch
import proofs.«109974_j38371237822822_1_alg».proof.Proof.Gen.Kernel.Skeleton
import proofs.«109974_j38371237822822_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, whether the point fetches it or the block
    index has not moved since it was fetched. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, whether the point fetches it or the block
    index has not moved since it was fetched. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, whether the point fetches it or the block
    index has not moved since it was fetched. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, whether the point fetches it or the block
    index has not moved since it was fetched. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, whether the point fetches it or the block
    index has not moved since it was fetched. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current staging buffer holds its block at every point, whether the point fetches it or the block
    index has not moved since it was fetched. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- Input window 6's current staging buffer holds its block at every point, whether the point fetches it or the block
    index has not moved since it was fetched. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-- Input window 7's current staging buffer holds its block at every point, whether the point fetches it or the block
    index has not moved since it was fetched. -/
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

/-- Input window 8's current staging buffer holds its block at every point, whether the point fetches it or the block
    index has not moved since it was fetched. -/
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and the one store take a whole buffer -/

abbrev r3_S5000x64 : Rect S5000x64 := Rect.unit (s := S5000x64) ![0, 0] S5000x64.size inb_S5000x64_S5000x64_0_0
abbrev r3_S64x64 : Rect S64x64 := Rect.unit (s := S64x64) ![0, 0] S64x64.size inb_S64x64_S64x64_0_0
abbrev r3_S64 : Rect S64 := Rect.unit (s := S64) ![0] S64.size inb_S64_S64_0

/-- The output window's staging buffer after the body, from the input windows' blocks: the one store's value. -/
def out3_9 (x0 : Vec F S5000x64 .f32) (x1 : Vec F S64x64 .bf16) (x2 : Vec F S64 .f32) (x3 : Vec F S64x64 .bf16) (x4 : Vec F S64 .f32) (x5 : Vec F S64 .f32) (x6 : Vec F S64 .f32) (x7 : Vec F S64 .f32) (x8 : Vec F S64 .f32) : Vec F S5000x64 .f32 :=
  View.canon [⟨r3_S5000x64, k3_pay1 (k3_pay2 (View.ld x0 r3_S5000x64) (View.ld x1 r3_S64x64) (View.ld x2 r3_S64) (View.ld x3 r3_S64x64) (View.ld x4 r3_S64) (View.ld x5 r3_S64) (View.ld x8 r3_S64) (View.ld x7 r3_S64)) (k3_pay3 (View.ld x6 r3_S64))⟩]

/-- The one store covers the buffer. -/
theorem cover3_9 (p0 : Vec F S5000x64 .f32) (y : S5000x64.Idx) :
    ∃ pc ∈ ([⟨r3_S5000x64, p0⟩] : List (View.Piece (Elt F) S5000x64 .f32)), y ∈ pc.1.set :=
  View.cover_of_tiled [⟨r3_S5000x64, p0⟩] S5000x64.size (by rfl) y

set_option maxHeartbeats 4000000 in
/-- The body on whole staging buffers, the inputs' at contents `xW` and the output's at anything, runs to the
    continuation holding the inputs' as they were and the output's at `out3_9` of the inputs'. -/
theorem sound_kernel3 (c : Dev nD) (E : Set ℕ) (i : grid3.Coords) (arg1 : Memref sig .tc .vmem S5000x64 .f32) (harg1 : arg1.IsWhole) (arg2 : Memref sig .tc .vmem S64x64 .bf16) (harg2 : arg2.IsWhole) (arg3 : Memref sig .tc .vmem S64 .f32) (harg3 : arg3.IsWhole) (arg4 : Memref sig .tc .vmem S64x64 .bf16) (harg4 : arg4.IsWhole) (arg5 : Memref sig .tc .vmem S64 .f32) (harg5 : arg5.IsWhole) (arg6 : Memref sig .tc .vmem S64 .f32) (harg6 : arg6.IsWhole) (arg7 : Memref sig .tc .vmem S64 .f32) (harg7 : arg7.IsWhole) (arg8 : Memref sig .tc .vmem S64 .f32) (harg8 : arg8.IsWhole) (arg9 : Memref sig .tc .vmem S64 .f32) (harg9 : arg9.IsWhole) (arg10 : Memref sig .tc .vmem S5000x64 .f32) (harg10 : arg10.IsWhole)
    (x0 : Vec F S5000x64 .f32) (x1 : Vec F S64x64 .bf16) (x2 : Vec F S64 .f32) (x3 : Vec F S64x64 .bf16) (x4 : Vec F S64 .f32) (x5 : Vec F S64 .f32) (x6 : Vec F S64 .f32) (x7 : Vec F S64 .f32) (x8 : Vec F S64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out3_9 x0 x1 x2 x3 x4 x5 x6 x7 x8)) -∗ K ⟨⟩))
      ⊢ wp frame (wpE (defs₀ (F := F)) Variants.none c none) E (cc3__gin_mlp_bn_kernel i arg1 harg1 arg2 harg2 arg3 harg3 arg4 harg4 arg5 harg5 arg6 harg6 arg7 harg7 arg8 harg8 arg9 harg9 arg10 harg10) K := by
  simp only [cc3__gin_mlp_bn_kernel_eq_skeleton]; unfold cc3__gin_mlp_bn_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover3_9 _)

/-- The proof data of this region on core `c`: the arrays as the region finds them; after the body at point `t` each
    input's buffer at its block and the output's at `out3_9` of the input blocks; nothing owed, full shares, and the
    invariant that only carries the scoped rest and the generator register through. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => out3_9 (iblk3 V c 0 t) (iblk3 V c 1 t) (iblk3 V c 2 t) (iblk3 V c 3 t) (iblk3 V c 4 t) (iblk3 V c 5 t) (iblk3 V c 6 t) (iblk3 V c 7 t) (iblk3 V c 8 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = out3_9 (iblk3 V c 0 t) (iblk3 V c 1 t) (iblk3 V c 2 t) (iblk3 V c 3 t) (iblk3 V c 4 t) (iblk3 V c 5 t) (iblk3 V c 6 t) (iblk3 V c 7 t) (iblk3 V c 8 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t))

set_option maxHeartbeats 2000000 in
/-- The body at any point: the inputs' buffers hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel3 c Set.univ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KB.Reg4.lean ====
/-
  Region 4 of the program (the dense-dense-normalise kernel of layer 5), at a parameter `V`: the buffer contents when the region is entered.
  Each input window's staging buffer holds, at every grid point, the block of its array that the point's index
  map names; the body reads those blocks whole, computes one value and stores it whole into the output window's
  buffer. So after the body at point `t` the output buffer holds `out4_9` of the input blocks at `t`, and the input
  buffers are as they were: that is the proof data, and the body's triple under the symbolic executor is its
  obligation at every point.
-/
import proofs.«109974_j38371237822822_1_alg».proof.Proof.Gen.Kernel.Launch
import proofs.«109974_j38371237822822_1_alg».proof.Proof.Gen.Kernel.Skeleton
import proofs.«109974_j38371237822822_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, whether the point fetches it or the block
    index has not moved since it was fetched. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, whether the point fetches it or the block
    index has not moved since it was fetched. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, whether the point fetches it or the block
    index has not moved since it was fetched. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, whether the point fetches it or the block
    index has not moved since it was fetched. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, whether the point fetches it or the block
    index has not moved since it was fetched. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's current staging buffer holds its block at every point, whether the point fetches it or the block
    index has not moved since it was fetched. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-- Input window 6's current staging buffer holds its block at every point, whether the point fetches it or the block
    index has not moved since it was fetched. -/
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

/-- Input window 7's current staging buffer holds its block at every point, whether the point fetches it or the block
    index has not moved since it was fetched. -/
theorem before4_7_of {c : Dev nD} (dat : Dat τ (Elt F) Unit ℕ (UR sig nD τ) ℕ cfg4 c) (hA : dat.A 7 = V c (Pipeline.arrRef spec4 7))
    (hafter : ∀ t, dat.after 7 t = iblk4 V c 7 t) (t : Fin cfg4.N) (d) : dat.before 7 t d = iblk4 V c 7 t :=
  (dat.before_in_eq_fetched 7 rfl (fun _ => rfl) (fun _ _ _ => rfl) (fun t => by rw [hafter]; unfold Dat.blockOf iblk4; rw [hA]; try rfl) t d).trans
    (by unfold Dat.fetched Dat.blockOf iblk4; rw [hA]; try rfl)

/-- Input window 8's current staging buffer holds its block at every point, whether the point fetches it or the block
    index has not moved since it was fetched. -/
theorem before4_8_of {c : Dev nD} (dat : Dat τ (Elt F) Unit ℕ (UR sig nD τ) ℕ cfg4 c) (hA : dat.A 8 = V c (Pipeline.arrRef spec4 8))
    (hafter : ∀ t, dat.after 8 t = iblk4 V c 8 t) (t : Fin cfg4.N) (d) : dat.before 8 t d = iblk4 V c 8 t :=
  (dat.before_in_eq_fetched 8 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: every load and the one store take a whole buffer -/

abbrev r4_S5000x64 : Rect S5000x64 := Rect.unit (s := S5000x64) ![0, 0] S5000x64.size inb_S5000x64_S5000x64_0_0
abbrev r4_S64x64 : Rect S64x64 := Rect.unit (s := S64x64) ![0, 0] S64x64.size inb_S64x64_S64x64_0_0
abbrev r4_S64 : Rect S64 := Rect.unit (s := S64) ![0] S64.size inb_S64_S64_0

/-- The output window's staging buffer after the body, from the input windows' blocks: the one store's value. -/
def out4_9 (x0 : Vec F S5000x64 .f32) (x1 : Vec F S64x64 .bf16) (x2 : Vec F S64 .f32) (x3 : Vec F S64x64 .bf16) (x4 : Vec F S64 .f32) (x5 : Vec F S64 .f32) (x6 : Vec F S64 .f32) (x7 : Vec F S64 .f32) (x8 : Vec F S64 .f32) : Vec F S5000x64 .f32 :=
  View.canon [⟨r4_S5000x64, k4_pay1 (k4_pay2 (View.ld x0 r4_S5000x64) (View.ld x1 r4_S64x64) (View.ld x2 r4_S64) (View.ld x3 r4_S64x64) (View.ld x4 r4_S64) (View.ld x5 r4_S64) (View.ld x8 r4_S64) (View.ld x7 r4_S64)) (k4_pay3 (View.ld x6 r4_S64))⟩]

/-- The one store covers the buffer. -/
theorem cover4_9 (p0 : Vec F S5000x64 .f32) (y : S5000x64.Idx) :
    ∃ pc ∈ ([⟨r4_S5000x64, p0⟩] : List (View.Piece (Elt F) S5000x64 .f32)), y ∈ pc.1.set :=
  View.cover_of_tiled [⟨r4_S5000x64, p0⟩] S5000x64.size (by rfl) y

set_option maxHeartbeats 4000000 in
/-- The body on whole staging buffers, the inputs' at contents `xW` and the output's at anything, runs to the
    continuation holding the inputs' as they were and the output's at `out4_9` of the inputs'. -/
theorem sound_kernel4 (c : Dev nD) (E : Set ℕ) (i : grid4.Coords) (arg1 : Memref sig .tc .vmem S5000x64 .f32) (harg1 : arg1.IsWhole) (arg2 : Memref sig .tc .vmem S64x64 .bf16) (harg2 : arg2.IsWhole) (arg3 : Memref sig .tc .vmem S64 .f32) (harg3 : arg3.IsWhole) (arg4 : Memref sig .tc .vmem S64x64 .bf16) (harg4 : arg4.IsWhole) (arg5 : Memref sig .tc .vmem S64 .f32) (harg5 : arg5.IsWhole) (arg6 : Memref sig .tc .vmem S64 .f32) (harg6 : arg6.IsWhole) (arg7 : Memref sig .tc .vmem S64 .f32) (harg7 : arg7.IsWhole) (arg8 : Memref sig .tc .vmem S64 .f32) (harg8 : arg8.IsWhole) (arg9 : Memref sig .tc .vmem S64 .f32) (harg9 : arg9.IsWhole) (arg10 : Memref sig .tc .vmem S5000x64 .f32) (harg10 : arg10.IsWhole)
    (x0 : Vec F S5000x64 .f32) (x1 : Vec F S64x64 .bf16) (x2 : Vec F S64 .f32) (x3 : Vec F S64x64 .bf16) (x4 : Vec F S64 .f32) (x5 : Vec F S64 .f32) (x6 : Vec F S64 .f32) (x7 : Vec F S64 .f32) (x8 : Vec F S64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out4_9 x0 x1 x2 x3 x4 x5 x6 x7 x8)) -∗ K ⟨⟩))
      ⊢ wp frame (wpE (defs₀ (F := F)) Variants.none c none) E (cc4__gin_mlp_bn_kernel i arg1 harg1 arg2 harg2 arg3 harg3 arg4 harg4 arg5 harg5 arg6 harg6 arg7 harg7 arg8 harg8 arg9 harg9 arg10 harg10) K := by
  simp only [cc4__gin_mlp_bn_kernel_eq_skeleton]; unfold cc4__gin_mlp_bn_kernel_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover4_9 _)

/-- The proof data of this region on core `c`: the arrays as the region finds them; after the body at point `t` each
    input's buffer at its block and the output's at `out4_9` of the input blocks; nothing owed, full shares, and the
    invariant that only carries the scoped rest and the generator register through. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => out4_9 (iblk4 V c 0 t) (iblk4 V c 1 t) (iblk4 V c 2 t) (iblk4 V c 3 t) (iblk4 V c 4 t) (iblk4 V c 5 t) (iblk4 V c 6 t) (iblk4 V c 7 t) (iblk4 V c 8 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) : (dat4 V c).after 8 t = iblk4 V c 8 t := by dsimp only [dat4]
theorem after4_9 (c : Dev nD) (t : Fin cfg4.N) : (dat4 V c).after 9 t = out4_9 (iblk4 V c 0 t) (iblk4 V c 1 t) (iblk4 V c 2 t) (iblk4 V c 3 t) (iblk4 V c 4 t) (iblk4 V c 5 t) (iblk4 V c 6 t) (iblk4 V c 7 t) (iblk4 V c 8 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d
theorem before4_7 (c : Dev nD) (t : Fin cfg4.N) (d) : (dat4 V c).before 7 t d = iblk4 V c 7 t :=
  before4_7_of V (dat4 V c) (A_eq4 V c 7) (after4_7 V c) t d
theorem before4_8 (c : Dev nD) (t : Fin cfg4.N) (d) : (dat4 V c).before 8 t d = iblk4 V c 8 t :=
  before4_8_of V (dat4 V c) (A_eq4 V c 8) (after4_8 V c) t d

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d))
    ∗ (∃ d, owns (c : Thread nD τ) (st4_9 t) fullShare ((dat4 V c).before 9 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t)
    ∗ owns (c : Thread nD τ) (st4_8 t) fullShare ((dat4 V c).after 8 t)
    ∗ owns (c : Thread nD τ) (st4_9 t) fullShare ((dat4 V c).after 9 t))

set_option maxHeartbeats 2000000 in
/-- The body at any point: the inputs' buffers hold their blocks, so the body's triple applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6, before4_7, before4_8]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8, after4_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel4 c Set.univ _ _ _ _ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) (iblk4 V c 7 t) (iblk4 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.KB.Reg5.lean ====
/-
  Region 5 of the program (the read-out head), at a parameter `V`: the buffer contents when the region is entered.
  Each input window's staging buffer holds, at every grid point, the block of its array that the point's index
  map names; the body reads those blocks whole, computes one value and stores it whole into the output window's
  buffer. So after the body at point `t` the output buffer holds `out5_5` of the input blocks at `t`, and the input
  buffers are as they were: that is the proof data, and the body's triple under the symbolic executor is its
  obligation at every point.
-/
import proofs.«109974_j38371237822822_1_alg».proof.Proof.Gen.Kernel.Launch
import proofs.«109974_j38371237822822_1_alg».proof.Proof.Gen.Kernel.Skeleton
import proofs.«109974_j38371237822822_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, whether the point fetches it or the block
    index has not moved since it was fetched. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, whether the point fetches it or the block
    index has not moved since it was fetched. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, whether the point fetches it or the block
    index has not moved since it was fetched. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, whether the point fetches it or the block
    index has not moved since it was fetched. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, whether the point fetches it or the block
    index has not moved since it was fetched. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: every load and the one store take a whole buffer -/

abbrev r5_S512x320 : Rect S512x320 := Rect.unit (s := S512x320) ![0, 0] S512x320.size inb_S512x320_S512x320_0_0
abbrev r5_S320x64 : Rect S320x64 := Rect.unit (s := S320x64) ![0, 0] S320x64.size inb_S320x64_S320x64_0_0
abbrev r5_S64 : Rect S64 := Rect.unit (s := S64) ![0] S64.size inb_S64_S64_0
abbrev r5_S64x10 : Rect S64x10 := Rect.unit (s := S64x10) ![0, 0] S64x10.size inb_S64x10_S64x10_0_0
abbrev r5_S10 : Rect S10 := Rect.unit (s := S10) ![0] S10.size inb_S10_S10_0
abbrev r5_S512x10 : Rect S512x10 := Rect.unit (s := S512x10) ![0, 0] S512x10.size inb_S512x10_S512x10_0_0

/-- The output window's staging buffer after the body, from the input windows' blocks: the one store's value. -/
def out5_5 (x0 : Vec F S512x320 .f32) (x1 : Vec F S320x64 .bf16) (x2 : Vec F S64 .f32) (x3 : Vec F S64x10 .bf16) (x4 : Vec F S10 .f32) : Vec F S512x10 .f32 :=
  View.canon [⟨r5_S512x10, k5_pay1 (View.ld x0 r5_S512x320) (View.ld x1 r5_S320x64) (View.ld x2 r5_S64) (View.ld x3 r5_S64x10) (View.ld x4 r5_S10)⟩]

/-- The one store covers the buffer. -/
theorem cover5_5 (p0 : Vec F S512x10 .f32) (y : S512x10.Idx) :
    ∃ pc ∈ ([⟨r5_S512x10, p0⟩] : List (View.Piece (Elt F) S512x10 .f32)), y ∈ pc.1.set :=
  View.cover_of_tiled [⟨r5_S512x10, p0⟩] S512x10.size (by rfl) y

set_option maxHeartbeats 4000000 in
/-- The body on whole staging buffers, the inputs' at contents `xW` and the output's at anything, runs to the
    continuation holding the inputs' as they were and the output's at `out5_5` of the inputs'. -/
theorem sound_kernel5 (c : Dev nD) (E : Set ℕ) (i : grid5.Coords) (arg1 : Memref sig .tc .vmem S512x320 .f32) (harg1 : arg1.IsWhole) (arg2 : Memref sig .tc .vmem S320x64 .bf16) (harg2 : arg2.IsWhole) (arg3 : Memref sig .tc .vmem S64 .f32) (harg3 : arg3.IsWhole) (arg4 : Memref sig .tc .vmem S64x10 .bf16) (harg4 : arg4.IsWhole) (arg5 : Memref sig .tc .vmem S10 .f32) (harg5 : arg5.IsWhole) (arg6 : Memref sig .tc .vmem S512x10 .f32) (harg6 : arg6.IsWhole)
    (x0 : Vec F S512x320 .f32) (x1 : Vec F S320x64 .bf16) (x2 : Vec F S64 .f32) (x3 : Vec F S64x10 .bf16) (x4 : Vec F S10 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5_5 x0 x1 x2 x3 x4)) -∗ K ⟨⟩))
      ⊢ wp frame (wpE (defs₀ (F := F)) Variants.none c none) E (cc5__head_kernel i arg1 harg1 arg2 harg2 arg3 harg3 arg4 harg4 arg5 harg5 arg6 harg6) K := by
  simp only [cc5__head_kernel_eq_skeleton]; unfold cc5__head_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover5_5 _)

/-- The proof data of this region on core `c`: the arrays as the region finds them; after the body at point `t` each
    input's buffer at its block and the output's at `out5_5` of the input blocks; nothing owed, full shares, and the
    invariant that only carries the scoped rest and the generator register through. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

set_option maxHeartbeats 2000000 in
/-- The body at any point: the inputs' buffers hold their blocks, so the body's triple applies; the invariant and the
    core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.KB.Run.lean ====
/-
  The run of the whole program. The program is six stretches of host operations alternating with six kernel regions.
  Between two items every unscoped buffer of a core holds a known value: the launch contents, then what each host
  stretch computes from them, and, at the one buffer a region writes, the array that region's pipeline leaves (its
  output window's write-backs folded over the grid). `outs` names those six arrays, each defined from the contents
  reached with the earlier ones; `regK` is region K entered from the contents before it and left at the contents after
  it; `run_all` is the run from the launch to the return with every unscoped buffer read at the end; `frame` is its
  consequence for the argument arrays.
-/
import proofs.«109974_j38371237822822_1_alg».proof.Proof.KB.Reg0
import proofs.«109974_j38371237822822_1_alg».proof.Proof.KB.Reg1
import proofs.«109974_j38371237822822_1_alg».proof.Proof.KB.Reg2
import proofs.«109974_j38371237822822_1_alg».proof.Proof.KB.Reg3
import proofs.«109974_j38371237822822_1_alg».proof.Proof.KB.Reg4
import proofs.«109974_j38371237822822_1_alg».proof.Proof.KB.Reg5
import proofs.«109974_j38371237822822_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A valuation of each core's buffers, read at the references the TensorCore names. -/
abbrev atTc (W : Dev nD → Valuation τ sig (Elt F)) : (c : Dev nD) → (b : Ref sig .tc) → Buf (Elt F) ((c : Thread nD τ).loc b) :=
  fun c b => W c b

/-! ## The arrays the regions leave, one after the other

Region K's output array after the region is its output window's write-backs folded over the grid
(`Dat.arrAt … N`), from the contents the region is entered at; those contents are the launch memory carried through
the earlier host stretches and the earlier regions' arrays. So the six arrays are defined in order, each from the
contents built with the ones before it. -/

/-- What region 0 leaves in `main_v20`: its output window's write-backs folded over the grid, the region entered
    at the contents after the first host stretch. -/
def res0 (c : Dev nD) : Buf (Elt F) ((c : Thread nD τ).loc main_v20) :=
  (dat0 (atTc (Gen.V1 m)) c).arrAt 9 cfg0.N
/-- Every unscoped buffer after region 0: as the region found them, `main_v20` at what the region leaves. -/
def fold2 (c : Dev nD) : Valuation τ sig (Elt F) := Function.update (Gen.V1 m c) main_v20 (res0 m c)
/-- Every unscoped buffer after the second host stretch. -/
def fold3 (c : Dev nD) : Valuation τ sig (Elt F) := StableHlo.after hostOps1 (fold2 m c)

/-- What region 1 leaves in `main_v55`: its output window's write-backs folded over the grid, the region entered
    at the contents after the second host stretch. -/
def res1 (c : Dev nD) : Buf (Elt F) ((c : Thread nD τ).loc main_v55) :=
  (dat1 (atTc (fold3 m)) c).arrAt 9 cfg1.N
/-- Every unscoped buffer after region 1: as the region found them, `main_v55` at what the region leaves. -/
def fold4 (c : Dev nD) : Valuation τ sig (Elt F) := Function.update (fold3 m c) main_v55 (res1 m c)
/-- Every unscoped buffer after the third host stretch. -/
def fold5 (c : Dev nD) : Valuation τ sig (Elt F) := StableHlo.after hostOps2 (fold4 m c)

/-- What region 2 leaves in `main_v90`: its output window's write-backs folded over the grid, the region entered
    at the contents after the third host stretch. -/
def res2 (c : Dev nD) : Buf (Elt F) ((c : Thread nD τ).loc main_v90) :=
  (dat2 (atTc (fold5 m)) c).arrAt 9 cfg2.N
/-- Every unscoped buffer after region 2: as the region found them, `main_v90` at what the region leaves. -/
def fold6 (c : Dev nD) : Valuation τ sig (Elt F) := Function.update (fold5 m c) main_v90 (res2 m c)
/-- Every unscoped buffer after the fourth host stretch. -/
def fold7 (c : Dev nD) : Valuation τ sig (Elt F) := StableHlo.after hostOps3 (fold6 m c)

/-- What region 3 leaves in `main_v125`: its output window's write-backs folded over the grid, the region entered
    at the contents after the fourth host stretch. -/
def res3 (c : Dev nD) : Buf (Elt F) ((c : Thread nD τ).loc main_v125) :=
  (dat3 (atTc (fold7 m)) c).arrAt 9 cfg3.N
/-- Every unscoped buffer after region 3: as the region found them, `main_v125` at what the region leaves. -/
def fold8 (c : Dev nD) : Valuation τ sig (Elt F) := Function.update (fold7 m c) main_v125 (res3 m c)
/-- Every unscoped buffer after the fifth host stretch. -/
def fold9 (c : Dev nD) : Valuation τ sig (Elt F) := StableHlo.after hostOps4 (fold8 m c)

/-- What region 4 leaves in `main_v160`: its output window's write-backs folded over the grid, the region entered
    at the contents after the fifth host stretch. -/
def res4 (c : Dev nD) : Buf (Elt F) ((c : Thread nD τ).loc main_v160) :=
  (dat4 (atTc (fold9 m)) c).arrAt 9 cfg4.N
/-- Every unscoped buffer after region 4: as the region found them, `main_v160` at what the region leaves. -/
def fold10 (c : Dev nD) : Valuation τ sig (Elt F) := Function.update (fold9 m c) main_v160 (res4 m c)
/-- Every unscoped buffer after the sixth host stretch. -/
def fold11 (c : Dev nD) : Valuation τ sig (Elt F) := StableHlo.after hostOps5 (fold10 m c)

/-- What region 5 leaves in `main_v176`: its output window's write-backs folded over the grid, the region entered
    at the contents after the sixth host stretch. -/
def res5 (c : Dev nD) : Buf (Elt F) ((c : Thread nD τ).loc main_v176) :=
  (dat5 (atTc (fold11 m)) c).arrAt 5 cfg5.N
/-- Every unscoped buffer after region 5: as the region found them, `main_v176` at what the region leaves. -/
def fold12 (c : Dev nD) : Valuation τ sig (Elt F) := Function.update (fold11 m c) main_v176 (res5 m c)

/-- The contents the regions leave, as the unknowns the contents between items are written over: at each region's
    output buffer the array defined above, at any other buffer the launch contents (never read). -/
def outs : Gen.Outs (F := F) := fun _ r c =>
  if h0 : r = main_v20 then h0 ▸ res0 m c
  else if h1 : r = main_v55 then h1 ▸ res1 m c
  else if h2 : r = main_v90 then h2 ▸ res2 m c
  else if h3 : r = main_v125 then h3 ▸ res3 m c
  else if h4 : r = main_v160 then h4 ▸ res4 m c
  else if h5 : r = main_v176 then h5 ▸ res5 m c
  else m ((c : Thread nD τ).loc r)

theorem outs_at0 (J : ℕ) (c : Dev nD) : outs m J main_v20 c = res0 m c := by
  unfold outs; rw [dif_pos rfl]

theorem outs_at1 (J : ℕ) (c : Dev nD) : outs m J main_v55 c = res1 m c := by
  unfold outs; rw [dif_neg (by decide : ¬ (main_v55 : Ref sig .tc) = main_v20), dif_pos rfl]

theorem outs_at2 (J : ℕ) (c : Dev nD) : outs m J main_v90 c = res2 m c := by
  unfold outs; rw [dif_neg (by decide : ¬ (main_v90 : Ref sig .tc) = main_v20), dif_neg (by decide : ¬ (main_v90 : Ref sig .tc) = main_v55), dif_pos rfl]

theorem outs_at3 (J : ℕ) (c : Dev nD) : outs m J main_v125 c = res3 m c := by
  unfold outs; rw [dif_neg (by decide : ¬ (main_v125 : Ref sig .tc) = main_v20), dif_neg (by decide : ¬ (main_v125 : Ref sig .tc) = main_v55), dif_neg (by decide : ¬ (main_v125 : Ref sig .tc) = main_v90), dif_pos rfl]

theorem outs_at4 (J : ℕ) (c : Dev nD) : outs m J main_v160 c = res4 m c := by
  unfold outs; rw [dif_neg (by decide : ¬ (main_v160 : Ref sig .tc) = main_v20), dif_neg (by decide : ¬ (main_v160 : Ref sig .tc) = main_v55), dif_neg (by decide : ¬ (main_v160 : Ref sig .tc) = main_v90), dif_neg (by decide : ¬ (main_v160 : Ref sig .tc) = main_v125), dif_pos rfl]

theorem outs_at5 (J : ℕ) (c : Dev nD) : outs m J main_v176 c = res5 m c := by
  unfold outs; rw [dif_neg (by decide : ¬ (main_v176 : Ref sig .tc) = main_v20), dif_neg (by decide : ¬ (main_v176 : Ref sig .tc) = main_v55), dif_neg (by decide : ¬ (main_v176 : Ref sig .tc) = main_v90), dif_neg (by decide : ¬ (main_v176 : Ref sig .tc) = main_v125), dif_neg (by decide : ¬ (main_v176 : Ref sig .tc) = main_v160), dif_pos rfl]

/-! The contents between items, written over `outs`, are the contents built above. -/

theorem fold2_eq : Gen.V2 m (outs m) = fold2 m := funext fun c => by
  show Function.update (Gen.V1 m c) main_v20 (outs m 2 main_v20 c) = _
  rw [outs_at0]; rfl
theorem fold3_eq : Gen.V3 m (outs m) = fold3 m := funext fun c => by
  show StableHlo.after hostOps1 (Gen.V2 m (outs m) c) = _
  rw [fold2_eq]; rfl

theorem fold4_eq : Gen.V4 m (outs m) = fold4 m := funext fun c => by
  show Function.update (Gen.V3 m (outs m) c) main_v55 (outs m 4 main_v55 c) = _
  rw [fold3_eq, outs_at1]; rfl
theorem fold5_eq : Gen.V5 m (outs m) = fold5 m := funext fun c => by
  show StableHlo.after hostOps2 (Gen.V4 m (outs m) c) = _
  rw [fold4_eq]; rfl

theorem fold6_eq : Gen.V6 m (outs m) = fold6 m := funext fun c => by
  show Function.update (Gen.V5 m (outs m) c) main_v90 (outs m 6 main_v90 c) = _
  rw [fold5_eq, outs_at2]; rfl
theorem fold7_eq : Gen.V7 m (outs m) = fold7 m := funext fun c => by
  show StableHlo.after hostOps3 (Gen.V6 m (outs m) c) = _
  rw [fold6_eq]; rfl

theorem fold8_eq : Gen.V8 m (outs m) = fold8 m := funext fun c => by
  show Function.update (Gen.V7 m (outs m) c) main_v125 (outs m 8 main_v125 c) = _
  rw [fold7_eq, outs_at3]; rfl
theorem fold9_eq : Gen.V9 m (outs m) = fold9 m := funext fun c => by
  show StableHlo.after hostOps4 (Gen.V8 m (outs m) c) = _
  rw [fold8_eq]; rfl

theorem fold10_eq : Gen.V10 m (outs m) = fold10 m := funext fun c => by
  show Function.update (Gen.V9 m (outs m) c) main_v160 (outs m 10 main_v160 c) = _
  rw [fold9_eq, outs_at4]; rfl
theorem fold11_eq : Gen.V11 m (outs m) = fold11 m := funext fun c => by
  show StableHlo.after hostOps5 (Gen.V10 m (outs m) c) = _
  rw [fold10_eq]; rfl

theorem fold12_eq : Gen.V12 m (outs m) = fold12 m := funext fun c => by
  show Function.update (Gen.V11 m (outs m) c) main_v176 (outs m 12 main_v176 c) = _
  rw [fold11_eq, outs_at5]; rfl

/-! Each region's output buffer after the region holds the array its pipeline leaves from the contents before it. -/

theorem outs_2 (c : Dev nD) : outs m 2 main_v20 c = (dat0 (atTc (Gen.V1 m)) c).arrAt 9 cfg0.N := by
  exact outs_at0 m 2 c

theorem outs_4 (c : Dev nD) : outs m 4 main_v55 c = (dat1 (atTc (Gen.V3 m (outs m))) c).arrAt 9 cfg1.N := by
  rw [fold3_eq]; exact outs_at1 m 4 c

theorem outs_6 (c : Dev nD) : outs m 6 main_v90 c = (dat2 (atTc (Gen.V5 m (outs m))) c).arrAt 9 cfg2.N := by
  rw [fold5_eq]; exact outs_at2 m 6 c

theorem outs_8 (c : Dev nD) : outs m 8 main_v125 c = (dat3 (atTc (Gen.V7 m (outs m))) c).arrAt 9 cfg3.N := by
  rw [fold7_eq]; exact outs_at3 m 8 c

theorem outs_10 (c : Dev nD) : outs m 10 main_v160 c = (dat4 (atTc (Gen.V9 m (outs m))) c).arrAt 9 cfg4.N := by
  rw [fold9_eq]; exact outs_at4 m 10 c

theorem outs_12 (c : Dev nD) : outs m 12 main_v176 c = (dat5 (atTc (Gen.V11 m (outs m))) c).arrAt 5 cfg5.N := by
  rw [fold11_eq]; exact outs_at5 m 12 c

/-! ## The proof data family and the thread state -/

/-- Every pipeline's proof data, each at the contents its region is entered at. -/
def pdats : (p : Fin 6) → (c : Dev nD) → Dat τ (Elt F) Unit ℕ (UR sig nD τ) ℕ (cfgs p) c
  | ⟨0, _⟩ => fun c => dat0 (atTc (Gen.V1 m)) c
  | ⟨1, _⟩ => fun c => dat1 (atTc (Gen.V3 m (outs m))) c
  | ⟨2, _⟩ => fun c => dat2 (atTc (Gen.V5 m (outs m))) c
  | ⟨3, _⟩ => fun c => dat3 (atTc (Gen.V7 m (outs m))) c
  | ⟨4, _⟩ => fun c => dat4 (atTc (Gen.V9 m (outs m))) c
  | ⟨5, _⟩ => fun c => dat5 (atTc (Gen.V11 m (outs m))) c

abbrev 𝒱₀ : Variants := Variants.none
/-- No core owes another anything: no level is assigned. -/
abbrev L0 : GSem nD τ sig → Finset Unit := fun _ => ∅
abbrev lv0 : GSem nD τ sig → Unit → ℕ := fun _ _ => 0
/-- What rides beside the buffers through every item: the core's generator register at some state, and the core owing
    nothing. -/
abbrev Rst (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last contents, the generator
    register at some state. -/
abbrev Tₙ (c : Dev nD) : sProp 𝕄 := iprop(StableHlo.held (c : Thread nD τ) (Pipeline.ucRefs τ sig) (Gen.V12 m (outs m) c) ∗ ∃ r, prngReg c r)

/-! ## Each region's arrays at its exit

At a region's exit every window's array is what the pipeline leaves: an input window's array is never written back
and is the entry contents, which the exit contents keep (only the output buffer is updated); the output window's
array is the updated value. Every other buffer keeps its entry contents. -/

theorem in0 : ∀ w : Fin cfg0.W, w ≠ 9 →
    (cfg0.win w).isOut = false ∧ Pipeline.arrRef spec0 w ∉ ([main_v20] : List (Ref sig .tc)) := by decide
theorem hF0 (c : Dev nD) (w : Fin cfg0.W) :
    (pdats m 0 c).arrAt w cfg0.N = atTc (Gen.V2 m (outs m)) c (Pipeline.arrRef spec0 w) := by
  show (dat0 (atTc (Gen.V1 m)) c).arrAt w cfg0.N = _
  by_cases hw : w = 9
  · subst hw
    exact (outs_2 m c).symm.trans
      (Function.update_self (f := Gen.V1 m c) (a := (main_v20 : DevRef τ sig)) (v := outs m 2 main_v20 c)).symm
  · exact ((dat0 (atTc (Gen.V1 m)) c).arrAt_in w (in0 w hw).1 cfg0.N).trans
      ((A_eq0 (atTc (Gen.V1 m)) c w).trans (Gen.V2_of m (outs m) c _ (in0 w hw).2).symm)
theorem hrest0 (c : Dev nD) : ∀ b, b ∉ Finset.univ.image (Pipeline.arrRef spec0) →
    atTc (Gen.V2 m (outs m)) c b = atTc (Gen.V1 m) c b :=
  fun b hb => Gen.V2_of m (outs m) c b fun hmem =>
    hb (Finset.mem_image.mpr ⟨9, Finset.mem_univ _, (List.mem_singleton.mp hmem).symm⟩)

theorem in1 : ∀ w : Fin cfg1.W, w ≠ 9 →
    (cfg1.win w).isOut = false ∧ Pipeline.arrRef spec1 w ∉ ([main_v55] : List (Ref sig .tc)) := by decide
theorem hF1 (c : Dev nD) (w : Fin cfg1.W) :
    (pdats m 1 c).arrAt w cfg1.N = atTc (Gen.V4 m (outs m)) c (Pipeline.arrRef spec1 w) := by
  show (dat1 (atTc (Gen.V3 m (outs m))) c).arrAt w cfg1.N = _
  by_cases hw : w = 9
  · subst hw
    exact (outs_4 m c).symm.trans
      (Function.update_self (f := Gen.V3 m (outs m) c) (a := (main_v55 : DevRef τ sig)) (v := outs m 4 main_v55 c)).symm
  · exact ((dat1 (atTc (Gen.V3 m (outs m))) c).arrAt_in w (in1 w hw).1 cfg1.N).trans
      ((A_eq1 (atTc (Gen.V3 m (outs m))) c w).trans (Gen.V4_of m (outs m) c _ (in1 w hw).2).symm)
theorem hrest1 (c : Dev nD) : ∀ b, b ∉ Finset.univ.image (Pipeline.arrRef spec1) →
    atTc (Gen.V4 m (outs m)) c b = atTc (Gen.V3 m (outs m)) c b :=
  fun b hb => Gen.V4_of m (outs m) c b fun hmem =>
    hb (Finset.mem_image.mpr ⟨9, Finset.mem_univ _, (List.mem_singleton.mp hmem).symm⟩)

theorem in2 : ∀ w : Fin cfg2.W, w ≠ 9 →
    (cfg2.win w).isOut = false ∧ Pipeline.arrRef spec2 w ∉ ([main_v90] : List (Ref sig .tc)) := by decide
theorem hF2 (c : Dev nD) (w : Fin cfg2.W) :
    (pdats m 2 c).arrAt w cfg2.N = atTc (Gen.V6 m (outs m)) c (Pipeline.arrRef spec2 w) := by
  show (dat2 (atTc (Gen.V5 m (outs m))) c).arrAt w cfg2.N = _
  by_cases hw : w = 9
  · subst hw
    exact (outs_6 m c).symm.trans
      (Function.update_self (f := Gen.V5 m (outs m) c) (a := (main_v90 : DevRef τ sig)) (v := outs m 6 main_v90 c)).symm
  · exact ((dat2 (atTc (Gen.V5 m (outs m))) c).arrAt_in w (in2 w hw).1 cfg2.N).trans
      ((A_eq2 (atTc (Gen.V5 m (outs m))) c w).trans (Gen.V6_of m (outs m) c _ (in2 w hw).2).symm)
theorem hrest2 (c : Dev nD) : ∀ b, b ∉ Finset.univ.image (Pipeline.arrRef spec2) →
    atTc (Gen.V6 m (outs m)) c b = atTc (Gen.V5 m (outs m)) c b :=
  fun b hb => Gen.V6_of m (outs m) c b fun hmem =>
    hb (Finset.mem_image.mpr ⟨9, Finset.mem_univ _, (List.mem_singleton.mp hmem).symm⟩)

theorem in3 : ∀ w : Fin cfg3.W, w ≠ 9 →
    (cfg3.win w).isOut = false ∧ Pipeline.arrRef spec3 w ∉ ([main_v125] : List (Ref sig .tc)) := by decide
theorem hF3 (c : Dev nD) (w : Fin cfg3.W) :
    (pdats m 3 c).arrAt w cfg3.N = atTc (Gen.V8 m (outs m)) c (Pipeline.arrRef spec3 w) := by
  show (dat3 (atTc (Gen.V7 m (outs m))) c).arrAt w cfg3.N = _
  by_cases hw : w = 9
  · subst hw
    exact (outs_8 m c).symm.trans
      (Function.update_self (f := Gen.V7 m (outs m) c) (a := (main_v125 : DevRef τ sig)) (v := outs m 8 main_v125 c)).symm
  · exact ((dat3 (atTc (Gen.V7 m (outs m))) c).arrAt_in w (in3 w hw).1 cfg3.N).trans
      ((A_eq3 (atTc (Gen.V7 m (outs m))) c w).trans (Gen.V8_of m (outs m) c _ (in3 w hw).2).symm)
theorem hrest3 (c : Dev nD) : ∀ b, b ∉ Finset.univ.image (Pipeline.arrRef spec3) →
    atTc (Gen.V8 m (outs m)) c b = atTc (Gen.V7 m (outs m)) c b :=
  fun b hb => Gen.V8_of m (outs m) c b fun hmem =>
    hb (Finset.mem_image.mpr ⟨9, Finset.mem_univ _, (List.mem_singleton.mp hmem).symm⟩)

theorem in4 : ∀ w : Fin cfg4.W, w ≠ 9 →
    (cfg4.win w).isOut = false ∧ Pipeline.arrRef spec4 w ∉ ([main_v160] : List (Ref sig .tc)) := by decide
theorem hF4 (c : Dev nD) (w : Fin cfg4.W) :
    (pdats m 4 c).arrAt w cfg4.N = atTc (Gen.V10 m (outs m)) c (Pipeline.arrRef spec4 w) := by
  show (dat4 (atTc (Gen.V9 m (outs m))) c).arrAt w cfg4.N = _
  by_cases hw : w = 9
  · subst hw
    exact (outs_10 m c).symm.trans
      (Function.update_self (f := Gen.V9 m (outs m) c) (a := (main_v160 : DevRef τ sig)) (v := outs m 10 main_v160 c)).symm
  · exact ((dat4 (atTc (Gen.V9 m (outs m))) c).arrAt_in w (in4 w hw).1 cfg4.N).trans
      ((A_eq4 (atTc (Gen.V9 m (outs m))) c w).trans (Gen.V10_of m (outs m) c _ (in4 w hw).2).symm)
theorem hrest4 (c : Dev nD) : ∀ b, b ∉ Finset.univ.image (Pipeline.arrRef spec4) →
    atTc (Gen.V10 m (outs m)) c b = atTc (Gen.V9 m (outs m)) c b :=
  fun b hb => Gen.V10_of m (outs m) c b fun hmem =>
    hb (Finset.mem_image.mpr ⟨9, Finset.mem_univ _, (List.mem_singleton.mp hmem).symm⟩)

theorem in5 : ∀ w : Fin cfg5.W, w ≠ 5 →
    (cfg5.win w).isOut = false ∧ Pipeline.arrRef spec5 w ∉ ([main_v176] : List (Ref sig .tc)) := by decide
theorem hF5 (c : Dev nD) (w : Fin cfg5.W) :
    (pdats m 5 c).arrAt w cfg5.N = atTc (Gen.V12 m (outs m)) c (Pipeline.arrRef spec5 w) := by
  show (dat5 (atTc (Gen.V11 m (outs m))) c).arrAt w cfg5.N = _
  by_cases hw : w = 5
  · subst hw
    exact (outs_12 m c).symm.trans
      (Function.update_self (f := Gen.V11 m (outs m) c) (a := (main_v176 : DevRef τ sig)) (v := outs m 12 main_v176 c)).symm
  · exact ((dat5 (atTc (Gen.V11 m (outs m))) c).arrAt_in w (in5 w hw).1 cfg5.N).trans
      ((A_eq5 (atTc (Gen.V11 m (outs m))) c w).trans (Gen.V12_of m (outs m) c _ (in5 w hw).2).symm)
theorem hrest5 (c : Dev nD) : ∀ b, b ∉ Finset.univ.image (Pipeline.arrRef spec5) →
    atTc (Gen.V12 m (outs m)) c b = atTc (Gen.V11 m (outs m)) c b :=
  fun b hb => Gen.V12_of m (outs m) c b fun hmem =>
    hb (Finset.mem_image.mpr ⟨5, Finset.mem_univ _, (List.mem_singleton.mp hmem).symm⟩)

/-! ## The regions as segments -/

set_option backward.isDefEq.respectTransparency.types false in
/-- Region 0 over the thread state: entered from every unscoped buffer at the contents before it, left at the contents
    after it. Its arrays are split out of the unscoped buffers and put back at the exit contents; the generator
    register passes through the invariant; nothing is owed; the kernel has no semaphore of its own. -/
def reg0 : Pipeline.RegionSeg (pcfgs (F := F)) adm (pdats m) () defs₀ 𝒱₀ L0 lv0 0 where
  win := launch0.win.to₀
  block_pos := launch0.block_pos
  stage_whole := launch0.stage_whole
  K := PEmpty
  osem k := k.elim
  ho := Pipeline.OwnSemFacts.none _
  hbody c := (body_obligation0 (atTc (Gen.V1 m)) c).loose
  hwaits := Pipeline.hwaits_of_owed_zero _ _ _ _ L0 lv0 0 fun _ _ => rfl
  pre c := iprop(StableHlo.held (c : Thread nD τ) (Pipeline.ucRefs τ sig) (Gen.V1 m c) ∗ Rst c)
  post c := iprop(StableHlo.held (c : Thread nD τ) (Pipeline.ucRefs τ sig) (Gen.V2 m (outs m) c) ∗ Rst c)
  X c := iprop(∃ r, prngReg c r)
  Y c := iprop(∃ r, prngReg c r)
  Z c := Pipeline.unscopedRest (Ix := Unit) (Name := ℕ) (U := UR sig nD τ) (Lvl := ℕ) spec0 c (atTc (Gen.V1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atTc (Gen.V1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atTc (Gen.V1 m) c) (atTc (Gen.V2 m (outs m)) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents
    after it. Its arrays are split out of the unscoped buffers and put back at the exit contents; the generator
    register passes through the invariant; nothing is owed; the kernel has no semaphore of its own. -/
def reg1 : Pipeline.RegionSeg (pcfgs (F := F)) adm (pdats m) () defs₀ 𝒱₀ L0 lv0 1 where
  win := launch1.win.to₀
  block_pos := launch1.block_pos
  stage_whole := launch1.stage_whole
  K := PEmpty
  osem k := k.elim
  ho := Pipeline.OwnSemFacts.none _
  hbody c := (body_obligation1 (atTc (Gen.V3 m (outs m))) c).loose
  hwaits := Pipeline.hwaits_of_owed_zero _ _ _ _ L0 lv0 1 fun _ _ => rfl
  pre c := iprop(StableHlo.held (c : Thread nD τ) (Pipeline.ucRefs τ sig) (Gen.V3 m (outs m) c) ∗ Rst c)
  post c := iprop(StableHlo.held (c : Thread nD τ) (Pipeline.ucRefs τ sig) (Gen.V4 m (outs m) c) ∗ Rst c)
  X c := iprop(∃ r, prngReg c r)
  Y c := iprop(∃ r, prngReg c r)
  Z c := Pipeline.unscopedRest (Ix := Unit) (Name := ℕ) (U := UR sig nD τ) (Lvl := ℕ) spec1 c (atTc (Gen.V3 m (outs m)) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atTc (Gen.V3 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atTc (Gen.V3 m (outs m)) c) (atTc (Gen.V4 m (outs m)) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the contents before it, left at the contents
    after it. Its arrays are split out of the unscoped buffers and put back at the exit contents; the generator
    register passes through the invariant; nothing is owed; the kernel has no semaphore of its own. -/
def reg2 : Pipeline.RegionSeg (pcfgs (F := F)) adm (pdats m) () defs₀ 𝒱₀ L0 lv0 2 where
  win := launch2.win.to₀
  block_pos := launch2.block_pos
  stage_whole := launch2.stage_whole
  K := PEmpty
  osem k := k.elim
  ho := Pipeline.OwnSemFacts.none _
  hbody c := (body_obligation2 (atTc (Gen.V5 m (outs m))) c).loose
  hwaits := Pipeline.hwaits_of_owed_zero _ _ _ _ L0 lv0 2 fun _ _ => rfl
  pre c := iprop(StableHlo.held (c : Thread nD τ) (Pipeline.ucRefs τ sig) (Gen.V5 m (outs m) c) ∗ Rst c)
  post c := iprop(StableHlo.held (c : Thread nD τ) (Pipeline.ucRefs τ sig) (Gen.V6 m (outs m) c) ∗ Rst c)
  X c := iprop(∃ r, prngReg c r)
  Y c := iprop(∃ r, prngReg c r)
  Z c := Pipeline.unscopedRest (Ix := Unit) (Name := ℕ) (U := UR sig nD τ) (Lvl := ℕ) spec2 c (atTc (Gen.V5 m (outs m)) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atTc (Gen.V5 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atTc (Gen.V5 m (outs m)) c) (atTc (Gen.V6 m (outs m)) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at the contents before it, left at the contents
    after it. Its arrays are split out of the unscoped buffers and put back at the exit contents; the generator
    register passes through the invariant; nothing is owed; the kernel has no semaphore of its own. -/
def reg3 : Pipeline.RegionSeg (pcfgs (F := F)) adm (pdats m) () defs₀ 𝒱₀ L0 lv0 3 where
  win := launch3.win.to₀
  block_pos := launch3.block_pos
  stage_whole := launch3.stage_whole
  K := PEmpty
  osem k := k.elim
  ho := Pipeline.OwnSemFacts.none _
  hbody c := (body_obligation3 (atTc (Gen.V7 m (outs m))) c).loose
  hwaits := Pipeline.hwaits_of_owed_zero _ _ _ _ L0 lv0 3 fun _ _ => rfl
  pre c := iprop(StableHlo.held (c : Thread nD τ) (Pipeline.ucRefs τ sig) (Gen.V7 m (outs m) c) ∗ Rst c)
  post c := iprop(StableHlo.held (c : Thread nD τ) (Pipeline.ucRefs τ sig) (Gen.V8 m (outs m) c) ∗ Rst c)
  X c := iprop(∃ r, prngReg c r)
  Y c := iprop(∃ r, prngReg c r)
  Z c := Pipeline.unscopedRest (Ix := Unit) (Name := ℕ) (U := UR sig nD τ) (Lvl := ℕ) spec3 c (atTc (Gen.V7 m (outs m)) c)
  hentry c := by
    rw [Pipeline.ownSems0_none]
    have hsplit := Pipeline.arrays_of_unscopedBufs (p := 3) (pcfgs (F := F)) adm (pdats m) launch3.win launch3.arr_whole c
      ((pdats m 3 c).share_full fun _ => rfl) (atTc (Gen.V7 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (atTc (Gen.V7 m (outs m)) c) (atTc (Gen.V8 m (outs m)) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at the contents before it, left at the contents
    after it. Its arrays are split out of the unscoped buffers and put back at the exit contents; the generator
    register passes through the invariant; nothing is owed; the kernel has no semaphore of its own. -/
def reg4 : Pipeline.RegionSeg (pcfgs (F := F)) adm (pdats m) () defs₀ 𝒱₀ L0 lv0 4 where
  win := launch4.win.to₀
  block_pos := launch4.block_pos
  stage_whole := launch4.stage_whole
  K := PEmpty
  osem k := k.elim
  ho := Pipeline.OwnSemFacts.none _
  hbody c := (body_obligation4 (atTc (Gen.V9 m (outs m))) c).loose
  hwaits := Pipeline.hwaits_of_owed_zero _ _ _ _ L0 lv0 4 fun _ _ => rfl
  pre c := iprop(StableHlo.held (c : Thread nD τ) (Pipeline.ucRefs τ sig) (Gen.V9 m (outs m) c) ∗ Rst c)
  post c := iprop(StableHlo.held (c : Thread nD τ) (Pipeline.ucRefs τ sig) (Gen.V10 m (outs m) c) ∗ Rst c)
  X c := iprop(∃ r, prngReg c r)
  Y c := iprop(∃ r, prngReg c r)
  Z c := Pipeline.unscopedRest (Ix := Unit) (Name := ℕ) (U := UR sig nD τ) (Lvl := ℕ) spec4 c (atTc (Gen.V9 m (outs m)) c)
  hentry c := by
    rw [Pipeline.ownSems0_none]
    have hsplit := Pipeline.arrays_of_unscopedBufs (p := 4) (pcfgs (F := F)) adm (pdats m) launch4.win launch4.arr_whole c
      ((pdats m 4 c).share_full fun _ => rfl) (atTc (Gen.V9 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (atTc (Gen.V9 m (outs m)) c) (atTc (Gen.V10 m (outs m)) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at the contents before it, left at the contents
    after it. Its arrays are split out of the unscoped buffers and put back at the exit contents; the generator
    register passes through the invariant; nothing is owed; the kernel has no semaphore of its own. -/
def reg5 : Pipeline.RegionSeg (pcfgs (F := F)) adm (pdats m) () defs₀ 𝒱₀ L0 lv0 5 where
  win := launch5.win.to₀
  block_pos := launch5.block_pos
  stage_whole := launch5.stage_whole
  K := PEmpty
  osem k := k.elim
  ho := Pipeline.OwnSemFacts.none _
  hbody c := (body_obligation5 (atTc (Gen.V11 m (outs m))) c).loose
  hwaits := Pipeline.hwaits_of_owed_zero _ _ _ _ L0 lv0 5 fun _ _ => rfl
  pre c := iprop(StableHlo.held (c : Thread nD τ) (Pipeline.ucRefs τ sig) (Gen.V11 m (outs m) c) ∗ Rst c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c (atTc (Gen.V11 m (outs m)) c)
  hentry c := by
    rw [Pipeline.ownSems0_none]
    have hsplit := Pipeline.arrays_of_unscopedBufs (p := 5) (pcfgs (F := F)) adm (pdats m) launch5.win launch5.arr_whole c
      ((pdats m 5 c).share_full fun _ => rfl) (atTc (Gen.V11 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (atTc (Gen.V11 m (outs m)) c) (atTc (Gen.V12 m (outs m)) c) ((pdats m 5 c).arrAt · cfg5.N) (hF5 m c) (hrest5 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

/-- The program's twelve items as segments on a core: the host stretches from the contents before them, the regions'
    records above. -/
abbrev allSegs : Dev nD → List (Seg (pcfgs (F := F)) adm (pdats m) () defs₀ 𝒱₀ L0 lv0) :=
  Gen.segs m (outs m) 𝒱₀ L0 lv0 (fun _ => Rst) () (pdats m) (reg0 m) (reg1 m) (reg2 m) (reg3 m) (reg4 m) (reg5 m)

set_option backward.isDefEq.respectTransparency.types false in
/-- THE RUN: from any memory with zero counters every weakly fair execution of the program terminates, and in every
    final state each unscoped buffer holds the last contents of the fold: the launch contents carried through the six
    host stretches, with each region's output buffer at the array its pipeline leaves. -/
theorem run_all : θ_run defs (onTc (τ := τ) (main (F := F))) ⟨m, fun _ => 0, ρ⟩
    (fun r => ∀ c : Dev nD, ∀ b ∈ Pipeline.ucRefs τ sig, r.2.mem ((c : Thread nD τ).1, b) = Gen.V12 m (outs m) c b) :=
  Pipeline.θ_run_regions_kit_dev (pcfgs (F := F)) adm (pdats m) () cellOf_inj emb₁ defs₀ 𝒱₀ L0 lv0 m ρ main (allSegs m)
    (fun c Q => by
      rewrite [main_chain c, Seg.run_eq_chain,
        show (allSegs m c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()) ] from rfl]
      exact .rfl)
    (fun c => by simp only [allSegs, Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rst c)) (Tₙ := Tₙ m)
    (hch := fun c => ⟨.rfl, .rfl, .rfl, .rfl, .rfl, .rfl, .rfl, .rfl, .rfl, .rfl, .rfl, .rfl, .rfl⟩)
    (hinit := by
      refine Pipeline.initEach L0 lv0 fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V12 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (Gen.V12 m (outs m) c) s')
      isplitl [Hh] <;> iassumption)
    (hQ := fun s h => h)

/-- THE FRAME: every weakly fair execution of the program terminates and every final memory holds each argument array
    as launched: no host stretch writes an argument and no region may change one, so the last contents at an argument
    are the launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun r h c =>
    ⟨(h c _ (mem_uc main_arg0 (by decide))).trans (Gen.V12_main_arg0 m (outs m) c),
      (h c _ (mem_uc main_arg1 (by decide))).trans (Gen.V12_main_arg1 m (outs m) c),
      (h c _ (mem_uc main_arg2 (by decide))).trans (Gen.V12_main_arg2 m (outs m) c),
      (h c _ (mem_uc main_arg3 (by decide))).trans (Gen.V12_main_arg3 m (outs m) c),
      (h c _ (mem_uc main_arg4 (by decide))).trans (Gen.V12_main_arg4 m (outs m) c),
      (h c _ (mem_uc main_arg5 (by decide))).trans (Gen.V12_main_arg5 m (outs m) c),
      (h c _ (mem_uc main_arg6 (by decide))).trans (Gen.V12_main_arg6 m (outs m) c),
      (h c _ (mem_uc main_arg7 (by decide))).trans (Gen.V12_main_arg7 m (outs m) c),
      (h c _ (mem_uc main_arg8 (by decide))).trans (Gen.V12_main_arg8 m (outs m) c),
      (h c _ (mem_uc main_arg9 (by decide))).trans (Gen.V12_main_arg9 m (outs m) c),
      (h c _ (mem_uc main_arg10 (by decide))).trans (Gen.V12_main_arg10 m (outs m) c),
      (h c _ (mem_uc main_arg11 (by decide))).trans (Gen.V12_main_arg11 m (outs m) c),
      (h c _ (mem_uc main_arg12 (by decide))).trans (Gen.V12_main_arg12 m (outs m) c),
      (h c _ (mem_uc main_arg13 (by decide))).trans (Gen.V12_main_arg13 m (outs m) c),
      (h c _ (mem_uc main_arg14 (by decide))).trans (Gen.V12_main_arg14 m (outs m) c),
      (h c _ (mem_uc main_arg15 (by decide))).trans (Gen.V12_main_arg15 m (outs m) c),
      (h c _ (mem_uc main_arg16 (by decide))).trans (Gen.V12_main_arg16 m (outs m) c),
      (h c _ (mem_uc main_arg17 (by decide))).trans (Gen.V12_main_arg17 m (outs m) c),
      (h c _ (mem_uc main_arg18 (by decide))).trans (Gen.V12_main_arg18 m (outs m) c),
      (h c _ (mem_uc main_arg19 (by decide))).trans (Gen.V12_main_arg19 m (outs m) c),
      (h c _ (mem_uc main_arg20 (by decide))).trans (Gen.V12_main_arg20 m (outs m) c),
      (h c _ (mem_uc main_arg21 (by decide))).trans (Gen.V12_main_arg21 m (outs m) c),
      (h c _ (mem_uc main_arg22 (by decide))).trans (Gen.V12_main_arg22 m (outs m) c),
      (h c _ (mem_uc main_arg23 (by decide))).trans (Gen.V12_main_arg23 m (outs m) c),
      (h c _ (mem_uc main_arg24 (by decide))).trans (Gen.V12_main_arg24 m (outs m) c)⟩)
    (run_all m ρ)

/-- The run in the shape of the equivalence claim: the two result buffers at the last contents of the fold, the
    argument arrays as launched. -/
theorem run_vals : θ_run defs (onTc (τ := τ) (main (F := F))) ⟨m, fun _ => 0, ρ⟩ (fun r => ∀ c : Dev nD,
      r.2.mem ((c.tc : Thread nD τ).loc main_v176) = Gen.V12 m (outs m) c main_v176
      ∧ r.2.mem ((c.tc : Thread nD τ).loc main_v161) = Gen.V12 m (outs m) c main_v161
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun r h c =>
    ⟨h c _ (mem_uc main_v176 (by decide)), h c _ (mem_uc main_v161 (by decide)),
      (h c _ (mem_uc main_arg0 (by decide))).trans (Gen.V12_main_arg0 m (outs m) c),
      (h c _ (mem_uc main_arg1 (by decide))).trans (Gen.V12_main_arg1 m (outs m) c),
      (h c _ (mem_uc main_arg2 (by decide))).trans (Gen.V12_main_arg2 m (outs m) c),
      (h c _ (mem_uc main_arg3 (by decide))).trans (Gen.V12_main_arg3 m (outs m) c),
      (h c _ (mem_uc main_arg4 (by decide))).trans (Gen.V12_main_arg4 m (outs m) c),
      (h c _ (mem_uc main_arg5 (by decide))).trans (Gen.V12_main_arg5 m (outs m) c),
      (h c _ (mem_uc main_arg6 (by decide))).trans (Gen.V12_main_arg6 m (outs m) c),
      (h c _ (mem_uc main_arg7 (by decide))).trans (Gen.V12_main_arg7 m (outs m) c),
      (h c _ (mem_uc main_arg8 (by decide))).trans (Gen.V12_main_arg8 m (outs m) c),
      (h c _ (mem_uc main_arg9 (by decide))).trans (Gen.V12_main_arg9 m (outs m) c),
      (h c _ (mem_uc main_arg10 (by decide))).trans (Gen.V12_main_arg10 m (outs m) c),
      (h c _ (mem_uc main_arg11 (by decide))).trans (Gen.V12_main_arg11 m (outs m) c),
      (h c _ (mem_uc main_arg12 (by decide))).trans (Gen.V12_main_arg12 m (outs m) c),
      (h c _ (mem_uc main_arg13 (by decide))).trans (Gen.V12_main_arg13 m (outs m) c),
      (h c _ (mem_uc main_arg14 (by decide))).trans (Gen.V12_main_arg14 m (outs m) c),
      (h c _ (mem_uc main_arg15 (by decide))).trans (Gen.V12_main_arg15 m (outs m) c),
      (h c _ (mem_uc main_arg16 (by decide))).trans (Gen.V12_main_arg16 m (outs m) c),
      (h c _ (mem_uc main_arg17 (by decide))).trans (Gen.V12_main_arg17 m (outs m) c),
      (h c _ (mem_uc main_arg18 (by decide))).trans (Gen.V12_main_arg18 m (outs m) c),
      (h c _ (mem_uc main_arg19 (by decide))).trans (Gen.V12_main_arg19 m (outs m) c),
      (h c _ (mem_uc main_arg20 (by decide))).trans (Gen.V12_main_arg20 m (outs m) c),
      (h c _ (mem_uc main_arg21 (by decide))).trans (Gen.V12_main_arg21 m (outs m) c),
      (h c _ (mem_uc main_arg22 (by decide))).trans (Gen.V12_main_arg22 m (outs m) c),
      (h c _ (mem_uc main_arg23 (by decide))).trans (Gen.V12_main_arg23 m (outs m) c),
      (h c _ (mem_uc main_arg24 (by decide))).trans (Gen.V12_main_arg24 m (outs m) c)⟩)
    (run_all m ρ)

end Cert.Kernel.Hand

end
-- ==== Proof.KI.Reg0.lean ====
/-
  Region 0 of the program (the dense-dense-normalise kernel of layer 1), at a parameter `V`: the buffer contents when the region is entered.
  Each input window's staging buffer holds, at every grid point, the block of its array that the point's index
  map names; the body reads those blocks whole, computes one value and stores it whole into the output window's
  buffer. So after the body at point `t` the output buffer holds `out0_9` of the input blocks at `t`, and the input
  buffers are as they were: that is the proof data, and the body's triple under the symbolic executor is its
  obligation at every point.
-/
import proofs.«109974_j38371237822822_1_alg».proof.Proof.Gen.KernelIdeal.Launch
import proofs.«109974_j38371237822822_1_alg».proof.Proof.Gen.KernelIdeal.Skeleton
import proofs.«109974_j38371237822822_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether the point fetches it or the block
    index has not moved since it was fetched. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether the point fetches it or the block
    index has not moved since it was fetched. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether the point fetches it or the block
    index has not moved since it was fetched. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, whether the point fetches it or the block
    index has not moved since it was fetched. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, whether the point fetches it or the block
    index has not moved since it was fetched. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, whether the point fetches it or the block
    index has not moved since it was fetched. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, whether the point fetches it or the block
    index has not moved since it was fetched. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current staging buffer holds its block at every point, whether the point fetches it or the block
    index has not moved since it was fetched. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8's current staging buffer holds its block at every point, whether the point fetches it or the block
    index has not moved since it was fetched. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take a whole buffer -/

abbrev r0_S5000x128 : Rect S5000x128 := Rect.unit (s := S5000x128) ![0, 0] S5000x128.size inb_S5000x128_S5000x128_0_0
abbrev r0_S128x64 : Rect S128x64 := Rect.unit (s := S128x64) ![0, 0] S128x64.size inb_S128x64_S128x64_0_0
abbrev r0_S64 : Rect S64 := Rect.unit (s := S64) ![0] S64.size inb_S64_S64_0
abbrev r0_S64x64 : Rect S64x64 := Rect.unit (s := S64x64) ![0, 0] S64x64.size inb_S64x64_S64x64_0_0
abbrev r0_S5000x64 : Rect S5000x64 := Rect.unit (s := S5000x64) ![0, 0] S5000x64.size inb_S5000x64_S5000x64_0_0

/-- The output window's staging buffer after the body, from the input windows' blocks: the one store's value. -/
def out0_9 (x0 : Vec F S5000x128 .f32) (x1 : Vec F S128x64 .bf16) (x2 : Vec F S64 .f32) (x3 : Vec F S64x64 .bf16) (x4 : Vec F S64 .f32) (x5 : Vec F S64 .f32) (x6 : Vec F S64 .f32) (x7 : Vec F S64 .f32) (x8 : Vec F S64 .f32) : Vec F S5000x64 .f32 :=
  View.canon [⟨r0_S5000x64, k0_pay1 (View.ld x0 r0_S5000x128) (View.ld x1 r0_S128x64) (View.ld x2 r0_S64) (View.ld x3 r0_S64x64) (View.ld x4 r0_S64) (View.ld x5 r0_S64) (View.ld x8 r0_S64) (View.ld x7 r0_S64) (View.ld x6 r0_S64)⟩]

/-- The one store covers the buffer. -/
theorem cover0_9 (p0 : Vec F S5000x64 .f32) (y : S5000x64.Idx) :
    ∃ pc ∈ ([⟨r0_S5000x64, p0⟩] : List (View.Piece (Elt F) S5000x64 .f32)), y ∈ pc.1.set :=
  View.cover_of_tiled [⟨r0_S5000x64, p0⟩] S5000x64.size (by rfl) y

set_option maxHeartbeats 4000000 in
/-- The body on whole staging buffers, the inputs' at contents `xW` and the output's at anything, runs to the
    continuation holding the inputs' as they were and the output's at `out0_9` of the inputs'. -/
theorem sound_kernel0 (c : Dev nD) (E : Set ℕ) (i : grid0.Coords) (arg1 : Memref sig .tc .vmem S5000x128 .f32) (harg1 : arg1.IsWhole) (arg2 : Memref sig .tc .vmem S128x64 .bf16) (harg2 : arg2.IsWhole) (arg3 : Memref sig .tc .vmem S64 .f32) (harg3 : arg3.IsWhole) (arg4 : Memref sig .tc .vmem S64x64 .bf16) (harg4 : arg4.IsWhole) (arg5 : Memref sig .tc .vmem S64 .f32) (harg5 : arg5.IsWhole) (arg6 : Memref sig .tc .vmem S64 .f32) (harg6 : arg6.IsWhole) (arg7 : Memref sig .tc .vmem S64 .f32) (harg7 : arg7.IsWhole) (arg8 : Memref sig .tc .vmem S64 .f32) (harg8 : arg8.IsWhole) (arg9 : Memref sig .tc .vmem S64 .f32) (harg9 : arg9.IsWhole) (arg10 : Memref sig .tc .vmem S5000x64 .f32) (harg10 : arg10.IsWhole)
    (x0 : Vec F S5000x128 .f32) (x1 : Vec F S128x64 .bf16) (x2 : Vec F S64 .f32) (x3 : Vec F S64x64 .bf16) (x4 : Vec F S64 .f32) (x5 : Vec F S64 .f32) (x6 : Vec F S64 .f32) (x7 : Vec F S64 .f32) (x8 : Vec F S64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4 x5 x6 x7 x8)) -∗ K ⟨⟩))
      ⊢ wp frame (wpE (defs₀ (F := F)) Variants.none c none) E (cc0__gin_mlp_bn_kernel i arg1 harg1 arg2 harg2 arg3 harg3 arg4 harg4 arg5 harg5 arg6 harg6 arg7 harg7 arg8 harg8 arg9 harg9 arg10 harg10) K := by
  simp only [cc0__gin_mlp_bn_kernel_eq_skeleton]; unfold cc0__gin_mlp_bn_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover0_9 _)

/-- The proof data of this region on core `c`: the arrays as the region finds them; after the body at point `t` each
    input's buffer at its block and the output's at `out0_9` of the input blocks; nothing owed, full shares, and the
    invariant that only carries the scoped rest and the generator register through. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 1 t) (iblk0 V c 2 t) (iblk0 V c 3 t) (iblk0 V c 4 t) (iblk0 V c 5 t) (iblk0 V c 6 t) (iblk0 V c 7 t) (iblk0 V c 8 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 2000000 in
/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
/-
  Region 1 of the program (the dense-dense-normalise kernel of layer 2), at a parameter `V`: the buffer contents when the region is entered.
  Each input window's staging buffer holds, at every grid point, the block of its array that the point's index
  map names; the body reads those blocks whole, computes one value and stores it whole into the output window's
  buffer. So after the body at point `t` the output buffer holds `out1_9` of the input blocks at `t`, and the input
  buffers are as they were: that is the proof data, and the body's triple under the symbolic executor is its
  obligation at every point.
-/
import proofs.«109974_j38371237822822_1_alg».proof.Proof.Gen.KernelIdeal.Launch
import proofs.«109974_j38371237822822_1_alg».proof.Proof.Gen.KernelIdeal.Skeleton
import proofs.«109974_j38371237822822_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether the point fetches it or the block
    index has not moved since it was fetched. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether the point fetches it or the block
    index has not moved since it was fetched. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether the point fetches it or the block
    index has not moved since it was fetched. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, whether the point fetches it or the block
    index has not moved since it was fetched. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, whether the point fetches it or the block
    index has not moved since it was fetched. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, whether the point fetches it or the block
    index has not moved since it was fetched. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, whether the point fetches it or the block
    index has not moved since it was fetched. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, whether the point fetches it or the block
    index has not moved since it was fetched. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's current staging buffer holds its block at every point, whether the point fetches it or the block
    index has not moved since it was fetched. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take a whole buffer -/

abbrev r1_S5000x64 : Rect S5000x64 := Rect.unit (s := S5000x64) ![0, 0] S5000x64.size inb_S5000x64_S5000x64_0_0
abbrev r1_S64x64 : Rect S64x64 := Rect.unit (s := S64x64) ![0, 0] S64x64.size inb_S64x64_S64x64_0_0
abbrev r1_S64 : Rect S64 := Rect.unit (s := S64) ![0] S64.size inb_S64_S64_0

/-- The output window's staging buffer after the body, from the input windows' blocks: the one store's value. -/
def out1_9 (x0 : Vec F S5000x64 .f32) (x1 : Vec F S64x64 .bf16) (x2 : Vec F S64 .f32) (x3 : Vec F S64x64 .bf16) (x4 : Vec F S64 .f32) (x5 : Vec F S64 .f32) (x6 : Vec F S64 .f32) (x7 : Vec F S64 .f32) (x8 : Vec F S64 .f32) : Vec F S5000x64 .f32 :=
  View.canon [⟨r1_S5000x64, k1_pay1 (k1_pay2 (View.ld x0 r1_S5000x64) (View.ld x1 r1_S64x64) (View.ld x2 r1_S64) (View.ld x3 r1_S64x64) (View.ld x4 r1_S64) (View.ld x5 r1_S64) (View.ld x8 r1_S64) (View.ld x7 r1_S64)) (k1_pay3 (View.ld x6 r1_S64))⟩]

/-- The one store covers the buffer. -/
theorem cover1_9 (p0 : Vec F S5000x64 .f32) (y : S5000x64.Idx) :
    ∃ pc ∈ ([⟨r1_S5000x64, p0⟩] : List (View.Piece (Elt F) S5000x64 .f32)), y ∈ pc.1.set :=
  View.cover_of_tiled [⟨r1_S5000x64, p0⟩] S5000x64.size (by rfl) y

set_option maxHeartbeats 4000000 in
/-- The body on whole staging buffers, the inputs' at contents `xW` and the output's at anything, runs to the
    continuation holding the inputs' as they were and the output's at `out1_9` of the inputs'. -/
theorem sound_kernel1 (c : Dev nD) (E : Set ℕ) (i : grid1.Coords) (arg1 : Memref sig .tc .vmem S5000x64 .f32) (harg1 : arg1.IsWhole) (arg2 : Memref sig .tc .vmem S64x64 .bf16) (harg2 : arg2.IsWhole) (arg3 : Memref sig .tc .vmem S64 .f32) (harg3 : arg3.IsWhole) (arg4 : Memref sig .tc .vmem S64x64 .bf16) (harg4 : arg4.IsWhole) (arg5 : Memref sig .tc .vmem S64 .f32) (harg5 : arg5.IsWhole) (arg6 : Memref sig .tc .vmem S64 .f32) (harg6 : arg6.IsWhole) (arg7 : Memref sig .tc .vmem S64 .f32) (harg7 : arg7.IsWhole) (arg8 : Memref sig .tc .vmem S64 .f32) (harg8 : arg8.IsWhole) (arg9 : Memref sig .tc .vmem S64 .f32) (harg9 : arg9.IsWhole) (arg10 : Memref sig .tc .vmem S5000x64 .f32) (harg10 : arg10.IsWhole)
    (x0 : Vec F S5000x64 .f32) (x1 : Vec F S64x64 .bf16) (x2 : Vec F S64 .f32) (x3 : Vec F S64x64 .bf16) (x4 : Vec F S64 .f32) (x5 : Vec F S64 .f32) (x6 : Vec F S64 .f32) (x7 : Vec F S64 .f32) (x8 : Vec F S64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out1_9 x0 x1 x2 x3 x4 x5 x6 x7 x8)) -∗ K ⟨⟩))
      ⊢ wp frame (wpE (defs₀ (F := F)) Variants.none c none) E (cc1__gin_mlp_bn_kernel i arg1 harg1 arg2 harg2 arg3 harg3 arg4 harg4 arg5 harg5 arg6 harg6 arg7 harg7 arg8 harg8 arg9 harg9 arg10 harg10) K := by
  simp only [cc1__gin_mlp_bn_kernel_eq_skeleton]; unfold cc1__gin_mlp_bn_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover1_9 _)

/-- The proof data of this region on core `c`: the arrays as the region finds them; after the body at point `t` each
    input's buffer at its block and the output's at `out1_9` of the input blocks; nothing owed, full shares, and the
    invariant that only carries the scoped rest and the generator register through. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

set_option maxHeartbeats 2000000 in
/-- The body at any point: the inputs' buffers hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
/-
  Region 2 of the program (the dense-dense-normalise kernel of layer 3), at a parameter `V`: the buffer contents when the region is entered.
  Each input window's staging buffer holds, at every grid point, the block of its array that the point's index
  map names; the body reads those blocks whole, computes one value and stores it whole into the output window's
  buffer. So after the body at point `t` the output buffer holds `out2_9` of the input blocks at `t`, and the input
  buffers are as they were: that is the proof data, and the body's triple under the symbolic executor is its
  obligation at every point.
-/
import proofs.«109974_j38371237822822_1_alg».proof.Proof.Gen.KernelIdeal.Launch
import proofs.«109974_j38371237822822_1_alg».proof.Proof.Gen.KernelIdeal.Skeleton
import proofs.«109974_j38371237822822_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether the point fetches it or the block
    index has not moved since it was fetched. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, whether the point fetches it or the block
    index has not moved since it was fetched. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, whether the point fetches it or the block
    index has not moved since it was fetched. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, whether the point fetches it or the block
    index has not moved since it was fetched. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, whether the point fetches it or the block
    index has not moved since it was fetched. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, whether the point fetches it or the block
    index has not moved since it was fetched. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, whether the point fetches it or the block
    index has not moved since it was fetched. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds its block at every point, whether the point fetches it or the block
    index has not moved since it was fetched. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- Input window 8's current staging buffer holds its block at every point, whether the point fetches it or the block
    index has not moved since it was fetched. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the one store take a whole buffer -/

abbrev r2_S5000x64 : Rect S5000x64 := Rect.unit (s := S5000x64) ![0, 0] S5000x64.size inb_S5000x64_S5000x64_0_0
abbrev r2_S64x64 : Rect S64x64 := Rect.unit (s := S64x64) ![0, 0] S64x64.size inb_S64x64_S64x64_0_0
abbrev r2_S64 : Rect S64 := Rect.unit (s := S64) ![0] S64.size inb_S64_S64_0

/-- The output window's staging buffer after the body, from the input windows' blocks: the one store's value. -/
def out2_9 (x0 : Vec F S5000x64 .f32) (x1 : Vec F S64x64 .bf16) (x2 : Vec F S64 .f32) (x3 : Vec F S64x64 .bf16) (x4 : Vec F S64 .f32) (x5 : Vec F S64 .f32) (x6 : Vec F S64 .f32) (x7 : Vec F S64 .f32) (x8 : Vec F S64 .f32) : Vec F S5000x64 .f32 :=
  View.canon [⟨r2_S5000x64, k2_pay1 (k2_pay2 (View.ld x0 r2_S5000x64) (View.ld x1 r2_S64x64) (View.ld x2 r2_S64) (View.ld x3 r2_S64x64) (View.ld x4 r2_S64) (View.ld x5 r2_S64) (View.ld x8 r2_S64) (View.ld x7 r2_S64)) (k2_pay3 (View.ld x6 r2_S64))⟩]

/-- The one store covers the buffer. -/
theorem cover2_9 (p0 : Vec F S5000x64 .f32) (y : S5000x64.Idx) :
    ∃ pc ∈ ([⟨r2_S5000x64, p0⟩] : List (View.Piece (Elt F) S5000x64 .f32)), y ∈ pc.1.set :=
  View.cover_of_tiled [⟨r2_S5000x64, p0⟩] S5000x64.size (by rfl) y

set_option maxHeartbeats 4000000 in
/-- The body on whole staging buffers, the inputs' at contents `xW` and the output's at anything, runs to the
    continuation holding the inputs' as they were and the output's at `out2_9` of the inputs'. -/
theorem sound_kernel2 (c : Dev nD) (E : Set ℕ) (i : grid2.Coords) (arg1 : Memref sig .tc .vmem S5000x64 .f32) (harg1 : arg1.IsWhole) (arg2 : Memref sig .tc .vmem S64x64 .bf16) (harg2 : arg2.IsWhole) (arg3 : Memref sig .tc .vmem S64 .f32) (harg3 : arg3.IsWhole) (arg4 : Memref sig .tc .vmem S64x64 .bf16) (harg4 : arg4.IsWhole) (arg5 : Memref sig .tc .vmem S64 .f32) (harg5 : arg5.IsWhole) (arg6 : Memref sig .tc .vmem S64 .f32) (harg6 : arg6.IsWhole) (arg7 : Memref sig .tc .vmem S64 .f32) (harg7 : arg7.IsWhole) (arg8 : Memref sig .tc .vmem S64 .f32) (harg8 : arg8.IsWhole) (arg9 : Memref sig .tc .vmem S64 .f32) (harg9 : arg9.IsWhole) (arg10 : Memref sig .tc .vmem S5000x64 .f32) (harg10 : arg10.IsWhole)
    (x0 : Vec F S5000x64 .f32) (x1 : Vec F S64x64 .bf16) (x2 : Vec F S64 .f32) (x3 : Vec F S64x64 .bf16) (x4 : Vec F S64 .f32) (x5 : Vec F S64 .f32) (x6 : Vec F S64 .f32) (x7 : Vec F S64 .f32) (x8 : Vec F S64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out2_9 x0 x1 x2 x3 x4 x5 x6 x7 x8)) -∗ K ⟨⟩))
      ⊢ wp frame (wpE (defs₀ (F := F)) Variants.none c none) E (cc2__gin_mlp_bn_kernel i arg1 harg1 arg2 harg2 arg3 harg3 arg4 harg4 arg5 harg5 arg6 harg6 arg7 harg7 arg8 harg8 arg9 harg9 arg10 harg10) K := by
  simp only [cc2__gin_mlp_bn_kernel_eq_skeleton]; unfold cc2__gin_mlp_bn_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover2_9 _)

/-- The proof data of this region on core `c`: the arrays as the region finds them; after the body at point `t` each
    input's buffer at its block and the output's at `out2_9` of the input blocks; nothing owed, full shares, and the
    invariant that only carries the scoped rest and the generator register through. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => out2_9 (iblk2 V c 0 t) (iblk2 V c 1 t) (iblk2 V c 2 t) (iblk2 V c 3 t) (iblk2 V c 4 t) (iblk2 V c 5 t) (iblk2 V c 6 t) (iblk2 V c 7 t) (iblk2 V c 8 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = out2_9 (iblk2 V c 0 t) (iblk2 V c 1 t) (iblk2 V c 2 t) (iblk2 V c 3 t) (iblk2 V c 4 t) (iblk2 V c 5 t) (iblk2 V c 6 t) (iblk2 V c 7 t) (iblk2 V c 8 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t))

set_option maxHeartbeats 2000000 in
/-- The body at any point: the inputs' buffers hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel2 c Set.univ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Reg3.lean ====
/-
  Region 3 of the program (the dense-dense-normalise kernel of layer 4), at a parameter `V`: the buffer contents when the region is entered.
  Each input window's staging buffer holds, at every grid point, the block of its array that the point's index
  map names; the body reads those blocks whole, computes one value and stores it whole into the output window's
  buffer. So after the body at point `t` the output buffer holds `out3_9` of the input blocks at `t`, and the input
  buffers are as they were: that is the proof data, and the body's triple under the symbolic executor is its
  obligation at every point.
-/
import proofs.«109974_j38371237822822_1_alg».proof.Proof.Gen.KernelIdeal.Launch
import proofs.«109974_j38371237822822_1_alg».proof.Proof.Gen.KernelIdeal.Skeleton
import proofs.«109974_j38371237822822_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, whether the point fetches it or the block
    index has not moved since it was fetched. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, whether the point fetches it or the block
    index has not moved since it was fetched. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, whether the point fetches it or the block
    index has not moved since it was fetched. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, whether the point fetches it or the block
    index has not moved since it was fetched. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, whether the point fetches it or the block
    index has not moved since it was fetched. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current staging buffer holds its block at every point, whether the point fetches it or the block
    index has not moved since it was fetched. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- Input window 6's current staging buffer holds its block at every point, whether the point fetches it or the block
    index has not moved since it was fetched. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-- Input window 7's current staging buffer holds its block at every point, whether the point fetches it or the block
    index has not moved since it was fetched. -/
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

/-- Input window 8's current staging buffer holds its block at every point, whether the point fetches it or the block
    index has not moved since it was fetched. -/
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and the one store take a whole buffer -/

abbrev r3_S5000x64 : Rect S5000x64 := Rect.unit (s := S5000x64) ![0, 0] S5000x64.size inb_S5000x64_S5000x64_0_0
abbrev r3_S64x64 : Rect S64x64 := Rect.unit (s := S64x64) ![0, 0] S64x64.size inb_S64x64_S64x64_0_0
abbrev r3_S64 : Rect S64 := Rect.unit (s := S64) ![0] S64.size inb_S64_S64_0

/-- The output window's staging buffer after the body, from the input windows' blocks: the one store's value. -/
def out3_9 (x0 : Vec F S5000x64 .f32) (x1 : Vec F S64x64 .bf16) (x2 : Vec F S64 .f32) (x3 : Vec F S64x64 .bf16) (x4 : Vec F S64 .f32) (x5 : Vec F S64 .f32) (x6 : Vec F S64 .f32) (x7 : Vec F S64 .f32) (x8 : Vec F S64 .f32) : Vec F S5000x64 .f32 :=
  View.canon [⟨r3_S5000x64, k3_pay1 (k3_pay2 (View.ld x0 r3_S5000x64) (View.ld x1 r3_S64x64) (View.ld x2 r3_S64) (View.ld x3 r3_S64x64) (View.ld x4 r3_S64) (View.ld x5 r3_S64) (View.ld x8 r3_S64) (View.ld x7 r3_S64)) (k3_pay3 (View.ld x6 r3_S64))⟩]

/-- The one store covers the buffer. -/
theorem cover3_9 (p0 : Vec F S5000x64 .f32) (y : S5000x64.Idx) :
    ∃ pc ∈ ([⟨r3_S5000x64, p0⟩] : List (View.Piece (Elt F) S5000x64 .f32)), y ∈ pc.1.set :=
  View.cover_of_tiled [⟨r3_S5000x64, p0⟩] S5000x64.size (by rfl) y

set_option maxHeartbeats 4000000 in
/-- The body on whole staging buffers, the inputs' at contents `xW` and the output's at anything, runs to the
    continuation holding the inputs' as they were and the output's at `out3_9` of the inputs'. -/
theorem sound_kernel3 (c : Dev nD) (E : Set ℕ) (i : grid3.Coords) (arg1 : Memref sig .tc .vmem S5000x64 .f32) (harg1 : arg1.IsWhole) (arg2 : Memref sig .tc .vmem S64x64 .bf16) (harg2 : arg2.IsWhole) (arg3 : Memref sig .tc .vmem S64 .f32) (harg3 : arg3.IsWhole) (arg4 : Memref sig .tc .vmem S64x64 .bf16) (harg4 : arg4.IsWhole) (arg5 : Memref sig .tc .vmem S64 .f32) (harg5 : arg5.IsWhole) (arg6 : Memref sig .tc .vmem S64 .f32) (harg6 : arg6.IsWhole) (arg7 : Memref sig .tc .vmem S64 .f32) (harg7 : arg7.IsWhole) (arg8 : Memref sig .tc .vmem S64 .f32) (harg8 : arg8.IsWhole) (arg9 : Memref sig .tc .vmem S64 .f32) (harg9 : arg9.IsWhole) (arg10 : Memref sig .tc .vmem S5000x64 .f32) (harg10 : arg10.IsWhole)
    (x0 : Vec F S5000x64 .f32) (x1 : Vec F S64x64 .bf16) (x2 : Vec F S64 .f32) (x3 : Vec F S64x64 .bf16) (x4 : Vec F S64 .f32) (x5 : Vec F S64 .f32) (x6 : Vec F S64 .f32) (x7 : Vec F S64 .f32) (x8 : Vec F S64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out3_9 x0 x1 x2 x3 x4 x5 x6 x7 x8)) -∗ K ⟨⟩))
      ⊢ wp frame (wpE (defs₀ (F := F)) Variants.none c none) E (cc3__gin_mlp_bn_kernel i arg1 harg1 arg2 harg2 arg3 harg3 arg4 harg4 arg5 harg5 arg6 harg6 arg7 harg7 arg8 harg8 arg9 harg9 arg10 harg10) K := by
  simp only [cc3__gin_mlp_bn_kernel_eq_skeleton]; unfold cc3__gin_mlp_bn_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover3_9 _)

/-- The proof data of this region on core `c`: the arrays as the region finds them; after the body at point `t` each
    input's buffer at its block and the output's at `out3_9` of the input blocks; nothing owed, full shares, and the
    invariant that only carries the scoped rest and the generator register through. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => out3_9 (iblk3 V c 0 t) (iblk3 V c 1 t) (iblk3 V c 2 t) (iblk3 V c 3 t) (iblk3 V c 4 t) (iblk3 V c 5 t) (iblk3 V c 6 t) (iblk3 V c 7 t) (iblk3 V c 8 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = out3_9 (iblk3 V c 0 t) (iblk3 V c 1 t) (iblk3 V c 2 t) (iblk3 V c 3 t) (iblk3 V c 4 t) (iblk3 V c 5 t) (iblk3 V c 6 t) (iblk3 V c 7 t) (iblk3 V c 8 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t))

set_option maxHeartbeats 2000000 in
/-- The body at any point: the inputs' buffers hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel3 c Set.univ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Reg4.lean ====
/-
  Region 4 of the program (the dense-dense-normalise kernel of layer 5), at a parameter `V`: the buffer contents when the region is entered.
  Each input window's staging buffer holds, at every grid point, the block of its array that the point's index
  map names; the body reads those blocks whole, computes one value and stores it whole into the output window's
  buffer. So after the body at point `t` the output buffer holds `out4_9` of the input blocks at `t`, and the input
  buffers are as they were: that is the proof data, and the body's triple under the symbolic executor is its
  obligation at every point.
-/
import proofs.«109974_j38371237822822_1_alg».proof.Proof.Gen.KernelIdeal.Launch
import proofs.«109974_j38371237822822_1_alg».proof.Proof.Gen.KernelIdeal.Skeleton
import proofs.«109974_j38371237822822_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, whether the point fetches it or the block
    index has not moved since it was fetched. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, whether the point fetches it or the block
    index has not moved since it was fetched. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, whether the point fetches it or the block
    index has not moved since it was fetched. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, whether the point fetches it or the block
    index has not moved since it was fetched. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, whether the point fetches it or the block
    index has not moved since it was fetched. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's current staging buffer holds its block at every point, whether the point fetches it or the block
    index has not moved since it was fetched. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-- Input window 6's current staging buffer holds its block at every point, whether the point fetches it or the block
    index has not moved since it was fetched. -/
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

/-- Input window 7's current staging buffer holds its block at every point, whether the point fetches it or the block
    index has not moved since it was fetched. -/
theorem before4_7_of {c : Dev nD} (dat : Dat τ (Elt F) Unit ℕ (UR sig nD τ) ℕ cfg4 c) (hA : dat.A 7 = V c (Pipeline.arrRef spec4 7))
    (hafter : ∀ t, dat.after 7 t = iblk4 V c 7 t) (t : Fin cfg4.N) (d) : dat.before 7 t d = iblk4 V c 7 t :=
  (dat.before_in_eq_fetched 7 rfl (fun _ => rfl) (fun _ _ _ => rfl) (fun t => by rw [hafter]; unfold Dat.blockOf iblk4; rw [hA]; try rfl) t d).trans
    (by unfold Dat.fetched Dat.blockOf iblk4; rw [hA]; try rfl)

/-- Input window 8's current staging buffer holds its block at every point, whether the point fetches it or the block
    index has not moved since it was fetched. -/
theorem before4_8_of {c : Dev nD} (dat : Dat τ (Elt F) Unit ℕ (UR sig nD τ) ℕ cfg4 c) (hA : dat.A 8 = V c (Pipeline.arrRef spec4 8))
    (hafter : ∀ t, dat.after 8 t = iblk4 V c 8 t) (t : Fin cfg4.N) (d) : dat.before 8 t d = iblk4 V c 8 t :=
  (dat.before_in_eq_fetched 8 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: every load and the one store take a whole buffer -/

abbrev r4_S5000x64 : Rect S5000x64 := Rect.unit (s := S5000x64) ![0, 0] S5000x64.size inb_S5000x64_S5000x64_0_0
abbrev r4_S64x64 : Rect S64x64 := Rect.unit (s := S64x64) ![0, 0] S64x64.size inb_S64x64_S64x64_0_0
abbrev r4_S64 : Rect S64 := Rect.unit (s := S64) ![0] S64.size inb_S64_S64_0

/-- The output window's staging buffer after the body, from the input windows' blocks: the one store's value. -/
def out4_9 (x0 : Vec F S5000x64 .f32) (x1 : Vec F S64x64 .bf16) (x2 : Vec F S64 .f32) (x3 : Vec F S64x64 .bf16) (x4 : Vec F S64 .f32) (x5 : Vec F S64 .f32) (x6 : Vec F S64 .f32) (x7 : Vec F S64 .f32) (x8 : Vec F S64 .f32) : Vec F S5000x64 .f32 :=
  View.canon [⟨r4_S5000x64, k4_pay1 (k4_pay2 (View.ld x0 r4_S5000x64) (View.ld x1 r4_S64x64) (View.ld x2 r4_S64) (View.ld x3 r4_S64x64) (View.ld x4 r4_S64) (View.ld x5 r4_S64) (View.ld x8 r4_S64) (View.ld x7 r4_S64)) (k4_pay3 (View.ld x6 r4_S64))⟩]

/-- The one store covers the buffer. -/
theorem cover4_9 (p0 : Vec F S5000x64 .f32) (y : S5000x64.Idx) :
    ∃ pc ∈ ([⟨r4_S5000x64, p0⟩] : List (View.Piece (Elt F) S5000x64 .f32)), y ∈ pc.1.set :=
  View.cover_of_tiled [⟨r4_S5000x64, p0⟩] S5000x64.size (by rfl) y

set_option maxHeartbeats 4000000 in
/-- The body on whole staging buffers, the inputs' at contents `xW` and the output's at anything, runs to the
    continuation holding the inputs' as they were and the output's at `out4_9` of the inputs'. -/
theorem sound_kernel4 (c : Dev nD) (E : Set ℕ) (i : grid4.Coords) (arg1 : Memref sig .tc .vmem S5000x64 .f32) (harg1 : arg1.IsWhole) (arg2 : Memref sig .tc .vmem S64x64 .bf16) (harg2 : arg2.IsWhole) (arg3 : Memref sig .tc .vmem S64 .f32) (harg3 : arg3.IsWhole) (arg4 : Memref sig .tc .vmem S64x64 .bf16) (harg4 : arg4.IsWhole) (arg5 : Memref sig .tc .vmem S64 .f32) (harg5 : arg5.IsWhole) (arg6 : Memref sig .tc .vmem S64 .f32) (harg6 : arg6.IsWhole) (arg7 : Memref sig .tc .vmem S64 .f32) (harg7 : arg7.IsWhole) (arg8 : Memref sig .tc .vmem S64 .f32) (harg8 : arg8.IsWhole) (arg9 : Memref sig .tc .vmem S64 .f32) (harg9 : arg9.IsWhole) (arg10 : Memref sig .tc .vmem S5000x64 .f32) (harg10 : arg10.IsWhole)
    (x0 : Vec F S5000x64 .f32) (x1 : Vec F S64x64 .bf16) (x2 : Vec F S64 .f32) (x3 : Vec F S64x64 .bf16) (x4 : Vec F S64 .f32) (x5 : Vec F S64 .f32) (x6 : Vec F S64 .f32) (x7 : Vec F S64 .f32) (x8 : Vec F S64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out4_9 x0 x1 x2 x3 x4 x5 x6 x7 x8)) -∗ K ⟨⟩))
      ⊢ wp frame (wpE (defs₀ (F := F)) Variants.none c none) E (cc4__gin_mlp_bn_kernel i arg1 harg1 arg2 harg2 arg3 harg3 arg4 harg4 arg5 harg5 arg6 harg6 arg7 harg7 arg8 harg8 arg9 harg9 arg10 harg10) K := by
  simp only [cc4__gin_mlp_bn_kernel_eq_skeleton]; unfold cc4__gin_mlp_bn_kernel_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover4_9 _)

/-- The proof data of this region on core `c`: the arrays as the region finds them; after the body at point `t` each
    input's buffer at its block and the output's at `out4_9` of the input blocks; nothing owed, full shares, and the
    invariant that only carries the scoped rest and the generator register through. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => out4_9 (iblk4 V c 0 t) (iblk4 V c 1 t) (iblk4 V c 2 t) (iblk4 V c 3 t) (iblk4 V c 4 t) (iblk4 V c 5 t) (iblk4 V c 6 t) (iblk4 V c 7 t) (iblk4 V c 8 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) : (dat4 V c).after 8 t = iblk4 V c 8 t := by dsimp only [dat4]
theorem after4_9 (c : Dev nD) (t : Fin cfg4.N) : (dat4 V c).after 9 t = out4_9 (iblk4 V c 0 t) (iblk4 V c 1 t) (iblk4 V c 2 t) (iblk4 V c 3 t) (iblk4 V c 4 t) (iblk4 V c 5 t) (iblk4 V c 6 t) (iblk4 V c 7 t) (iblk4 V c 8 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d
theorem before4_7 (c : Dev nD) (t : Fin cfg4.N) (d) : (dat4 V c).before 7 t d = iblk4 V c 7 t :=
  before4_7_of V (dat4 V c) (A_eq4 V c 7) (after4_7 V c) t d
theorem before4_8 (c : Dev nD) (t : Fin cfg4.N) (d) : (dat4 V c).before 8 t d = iblk4 V c 8 t :=
  before4_8_of V (dat4 V c) (A_eq4 V c 8) (after4_8 V c) t d

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d))
    ∗ (∃ d, owns (c : Thread nD τ) (st4_9 t) fullShare ((dat4 V c).before 9 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t)
    ∗ owns (c : Thread nD τ) (st4_8 t) fullShare ((dat4 V c).after 8 t)
    ∗ owns (c : Thread nD τ) (st4_9 t) fullShare ((dat4 V c).after 9 t))

set_option maxHeartbeats 2000000 in
/-- The body at any point: the inputs' buffers hold their blocks, so the body's triple applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6, before4_7, before4_8]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8, after4_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel4 c Set.univ _ _ _ _ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) (iblk4 V c 7 t) (iblk4 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Reg5.lean ====
/-
  Region 5 of the program (the read-out head), at a parameter `V`: the buffer contents when the region is entered.
  Each input window's staging buffer holds, at every grid point, the block of its array that the point's index
  map names; the body reads those blocks whole, computes one value and stores it whole into the output window's
  buffer. So after the body at point `t` the output buffer holds `out5_5` of the input blocks at `t`, and the input
  buffers are as they were: that is the proof data, and the body's triple under the symbolic executor is its
  obligation at every point.
-/
import proofs.«109974_j38371237822822_1_alg».proof.Proof.Gen.KernelIdeal.Launch
import proofs.«109974_j38371237822822_1_alg».proof.Proof.Gen.KernelIdeal.Skeleton
import proofs.«109974_j38371237822822_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, whether the point fetches it or the block
    index has not moved since it was fetched. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, whether the point fetches it or the block
    index has not moved since it was fetched. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, whether the point fetches it or the block
    index has not moved since it was fetched. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, whether the point fetches it or the block
    index has not moved since it was fetched. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, whether the point fetches it or the block
    index has not moved since it was fetched. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: every load and the one store take a whole buffer -/

abbrev r5_S512x320 : Rect S512x320 := Rect.unit (s := S512x320) ![0, 0] S512x320.size inb_S512x320_S512x320_0_0
abbrev r5_S320x64 : Rect S320x64 := Rect.unit (s := S320x64) ![0, 0] S320x64.size inb_S320x64_S320x64_0_0
abbrev r5_S64 : Rect S64 := Rect.unit (s := S64) ![0] S64.size inb_S64_S64_0
abbrev r5_S64x10 : Rect S64x10 := Rect.unit (s := S64x10) ![0, 0] S64x10.size inb_S64x10_S64x10_0_0
abbrev r5_S10 : Rect S10 := Rect.unit (s := S10) ![0] S10.size inb_S10_S10_0
abbrev r5_S512x10 : Rect S512x10 := Rect.unit (s := S512x10) ![0, 0] S512x10.size inb_S512x10_S512x10_0_0

/-- The output window's staging buffer after the body, from the input windows' blocks: the one store's value. -/
def out5_5 (x0 : Vec F S512x320 .f32) (x1 : Vec F S320x64 .bf16) (x2 : Vec F S64 .f32) (x3 : Vec F S64x10 .bf16) (x4 : Vec F S10 .f32) : Vec F S512x10 .f32 :=
  View.canon [⟨r5_S512x10, k5_pay1 (View.ld x0 r5_S512x320) (View.ld x1 r5_S320x64) (View.ld x2 r5_S64) (View.ld x3 r5_S64x10) (View.ld x4 r5_S10)⟩]

/-- The one store covers the buffer. -/
theorem cover5_5 (p0 : Vec F S512x10 .f32) (y : S512x10.Idx) :
    ∃ pc ∈ ([⟨r5_S512x10, p0⟩] : List (View.Piece (Elt F) S512x10 .f32)), y ∈ pc.1.set :=
  View.cover_of_tiled [⟨r5_S512x10, p0⟩] S512x10.size (by rfl) y

set_option maxHeartbeats 4000000 in
/-- The body on whole staging buffers, the inputs' at contents `xW` and the output's at anything, runs to the
    continuation holding the inputs' as they were and the output's at `out5_5` of the inputs'. -/
theorem sound_kernel5 (c : Dev nD) (E : Set ℕ) (i : grid5.Coords) (arg1 : Memref sig .tc .vmem S512x320 .f32) (harg1 : arg1.IsWhole) (arg2 : Memref sig .tc .vmem S320x64 .bf16) (harg2 : arg2.IsWhole) (arg3 : Memref sig .tc .vmem S64 .f32) (harg3 : arg3.IsWhole) (arg4 : Memref sig .tc .vmem S64x10 .bf16) (harg4 : arg4.IsWhole) (arg5 : Memref sig .tc .vmem S10 .f32) (harg5 : arg5.IsWhole) (arg6 : Memref sig .tc .vmem S512x10 .f32) (harg6 : arg6.IsWhole)
    (x0 : Vec F S512x320 .f32) (x1 : Vec F S320x64 .bf16) (x2 : Vec F S64 .f32) (x3 : Vec F S64x10 .bf16) (x4 : Vec F S10 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5_5 x0 x1 x2 x3 x4)) -∗ K ⟨⟩))
      ⊢ wp frame (wpE (defs₀ (F := F)) Variants.none c none) E (cc5__head_kernel i arg1 harg1 arg2 harg2 arg3 harg3 arg4 harg4 arg5 harg5 arg6 harg6) K := by
  simp only [cc5__head_kernel_eq_skeleton]; unfold cc5__head_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover5_5 _)

/-- The proof data of this region on core `c`: the arrays as the region finds them; after the body at point `t` each
    input's buffer at its block and the output's at `out5_5` of the input blocks; nothing owed, full shares, and the
    invariant that only carries the scoped rest and the generator register through. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

set_option maxHeartbeats 2000000 in
/-- The body at any point: the inputs' buffers hold their blocks, so the body's triple applies; the invariant and the
    core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.Run.lean ====
/-
  The run of the whole program. The program is six stretches of host operations alternating with six kernel regions.
  Between two items every unscoped buffer of a core holds a known value: the launch contents, then what each host
  stretch computes from them, and, at the one buffer a region writes, the array that region's pipeline leaves (its
  output window's write-backs folded over the grid). `outs` names those six arrays, each defined from the contents
  reached with the earlier ones; `regK` is region K entered from the contents before it and left at the contents after
  it; `run_all` is the run from the launch to the return with every unscoped buffer read at the end; `frame` is its
  consequence for the argument arrays.
-/
import proofs.«109974_j38371237822822_1_alg».proof.Proof.KI.Reg0
import proofs.«109974_j38371237822822_1_alg».proof.Proof.KI.Reg1
import proofs.«109974_j38371237822822_1_alg».proof.Proof.KI.Reg2
import proofs.«109974_j38371237822822_1_alg».proof.Proof.KI.Reg3
import proofs.«109974_j38371237822822_1_alg».proof.Proof.KI.Reg4
import proofs.«109974_j38371237822822_1_alg».proof.Proof.KI.Reg5
import proofs.«109974_j38371237822822_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A valuation of each core's buffers, read at the references the TensorCore names. -/
abbrev atTc (W : Dev nD → Valuation τ sig (Elt F)) : (c : Dev nD) → (b : Ref sig .tc) → Buf (Elt F) ((c : Thread nD τ).loc b) :=
  fun c b => W c b

/-! ## The arrays the regions leave, one after the other

Region K's output array after the region is its output window's write-backs folded over the grid
(`Dat.arrAt … N`), from the contents the region is entered at; those contents are the launch memory carried through
the earlier host stretches and the earlier regions' arrays. So the six arrays are defined in order, each from the
contents built with the ones before it. -/

/-- What region 0 leaves in `main_v20`: its output window's write-backs folded over the grid, the region entered
    at the contents after the first host stretch. -/
def res0 (c : Dev nD) : Buf (Elt F) ((c : Thread nD τ).loc main_v20) :=
  (dat0 (atTc (Gen.V1 m)) c).arrAt 9 cfg0.N
/-- Every unscoped buffer after region 0: as the region found them, `main_v20` at what the region leaves. -/
def fold2 (c : Dev nD) : Valuation τ sig (Elt F) := Function.update (Gen.V1 m c) main_v20 (res0 m c)
/-- Every unscoped buffer after the second host stretch. -/
def fold3 (c : Dev nD) : Valuation τ sig (Elt F) := StableHlo.after hostOps1 (fold2 m c)

/-- What region 1 leaves in `main_v55`: its output window's write-backs folded over the grid, the region entered
    at the contents after the second host stretch. -/
def res1 (c : Dev nD) : Buf (Elt F) ((c : Thread nD τ).loc main_v55) :=
  (dat1 (atTc (fold3 m)) c).arrAt 9 cfg1.N
/-- Every unscoped buffer after region 1: as the region found them, `main_v55` at what the region leaves. -/
def fold4 (c : Dev nD) : Valuation τ sig (Elt F) := Function.update (fold3 m c) main_v55 (res1 m c)
/-- Every unscoped buffer after the third host stretch. -/
def fold5 (c : Dev nD) : Valuation τ sig (Elt F) := StableHlo.after hostOps2 (fold4 m c)

/-- What region 2 leaves in `main_v90`: its output window's write-backs folded over the grid, the region entered
    at the contents after the third host stretch. -/
def res2 (c : Dev nD) : Buf (Elt F) ((c : Thread nD τ).loc main_v90) :=
  (dat2 (atTc (fold5 m)) c).arrAt 9 cfg2.N
/-- Every unscoped buffer after region 2: as the region found them, `main_v90` at what the region leaves. -/
def fold6 (c : Dev nD) : Valuation τ sig (Elt F) := Function.update (fold5 m c) main_v90 (res2 m c)
/-- Every unscoped buffer after the fourth host stretch. -/
def fold7 (c : Dev nD) : Valuation τ sig (Elt F) := StableHlo.after hostOps3 (fold6 m c)

/-- What region 3 leaves in `main_v125`: its output window's write-backs folded over the grid, the region entered
    at the contents after the fourth host stretch. -/
def res3 (c : Dev nD) : Buf (Elt F) ((c : Thread nD τ).loc main_v125) :=
  (dat3 (atTc (fold7 m)) c).arrAt 9 cfg3.N
/-- Every unscoped buffer after region 3: as the region found them, `main_v125` at what the region leaves. -/
def fold8 (c : Dev nD) : Valuation τ sig (Elt F) := Function.update (fold7 m c) main_v125 (res3 m c)
/-- Every unscoped buffer after the fifth host stretch. -/
def fold9 (c : Dev nD) : Valuation τ sig (Elt F) := StableHlo.after hostOps4 (fold8 m c)

/-- What region 4 leaves in `main_v160`: its output window's write-backs folded over the grid, the region entered
    at the contents after the fifth host stretch. -/
def res4 (c : Dev nD) : Buf (Elt F) ((c : Thread nD τ).loc main_v160) :=
  (dat4 (atTc (fold9 m)) c).arrAt 9 cfg4.N
/-- Every unscoped buffer after region 4: as the region found them, `main_v160` at what the region leaves. -/
def fold10 (c : Dev nD) : Valuation τ sig (Elt F) := Function.update (fold9 m c) main_v160 (res4 m c)
/-- Every unscoped buffer after the sixth host stretch. -/
def fold11 (c : Dev nD) : Valuation τ sig (Elt F) := StableHlo.after hostOps5 (fold10 m c)

/-- What region 5 leaves in `main_v176`: its output window's write-backs folded over the grid, the region entered
    at the contents after the sixth host stretch. -/
def res5 (c : Dev nD) : Buf (Elt F) ((c : Thread nD τ).loc main_v176) :=
  (dat5 (atTc (fold11 m)) c).arrAt 5 cfg5.N
/-- Every unscoped buffer after region 5: as the region found them, `main_v176` at what the region leaves. -/
def fold12 (c : Dev nD) : Valuation τ sig (Elt F) := Function.update (fold11 m c) main_v176 (res5 m c)

/-- The contents the regions leave, as the unknowns the contents between items are written over: at each region's
    output buffer the array defined above, at any other buffer the launch contents (never read). -/
def outs : Gen.Outs (F := F) := fun _ r c =>
  if h0 : r = main_v20 then h0 ▸ res0 m c
  else if h1 : r = main_v55 then h1 ▸ res1 m c
  else if h2 : r = main_v90 then h2 ▸ res2 m c
  else if h3 : r = main_v125 then h3 ▸ res3 m c
  else if h4 : r = main_v160 then h4 ▸ res4 m c
  else if h5 : r = main_v176 then h5 ▸ res5 m c
  else m ((c : Thread nD τ).loc r)

theorem outs_at0 (J : ℕ) (c : Dev nD) : outs m J main_v20 c = res0 m c := by
  unfold outs; rw [dif_pos rfl]

theorem outs_at1 (J : ℕ) (c : Dev nD) : outs m J main_v55 c = res1 m c := by
  unfold outs; rw [dif_neg (by decide : ¬ (main_v55 : Ref sig .tc) = main_v20), dif_pos rfl]

theorem outs_at2 (J : ℕ) (c : Dev nD) : outs m J main_v90 c = res2 m c := by
  unfold outs; rw [dif_neg (by decide : ¬ (main_v90 : Ref sig .tc) = main_v20), dif_neg (by decide : ¬ (main_v90 : Ref sig .tc) = main_v55), dif_pos rfl]

theorem outs_at3 (J : ℕ) (c : Dev nD) : outs m J main_v125 c = res3 m c := by
  unfold outs; rw [dif_neg (by decide : ¬ (main_v125 : Ref sig .tc) = main_v20), dif_neg (by decide : ¬ (main_v125 : Ref sig .tc) = main_v55), dif_neg (by decide : ¬ (main_v125 : Ref sig .tc) = main_v90), dif_pos rfl]

theorem outs_at4 (J : ℕ) (c : Dev nD) : outs m J main_v160 c = res4 m c := by
  unfold outs; rw [dif_neg (by decide : ¬ (main_v160 : Ref sig .tc) = main_v20), dif_neg (by decide : ¬ (main_v160 : Ref sig .tc) = main_v55), dif_neg (by decide : ¬ (main_v160 : Ref sig .tc) = main_v90), dif_neg (by decide : ¬ (main_v160 : Ref sig .tc) = main_v125), dif_pos rfl]

theorem outs_at5 (J : ℕ) (c : Dev nD) : outs m J main_v176 c = res5 m c := by
  unfold outs; rw [dif_neg (by decide : ¬ (main_v176 : Ref sig .tc) = main_v20), dif_neg (by decide : ¬ (main_v176 : Ref sig .tc) = main_v55), dif_neg (by decide : ¬ (main_v176 : Ref sig .tc) = main_v90), dif_neg (by decide : ¬ (main_v176 : Ref sig .tc) = main_v125), dif_neg (by decide : ¬ (main_v176 : Ref sig .tc) = main_v160), dif_pos rfl]

/-! The contents between items, written over `outs`, are the contents built above. -/

theorem fold2_eq : Gen.V2 m (outs m) = fold2 m := funext fun c => by
  show Function.update (Gen.V1 m c) main_v20 (outs m 2 main_v20 c) = _
  rw [outs_at0]; rfl
theorem fold3_eq : Gen.V3 m (outs m) = fold3 m := funext fun c => by
  show StableHlo.after hostOps1 (Gen.V2 m (outs m) c) = _
  rw [fold2_eq]; rfl

theorem fold4_eq : Gen.V4 m (outs m) = fold4 m := funext fun c => by
  show Function.update (Gen.V3 m (outs m) c) main_v55 (outs m 4 main_v55 c) = _
  rw [fold3_eq, outs_at1]; rfl
theorem fold5_eq : Gen.V5 m (outs m) = fold5 m := funext fun c => by
  show StableHlo.after hostOps2 (Gen.V4 m (outs m) c) = _
  rw [fold4_eq]; rfl

theorem fold6_eq : Gen.V6 m (outs m) = fold6 m := funext fun c => by
  show Function.update (Gen.V5 m (outs m) c) main_v90 (outs m 6 main_v90 c) = _
  rw [fold5_eq, outs_at2]; rfl
theorem fold7_eq : Gen.V7 m (outs m) = fold7 m := funext fun c => by
  show StableHlo.after hostOps3 (Gen.V6 m (outs m) c) = _
  rw [fold6_eq]; rfl

theorem fold8_eq : Gen.V8 m (outs m) = fold8 m := funext fun c => by
  show Function.update (Gen.V7 m (outs m) c) main_v125 (outs m 8 main_v125 c) = _
  rw [fold7_eq, outs_at3]; rfl
theorem fold9_eq : Gen.V9 m (outs m) = fold9 m := funext fun c => by
  show StableHlo.after hostOps4 (Gen.V8 m (outs m) c) = _
  rw [fold8_eq]; rfl

theorem fold10_eq : Gen.V10 m (outs m) = fold10 m := funext fun c => by
  show Function.update (Gen.V9 m (outs m) c) main_v160 (outs m 10 main_v160 c) = _
  rw [fold9_eq, outs_at4]; rfl
theorem fold11_eq : Gen.V11 m (outs m) = fold11 m := funext fun c => by
  show StableHlo.after hostOps5 (Gen.V10 m (outs m) c) = _
  rw [fold10_eq]; rfl

theorem fold12_eq : Gen.V12 m (outs m) = fold12 m := funext fun c => by
  show Function.update (Gen.V11 m (outs m) c) main_v176 (outs m 12 main_v176 c) = _
  rw [fold11_eq, outs_at5]; rfl

/-! Each region's output buffer after the region holds the array its pipeline leaves from the contents before it. -/

theorem outs_2 (c : Dev nD) : outs m 2 main_v20 c = (dat0 (atTc (Gen.V1 m)) c).arrAt 9 cfg0.N := by
  exact outs_at0 m 2 c

theorem outs_4 (c : Dev nD) : outs m 4 main_v55 c = (dat1 (atTc (Gen.V3 m (outs m))) c).arrAt 9 cfg1.N := by
  rw [fold3_eq]; exact outs_at1 m 4 c

theorem outs_6 (c : Dev nD) : outs m 6 main_v90 c = (dat2 (atTc (Gen.V5 m (outs m))) c).arrAt 9 cfg2.N := by
  rw [fold5_eq]; exact outs_at2 m 6 c

theorem outs_8 (c : Dev nD) : outs m 8 main_v125 c = (dat3 (atTc (Gen.V7 m (outs m))) c).arrAt 9 cfg3.N := by
  rw [fold7_eq]; exact outs_at3 m 8 c

theorem outs_10 (c : Dev nD) : outs m 10 main_v160 c = (dat4 (atTc (Gen.V9 m (outs m))) c).arrAt 9 cfg4.N := by
  rw [fold9_eq]; exact outs_at4 m 10 c

theorem outs_12 (c : Dev nD) : outs m 12 main_v176 c = (dat5 (atTc (Gen.V11 m (outs m))) c).arrAt 5 cfg5.N := by
  rw [fold11_eq]; exact outs_at5 m 12 c

/-! ## The proof data family and the thread state -/

/-- Every pipeline's proof data, each at the contents its region is entered at. -/
def pdats : (p : Fin 6) → (c : Dev nD) → Dat τ (Elt F) Unit ℕ (UR sig nD τ) ℕ (cfgs p) c
  | ⟨0, _⟩ => fun c => dat0 (atTc (Gen.V1 m)) c
  | ⟨1, _⟩ => fun c => dat1 (atTc (Gen.V3 m (outs m))) c
  | ⟨2, _⟩ => fun c => dat2 (atTc (Gen.V5 m (outs m))) c
  | ⟨3, _⟩ => fun c => dat3 (atTc (Gen.V7 m (outs m))) c
  | ⟨4, _⟩ => fun c => dat4 (atTc (Gen.V9 m (outs m))) c
  | ⟨5, _⟩ => fun c => dat5 (atTc (Gen.V11 m (outs m))) c

abbrev 𝒱₀ : Variants := Variants.none
/-- No core owes another anything: no level is assigned. -/
abbrev L0 : GSem nD τ sig → Finset Unit := fun _ => ∅
abbrev lv0 : GSem nD τ sig → Unit → ℕ := fun _ _ => 0
/-- What rides beside the buffers through every item: the core's generator register at some state, and the core owing
    nothing. -/
abbrev Rst (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last contents, the generator
    register at some state. -/
abbrev Tₙ (c : Dev nD) : sProp 𝕄 := iprop(StableHlo.held (c : Thread nD τ) (Pipeline.ucRefs τ sig) (Gen.V12 m (outs m) c) ∗ ∃ r, prngReg c r)

/-! ## Each region's arrays at its exit

At a region's exit every window's array is what the pipeline leaves: an input window's array is never written back
and is the entry contents, which the exit contents keep (only the output buffer is updated); the output window's
array is the updated value. Every other buffer keeps its entry contents. -/

theorem in0 : ∀ w : Fin cfg0.W, w ≠ 9 →
    (cfg0.win w).isOut = false ∧ Pipeline.arrRef spec0 w ∉ ([main_v20] : List (Ref sig .tc)) := by decide
theorem hF0 (c : Dev nD) (w : Fin cfg0.W) :
    (pdats m 0 c).arrAt w cfg0.N = atTc (Gen.V2 m (outs m)) c (Pipeline.arrRef spec0 w) := by
  show (dat0 (atTc (Gen.V1 m)) c).arrAt w cfg0.N = _
  by_cases hw : w = 9
  · subst hw
    exact (outs_2 m c).symm.trans
      (Function.update_self (f := Gen.V1 m c) (a := (main_v20 : DevRef τ sig)) (v := outs m 2 main_v20 c)).symm
  · exact ((dat0 (atTc (Gen.V1 m)) c).arrAt_in w (in0 w hw).1 cfg0.N).trans
      ((A_eq0 (atTc (Gen.V1 m)) c w).trans (Gen.V2_of m (outs m) c _ (in0 w hw).2).symm)
theorem hrest0 (c : Dev nD) : ∀ b, b ∉ Finset.univ.image (Pipeline.arrRef spec0) →
    atTc (Gen.V2 m (outs m)) c b = atTc (Gen.V1 m) c b :=
  fun b hb => Gen.V2_of m (outs m) c b fun hmem =>
    hb (Finset.mem_image.mpr ⟨9, Finset.mem_univ _, (List.mem_singleton.mp hmem).symm⟩)

theorem in1 : ∀ w : Fin cfg1.W, w ≠ 9 →
    (cfg1.win w).isOut = false ∧ Pipeline.arrRef spec1 w ∉ ([main_v55] : List (Ref sig .tc)) := by decide
theorem hF1 (c : Dev nD) (w : Fin cfg1.W) :
    (pdats m 1 c).arrAt w cfg1.N = atTc (Gen.V4 m (outs m)) c (Pipeline.arrRef spec1 w) := by
  show (dat1 (atTc (Gen.V3 m (outs m))) c).arrAt w cfg1.N = _
  by_cases hw : w = 9
  · subst hw
    exact (outs_4 m c).symm.trans
      (Function.update_self (f := Gen.V3 m (outs m) c) (a := (main_v55 : DevRef τ sig)) (v := outs m 4 main_v55 c)).symm
  · exact ((dat1 (atTc (Gen.V3 m (outs m))) c).arrAt_in w (in1 w hw).1 cfg1.N).trans
      ((A_eq1 (atTc (Gen.V3 m (outs m))) c w).trans (Gen.V4_of m (outs m) c _ (in1 w hw).2).symm)
theorem hrest1 (c : Dev nD) : ∀ b, b ∉ Finset.univ.image (Pipeline.arrRef spec1) →
    atTc (Gen.V4 m (outs m)) c b = atTc (Gen.V3 m (outs m)) c b :=
  fun b hb => Gen.V4_of m (outs m) c b fun hmem =>
    hb (Finset.mem_image.mpr ⟨9, Finset.mem_univ _, (List.mem_singleton.mp hmem).symm⟩)

theorem in2 : ∀ w : Fin cfg2.W, w ≠ 9 →
    (cfg2.win w).isOut = false ∧ Pipeline.arrRef spec2 w ∉ ([main_v90] : List (Ref sig .tc)) := by decide
theorem hF2 (c : Dev nD) (w : Fin cfg2.W) :
    (pdats m 2 c).arrAt w cfg2.N = atTc (Gen.V6 m (outs m)) c (Pipeline.arrRef spec2 w) := by
  show (dat2 (atTc (Gen.V5 m (outs m))) c).arrAt w cfg2.N = _
  by_cases hw : w = 9
  · subst hw
    exact (outs_6 m c).symm.trans
      (Function.update_self (f := Gen.V5 m (outs m) c) (a := (main_v90 : DevRef τ sig)) (v := outs m 6 main_v90 c)).symm
  · exact ((dat2 (atTc (Gen.V5 m (outs m))) c).arrAt_in w (in2 w hw).1 cfg2.N).trans
      ((A_eq2 (atTc (Gen.V5 m (outs m))) c w).trans (Gen.V6_of m (outs m) c _ (in2 w hw).2).symm)
theorem hrest2 (c : Dev nD) : ∀ b, b ∉ Finset.univ.image (Pipeline.arrRef spec2) →
    atTc (Gen.V6 m (outs m)) c b = atTc (Gen.V5 m (outs m)) c b :=
  fun b hb => Gen.V6_of m (outs m) c b fun hmem =>
    hb (Finset.mem_image.mpr ⟨9, Finset.mem_univ _, (List.mem_singleton.mp hmem).symm⟩)

theorem in3 : ∀ w : Fin cfg3.W, w ≠ 9 →
    (cfg3.win w).isOut = false ∧ Pipeline.arrRef spec3 w ∉ ([main_v125] : List (Ref sig .tc)) := by decide
theorem hF3 (c : Dev nD) (w : Fin cfg3.W) :
    (pdats m 3 c).arrAt w cfg3.N = atTc (Gen.V8 m (outs m)) c (Pipeline.arrRef spec3 w) := by
  show (dat3 (atTc (Gen.V7 m (outs m))) c).arrAt w cfg3.N = _
  by_cases hw : w = 9
  · subst hw
    exact (outs_8 m c).symm.trans
      (Function.update_self (f := Gen.V7 m (outs m) c) (a := (main_v125 : DevRef τ sig)) (v := outs m 8 main_v125 c)).symm
  · exact ((dat3 (atTc (Gen.V7 m (outs m))) c).arrAt_in w (in3 w hw).1 cfg3.N).trans
      ((A_eq3 (atTc (Gen.V7 m (outs m))) c w).trans (Gen.V8_of m (outs m) c _ (in3 w hw).2).symm)
theorem hrest3 (c : Dev nD) : ∀ b, b ∉ Finset.univ.image (Pipeline.arrRef spec3) →
    atTc (Gen.V8 m (outs m)) c b = atTc (Gen.V7 m (outs m)) c b :=
  fun b hb => Gen.V8_of m (outs m) c b fun hmem =>
    hb (Finset.mem_image.mpr ⟨9, Finset.mem_univ _, (List.mem_singleton.mp hmem).symm⟩)

theorem in4 : ∀ w : Fin cfg4.W, w ≠ 9 →
    (cfg4.win w).isOut = false ∧ Pipeline.arrRef spec4 w ∉ ([main_v160] : List (Ref sig .tc)) := by decide
theorem hF4 (c : Dev nD) (w : Fin cfg4.W) :
    (pdats m 4 c).arrAt w cfg4.N = atTc (Gen.V10 m (outs m)) c (Pipeline.arrRef spec4 w) := by
  show (dat4 (atTc (Gen.V9 m (outs m))) c).arrAt w cfg4.N = _
  by_cases hw : w = 9
  · subst hw
    exact (outs_10 m c).symm.trans
      (Function.update_self (f := Gen.V9 m (outs m) c) (a := (main_v160 : DevRef τ sig)) (v := outs m 10 main_v160 c)).symm
  · exact ((dat4 (atTc (Gen.V9 m (outs m))) c).arrAt_in w (in4 w hw).1 cfg4.N).trans
      ((A_eq4 (atTc (Gen.V9 m (outs m))) c w).trans (Gen.V10_of m (outs m) c _ (in4 w hw).2).symm)
theorem hrest4 (c : Dev nD) : ∀ b, b ∉ Finset.univ.image (Pipeline.arrRef spec4) →
    atTc (Gen.V10 m (outs m)) c b = atTc (Gen.V9 m (outs m)) c b :=
  fun b hb => Gen.V10_of m (outs m) c b fun hmem =>
    hb (Finset.mem_image.mpr ⟨9, Finset.mem_univ _, (List.mem_singleton.mp hmem).symm⟩)

theorem in5 : ∀ w : Fin cfg5.W, w ≠ 5 →
    (cfg5.win w).isOut = false ∧ Pipeline.arrRef spec5 w ∉ ([main_v176] : List (Ref sig .tc)) := by decide
theorem hF5 (c : Dev nD) (w : Fin cfg5.W) :
    (pdats m 5 c).arrAt w cfg5.N = atTc (Gen.V12 m (outs m)) c (Pipeline.arrRef spec5 w) := by
  show (dat5 (atTc (Gen.V11 m (outs m))) c).arrAt w cfg5.N = _
  by_cases hw : w = 5
  · subst hw
    exact (outs_12 m c).symm.trans
      (Function.update_self (f := Gen.V11 m (outs m) c) (a := (main_v176 : DevRef τ sig)) (v := outs m 12 main_v176 c)).symm
  · exact ((dat5 (atTc (Gen.V11 m (outs m))) c).arrAt_in w (in5 w hw).1 cfg5.N).trans
      ((A_eq5 (atTc (Gen.V11 m (outs m))) c w).trans (Gen.V12_of m (outs m) c _ (in5 w hw).2).symm)
theorem hrest5 (c : Dev nD) : ∀ b, b ∉ Finset.univ.image (Pipeline.arrRef spec5) →
    atTc (Gen.V12 m (outs m)) c b = atTc (Gen.V11 m (outs m)) c b :=
  fun b hb => Gen.V12_of m (outs m) c b fun hmem =>
    hb (Finset.mem_image.mpr ⟨5, Finset.mem_univ _, (List.mem_singleton.mp hmem).symm⟩)

/-! ## The regions as segments -/

set_option backward.isDefEq.respectTransparency.types false in
/-- Region 0 over the thread state: entered from every unscoped buffer at the contents before it, left at the contents
    after it. Its arrays are split out of the unscoped buffers and put back at the exit contents; the generator
    register passes through the invariant; nothing is owed; the kernel has no semaphore of its own. -/
def reg0 : Pipeline.RegionSeg (pcfgs (F := F)) adm (pdats m) () defs₀ 𝒱₀ L0 lv0 0 where
  win := launch0.win.to₀
  block_pos := launch0.block_pos
  stage_whole := launch0.stage_whole
  K := PEmpty
  osem k := k.elim
  ho := Pipeline.OwnSemFacts.none _
  hbody c := (body_obligation0 (atTc (Gen.V1 m)) c).loose
  hwaits := Pipeline.hwaits_of_owed_zero _ _ _ _ L0 lv0 0 fun _ _ => rfl
  pre c := iprop(StableHlo.held (c : Thread nD τ) (Pipeline.ucRefs τ sig) (Gen.V1 m c) ∗ Rst c)
  post c := iprop(StableHlo.held (c : Thread nD τ) (Pipeline.ucRefs τ sig) (Gen.V2 m (outs m) c) ∗ Rst c)
  X c := iprop(∃ r, prngReg c r)
  Y c := iprop(∃ r, prngReg c r)
  Z c := Pipeline.unscopedRest (Ix := Unit) (Name := ℕ) (U := UR sig nD τ) (Lvl := ℕ) spec0 c (atTc (Gen.V1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atTc (Gen.V1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atTc (Gen.V1 m) c) (atTc (Gen.V2 m (outs m)) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents
    after it. Its arrays are split out of the unscoped buffers and put back at the exit contents; the generator
    register passes through the invariant; nothing is owed; the kernel has no semaphore of its own. -/
def reg1 : Pipeline.RegionSeg (pcfgs (F := F)) adm (pdats m) () defs₀ 𝒱₀ L0 lv0 1 where
  win := launch1.win.to₀
  block_pos := launch1.block_pos
  stage_whole := launch1.stage_whole
  K := PEmpty
  osem k := k.elim
  ho := Pipeline.OwnSemFacts.none _
  hbody c := (body_obligation1 (atTc (Gen.V3 m (outs m))) c).loose
  hwaits := Pipeline.hwaits_of_owed_zero _ _ _ _ L0 lv0 1 fun _ _ => rfl
  pre c := iprop(StableHlo.held (c : Thread nD τ) (Pipeline.ucRefs τ sig) (Gen.V3 m (outs m) c) ∗ Rst c)
  post c := iprop(StableHlo.held (c : Thread nD τ) (Pipeline.ucRefs τ sig) (Gen.V4 m (outs m) c) ∗ Rst c)
  X c := iprop(∃ r, prngReg c r)
  Y c := iprop(∃ r, prngReg c r)
  Z c := Pipeline.unscopedRest (Ix := Unit) (Name := ℕ) (U := UR sig nD τ) (Lvl := ℕ) spec1 c (atTc (Gen.V3 m (outs m)) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atTc (Gen.V3 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atTc (Gen.V3 m (outs m)) c) (atTc (Gen.V4 m (outs m)) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the contents before it, left at the contents
    after it. Its arrays are split out of the unscoped buffers and put back at the exit contents; the generator
    register passes through the invariant; nothing is owed; the kernel has no semaphore of its own. -/
def reg2 : Pipeline.RegionSeg (pcfgs (F := F)) adm (pdats m) () defs₀ 𝒱₀ L0 lv0 2 where
  win := launch2.win.to₀
  block_pos := launch2.block_pos
  stage_whole := launch2.stage_whole
  K := PEmpty
  osem k := k.elim
  ho := Pipeline.OwnSemFacts.none _
  hbody c := (body_obligation2 (atTc (Gen.V5 m (outs m))) c).loose
  hwaits := Pipeline.hwaits_of_owed_zero _ _ _ _ L0 lv0 2 fun _ _ => rfl
  pre c := iprop(StableHlo.held (c : Thread nD τ) (Pipeline.ucRefs τ sig) (Gen.V5 m (outs m) c) ∗ Rst c)
  post c := iprop(StableHlo.held (c : Thread nD τ) (Pipeline.ucRefs τ sig) (Gen.V6 m (outs m) c) ∗ Rst c)
  X c := iprop(∃ r, prngReg c r)
  Y c := iprop(∃ r, prngReg c r)
  Z c := Pipeline.unscopedRest (Ix := Unit) (Name := ℕ) (U := UR sig nD τ) (Lvl := ℕ) spec2 c (atTc (Gen.V5 m (outs m)) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atTc (Gen.V5 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atTc (Gen.V5 m (outs m)) c) (atTc (Gen.V6 m (outs m)) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at the contents before it, left at the contents
    after it. Its arrays are split out of the unscoped buffers and put back at the exit contents; the generator
    register passes through the invariant; nothing is owed; the kernel has no semaphore of its own. -/
def reg3 : Pipeline.RegionSeg (pcfgs (F := F)) adm (pdats m) () defs₀ 𝒱₀ L0 lv0 3 where
  win := launch3.win.to₀
  block_pos := launch3.block_pos
  stage_whole := launch3.stage_whole
  K := PEmpty
  osem k := k.elim
  ho := Pipeline.OwnSemFacts.none _
  hbody c := (body_obligation3 (atTc (Gen.V7 m (outs m))) c).loose
  hwaits := Pipeline.hwaits_of_owed_zero _ _ _ _ L0 lv0 3 fun _ _ => rfl
  pre c := iprop(StableHlo.held (c : Thread nD τ) (Pipeline.ucRefs τ sig) (Gen.V7 m (outs m) c) ∗ Rst c)
  post c := iprop(StableHlo.held (c : Thread nD τ) (Pipeline.ucRefs τ sig) (Gen.V8 m (outs m) c) ∗ Rst c)
  X c := iprop(∃ r, prngReg c r)
  Y c := iprop(∃ r, prngReg c r)
  Z c := Pipeline.unscopedRest (Ix := Unit) (Name := ℕ) (U := UR sig nD τ) (Lvl := ℕ) spec3 c (atTc (Gen.V7 m (outs m)) c)
  hentry c := by
    rw [Pipeline.ownSems0_none]
    have hsplit := Pipeline.arrays_of_unscopedBufs (p := 3) (pcfgs (F := F)) adm (pdats m) launch3.win launch3.arr_whole c
      ((pdats m 3 c).share_full fun _ => rfl) (atTc (Gen.V7 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (atTc (Gen.V7 m (outs m)) c) (atTc (Gen.V8 m (outs m)) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at the contents before it, left at the contents
    after it. Its arrays are split out of the unscoped buffers and put back at the exit contents; the generator
    register passes through the invariant; nothing is owed; the kernel has no semaphore of its own. -/
def reg4 : Pipeline.RegionSeg (pcfgs (F := F)) adm (pdats m) () defs₀ 𝒱₀ L0 lv0 4 where
  win := launch4.win.to₀
  block_pos := launch4.block_pos
  stage_whole := launch4.stage_whole
  K := PEmpty
  osem k := k.elim
  ho := Pipeline.OwnSemFacts.none _
  hbody c := (body_obligation4 (atTc (Gen.V9 m (outs m))) c).loose
  hwaits := Pipeline.hwaits_of_owed_zero _ _ _ _ L0 lv0 4 fun _ _ => rfl
  pre c := iprop(StableHlo.held (c : Thread nD τ) (Pipeline.ucRefs τ sig) (Gen.V9 m (outs m) c) ∗ Rst c)
  post c := iprop(StableHlo.held (c : Thread nD τ) (Pipeline.ucRefs τ sig) (Gen.V10 m (outs m) c) ∗ Rst c)
  X c := iprop(∃ r, prngReg c r)
  Y c := iprop(∃ r, prngReg c r)
  Z c := Pipeline.unscopedRest (Ix := Unit) (Name := ℕ) (U := UR sig nD τ) (Lvl := ℕ) spec4 c (atTc (Gen.V9 m (outs m)) c)
  hentry c := by
    rw [Pipeline.ownSems0_none]
    have hsplit := Pipeline.arrays_of_unscopedBufs (p := 4) (pcfgs (F := F)) adm (pdats m) launch4.win launch4.arr_whole c
      ((pdats m 4 c).share_full fun _ => rfl) (atTc (Gen.V9 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (atTc (Gen.V9 m (outs m)) c) (atTc (Gen.V10 m (outs m)) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at the contents before it, left at the contents
    after it. Its arrays are split out of the unscoped buffers and put back at the exit contents; the generator
    register passes through the invariant; nothing is owed; the kernel has no semaphore of its own. -/
def reg5 : Pipeline.RegionSeg (pcfgs (F := F)) adm (pdats m) () defs₀ 𝒱₀ L0 lv0 5 where
  win := launch5.win.to₀
  block_pos := launch5.block_pos
  stage_whole := launch5.stage_whole
  K := PEmpty
  osem k := k.elim
  ho := Pipeline.OwnSemFacts.none _
  hbody c := (body_obligation5 (atTc (Gen.V11 m (outs m))) c).loose
  hwaits := Pipeline.hwaits_of_owed_zero _ _ _ _ L0 lv0 5 fun _ _ => rfl
  pre c := iprop(StableHlo.held (c : Thread nD τ) (Pipeline.ucRefs τ sig) (Gen.V11 m (outs m) c) ∗ Rst c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c (atTc (Gen.V11 m (outs m)) c)
  hentry c := by
    rw [Pipeline.ownSems0_none]
    have hsplit := Pipeline.arrays_of_unscopedBufs (p := 5) (pcfgs (F := F)) adm (pdats m) launch5.win launch5.arr_whole c
      ((pdats m 5 c).share_full fun _ => rfl) (atTc (Gen.V11 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (atTc (Gen.V11 m (outs m)) c) (atTc (Gen.V12 m (outs m)) c) ((pdats m 5 c).arrAt · cfg5.N) (hF5 m c) (hrest5 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

/-- The program's twelve items as segments on a core: the host stretches from the contents before them, the regions'
    records above. -/
abbrev allSegs : Dev nD → List (Seg (pcfgs (F := F)) adm (pdats m) () defs₀ 𝒱₀ L0 lv0) :=
  Gen.segs m (outs m) 𝒱₀ L0 lv0 (fun _ => Rst) () (pdats m) (reg0 m) (reg1 m) (reg2 m) (reg3 m) (reg4 m) (reg5 m)

set_option backward.isDefEq.respectTransparency.types false in
/-- THE RUN: from any memory with zero counters every weakly fair execution of the program terminates, and in every
    final state each unscoped buffer holds the last contents of the fold: the launch contents carried through the six
    host stretches, with each region's output buffer at the array its pipeline leaves. -/
theorem run_all : θ_run defs (onTc (τ := τ) (main (F := F))) ⟨m, fun _ => 0, ρ⟩
    (fun r => ∀ c : Dev nD, ∀ b ∈ Pipeline.ucRefs τ sig, r.2.mem ((c : Thread nD τ).1, b) = Gen.V12 m (outs m) c b) :=
  Pipeline.θ_run_regions_kit_dev (pcfgs (F := F)) adm (pdats m) () cellOf_inj emb₁ defs₀ 𝒱₀ L0 lv0 m ρ main (allSegs m)
    (fun c Q => by
      rewrite [main_chain c, Seg.run_eq_chain,
        show (allSegs m c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()) ] from rfl]
      exact .rfl)
    (fun c => by simp only [allSegs, Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rst c)) (Tₙ := Tₙ m)
    (hch := fun c => ⟨.rfl, .rfl, .rfl, .rfl, .rfl, .rfl, .rfl, .rfl, .rfl, .rfl, .rfl, .rfl, .rfl⟩)
    (hinit := by
      refine Pipeline.initEach L0 lv0 fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V12 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (Gen.V12 m (outs m) c) s')
      isplitl [Hh] <;> iassumption)
    (hQ := fun s h => h)

/-- THE FRAME: every weakly fair execution of the program terminates and every final memory holds each argument array
    as launched: no host stretch writes an argument and no region may change one, so the last contents at an argument
    are the launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun r h c =>
    ⟨(h c _ (mem_uc main_arg0 (by decide))).trans (Gen.V12_main_arg0 m (outs m) c),
      (h c _ (mem_uc main_arg1 (by decide))).trans (Gen.V12_main_arg1 m (outs m) c),
      (h c _ (mem_uc main_arg2 (by decide))).trans (Gen.V12_main_arg2 m (outs m) c),
      (h c _ (mem_uc main_arg3 (by decide))).trans (Gen.V12_main_arg3 m (outs m) c),
      (h c _ (mem_uc main_arg4 (by decide))).trans (Gen.V12_main_arg4 m (outs m) c),
      (h c _ (mem_uc main_arg5 (by decide))).trans (Gen.V12_main_arg5 m (outs m) c),
      (h c _ (mem_uc main_arg6 (by decide))).trans (Gen.V12_main_arg6 m (outs m) c),
      (h c _ (mem_uc main_arg7 (by decide))).trans (Gen.V12_main_arg7 m (outs m) c),
      (h c _ (mem_uc main_arg8 (by decide))).trans (Gen.V12_main_arg8 m (outs m) c),
      (h c _ (mem_uc main_arg9 (by decide))).trans (Gen.V12_main_arg9 m (outs m) c),
      (h c _ (mem_uc main_arg10 (by decide))).trans (Gen.V12_main_arg10 m (outs m) c),
      (h c _ (mem_uc main_arg11 (by decide))).trans (Gen.V12_main_arg11 m (outs m) c),
      (h c _ (mem_uc main_arg12 (by decide))).trans (Gen.V12_main_arg12 m (outs m) c),
      (h c _ (mem_uc main_arg13 (by decide))).trans (Gen.V12_main_arg13 m (outs m) c),
      (h c _ (mem_uc main_arg14 (by decide))).trans (Gen.V12_main_arg14 m (outs m) c),
      (h c _ (mem_uc main_arg15 (by decide))).trans (Gen.V12_main_arg15 m (outs m) c),
      (h c _ (mem_uc main_arg16 (by decide))).trans (Gen.V12_main_arg16 m (outs m) c),
      (h c _ (mem_uc main_arg17 (by decide))).trans (Gen.V12_main_arg17 m (outs m) c),
      (h c _ (mem_uc main_arg18 (by decide))).trans (Gen.V12_main_arg18 m (outs m) c),
      (h c _ (mem_uc main_arg19 (by decide))).trans (Gen.V12_main_arg19 m (outs m) c),
      (h c _ (mem_uc main_arg20 (by decide))).trans (Gen.V12_main_arg20 m (outs m) c),
      (h c _ (mem_uc main_arg21 (by decide))).trans (Gen.V12_main_arg21 m (outs m) c),
      (h c _ (mem_uc main_arg22 (by decide))).trans (Gen.V12_main_arg22 m (outs m) c),
      (h c _ (mem_uc main_arg23 (by decide))).trans (Gen.V12_main_arg23 m (outs m) c),
      (h c _ (mem_uc main_arg24 (by decide))).trans (Gen.V12_main_arg24 m (outs m) c)⟩)
    (run_all m ρ)

/-- The run in the shape of the equivalence claim: the two result buffers at the last contents of the fold, the
    argument arrays as launched. -/
theorem run_vals : θ_run defs (onTc (τ := τ) (main (F := F))) ⟨m, fun _ => 0, ρ⟩ (fun r => ∀ c : Dev nD,
      r.2.mem ((c.tc : Thread nD τ).loc main_v176) = Gen.V12 m (outs m) c main_v176
      ∧ r.2.mem ((c.tc : Thread nD τ).loc main_v161) = Gen.V12 m (outs m) c main_v161
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun r h c =>
    ⟨h c _ (mem_uc main_v176 (by decide)), h c _ (mem_uc main_v161 (by decide)),
      (h c _ (mem_uc main_arg0 (by decide))).trans (Gen.V12_main_arg0 m (outs m) c),
      (h c _ (mem_uc main_arg1 (by decide))).trans (Gen.V12_main_arg1 m (outs m) c),
      (h c _ (mem_uc main_arg2 (by decide))).trans (Gen.V12_main_arg2 m (outs m) c),
      (h c _ (mem_uc main_arg3 (by decide))).trans (Gen.V12_main_arg3 m (outs m) c),
      (h c _ (mem_uc main_arg4 (by decide))).trans (Gen.V12_main_arg4 m (outs m) c),
      (h c _ (mem_uc main_arg5 (by decide))).trans (Gen.V12_main_arg5 m (outs m) c),
      (h c _ (mem_uc main_arg6 (by decide))).trans (Gen.V12_main_arg6 m (outs m) c),
      (h c _ (mem_uc main_arg7 (by decide))).trans (Gen.V12_main_arg7 m (outs m) c),
      (h c _ (mem_uc main_arg8 (by decide))).trans (Gen.V12_main_arg8 m (outs m) c),
      (h c _ (mem_uc main_arg9 (by decide))).trans (Gen.V12_main_arg9 m (outs m) c),
      (h c _ (mem_uc main_arg10 (by decide))).trans (Gen.V12_main_arg10 m (outs m) c),
      (h c _ (mem_uc main_arg11 (by decide))).trans (Gen.V12_main_arg11 m (outs m) c),
      (h c _ (mem_uc main_arg12 (by decide))).trans (Gen.V12_main_arg12 m (outs m) c),
      (h c _ (mem_uc main_arg13 (by decide))).trans (Gen.V12_main_arg13 m (outs m) c),
      (h c _ (mem_uc main_arg14 (by decide))).trans (Gen.V12_main_arg14 m (outs m) c),
      (h c _ (mem_uc main_arg15 (by decide))).trans (Gen.V12_main_arg15 m (outs m) c),
      (h c _ (mem_uc main_arg16 (by decide))).trans (Gen.V12_main_arg16 m (outs m) c),
      (h c _ (mem_uc main_arg17 (by decide))).trans (Gen.V12_main_arg17 m (outs m) c),
      (h c _ (mem_uc main_arg18 (by decide))).trans (Gen.V12_main_arg18 m (outs m) c),
      (h c _ (mem_uc main_arg19 (by decide))).trans (Gen.V12_main_arg19 m (outs m) c),
      (h c _ (mem_uc main_arg20 (by decide))).trans (Gen.V12_main_arg20 m (outs m) c),
      (h c _ (mem_uc main_arg21 (by decide))).trans (Gen.V12_main_arg21 m (outs m) c),
      (h c _ (mem_uc main_arg22 (by decide))).trans (Gen.V12_main_arg22 m (outs m) c),
      (h c _ (mem_uc main_arg23 (by decide))).trans (Gen.V12_main_arg23 m (outs m) c),
      (h c _ (mem_uc main_arg24 (by decide))).trans (Gen.V12_main_arg24 m (outs m) c)⟩)
    (run_all m ρ)

end Cert.KernelIdeal.Hand

end
-- ==== Proof.KI.KerOps.lean ====
/-
  The host stretches of the kernel program between its regions, each as one named function of its operands.

  A message-passing layer first gathers, for every edge, the source node's row, and adds it into the destination
  node's row (a scatter-add into zeros); the layer's input is then (1 + ε)·h plus that neighbour sum. The last four
  layers take their parameters as slice k of arrays stacked on a leading axis of extent 4. The five layers' outputs are
  laid side by side along the channels, and the read-out pools that array per graph: the per-graph sums of the rows
  divided by the per-graph node counts, a count below one replaced by one.

  Each definition below is exactly that stretch's operations applied to its operands. A gather or a scatter-add is
  never read at an index here or later: both programs apply the same stretch to the same operands, so it is carried
  as one function.
-/
import Idealize.ShloMosaic.PureOps.Ideal
import proofs.«109974_j38371237822822_1_alg».proof.Proof.Gen.KernelIdeal

noncomputable section

namespace Cert.KernelIdeal.KerValue

open Cert.KernelIdeal Cert.KernelIdeal.Gen Idealize.ShloMosaic

/-! ## The edge list as start indices -/

/-- Row r of the [2, E] edge list as a vector of E node numbers. -/
def edgeRow (r : Nat) (hr : S2x800000.Slices ![r, 0] S1x800000) (ei : IVec S2x800000 32) : IVec S800000 32 :=
  shapeCast S800000 (extractStridedSlice S1x800000 ![r, 0] ei hr) shapeCasts_S1x800000_S800000

/-- The gather's start indices: each edge's source node (row 0), a negative number wrapped by the node count, as a
    column [E, 1]. -/
def srcIdx (ei : IVec S2x800000 32) : IVec S800000x1 32 :=
  broadcastInDim S800000x1 ![0] bcast_S800000_S800000x1_0
    (select
      (cmpi .slt (edgeRow 0 slices_S2x800000_S1x800000_0_0 ei) (broadcastInDim S800000 ![] bcast_S_S800000 (constantI S_ 32 0#32)))
      (addi (edgeRow 0 slices_S2x800000_S1x800000_0_0 ei) (broadcastInDim S800000 ![] bcast_S_S800000 (constantI S_ 32 50000#32)))
      (edgeRow 0 slices_S2x800000_S1x800000_0_0 ei))

/-- The scatter's indices: each edge's destination node (row 1), as a column [E, 1]. -/
def dstIdx (ei : IVec S2x800000 32) : IVec S800000x1 32 :=
  broadcastInDim S800000x1 ![0] bcast_S800000_S800000x1_0 (edgeRow 1 slices_S2x800000_S1x800000_1_0 ei)

/-! ## A layer's input: (1 + ε)·h plus the sum of the neighbours' rows -/

/-- The first layer's input, over the 128 input features. -/
def aggPre128 (h : FVec Ideal S50000x128 .f32) (ei : IVec S2x800000 32) (eps : FVec Ideal S_ .f32) :
    FVec Ideal S50000x128 .f32 :=
  addf
    (mulf (broadcastInDim S50000x128 ![] bcast_S_S50000x128 (addf (constant S_ .f32 0x3F800000#32) eps)) h)
    (Host.scatterAdd scatter_S50000x128_S800000x1_S800000x128_1_0_0_1
      (broadcastInDim S50000x128 ![] bcast_S_S50000x128 (constant S_ .f32 0x00000000#32))
      (dstIdx ei)
      (Host.gather gather_S50000x128_S800000x1_S800000x128_1_0_n_n_0_1_1128 h (srcIdx ei)))

/-- A later layer's input, over the 64 hidden channels. -/
def aggPre64 (h : FVec Ideal S50000x64 .f32) (ei : IVec S2x800000 32) (eps : FVec Ideal S_ .f32) :
    FVec Ideal S50000x64 .f32 :=
  addf
    (mulf (broadcastInDim S50000x64 ![] bcast_S_S50000x64 (addf (constant S_ .f32 0x3F800000#32) eps)) h)
    (Host.scatterAdd scatter_S50000x64_S800000x1_S800000x64_1_0_0_1
      (broadcastInDim S50000x64 ![] bcast_S_S50000x64 (constant S_ .f32 0x00000000#32))
      (dstIdx ei)
      (Host.gather gather_S50000x64_S800000x1_S800000x64_1_0_n_n_0_1_164 h (srcIdx ei)))

/-! ## Slice k of the stacked parameters -/

/-- Entry k of a vector of four scalars, as a scalar. -/
def sliceScalar (k : Nat) (hk : S4.Slices ![k] S1) (v : FVec Ideal S4 .f32) : FVec Ideal S_ .f32 :=
  shapeCast S_ (extractStridedSlice S1 ![k] v hk) shapeCasts_S1_S_

/-- Matrix k of four stacked 64 × 64 matrices. -/
def sliceMat (k : Nat) (hk : S4x64x64.Slices ![k, 0, 0] S1x64x64) (v : FVec Ideal S4x64x64 .f32) : FVec Ideal S64x64 .f32 :=
  shapeCast S64x64 (extractStridedSlice S1x64x64 ![k, 0, 0] v hk) shapeCasts_S1x64x64_S64x64

/-- Row k of four stacked vectors of 64 channels. -/
def sliceVec (k : Nat) (hk : S4x64.Slices ![k, 0] S1x64) (v : FVec Ideal S4x64 .f32) : FVec Ideal S64 .f32 :=
  shapeCast S64 (extractStridedSlice S1x64 ![k, 0] v hk) shapeCasts_S1x64_S64

/-! ## The five outputs side by side, and the per-graph mean -/

/-- The five layers' outputs laid side by side along the channels: [N, 5·64]. -/
def embCat (h1 h2 h3 h4 h5 : FVec Ideal S50000x64 .f32) : FVec Ideal S50000x320 .f32 :=
  concatenate S50000x320 1 [⟨S50000x64, h1⟩, ⟨S50000x64, h2⟩, ⟨S50000x64, h3⟩, ⟨S50000x64, h4⟩, ⟨S50000x64, h5⟩]
    concatenates_S50000x64_S50000x64_S50000x64_S50000x64_S50000x64_S50000x320_d1

/-- The per-graph sums of the rows of em: a scatter-add of the rows into zeros at each node's graph number. -/
def segSums (em : FVec Ideal S50000x320 .f32) (batch : IVec S50000 32) : FVec Ideal S512x320 .f32 :=
  Host.scatterAdd scatter_S512x320_S50000x1_S50000x320_1_0_0_1
    (broadcastInDim S512x320 ![] bcast_S_S512x320 (constant S_ .f32 0x00000000#32))
    (broadcastInDim S50000x1 ![0] bcast_S50000_S50000x1_0 batch) em

/-- The per-graph node counts: a scatter-add of ones into zeros at each node's graph number. -/
def segCounts (batch : IVec S50000 32) : FVec Ideal S512 .f32 :=
  Host.scatterAdd scatter_S512_S50000x1_S50000_n_0_0_1
    (broadcastInDim S512 ![] bcast_S_S512 (constant S_ .f32 0x00000000#32))
    (broadcastInDim S50000x1 ![0] bcast_S50000_S50000x1_0 batch)
    (broadcastInDim S50000 ![] bcast_S_S50000 (constant S_ .f32 0x3F800000#32))

/-- The pooled rows: the per-graph sums divided by max(count, 1), the divisor laid along the 320 channels. -/
def pooledMean (em : FVec Ideal S50000x320 .f32) (batch : IVec S50000 32) : FVec Ideal S512x320 .f32 :=
  Host.divf (segSums em batch)
    (broadcastInDim S512x320 ![0, 1] bcast_S512x1_S512x320_0_1
      (broadcastInDim S512x1 ![0] bcast_S512_S512x1_0
        (maximumf (segCounts batch) (broadcastInDim S512 ![] bcast_S_S512 (constant S_ .f32 0x3F800000#32)))))

end Cert.KernelIdeal.KerValue

end
-- ==== Proof.KI.Entry.lean ====
/-
  What each region finds in its operands' buffers, as the host stretches' functions of the arguments.

  Between two regions the program applies a stretch of host operations to the buffers as the previous region left
  them. Read at one result buffer, a stretch is its operations composed: the aggregation `(1 + ε)·h + Σ neighbours`
  of the previous layer's output, slice k of a stacked parameter, a change of float format of a weight matrix (the
  identity on the extended reals), the five outputs side by side, the per-graph mean. The edge rows and every
  argument are written by no later stretch and by no region, so they are read back unchanged through the whole run.
  These facts hold whatever the regions leave in their output buffers (`outs`).
-/
import proofs.«109974_j38371237822822_1_alg».proof.Proof.Gen.KernelIdeal.Regions
import proofs.«109974_j38371237822822_1_alg».proof.Proof.KI.KerOps
import Idealize.ShloMosaic.Lib.StableHlo.Run
import Idealize.ShloMosaic.PureOps.Ideal

set_option maxRecDepth 16384

noncomputable section

namespace Cert.KernelIdeal.KerValue

open Cert.KernelIdeal Cert.KernelIdeal.Gen
open Idealize.ShloMosaic Idealize.ShloMosaic.TcCoe
open Idealize.SL Idealize.SL.Sem

variable (m : (ℓ : Loc nD τ sig) → Buf (Elt Ideal) ℓ) (outs : Gen.Outs (F := Ideal)) (c : Dev nD)

/-! ## Buffers no later item writes are read back unchanged -/

theorem V1_back (r : Ref sig .tc) (h : r ∉ hostOps0_W := by decide) : Gen.V1 m c r = m ((c.tc : Thread nD τ).loc r) :=
  Gen.V1_of m c r h
theorem V2_to1 (r : Ref sig .tc) (h2 : r ∉ ([main_v20] : List (Ref sig .tc)) := by decide) : Gen.V2 m outs c r = Gen.V1 m c r :=
  Gen.V2_of m outs c r h2
theorem V3_to1 (r : Ref sig .tc) (h3 : r ∉ hostOps1_W := by decide) (h2 : r ∉ ([main_v20] : List (Ref sig .tc)) := by decide) : Gen.V3 m outs c r = Gen.V1 m c r :=
  (Gen.V3_of m outs c r h3).trans (V2_to1 m outs c r h2)
theorem V4_to1 (r : Ref sig .tc) (h4 : r ∉ ([main_v55] : List (Ref sig .tc)) := by decide) (h3 : r ∉ hostOps1_W := by decide) (h2 : r ∉ ([main_v20] : List (Ref sig .tc)) := by decide) : Gen.V4 m outs c r = Gen.V1 m c r :=
  (Gen.V4_of m outs c r h4).trans (V3_to1 m outs c r h3 h2)
theorem V5_to1 (r : Ref sig .tc) (h5 : r ∉ hostOps2_W := by decide) (h4 : r ∉ ([main_v55] : List (Ref sig .tc)) := by decide) (h3 : r ∉ hostOps1_W := by decide) (h2 : r ∉ ([main_v20] : List (Ref sig .tc)) := by decide) : Gen.V5 m outs c r = Gen.V1 m c r :=
  (Gen.V5_of m outs c r h5).trans (V4_to1 m outs c r h4 h3 h2)
theorem V6_to1 (r : Ref sig .tc) (h6 : r ∉ ([main_v90] : List (Ref sig .tc)) := by decide) (h5 : r ∉ hostOps2_W := by decide) (h4 : r ∉ ([main_v55] : List (Ref sig .tc)) := by decide) (h3 : r ∉ hostOps1_W := by decide) (h2 : r ∉ ([main_v20] : List (Ref sig .tc)) := by decide) : Gen.V6 m outs c r = Gen.V1 m c r :=
  (Gen.V6_of m outs c r h6).trans (V5_to1 m outs c r h5 h4 h3 h2)
theorem V7_to1 (r : Ref sig .tc) (h7 : r ∉ hostOps3_W := by decide) (h6 : r ∉ ([main_v90] : List (Ref sig .tc)) := by decide) (h5 : r ∉ hostOps2_W := by decide) (h4 : r ∉ ([main_v55] : List (Ref sig .tc)) := by decide) (h3 : r ∉ hostOps1_W := by decide) (h2 : r ∉ ([main_v20] : List (Ref sig .tc)) := by decide) : Gen.V7 m outs c r = Gen.V1 m c r :=
  (Gen.V7_of m outs c r h7).trans (V6_to1 m outs c r h6 h5 h4 h3 h2)
theorem V8_to1 (r : Ref sig .tc) (h8 : r ∉ ([main_v125] : List (Ref sig .tc)) := by decide) (h7 : r ∉ hostOps3_W := by decide) (h6 : r ∉ ([main_v90] : List (Ref sig .tc)) := by decide) (h5 : r ∉ hostOps2_W := by decide) (h4 : r ∉ ([main_v55] : List (Ref sig .tc)) := by decide) (h3 : r ∉ hostOps1_W := by decide) (h2 : r ∉ ([main_v20] : List (Ref sig .tc)) := by decide) : Gen.V8 m outs c r = Gen.V1 m c r :=
  (Gen.V8_of m outs c r h8).trans (V7_to1 m outs c r h7 h6 h5 h4 h3 h2)
theorem V9_to1 (r : Ref sig .tc) (h9 : r ∉ hostOps4_W := by decide) (h8 : r ∉ ([main_v125] : List (Ref sig .tc)) := by decide) (h7 : r ∉ hostOps3_W := by decide) (h6 : r ∉ ([main_v90] : List (Ref sig .tc)) := by decide) (h5 : r ∉ hostOps2_W := by decide) (h4 : r ∉ ([main_v55] : List (Ref sig .tc)) := by decide) (h3 : r ∉ hostOps1_W := by decide) (h2 : r ∉ ([main_v20] : List (Ref sig .tc)) := by decide) : Gen.V9 m outs c r = Gen.V1 m c r :=
  (Gen.V9_of m outs c r h9).trans (V8_to1 m outs c r h8 h7 h6 h5 h4 h3 h2)
theorem V10_to1 (r : Ref sig .tc) (h10 : r ∉ ([main_v160] : List (Ref sig .tc)) := by decide) (h9 : r ∉ hostOps4_W := by decide) (h8 : r ∉ ([main_v125] : List (Ref sig .tc)) := by decide) (h7 : r ∉ hostOps3_W := by decide) (h6 : r ∉ ([main_v90] : List (Ref sig .tc)) := by decide) (h5 : r ∉ hostOps2_W := by decide) (h4 : r ∉ ([main_v55] : List (Ref sig .tc)) := by decide) (h3 : r ∉ hostOps1_W := by decide) (h2 : r ∉ ([main_v20] : List (Ref sig .tc)) := by decide) : Gen.V10 m outs c r = Gen.V1 m c r :=
  (Gen.V10_of m outs c r h10).trans (V9_to1 m outs c r h9 h8 h7 h6 h5 h4 h3 h2)
theorem V11_to1 (r : Ref sig .tc) (h11 : r ∉ hostOps5_W := by decide) (h10 : r ∉ ([main_v160] : List (Ref sig .tc)) := by decide) (h9 : r ∉ hostOps4_W := by decide) (h8 : r ∉ ([main_v125] : List (Ref sig .tc)) := by decide) (h7 : r ∉ hostOps3_W := by decide) (h6 : r ∉ ([main_v90] : List (Ref sig .tc)) := by decide) (h5 : r ∉ hostOps2_W := by decide) (h4 : r ∉ ([main_v55] : List (Ref sig .tc)) := by decide) (h3 : r ∉ hostOps1_W := by decide) (h2 : r ∉ ([main_v20] : List (Ref sig .tc)) := by decide) : Gen.V11 m outs c r = Gen.V1 m c r :=
  (Gen.V11_of m outs c r h11).trans (V10_to1 m outs c r h10 h9 h8 h7 h6 h5 h4 h3 h2)

/-! ## The first stretch: the edge rows, the first layer's input, its two weight matrices -/

set_option maxHeartbeats 4000000 in
theorem V1_v1 : (Gen.V1 m c main_v1 : S800000.Idx → BitVec 32) = edgeRow 0 slices_S2x800000_S1x800000_0_0 (m ((c.tc : Thread nD τ).loc main_arg1)) := by
  show StableHlo.after hostOps0 (Gen.V0 m c) (Proc.devRef .tc main_v1) = _
  after_results_simp
  rfl

set_option maxHeartbeats 4000000 in
theorem V1_v3 : (Gen.V1 m c main_v3 : S800000.Idx → BitVec 32) = edgeRow 1 slices_S2x800000_S1x800000_1_0 (m ((c.tc : Thread nD τ).loc main_arg1)) := by
  show StableHlo.after hostOps0 (Gen.V0 m c) (Proc.devRef .tc main_v3) = _
  after_results_simp
  rfl

set_option maxHeartbeats 4000000 in
theorem entry0_x : (Gen.V1 m c main_v17 : S50000x128.Idx → EReal) = aggPre128 (m ((c.tc : Thread nD τ).loc main_arg0)) (m ((c.tc : Thread nD τ).loc main_arg1)) (m ((c.tc : Thread nD τ).loc main_arg3)) := by
  show StableHlo.after hostOps0 (Gen.V0 m c) (Proc.devRef .tc main_v17) = _
  after_results_simp
  rfl

set_option maxHeartbeats 4000000 in
theorem entry0_wa : (Gen.V1 m c main_v18 : S128x64.Idx → EReal) = (m ((c.tc : Thread nD τ).loc main_arg4)) := by
  show StableHlo.after hostOps0 (Gen.V0 m c) (Proc.devRef .tc main_v18) = _
  after_results_simp
  rfl

set_option maxHeartbeats 4000000 in
theorem entry0_wb : (Gen.V1 m c main_v19 : S64x64.Idx → EReal) = (m ((c.tc : Thread nD τ).loc main_arg6)) := by
  show StableHlo.after hostOps0 (Gen.V0 m c) (Proc.devRef .tc main_v19) = _
  after_results_simp
  rfl

/-! ## A later stretch: the aggregation of the previous layer's output, and slice k of the stacked parameters -/

theorem V2_v20 : Gen.V2 m outs c main_v20 = outs 2 main_v20 c := by
  show Function.update _ _ _ _ = _
  rw [Function.update_self]

set_option maxHeartbeats 8000000 in
theorem entry1_x : (Gen.V3 m outs c main_v52 : S50000x64.Idx → EReal)
    = aggPre64 (outs 2 main_v20 c) (m ((c.tc : Thread nD τ).loc main_arg1)) (sliceScalar 0 slices_S4_S1_0 (m ((c.tc : Thread nD τ).loc main_arg12))) := by
  show StableHlo.after hostOps1 (Gen.V2 m outs c) (Proc.devRef .tc main_v52) = _
  after_results_simp
  rw [V2_v20 m outs c, V2_to1 m outs c main_v1, V2_to1 m outs c main_v3, V2_to1 m outs c main_arg12, V1_v1 m c, V1_v3 m c, V1_back m c main_arg12]
  rfl

set_option maxHeartbeats 8000000 in
theorem entry1_wa : (Gen.V3 m outs c main_v53 : S64x64.Idx → EReal) = sliceMat 0 slices_S4x64x64_S1x64x64_0_0_0 (m ((c.tc : Thread nD τ).loc main_arg13)) := by
  show StableHlo.after hostOps1 (Gen.V2 m outs c) (Proc.devRef .tc main_v53) = _
  after_results_simp
  rw [V2_to1 m outs c main_arg13, V1_back m c main_arg13]
  rfl

set_option maxHeartbeats 8000000 in
theorem entry1_ba : (Gen.V3 m outs c main_v26 : S64.Idx → EReal) = sliceVec 0 slices_S4x64_S1x64_0_0 (m ((c.tc : Thread nD τ).loc main_arg14)) := by
  show StableHlo.after hostOps1 (Gen.V2 m outs c) (Proc.devRef .tc main_v26) = _
  after_results_simp
  rw [V2_to1 m outs c main_arg14, V1_back m c main_arg14]
  rfl

/-! ## Stretch 1: layer 2's operands -/

set_option maxHeartbeats 8000000 in
theorem entry1_wb : (Gen.V3 m outs c main_v54 : S64x64.Idx → EReal) = sliceMat 0 slices_S4x64x64_S1x64x64_0_0_0 (m ((c.tc : Thread nD τ).loc main_arg15)) := by
  show StableHlo.after hostOps1 (Gen.V2 m outs c) (Proc.devRef .tc main_v54) = _
  after_results_simp
  rw [V2_to1 m outs c main_arg15, V1_back m c main_arg15]
  rfl

set_option maxHeartbeats 8000000 in
theorem entry1_bb : (Gen.V3 m outs c main_v30 : S64.Idx → EReal) = sliceVec 0 slices_S4x64_S1x64_0_0 (m ((c.tc : Thread nD τ).loc main_arg16)) := by
  show StableHlo.after hostOps1 (Gen.V2 m outs c) (Proc.devRef .tc main_v30) = _
  after_results_simp
  rw [V2_to1 m outs c main_arg16, V1_back m c main_arg16]
  rfl

set_option maxHeartbeats 8000000 in
theorem entry1_g : (Gen.V3 m outs c main_v32 : S64.Idx → EReal) = sliceVec 0 slices_S4x64_S1x64_0_0 (m ((c.tc : Thread nD τ).loc main_arg17)) := by
  show StableHlo.after hostOps1 (Gen.V2 m outs c) (Proc.devRef .tc main_v32) = _
  after_results_simp
  rw [V2_to1 m outs c main_arg17, V1_back m c main_arg17]
  rfl

set_option maxHeartbeats 8000000 in
theorem entry1_be : (Gen.V3 m outs c main_v34 : S64.Idx → EReal) = sliceVec 0 slices_S4x64_S1x64_0_0 (m ((c.tc : Thread nD τ).loc main_arg18)) := by
  show StableHlo.after hostOps1 (Gen.V2 m outs c) (Proc.devRef .tc main_v34) = _
  after_results_simp
  rw [V2_to1 m outs c main_arg18, V1_back m c main_arg18]
  rfl

set_option maxHeartbeats 8000000 in
theorem entry1_mu : (Gen.V3 m outs c main_v36 : S64.Idx → EReal) = sliceVec 0 slices_S4x64_S1x64_0_0 (m ((c.tc : Thread nD τ).loc main_arg19)) := by
  show StableHlo.after hostOps1 (Gen.V2 m outs c) (Proc.devRef .tc main_v36) = _
  after_results_simp
  rw [V2_to1 m outs c main_arg19, V1_back m c main_arg19]
  rfl

set_option maxHeartbeats 8000000 in
theorem entry1_var : (Gen.V3 m outs c main_v38 : S64.Idx → EReal) = sliceVec 0 slices_S4x64_S1x64_0_0 (m ((c.tc : Thread nD τ).loc main_arg20)) := by
  show StableHlo.after hostOps1 (Gen.V2 m outs c) (Proc.devRef .tc main_v38) = _
  after_results_simp
  rw [V2_to1 m outs c main_arg20, V1_back m c main_arg20]
  rfl

/-! ## Stretch 2: layer 3's operands -/

theorem V4_prev : Gen.V4 m outs c main_v55 = outs 4 main_v55 c := by
  show Function.update _ _ _ _ = _
  rw [Function.update_self]

set_option maxHeartbeats 8000000 in
theorem entry2_x : (Gen.V5 m outs c main_v87 : S50000x64.Idx → EReal) = aggPre64 (outs 4 main_v55 c) (m ((c.tc : Thread nD τ).loc main_arg1)) (sliceScalar 1 slices_S4_S1_1 (m ((c.tc : Thread nD τ).loc main_arg12))) := by
  show StableHlo.after hostOps2 (Gen.V4 m outs c) (Proc.devRef .tc main_v87) = _
  after_results_simp
  rw [V4_prev m outs c, V4_to1 m outs c main_v1, V4_to1 m outs c main_v3, V1_v1 m c, V1_v3 m c, V4_to1 m outs c main_arg12, V1_back m c main_arg12]
  rfl

set_option maxHeartbeats 8000000 in
theorem entry2_wa : (Gen.V5 m outs c main_v88 : S64x64.Idx → EReal) = sliceMat 1 slices_S4x64x64_S1x64x64_1_0_0 (m ((c.tc : Thread nD τ).loc main_arg13)) := by
  show StableHlo.after hostOps2 (Gen.V4 m outs c) (Proc.devRef .tc main_v88) = _
  after_results_simp
  rw [V4_to1 m outs c main_arg13, V1_back m c main_arg13]
  rfl

set_option maxHeartbeats 8000000 in
theorem entry2_ba : (Gen.V5 m outs c main_v61 : S64.Idx → EReal) = sliceVec 1 slices_S4x64_S1x64_1_0 (m ((c.tc : Thread nD τ).loc main_arg14)) := by
  show StableHlo.after hostOps2 (Gen.V4 m outs c) (Proc.devRef .tc main_v61) = _
  after_results_simp
  rw [V4_to1 m outs c main_arg14, V1_back m c main_arg14]
  rfl

set_option maxHeartbeats 8000000 in
theorem entry2_wb : (Gen.V5 m outs c main_v89 : S64x64.Idx → EReal) = sliceMat 1 slices_S4x64x64_S1x64x64_1_0_0 (m ((c.tc : Thread nD τ).loc main_arg15)) := by
  show StableHlo.after hostOps2 (Gen.V4 m outs c) (Proc.devRef .tc main_v89) = _
  after_results_simp
  rw [V4_to1 m outs c main_arg15, V1_back m c main_arg15]
  rfl

set_option maxHeartbeats 8000000 in
theorem entry2_bb : (Gen.V5 m outs c main_v65 : S64.Idx → EReal) = sliceVec 1 slices_S4x64_S1x64_1_0 (m ((c.tc : Thread nD τ).loc main_arg16)) := by
  show StableHlo.after hostOps2 (Gen.V4 m outs c) (Proc.devRef .tc main_v65) = _
  after_results_simp
  rw [V4_to1 m outs c main_arg16, V1_back m c main_arg16]
  rfl

set_option maxHeartbeats 8000000 in
theorem entry2_g : (Gen.V5 m outs c main_v67 : S64.Idx → EReal) = sliceVec 1 slices_S4x64_S1x64_1_0 (m ((c.tc : Thread nD τ).loc main_arg17)) := by
  show StableHlo.after hostOps2 (Gen.V4 m outs c) (Proc.devRef .tc main_v67) = _
  after_results_simp
  rw [V4_to1 m outs c main_arg17, V1_back m c main_arg17]
  rfl

set_option maxHeartbeats 8000000 in
theorem entry2_be : (Gen.V5 m outs c main_v69 : S64.Idx → EReal) = sliceVec 1 slices_S4x64_S1x64_1_0 (m ((c.tc : Thread nD τ).loc main_arg18)) := by
  show StableHlo.after hostOps2 (Gen.V4 m outs c) (Proc.devRef .tc main_v69) = _
  after_results_simp
  rw [V4_to1 m outs c main_arg18, V1_back m c main_arg18]
  rfl

set_option maxHeartbeats 8000000 in
theorem entry2_mu : (Gen.V5 m outs c main_v71 : S64.Idx → EReal) = sliceVec 1 slices_S4x64_S1x64_1_0 (m ((c.tc : Thread nD τ).loc main_arg19)) := by
  show StableHlo.after hostOps2 (Gen.V4 m outs c) (Proc.devRef .tc main_v71) = _
  after_results_simp
  rw [V4_to1 m outs c main_arg19, V1_back m c main_arg19]
  rfl

set_option maxHeartbeats 8000000 in
theorem entry2_var : (Gen.V5 m outs c main_v73 : S64.Idx → EReal) = sliceVec 1 slices_S4x64_S1x64_1_0 (m ((c.tc : Thread nD τ).loc main_arg20)) := by
  show StableHlo.after hostOps2 (Gen.V4 m outs c) (Proc.devRef .tc main_v73) = _
  after_results_simp
  rw [V4_to1 m outs c main_arg20, V1_back m c main_arg20]
  rfl

/-! ## Stretch 3: layer 4's operands -/

theorem V6_prev : Gen.V6 m outs c main_v90 = outs 6 main_v90 c := by
  show Function.update _ _ _ _ = _
  rw [Function.update_self]

set_option maxHeartbeats 8000000 in
theorem entry3_x : (Gen.V7 m outs c main_v122 : S50000x64.Idx → EReal) = aggPre64 (outs 6 main_v90 c) (m ((c.tc : Thread nD τ).loc main_arg1)) (sliceScalar 2 slices_S4_S1_2 (m ((c.tc : Thread nD τ).loc main_arg12))) := by
  show StableHlo.after hostOps3 (Gen.V6 m outs c) (Proc.devRef .tc main_v122) = _
  after_results_simp
  rw [V6_prev m outs c, V6_to1 m outs c main_v1, V6_to1 m outs c main_v3, V1_v1 m c, V1_v3 m c, V6_to1 m outs c main_arg12, V1_back m c main_arg12]
  rfl

set_option maxHeartbeats 8000000 in
theorem entry3_wa : (Gen.V7 m outs c main_v123 : S64x64.Idx → EReal) = sliceMat 2 slices_S4x64x64_S1x64x64_2_0_0 (m ((c.tc : Thread nD τ).loc main_arg13)) := by
  show StableHlo.after hostOps3 (Gen.V6 m outs c) (Proc.devRef .tc main_v123) = _
  after_results_simp
  rw [V6_to1 m outs c main_arg13, V1_back m c main_arg13]
  rfl

set_option maxHeartbeats 8000000 in
theorem entry3_ba : (Gen.V7 m outs c main_v96 : S64.Idx → EReal) = sliceVec 2 slices_S4x64_S1x64_2_0 (m ((c.tc : Thread nD τ).loc main_arg14)) := by
  show StableHlo.after hostOps3 (Gen.V6 m outs c) (Proc.devRef .tc main_v96) = _
  after_results_simp
  rw [V6_to1 m outs c main_arg14, V1_back m c main_arg14]
  rfl

set_option maxHeartbeats 8000000 in
theorem entry3_wb : (Gen.V7 m outs c main_v124 : S64x64.Idx → EReal) = sliceMat 2 slices_S4x64x64_S1x64x64_2_0_0 (m ((c.tc : Thread nD τ).loc main_arg15)) := by
  show StableHlo.after hostOps3 (Gen.V6 m outs c) (Proc.devRef .tc main_v124) = _
  after_results_simp
  rw [V6_to1 m outs c main_arg15, V1_back m c main_arg15]
  rfl

set_option maxHeartbeats 8000000 in
theorem entry3_bb : (Gen.V7 m outs c main_v100 : S64.Idx → EReal) = sliceVec 2 slices_S4x64_S1x64_2_0 (m ((c.tc : Thread nD τ).loc main_arg16)) := by
  show StableHlo.after hostOps3 (Gen.V6 m outs c) (Proc.devRef .tc main_v100) = _
  after_results_simp
  rw [V6_to1 m outs c main_arg16, V1_back m c main_arg16]
  rfl

set_option maxHeartbeats 8000000 in
theorem entry3_g : (Gen.V7 m outs c main_v102 : S64.Idx → EReal) = sliceVec 2 slices_S4x64_S1x64_2_0 (m ((c.tc : Thread nD τ).loc main_arg17)) := by
  show StableHlo.after hostOps3 (Gen.V6 m outs c) (Proc.devRef .tc main_v102) = _
  after_results_simp
  rw [V6_to1 m outs c main_arg17, V1_back m c main_arg17]
  rfl

set_option maxHeartbeats 8000000 in
theorem entry3_be : (Gen.V7 m outs c main_v104 : S64.Idx → EReal) = sliceVec 2 slices_S4x64_S1x64_2_0 (m ((c.tc : Thread nD τ).loc main_arg18)) := by
  show StableHlo.after hostOps3 (Gen.V6 m outs c) (Proc.devRef .tc main_v104) = _
  after_results_simp
  rw [V6_to1 m outs c main_arg18, V1_back m c main_arg18]
  rfl

set_option maxHeartbeats 8000000 in
theorem entry3_mu : (Gen.V7 m outs c main_v106 : S64.Idx → EReal) = sliceVec 2 slices_S4x64_S1x64_2_0 (m ((c.tc : Thread nD τ).loc main_arg19)) := by
  show StableHlo.after hostOps3 (Gen.V6 m outs c) (Proc.devRef .tc main_v106) = _
  after_results_simp
  rw [V6_to1 m outs c main_arg19, V1_back m c main_arg19]
  rfl

set_option maxHeartbeats 8000000 in
theorem entry3_var : (Gen.V7 m outs c main_v108 : S64.Idx → EReal) = sliceVec 2 slices_S4x64_S1x64_2_0 (m ((c.tc : Thread nD τ).loc main_arg20)) := by
  show StableHlo.after hostOps3 (Gen.V6 m outs c) (Proc.devRef .tc main_v108) = _
  after_results_simp
  rw [V6_to1 m outs c main_arg20, V1_back m c main_arg20]
  rfl

/-! ## Stretch 4: layer 5's operands -/

theorem V8_prev : Gen.V8 m outs c main_v125 = outs 8 main_v125 c := by
  show Function.update _ _ _ _ = _
  rw [Function.update_self]

set_option maxHeartbeats 8000000 in
theorem entry4_x : (Gen.V9 m outs c main_v157 : S50000x64.Idx → EReal) = aggPre64 (outs 8 main_v125 c) (m ((c.tc : Thread nD τ).loc main_arg1)) (sliceScalar 3 slices_S4_S1_3 (m ((c.tc : Thread nD τ).loc main_arg12))) := by
  show StableHlo.after hostOps4 (Gen.V8 m outs c) (Proc.devRef .tc main_v157) = _
  after_results_simp
  rw [V8_prev m outs c, V8_to1 m outs c main_v1, V8_to1 m outs c main_v3, V1_v1 m c, V1_v3 m c, V8_to1 m outs c main_arg12, V1_back m c main_arg12]
  rfl

set_option maxHeartbeats 8000000 in
theorem entry4_wa : (Gen.V9 m outs c main_v158 : S64x64.Idx → EReal) = sliceMat 3 slices_S4x64x64_S1x64x64_3_0_0 (m ((c.tc : Thread nD τ).loc main_arg13)) := by
  show StableHlo.after hostOps4 (Gen.V8 m outs c) (Proc.devRef .tc main_v158) = _
  after_results_simp
  rw [V8_to1 m outs c main_arg13, V1_back m c main_arg13]
  rfl

set_option maxHeartbeats 8000000 in
theorem entry4_ba : (Gen.V9 m outs c main_v131 : S64.Idx → EReal) = sliceVec 3 slices_S4x64_S1x64_3_0 (m ((c.tc : Thread nD τ).loc main_arg14)) := by
  show StableHlo.after hostOps4 (Gen.V8 m outs c) (Proc.devRef .tc main_v131) = _
  after_results_simp
  rw [V8_to1 m outs c main_arg14, V1_back m c main_arg14]
  rfl

set_option maxHeartbeats 8000000 in
theorem entry4_wb : (Gen.V9 m outs c main_v159 : S64x64.Idx → EReal) = sliceMat 3 slices_S4x64x64_S1x64x64_3_0_0 (m ((c.tc : Thread nD τ).loc main_arg15)) := by
  show StableHlo.after hostOps4 (Gen.V8 m outs c) (Proc.devRef .tc main_v159) = _
  after_results_simp
  rw [V8_to1 m outs c main_arg15, V1_back m c main_arg15]
  rfl

set_option maxHeartbeats 8000000 in
theorem entry4_bb : (Gen.V9 m outs c main_v135 : S64.Idx → EReal) = sliceVec 3 slices_S4x64_S1x64_3_0 (m ((c.tc : Thread nD τ).loc main_arg16)) := by
  show StableHlo.after hostOps4 (Gen.V8 m outs c) (Proc.devRef .tc main_v135) = _
  after_results_simp
  rw [V8_to1 m outs c main_arg16, V1_back m c main_arg16]
  rfl

set_option maxHeartbeats 8000000 in
theorem entry4_g : (Gen.V9 m outs c main_v137 : S64.Idx → EReal) = sliceVec 3 slices_S4x64_S1x64_3_0 (m ((c.tc : Thread nD τ).loc main_arg17)) := by
  show StableHlo.after hostOps4 (Gen.V8 m outs c) (Proc.devRef .tc main_v137) = _
  after_results_simp
  rw [V8_to1 m outs c main_arg17, V1_back m c main_arg17]
  rfl

set_option maxHeartbeats 8000000 in
theorem entry4_be : (Gen.V9 m outs c main_v139 : S64.Idx → EReal) = sliceVec 3 slices_S4x64_S1x64_3_0 (m ((c.tc : Thread nD τ).loc main_arg18)) := by
  show StableHlo.after hostOps4 (Gen.V8 m outs c) (Proc.devRef .tc main_v139) = _
  after_results_simp
  rw [V8_to1 m outs c main_arg18, V1_back m c main_arg18]
  rfl

set_option maxHeartbeats 8000000 in
theorem entry4_mu : (Gen.V9 m outs c main_v141 : S64.Idx → EReal) = sliceVec 3 slices_S4x64_S1x64_3_0 (m ((c.tc : Thread nD τ).loc main_arg19)) := by
  show StableHlo.after hostOps4 (Gen.V8 m outs c) (Proc.devRef .tc main_v141) = _
  after_results_simp
  rw [V8_to1 m outs c main_arg19, V1_back m c main_arg19]
  rfl

set_option maxHeartbeats 8000000 in
theorem entry4_var : (Gen.V9 m outs c main_v143 : S64.Idx → EReal) = sliceVec 3 slices_S4x64_S1x64_3_0 (m ((c.tc : Thread nD τ).loc main_arg20)) := by
  show StableHlo.after hostOps4 (Gen.V8 m outs c) (Proc.devRef .tc main_v143) = _
  after_results_simp
  rw [V8_to1 m outs c main_arg20, V1_back m c main_arg20]
  rfl

/-! ## The last stretch: the five outputs side by side, the per-graph mean, the head's weight matrices -/

theorem V10_prev : Gen.V10 m outs c main_v160 = outs 10 main_v160 c := by
  show Function.update _ _ _ _ = _
  rw [Function.update_self]

theorem V10_v20 : Gen.V10 m outs c main_v20 = outs 2 main_v20 c :=
  (Gen.V10_of m outs c main_v20 (by decide)).trans ((Gen.V9_of m outs c main_v20 (by decide)).trans ((Gen.V8_of m outs c main_v20 (by decide)).trans ((Gen.V7_of m outs c main_v20 (by decide)).trans ((Gen.V6_of m outs c main_v20 (by decide)).trans ((Gen.V5_of m outs c main_v20 (by decide)).trans ((Gen.V4_of m outs c main_v20 (by decide)).trans ((Gen.V3_of m outs c main_v20 (by decide)).trans (V2_v20 m outs c))))))))

theorem V10_v55 : Gen.V10 m outs c main_v55 = outs 4 main_v55 c :=
  (Gen.V10_of m outs c main_v55 (by decide)).trans ((Gen.V9_of m outs c main_v55 (by decide)).trans ((Gen.V8_of m outs c main_v55 (by decide)).trans ((Gen.V7_of m outs c main_v55 (by decide)).trans ((Gen.V6_of m outs c main_v55 (by decide)).trans ((Gen.V5_of m outs c main_v55 (by decide)).trans (V4_prev m outs c))))))

theorem V10_v90 : Gen.V10 m outs c main_v90 = outs 6 main_v90 c :=
  (Gen.V10_of m outs c main_v90 (by decide)).trans ((Gen.V9_of m outs c main_v90 (by decide)).trans ((Gen.V8_of m outs c main_v90 (by decide)).trans ((Gen.V7_of m outs c main_v90 (by decide)).trans (V6_prev m outs c))))

theorem V10_v125 : Gen.V10 m outs c main_v125 = outs 8 main_v125 c :=
  (Gen.V10_of m outs c main_v125 (by decide)).trans ((Gen.V9_of m outs c main_v125 (by decide)).trans (V8_prev m outs c))

set_option maxHeartbeats 8000000 in
theorem entry5_emb : (Gen.V11 m outs c main_v161 : S50000x320.Idx → EReal) = embCat (outs 2 main_v20 c) (outs 4 main_v55 c) (outs 6 main_v90 c) (outs 8 main_v125 c) (outs 10 main_v160 c) := by
  show StableHlo.after hostOps5 (Gen.V10 m outs c) (Proc.devRef .tc main_v161) = _
  after_results_simp
  show (embCat (Gen.V10 m outs c main_v20) (Gen.V10 m outs c main_v55) (Gen.V10 m outs c main_v90) (Gen.V10 m outs c main_v125) (Gen.V10 m outs c main_v160)) = _
  rw [V10_v20 m outs c, V10_v55 m outs c, V10_v90 m outs c, V10_v125 m outs c, V10_prev m outs c]

set_option maxHeartbeats 8000000 in
theorem entry5_pooled : (Gen.V11 m outs c main_v173 : S512x320.Idx → EReal) = pooledMean (embCat (outs 2 main_v20 c) (outs 4 main_v55 c) (outs 6 main_v90 c) (outs 8 main_v125 c) (outs 10 main_v160 c)) (m ((c.tc : Thread nD τ).loc main_arg2)) := by
  show StableHlo.after hostOps5 (Gen.V10 m outs c) (Proc.devRef .tc main_v173) = _
  after_results_simp
  show pooledMean (embCat (Gen.V10 m outs c main_v20) (Gen.V10 m outs c main_v55) (Gen.V10 m outs c main_v90) (Gen.V10 m outs c main_v125) (Gen.V10 m outs c main_v160)) (Gen.V10 m outs c main_arg2) = _
  rw [V10_v20 m outs c, V10_v55 m outs c, V10_v90 m outs c, V10_v125 m outs c, V10_prev m outs c, V10_to1 m outs c main_arg2, V1_back m c main_arg2]

set_option maxHeartbeats 8000000 in
theorem entry5_w1 : (Gen.V11 m outs c main_v174 : S320x64.Idx → EReal) = (m ((c.tc : Thread nD τ).loc main_arg21)) := by
  show StableHlo.after hostOps5 (Gen.V10 m outs c) (Proc.devRef .tc main_v174) = _
  after_results_simp
  rw [V10_to1 m outs c main_arg21, V1_back m c main_arg21]
  rfl

set_option maxHeartbeats 8000000 in
theorem entry5_w2 : (Gen.V11 m outs c main_v175 : S64x10.Idx → EReal) = (m ((c.tc : Thread nD τ).loc main_arg23)) := by
  show StableHlo.after hostOps5 (Gen.V10 m outs c) (Proc.devRef .tc main_v175) = _
  after_results_simp
  rw [V10_to1 m outs c main_arg23, V1_back m c main_arg23]
  rfl

/-- The second result's buffer at the end of the run: the last region does not write it. -/
theorem V12_emb : (Gen.V12 m outs c main_v161 : S50000x320.Idx → EReal) = embCat (outs 2 main_v20 c) (outs 4 main_v55 c) (outs 6 main_v90 c) (outs 8 main_v125 c) (outs 10 main_v160 c) :=
  (Gen.V12_of m outs c main_v161 (by decide)).trans (entry5_emb m outs c)

/-- The first result's buffer at the end of the run: what the last region leaves. -/
theorem V12_logp : Gen.V12 m outs c main_v176 = outs 12 main_v176 c := by
  show Function.update _ _ _ _ = _
  rw [Function.update_self]

end Cert.KernelIdeal.KerValue

end
-- ==== Proof.LibRowReduce.lean ====
/-
  A row's maximum and a row's sum, as a kernel and as the host compute them.

  For an array `v : [R, C]` reduced along its second axis, over the extended reals: the kernel's lane maximum from the
  word of `-∞` and the host's reduce with a maximum body from the same word are both the fold of `max` over the row's
  `C` entries; the kernel's lane sum and the host's sum from zero are both the plain sum of the row's entries. Also the
  two small facts that go with them: `max (-∞) y = y`, and a vector `[R]` recast as a column `[R, 1]` reads its row.
-/
import Mathlib
import Idealize.ShloMosaic.PureOps.Ideal
import Idealize.ShloMosaic.PureOps.Ideal.Laws
import Idealize.ShloMosaic.Lib.Pipeline.Value
import Idealize.ShloMosaic.Lib.ValueIdx

noncomputable section

open scoped BigOperators

namespace Cert.LibRowReduce

open Idealize.ShloMosaic Idealize.ShloMosaic.ValueIdx

variable {R C : Nat}

/-- The maximum of `C` extended reals, folded from the f32 word of `-∞`. -/
def rowMax (f : Fin C → EReal) : EReal :=
  (Finset.univ : Finset (Fin C)).fold max (Ideal.ofBits .f32 0xFF800000#32) f

/-- The f32 word `0xFF800000` is `-∞`, the identity of `max`. -/
theorem max_negInf (y : EReal) : max (Ideal.ofBits .f32 0xFF800000#32) y = y := by
  simp [Ideal.ofBits, Ideal.ieee]

/-- The reduced index `r` with lane `k` put back is `(r, k)`. -/
theorem lift_row (h : (⟨2, ![R, C]⟩ : Shape).Reduces [1] (⟨1, ![R]⟩ : Shape)) (r : Fin R)
    (k : Fin ((⟨2, ![R, C]⟩ : Shape).size 1)) : h.lift (ix1 r) k = ix2 r (⟨k.val, k.isLt⟩ : Fin C) := by
  funext c; apply Fin.ext
  fin_cases c <;> rfl

/-- The kernel's lane maximum of row `r`. -/
theorem multiReduction_max_row (src : FVec Ideal ⟨2, ![R, C]⟩ .f32)
    (h : (⟨2, ![R, C]⟩ : Shape).Reduces [1] (⟨1, ![R]⟩ : Shape)) (hφ : FKind.Formats .f32)
    (hacc : (0xFF800000#32 : BitVec 32) = FKind.maximumf.neutral .f32 hφ) (r : Fin R) :
    multiReduction .maximumf [1] (⟨1, ![R]⟩ : Shape) src 0xFF800000#32 h hφ hacc (ix1 r) = rowMax fun k => src (ix2 r k) := by
  rw [Ideal.multiReduction_maximumf_single src _ h hφ hacc (ix1 r)]
  have hf : (src ∘ h.lift (ix1 r)) = fun k : Fin C => src (ix2 r k) :=
    funext fun k => congrArg src (lift_row h r k)
  unfold rowMax
  exact congrArg (fun f => Finset.fold max (Ideal.ofBits .f32 0xFF800000#32) f (Finset.univ : Finset (Fin C))) hf

/-- The host's reduce with a maximum body along axis 1, from the word of `-∞`, at row `r`. -/
theorem hostReduce_max_row (x : FVec Ideal ⟨2, ![R, C]⟩ .f32) (init : (⟨0, ![]⟩ : Shape).Idx → Ideal .f32)
    (hinit : ∀ i, init i = Ideal.ofBits .f32 0xFF800000#32)
    (h' : (⟨2, ![R, C]⟩ : Shape).ReducesTo [1] (⟨1, ![R]⟩ : Shape)) (h : (⟨2, ![R, C]⟩ : Shape).Reduces [1] (⟨1, ![R]⟩ : Shape))
    (hu : 0 < (⟨0, ![]⟩ : Shape).numel) (r : Fin R) :
    Host.reduce FloatOps.maximumf x init h' hu (ix1 r) = rowMax fun k => x (ix2 r k) := by
  rw [Host.reduce_eq_fold_single FloatOps.maximumf x _ h' h hu, hinit]
  have hf : (x ∘ h.lift (ix1 r)) = fun k : Fin C => x (ix2 r k) :=
    funext fun k => congrArg x (lift_row h r k)
  unfold rowMax
  exact congrArg (fun f => Finset.fold max (Ideal.ofBits .f32 0xFF800000#32) f (Finset.univ : Finset (Fin C))) hf

/-- The kernel's lane sum of row `r`. -/
theorem multiReduction_add_row (src : FVec Ideal ⟨2, ![R, C]⟩ .f32)
    (h : (⟨2, ![R, C]⟩ : Shape).Reduces [1] (⟨1, ![R]⟩ : Shape)) (hφ : FKind.Formats .f32)
    (hacc : (0x00000000#32 : BitVec 32) = FKind.add.neutral .f32 hφ) (r : Fin R) :
    multiReduction .add [1] (⟨1, ![R]⟩ : Shape) src 0x00000000#32 h hφ hacc (ix1 r) = ∑ k : Fin C, src (ix2 r k) := by
  rw [Ideal.multiReduction_add_single src _ h hφ hacc (ix1 r)]
  refine Finset.sum_congr rfl fun k _ => ?_
  exact congrArg src (lift_row h r k)

/-- The host's sum along axis 1 from zero, at row `r`. -/
theorem hostReduceAdd_row (x : FVec Ideal ⟨2, ![R, C]⟩ .f32) (init : (⟨0, ![]⟩ : Shape).Idx → Ideal .f32)
    (hinit : ∀ i, init i = 0)
    (h' : (⟨2, ![R, C]⟩ : Shape).ReducesTo [1] (⟨1, ![R]⟩ : Shape)) (h : (⟨2, ![R, C]⟩ : Shape).Reduces [1] (⟨1, ![R]⟩ : Shape))
    (hu : 0 < (⟨0, ![]⟩ : Shape).numel) (r : Fin R) :
    Host.reduceAdd (F := Ideal) x init h' hu (ix1 r) = ∑ k : Fin C, x (ix2 r k) := by
  show Ideal.hostReduceAdd h' x (init (Shape.Idx.first hu)) (ix1 r) = _
  rw [Ideal.hostReduceAdd_single h' h, hinit, zero_add]
  refine Finset.sum_congr rfl fun k _ => ?_
  exact congrArg x (lift_row h r k)

/-- A vector `[R]` recast as a column `[R, 1]` reads its row. -/
theorem shapeCast_col_apply {α : Type} (v : (⟨1, ![R]⟩ : Shape).Idx → α) (h : (⟨1, ![R]⟩ : Shape).ShapeCasts ⟨2, ![R, 1]⟩)
    (r : Fin R) : shapeCast ⟨2, ![R, 1]⟩ v h (ix2 r (0 : Fin 1)) = v (ix1 r) := by
  refine shapeCast_apply v h _ _ ?_
  rw [Shape.rowMajor_val_two, Shape.rowMajor_val_one]
  show r.val = r.val * 1 + 0
  omega

end Cert.LibRowReduce

end
-- ==== Proof.Spec.lean ====
/-
  The mathematics both programs compute, as plain functions on the extended reals, index by index.

  One message-passing layer maps a row `x` of the aggregated input to
  `bn (relu (relu (x · Wa + ba) · Wb + bb))`, the batch normalisation in evaluation mode being
  `(h - μ) · (γ · (σ² + ε)^(-1/2)) + β`, coordinate by coordinate. The read-out head maps a pooled row `p` to
  `logSoftmax (relu (p · W1 + b1) · W2 + b2)`, the log-softmax taken with the row maximum subtracted first.

  The one algebraic fact the comparison needs is `scale_eq`: for a positive argument the reciprocal square root
  times `γ` is the quotient of `γ` by the square root. Everything else is the same sums in the same order.
-/
import Mathlib
import Idealize.ShloMosaic.PureOps.Ideal
import proofs.«109974_j38371237822822_1_alg».proof.Proof.LibRowReduce

open scoped BigOperators

noncomputable section

namespace Cert.Spec

open Idealize.ShloMosaic

/-- A dense layer followed by ReLU, at row `p` and output channel `q`: `max (∑ₖ x[p,k]·W[k,q] + b[q]) 0`. -/
def dense {R C N : Nat} (X : Fin R → Fin C → EReal) (W : Fin C → Fin N → EReal) (b : Fin N → EReal)
    (p : Fin R) (q : Fin N) : EReal :=
  max ((∑ k : Fin C, X p k * W k q) + b q) 0

/-- Batch normalisation in evaluation mode of one value: `(h - μ)·(γ·(σ² + ε)^(-1/2)) + β`. -/
def bn (h mu g var eps be : EReal) : EReal :=
  (h - mu) * (g * Ideal.rsqrt (var + eps)) + be

/-- One layer's two dense maps and its normalisation, at row `p` and channel `q`. -/
def layer {R C : Nat} (X : Fin R → Fin C → EReal) (wa : Fin C → Fin 64 → EReal) (ba : Fin 64 → EReal)
    (wb : Fin 64 → Fin 64 → EReal) (bb g be mu var : Fin 64 → EReal) (eps : EReal) (p : Fin R) (q : Fin 64) : EReal :=
  bn (dense (dense X wa ba) wb bb p q) (mu q) (g q) (var q) eps (be q)

/-- The head's logits at graph `p` and class `q`: `∑ₖ relu(pooled·W1 + b1)[p,k]·W2[k,q] + b2[q]`. -/
def logits {G : Nat} (P : Fin G → Fin 320 → EReal) (w1 : Fin 320 → Fin 64 → EReal) (b1 : Fin 64 → EReal)
    (w2 : Fin 64 → Fin 10 → EReal) (b2 : Fin 10 → EReal) (p : Fin G) (q : Fin 10) : EReal :=
  (∑ k : Fin 64, dense P w1 b1 p k * w2 k q) + b2 q

/-- The log-softmax of a row of ten logits at class `q`: with `s = z - max z`, it is `s[q] - log ∑ⱼ exp s[j]`. -/
def logSoftmax (z : Fin 10 → EReal) (q : Fin 10) : EReal :=
  (z q - Cert.LibRowReduce.rowMax z) - Ideal.log (∑ j : Fin 10, Ideal.exp (z j - Cert.LibRowReduce.rowMax z))

/-- For a positive argument, `γ` times the reciprocal square root is `γ` divided by the square root: at `+∞` both
    are `γ · 0`, and at a positive real the square root is a nonzero real whose inverse is the reciprocal root. -/
theorem scale_eq (g y : EReal) (hy : 0 < y) : g * Ideal.rsqrt y = Ideal.div g (Ideal.sqrt y) := by
  induction y using EReal.rec with
  | bot => exact absurd hy (by simp)
  | top =>
    rw [Ideal.rsqrt_top, Ideal.sqrt_top]
    unfold Ideal.div
    rw [if_neg (by simp : (⊤ : EReal) ≠ 0), EReal.inv_top]
  | coe r =>
    have hr : 0 < r := by exact_mod_cast hy
    have hs : 0 < Real.sqrt r := Real.sqrt_pos.mpr hr
    have hne : ((Real.sqrt r : ℝ) : EReal) ≠ 0 := by exact_mod_cast hs.ne'
    rw [Ideal.rsqrt_coe, Ideal.sqrt_coe, if_neg (not_lt.mpr hr.le), if_neg hr.ne', if_neg (not_lt.mpr hr.le)]
    unfold Ideal.div
    rw [if_neg hne, ← EReal.coe_inv]

end Cert.Spec

end
-- ==== Proof.KI.KerFun.lean ====
/-
  What the kernel program computes, as explicit functions of its twenty-five arguments.

  Arguments, by position: x0 the node features [N, 128]; x1 the edge list [2, E]; x2 each node's graph number [N];
  x3 the first layer's ε; x4 … x11 the first layer's Wa, ba, Wb, bb, γ, β, μ, σ²; x12 … x20 the same nine parameters
  of the four later layers, stacked on a leading axis of extent 4; x21 … x24 the read-out's W1, b1, W2, b2.

  Layer one is the specification's layer applied to the aggregated input features; layer k + 2 is the specification's
  layer applied to the aggregation of layer k + 1's output, with slice k of the stacked parameters. The second result
  is the five outputs side by side; the first is the log-softmax of the read-out's logits of the per-graph mean of
  those rows.
-/
import Idealize.ShloMosaic.Lib.ValueIdx
import proofs.«109974_j38371237822822_1_alg».proof.Proof.Spec
import proofs.«109974_j38371237822822_1_alg».proof.Proof.KI.KerOps

noncomputable section

namespace Cert.KernelIdeal.KerValue

open Cert.KernelIdeal Cert.KernelIdeal.Gen Idealize.ShloMosaic Idealize.ShloMosaic.ValueIdx

/-- A layer's output array: the specification's layer at every row and channel, with ε the f32 word of 1e-5. -/
def layerOut {C : Nat} (hpre : FVec Ideal ⟨2, ![50000, C]⟩ .f32) (wa : FVec Ideal ⟨2, ![C, 64]⟩ .f32)
    (ba : FVec Ideal S64 .f32) (wb : FVec Ideal S64x64 .f32) (bb g be mu var : FVec Ideal S64 .f32) :
    FVec Ideal S50000x64 .f32 :=
  fun i => Cert.Spec.layer (fun p l => hpre (ix2 p l)) (fun l k => wa (ix2 l k)) (fun k => ba (ix1 k))
    (fun k q => wb (ix2 k q)) (fun q => bb (ix1 q)) (fun q => g (ix1 q)) (fun q => be (ix1 q))
    (fun q => mu (ix1 q)) (fun q => var (ix1 q)) (Ideal.ofBits .f32 0x3727C5AC#32) (i 0) (i 1)

/-- The read-out's result array: the log-softmax of the logits of the pooled rows. -/
def headOut (pooled : FVec Ideal S512x320 .f32) (w1 : FVec Ideal S320x64 .f32) (b1 : FVec Ideal S64 .f32)
    (w2 : FVec Ideal S64x10 .f32) (b2 : FVec Ideal S10 .f32) : FVec Ideal S512x10 .f32 :=
  fun i => Cert.Spec.logSoftmax
    (Cert.Spec.logits (fun p k => pooled (ix2 p k)) (fun k q => w1 (ix2 k q)) (fun q => b1 (ix1 q))
      (fun k q => w2 (ix2 k q)) (fun q => b2 (ix1 q)) (i 0)) (i 1)

/-- Layer one's output. -/
def kerH1 (x0 : FVec Ideal S50000x128 .f32) (x1 : IVec S2x800000 32) (x3 : FVec Ideal S_ .f32)
    (x4 : FVec Ideal S128x64 .f32) (x5 : FVec Ideal S64 .f32) (x6 : FVec Ideal S64x64 .f32) (x7 x8 x9 x10 x11 : FVec Ideal S64 .f32) : FVec Ideal S50000x64 .f32 :=
  layerOut (aggPre128 x0 x1 x3) x4 x5 x6 x7 x8 x9 x10 x11

/-- A later layer's output from the previous layer's output h, with slice k of the stacked parameters. -/
def kerNext (k : Nat) (hs : S4.Slices ![k] S1) (hm : S4x64x64.Slices ![k, 0, 0] S1x64x64) (hv : S4x64.Slices ![k, 0] S1x64)
    (h : FVec Ideal S50000x64 .f32) (x1 : IVec S2x800000 32)
    (x12 : FVec Ideal S4 .f32) (x13 : FVec Ideal S4x64x64 .f32) (x14 : FVec Ideal S4x64 .f32) (x15 : FVec Ideal S4x64x64 .f32)
    (x16 x17 x18 x19 x20 : FVec Ideal S4x64 .f32) : FVec Ideal S50000x64 .f32 :=
  layerOut (aggPre64 h x1 (sliceScalar k hs x12)) (sliceMat k hm x13) (sliceVec k hv x14) (sliceMat k hm x15)
    (sliceVec k hv x16) (sliceVec k hv x17) (sliceVec k hv x18) (sliceVec k hv x19) (sliceVec k hv x20)

/-- Layer two's output. -/
def kerH2 (x0 : FVec Ideal S50000x128 .f32) (x1 : IVec S2x800000 32) (x3 : FVec Ideal S_ .f32)
    (x4 : FVec Ideal S128x64 .f32) (x5 : FVec Ideal S64 .f32) (x6 : FVec Ideal S64x64 .f32) (x7 x8 x9 x10 x11 : FVec Ideal S64 .f32)
    (x12 : FVec Ideal S4 .f32) (x13 : FVec Ideal S4x64x64 .f32) (x14 : FVec Ideal S4x64 .f32) (x15 : FVec Ideal S4x64x64 .f32)
    (x16 x17 x18 x19 x20 : FVec Ideal S4x64 .f32) : FVec Ideal S50000x64 .f32 :=
  kerNext 0 slices_S4_S1_0 slices_S4x64x64_S1x64x64_0_0_0 slices_S4x64_S1x64_0_0 (kerH1 x0 x1 x3 x4 x5 x6 x7 x8 x9 x10 x11)
    x1 x12 x13 x14 x15 x16 x17 x18 x19 x20

/-- Layer three's output. -/
def kerH3 (x0 : FVec Ideal S50000x128 .f32) (x1 : IVec S2x800000 32) (x3 : FVec Ideal S_ .f32)
    (x4 : FVec Ideal S128x64 .f32) (x5 : FVec Ideal S64 .f32) (x6 : FVec Ideal S64x64 .f32) (x7 x8 x9 x10 x11 : FVec Ideal S64 .f32)
    (x12 : FVec Ideal S4 .f32) (x13 : FVec Ideal S4x64x64 .f32) (x14 : FVec Ideal S4x64 .f32) (x15 : FVec Ideal S4x64x64 .f32)
    (x16 x17 x18 x19 x20 : FVec Ideal S4x64 .f32) : FVec Ideal S50000x64 .f32 :=
  kerNext 1 slices_S4_S1_1 slices_S4x64x64_S1x64x64_1_0_0 slices_S4x64_S1x64_1_0 (kerH2 x0 x1 x3 x4 x5 x6 x7 x8 x9 x10 x11 x12 x13 x14 x15 x16 x17 x18 x19 x20)
    x1 x12 x13 x14 x15 x16 x17 x18 x19 x20

/-- Layer four's output. -/
def kerH4 (x0 : FVec Ideal S50000x128 .f32) (x1 : IVec S2x800000 32) (x3 : FVec Ideal S_ .f32)
    (x4 : FVec Ideal S128x64 .f32) (x5 : FVec Ideal S64 .f32) (x6 : FVec Ideal S64x64 .f32) (x7 x8 x9 x10 x11 : FVec Ideal S64 .f32)
    (x12 : FVec Ideal S4 .f32) (x13 : FVec Ideal S4x64x64 .f32) (x14 : FVec Ideal S4x64 .f32) (x15 : FVec Ideal S4x64x64 .f32)
    (x16 x17 x18 x19 x20 : FVec Ideal S4x64 .f32) : FVec Ideal S50000x64 .f32 :=
  kerNext 2 slices_S4_S1_2 slices_S4x64x64_S1x64x64_2_0_0 slices_S4x64_S1x64_2_0 (kerH3 x0 x1 x3 x4 x5 x6 x7 x8 x9 x10 x11 x12 x13 x14 x15 x16 x17 x18 x19 x20)
    x1 x12 x13 x14 x15 x16 x17 x18 x19 x20

/-- Layer five's output. -/
def kerH5 (x0 : FVec Ideal S50000x128 .f32) (x1 : IVec S2x800000 32) (x3 : FVec Ideal S_ .f32)
    (x4 : FVec Ideal S128x64 .f32) (x5 : FVec Ideal S64 .f32) (x6 : FVec Ideal S64x64 .f32) (x7 x8 x9 x10 x11 : FVec Ideal S64 .f32)
    (x12 : FVec Ideal S4 .f32) (x13 : FVec Ideal S4x64x64 .f32) (x14 : FVec Ideal S4x64 .f32) (x15 : FVec Ideal S4x64x64 .f32)
    (x16 x17 x18 x19 x20 : FVec Ideal S4x64 .f32) : FVec Ideal S50000x64 .f32 :=
  kerNext 3 slices_S4_S1_3 slices_S4x64x64_S1x64x64_3_0_0 slices_S4x64_S1x64_3_0 (kerH4 x0 x1 x3 x4 x5 x6 x7 x8 x9 x10 x11 x12 x13 x14 x15 x16 x17 x18 x19 x20)
    x1 x12 x13 x14 x15 x16 x17 x18 x19 x20

/-- THE SECOND RESULT: the five layers' outputs side by side, [N, 320]. -/
def kerEmb (x0 : FVec Ideal S50000x128 .f32) (x1 : IVec S2x800000 32) (x3 : FVec Ideal S_ .f32)
    (x4 : FVec Ideal S128x64 .f32) (x5 : FVec Ideal S64 .f32) (x6 : FVec Ideal S64x64 .f32) (x7 x8 x9 x10 x11 : FVec Ideal S64 .f32)
    (x12 : FVec Ideal S4 .f32) (x13 : FVec Ideal S4x64x64 .f32) (x14 : FVec Ideal S4x64 .f32) (x15 : FVec Ideal S4x64x64 .f32)
    (x16 x17 x18 x19 x20 : FVec Ideal S4x64 .f32) : FVec Ideal S50000x320 .f32 :=
  embCat (kerH1 x0 x1 x3 x4 x5 x6 x7 x8 x9 x10 x11) (kerH2 x0 x1 x3 x4 x5 x6 x7 x8 x9 x10 x11 x12 x13 x14 x15 x16 x17 x18 x19 x20) (kerH3 x0 x1 x3 x4 x5 x6 x7 x8 x9 x10 x11 x12 x13 x14 x15 x16 x17 x18 x19 x20) (kerH4 x0 x1 x3 x4 x5 x6 x7 x8 x9 x10 x11 x12 x13 x14 x15 x16 x17 x18 x19 x20) (kerH5 x0 x1 x3 x4 x5 x6 x7 x8 x9 x10 x11 x12 x13 x14 x15 x16 x17 x18 x19 x20)

/-- THE FIRST RESULT: the log-probabilities [G, 10]. -/
def kerLogp (x0 : FVec Ideal S50000x128 .f32) (x1 : IVec S2x800000 32) (x2 : IVec S50000 32) (x3 : FVec Ideal S_ .f32)
    (x4 : FVec Ideal S128x64 .f32) (x5 : FVec Ideal S64 .f32) (x6 : FVec Ideal S64x64 .f32) (x7 x8 x9 x10 x11 : FVec Ideal S64 .f32)
    (x12 : FVec Ideal S4 .f32) (x13 : FVec Ideal S4x64x64 .f32) (x14 : FVec Ideal S4x64 .f32) (x15 : FVec Ideal S4x64x64 .f32)
    (x16 x17 x18 x19 x20 : FVec Ideal S4x64 .f32)
    (x21 : FVec Ideal S320x64 .f32) (x22 : FVec Ideal S64 .f32) (x23 : FVec Ideal S64x10 .f32) (x24 : FVec Ideal S10 .f32) :
    FVec Ideal S512x10 .f32 :=
  headOut (pooledMean (kerEmb x0 x1 x3 x4 x5 x6 x7 x8 x9 x10 x11 x12 x13 x14 x15 x16 x17 x18 x19 x20) x2) x21 x22 x23 x24

end Cert.KernelIdeal.KerValue

end
-- ==== Proof.LibDotRows.lean ====
/-
  A plain matrix product read entry by entry, and cut into row blocks.

  For the dimension numbers "contract axis 1 of an [M, K] left operand with axis 0 of a [K, N] right operand"
  (`DotDims.plain M K N`), over the extended reals:
    * entry (p, q) of the host's product is the sum over k of x[p, k] · w[k, q]          (`dotGeneral_plain_apply`);
    * a kernel's product accumulated into the zero splat is the same sum                  (`matmul_plain_apply`);
    * hence the product of a block of B rows of x (rows r0 … r0 + B − 1) with the whole of w is the
      corresponding block of rows of the whole product                                    (`matmul_rows`).
  Only `0 + s = s` and a re-indexing of the sum are used, so nothing here needs finiteness.
-/
import Idealize.ShloMosaic.Lib.ValueIdx
import Idealize.ShloMosaic.PureOps.Ideal.Laws

noncomputable section

namespace Cert.Lib.DotRows

open Idealize.ShloMosaic Idealize.ShloMosaic.ValueIdx

variable {M K N : Nat} {φ₁ φ₂ : FTy}

/-- The left operand's index at output entry (p, q) and contraction position k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a; apply Fin.ext
  match a with
  | ⟨0, _⟩ => rfl
  | ⟨1, _⟩ => exact ((DotDims.plain M K N).lhsIdx_val_of_single rfl _ _).trans hk

/-- The right operand's index at output entry (p, q) and contraction position k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a; apply Fin.ext
  match a with
  | ⟨0, _⟩ => exact ((DotDims.plain M K N).rhsIdx_val_of_single rfl _ _).trans hk
  | ⟨1, _⟩ => rfl

/-- Entry (p, q) of the host's product x · w is the sum over k of x[p, k] · w[k, q]. -/
theorem dotGeneral_plain_apply (x : FVec Ideal ⟨2, ![M, K]⟩ φ₁) (w : FVec Ideal ⟨2, ![K, N]⟩ φ₂) (p : Fin M) (q : Fin N) :
    Host.dotGeneral (F := Ideal) (DotDims.plain M K N) none x w (ix2 p q) = ∑ k : Fin K, x (ix2 p k) * w (ix2 k q) := by
  simp only [Host.dotGeneral]
  rw [Ideal.dotGeneral_apply, ← Equiv.sum_comp (contrEquiv1 (DotDims.plain M K N) K rfl rfl).symm]
  exact Finset.sum_congr rfl fun k _ => by rw [plain_lhsIdx, plain_rhsIdx]

/-- Entry (p, q) of a kernel's product x · w accumulated into the zero splat is the same sum. -/
theorem matmul_plain_apply (x : FVec Ideal ⟨2, ![M, K]⟩ φ₁) (w : FVec Ideal ⟨2, ![K, N]⟩ φ₂) (p : Fin M) (q : Fin N) :
    matmul (F := Ideal) (DotDims.plain M K N) none x w (constant ⟨2, ![M, N]⟩ .f32 0x00000000#32) (ix2 p q)
      = ∑ k : Fin K, x (ix2 p k) * w (ix2 k q) := by
  simp only [matmul]
  rw [Ideal.matmul_constant_zero_apply, ← Equiv.sum_comp (contrEquiv1 (DotDims.plain M K N) K rfl rfl).symm]
  exact Finset.sum_congr rfl fun k _ => by rw [plain_lhsIdx, plain_rhsIdx]

/-- ROW BLOCKS. If `xb` is the block of `B` rows of `x` that starts at row `r0` (`hx`), then entry (p, q) of the kernel's
    product `xb · w` into the zero splat is entry (r0 + p, q) of the host's product `x · w`. -/
theorem matmul_rows {B : Nat} (x : FVec Ideal ⟨2, ![M, K]⟩ φ₁) (w : FVec Ideal ⟨2, ![K, N]⟩ φ₂)
    (xb : FVec Ideal ⟨2, ![B, K]⟩ φ₁) (r0 : Nat) (p : Fin B) (q : Fin N) (hp : r0 + p.val < M)
    (hx : ∀ k : Fin K, xb (ix2 p k) = x (ix2 ⟨r0 + p.val, hp⟩ k)) :
    matmul (F := Ideal) (DotDims.plain B K N) none xb w (constant ⟨2, ![B, N]⟩ .f32 0x00000000#32) (ix2 p q)
      = Host.dotGeneral (F := Ideal) (DotDims.plain M K N) none x w (ix2 ⟨r0 + p.val, hp⟩ q) := by
  rw [matmul_plain_apply, dotGeneral_plain_apply]
  exact Finset.sum_congr rfl fun k _ => by rw [hx k]

end Cert.Lib.DotRows

end
-- ==== Proof.LibColBroadcast.lean ====
/-
  One column broadcast over many: a `[a, 1]` array broadcast to `[a, b]` reads, at `(p, c)`, the operand's row `p`.
-/
import Idealize.ShloMosaic.Lib.ValueIdx
import Idealize.ShloMosaic.Lib.Pipeline.Value

noncomputable section

namespace Cert.LibColBroadcast

open Idealize.ShloMosaic Idealize.ShloMosaic.ValueIdx

variable {α : Type}

/-- A `[a, 1]` column broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColBroadcast

end
-- ==== Proof.KI.ValLib.lean ====
/-
  The two shapes every layer of this network is made of, read entry by entry over the extended reals.

  * A bias vector `[b]`, recast as one row `[1, b]` and broadcast over `a` rows, reads at `(p, q)` its entry `q`.
  * A dense layer with ReLU as the body computes it — the product `x · w` accumulated into the zero splat, plus the
    broadcast bias, then the maximum with the zero splat — is at `(p, q)` the number
    `max (∑ₖ x[p,k] · w[k,q] + b[q]) 0`. Narrowing `x` to bf16 first changes nothing on the extended reals.
  * The dense layer without the ReLU, the same way.
  * The log-softmax of the rows of an array as the body computes it — the row maximum by a lane reduction from `-∞`,
    recast as a column and broadcast back, subtracted; the exponentials summed along the lanes from zero, the logarithm
    of that column broadcast back and subtracted — is at `(p, q)` the number
    `(L[p,q] - m) - log ∑ⱼ exp (L[p,j] - m)` with `m` the maximum of row `p`.
-/
import Idealize.ShloMosaic.Lib.ValueIdx
import Idealize.ShloMosaic.Lib.ValueLayout
import Idealize.ShloMosaic.PureOps.Ideal.Laws
import proofs.«109974_j38371237822822_1_alg».proof.Proof.Spec
import proofs.«109974_j38371237822822_1_alg».proof.Proof.LibDotRows
import proofs.«109974_j38371237822822_1_alg».proof.Proof.LibRowReduce
import proofs.«109974_j38371237822822_1_alg».proof.Proof.LibColBroadcast

noncomputable section

open scoped BigOperators

namespace Cert.KernelIdeal.Hand.Val

open Idealize.ShloMosaic Idealize.ShloMosaic.ValueIdx

/-- A `[b]` vector recast as `[1, b]` and broadcast over `a` rows reads, at `(p, q)`, the vector's entry `q`. -/
theorem rowBcast_apply {α : Type} {a b : ℕ} (v : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (q : Fin b) :
    broadcastTo ⟨2, ![a, b]⟩ (shapeCast ⟨2, ![1, b]⟩ v h1) h2 (ix2 p q) = v (ix1 q) :=
  (broadcastTo_1b_ab_apply (shapeCast ⟨2, ![1, b]⟩ v h1) h2 p q).trans (shapeCast_a_1a_apply v h1 0 q)

/-- The product into the zero splat plus the broadcast bias, at `(p, q)`: `∑ₖ x[p,k] · w[k,q] + b[q]`. -/
theorem affine_apply {M K N : ℕ} {φ₁ φ₂ : FTy} (D : DotDims ⟨2, ![M, K]⟩ ⟨2, ![K, N]⟩ ⟨2, ![M, N]⟩)
    (hD : D = DotDims.plain M K N) (x : FVec Ideal ⟨2, ![M, K]⟩ φ₁) (w : FVec Ideal ⟨2, ![K, N]⟩ φ₂)
    (b : FVec Ideal ⟨1, ![N]⟩ .f32) (h1 : (⟨1, ![N]⟩ : Shape).ShapeCasts ⟨2, ![1, N]⟩)
    (h2 : (⟨2, ![1, N]⟩ : Shape).Broadcasts ⟨2, ![M, N]⟩) (p : Fin M) (q : Fin N) :
    addf (matmul (F := Ideal) D none x w (constant ⟨2, ![M, N]⟩ .f32 0x00000000#32))
        (broadcastTo ⟨2, ![M, N]⟩ (shapeCast ⟨2, ![1, N]⟩ b h1) h2) (ix2 p q)
      = (∑ k : Fin K, x (ix2 p k) * w (ix2 k q)) + b (ix1 q) := by
  subst hD
  show matmul (F := Ideal) (DotDims.plain M K N) none x w (constant ⟨2, ![M, N]⟩ .f32 0x00000000#32) (ix2 p q)
      + broadcastTo ⟨2, ![M, N]⟩ (shapeCast ⟨2, ![1, N]⟩ b h1) h2 (ix2 p q) = _
  rw [Cert.Lib.DotRows.matmul_plain_apply, rowBcast_apply]

/-- A dense layer with ReLU as the body computes it, at `(p, q)`: `max (∑ₖ x[p,k] · w[k,q] + b[q]) 0`. -/
theorem dense_apply {M K N : ℕ} {φ₁ φ₂ : FTy} (D : DotDims ⟨2, ![M, K]⟩ ⟨2, ![K, N]⟩ ⟨2, ![M, N]⟩)
    (hD : D = DotDims.plain M K N) (x : FVec Ideal ⟨2, ![M, K]⟩ φ₁) (w : FVec Ideal ⟨2, ![K, N]⟩ φ₂)
    (b : FVec Ideal ⟨1, ![N]⟩ .f32) (h1 : (⟨1, ![N]⟩ : Shape).ShapeCasts ⟨2, ![1, N]⟩)
    (h2 : (⟨2, ![1, N]⟩ : Shape).Broadcasts ⟨2, ![M, N]⟩) (p : Fin M) (q : Fin N) :
    maximumf (addf (matmul (F := Ideal) D none x w (constant ⟨2, ![M, N]⟩ .f32 0x00000000#32))
        (broadcastTo ⟨2, ![M, N]⟩ (shapeCast ⟨2, ![1, N]⟩ b h1) h2))
        (broadcast ⟨2, ![M, N]⟩ (Scalar.ofBits (F := Ideal) .f32 0x00000000#32)) (ix2 p q)
      = Cert.Spec.dense (fun p k => x (ix2 p k)) (fun k q => w (ix2 k q)) (fun q => b (ix1 q)) p q := by
  show max (addf (matmul (F := Ideal) D none x w (constant ⟨2, ![M, N]⟩ .f32 0x00000000#32))
        (broadcastTo ⟨2, ![M, N]⟩ (shapeCast ⟨2, ![1, N]⟩ b h1) h2) (ix2 p q)) (Ideal.ofBits .f32 0x00000000#32) = _
  rw [affine_apply D hD, Ideal.ofBits_zero_f32]
  rfl

/-- The body's log-softmax of the rows of `L`, at `(p, q)`: with `m` the maximum of row `p`, it is
    `(L[p,q] - m) - log ∑ⱼ exp (L[p,j] - m)`. The row maximum and the row sum are lane reductions recast as columns
    `[R, 1]` and broadcast back over the `C` lanes. -/
theorem logSoftmax_apply {R C : ℕ} (L : FVec Ideal ⟨2, ![R, C]⟩ .f32)
    (hr : (⟨2, ![R, C]⟩ : Shape).Reduces [1] (⟨1, ![R]⟩ : Shape)) (hφ : FKind.Formats .f32)
    (haccM : (0xFF800000#32 : BitVec 32) = FKind.maximumf.neutral .f32 hφ)
    (haccA : (0x00000000#32 : BitVec 32) = FKind.add.neutral .f32 hφ)
    (hsc : (⟨1, ![R]⟩ : Shape).ShapeCasts ⟨2, ![R, 1]⟩) (hb : (⟨2, ![R, 1]⟩ : Shape).Broadcasts ⟨2, ![R, C]⟩)
    (p : Fin R) (q : Fin C) :
    subf (subf L (broadcastTo ⟨2, ![R, C]⟩ (shapeCast ⟨2, ![R, 1]⟩
            (multiReduction .maximumf [1] (⟨1, ![R]⟩ : Shape) L 0xFF800000#32 hr hφ haccM) hsc) hb))
        (broadcastTo ⟨2, ![R, C]⟩ (log (shapeCast ⟨2, ![R, 1]⟩
            (multiReduction .add [1] (⟨1, ![R]⟩ : Shape)
              (exp (subf L (broadcastTo ⟨2, ![R, C]⟩ (shapeCast ⟨2, ![R, 1]⟩
                (multiReduction .maximumf [1] (⟨1, ![R]⟩ : Shape) L 0xFF800000#32 hr hφ haccM) hsc) hb)))
              0x00000000#32 hr hφ haccA) hsc)) hb) (ix2 p q)
      = (L (ix2 p q) - Cert.LibRowReduce.rowMax fun k => L (ix2 p k))
          - Ideal.log (∑ j : Fin C, Ideal.exp (L (ix2 p j) - Cert.LibRowReduce.rowMax fun k => L (ix2 p k))) := by
  have hM : ∀ k : Fin C, broadcastTo ⟨2, ![R, C]⟩ (shapeCast ⟨2, ![R, 1]⟩
        (multiReduction .maximumf [1] (⟨1, ![R]⟩ : Shape) L 0xFF800000#32 hr hφ haccM) hsc) hb (ix2 p k)
      = Cert.LibRowReduce.rowMax fun j => L (ix2 p j) := fun k =>
    (Cert.LibColBroadcast.broadcastTo_a1_ab_apply _ hb p k).trans
      ((Cert.LibRowReduce.shapeCast_col_apply _ hsc p).trans (Cert.LibRowReduce.multiReduction_max_row L hr hφ haccM p))
  have hA : ∀ k : Fin C, subf L (broadcastTo ⟨2, ![R, C]⟩ (shapeCast ⟨2, ![R, 1]⟩
        (multiReduction .maximumf [1] (⟨1, ![R]⟩ : Shape) L 0xFF800000#32 hr hφ haccM) hsc) hb) (ix2 p k)
      = L (ix2 p k) - Cert.LibRowReduce.rowMax fun j => L (ix2 p j) := fun k =>
    congrArg (fun y => L (ix2 p k) - y) (hM k)
  refine congrArg₂ (fun a b : EReal => a - b) (hA q) ?_
  refine (Cert.LibColBroadcast.broadcastTo_a1_ab_apply _ hb p q).trans ?_
  refine congrArg Ideal.log ?_
  refine (Cert.LibRowReduce.shapeCast_col_apply _ hsc p).trans ?_
  refine (Cert.LibRowReduce.multiReduction_add_row _ hr hφ haccA p).trans ?_
  exact Finset.sum_congr rfl fun k _ => congrArg Ideal.exp (hA k)

end Cert.KernelIdeal.Hand.Val

end
-- ==== Proof.KI.ValPay0.lean ====
/-
  The first layer's body, entry by entry over the extended reals.

  From its loaded blocks — a block `x` of 5000 rows of the aggregated input with 128 channels, the two weight
  matrices, the two biases, and the normalisation's scale `γ`, variance `σ²`, mean `μ` and shift `β` — the body
  computes at row `p` and channel `q`
      `(relu (relu (x · Wa + ba) · Wb + bb)[p,q] - μ[q]) · (γ[q] · (σ²[q] + ε)^(-1/2)) + β[q]`,
  which is the specification's `layer` at `(p, q)`. The narrowing of `x` and of the hidden activations to bf16 is the
  identity on the extended reals, each product into the zero splat is the plain sum over the contracted axis, and each
  `[64]` vector recast to `[1, 64]` and broadcast over the rows reads its entry `q`.
-/
import proofs.«109974_j38371237822822_1_alg».proof.Proof.Gen.KernelIdeal.Skeleton
import proofs.«109974_j38371237822822_1_alg».proof.Proof.KI.ValLib

noncomputable section

open scoped BigOperators

namespace Cert.KernelIdeal.Hand.Val

open Idealize.ShloMosaic Idealize.ShloMosaic.ValueIdx
open Cert.KernelIdeal Cert.KernelIdeal.Gen

variable [Facts]

/-- The first layer's payload at `(p, q)` is the specification's layer of the loaded blocks. The payload's arguments
    are, in order, the input block, `Wa`, `ba`, `Wb`, `bb`, `γ`, `σ²`, `μ`, `β`. -/
theorem pay0_apply (v0 : Vec Ideal S5000x128 .f32) (v3 : Vec Ideal S128x64 .bf16) (v6 : Vec Ideal S64 .f32)
    (v13 : Vec Ideal S64x64 .bf16) (v16 v22 v23 v28 v35 : Vec Ideal S64 .f32) (p : Fin 5000) (q : Fin 64) :
    Gen.k0_pay1 (F := Ideal) v0 v3 v6 v13 v16 v22 v23 v28 v35 (ix2 p q)
      = Cert.Spec.layer (fun p l => v0 (ix2 p l)) (fun l k => v3 (ix2 l k)) (fun k => v6 (ix1 k))
          (fun k q => v13 (ix2 k q)) (fun q => v16 (ix1 q)) (fun q => v22 (ix1 q)) (fun q => v35 (ix1 q))
          (fun q => v28 (ix1 q)) (fun q => v23 (ix1 q)) (Ideal.ofBits .f32 0x3727C5AC#32) p q := by
  unfold Gen.k0_pay1
  simp only [shapeCast_self]
  simp only [addf_apply, mulf_apply, subf_apply, truncf_apply, rowBcast_apply,
    dense_apply dot_S5000x64_S64x64_S5000x64_1_0_0_1_n_n rfl, dense_apply dot_S5000x128_S128x64_S5000x64_1_0_0_1_n_n rfl]
  rfl

end Cert.KernelIdeal.Hand.Val

end
-- ==== Proof.KI.ValRows.lean ====
/-
  What an entry of the specification depends on, and two arrays compared coordinate by coordinate.

  A layer's value at row `p` and channel `q` reads row `p` of the input and nothing else of it: two inputs that agree
  on that one row (each at its own row number), with equal weights, biases and normalisation vectors, give equal values.
  The same for the head: the log-softmax of the logits of row `p` reads row `p` of the pooled features only. This is
  what lets a block of rows of the input stand for the whole input when the rows of the output are computed block by
  block.
-/
import Idealize.ShloMosaic.Lib.ValueIdx
import proofs.«109974_j38371237822822_1_alg».proof.Proof.Spec

noncomputable section

open scoped BigOperators

namespace Cert.KernelIdeal.Hand.Val

open Idealize.ShloMosaic Idealize.ShloMosaic.ValueIdx

/-- Two arrays of rank 2 that agree at every pair of coordinates are equal. -/
theorem ext_ix2 {α : Type} {n0 n1 : ℕ} {f g : (⟨2, ![n0, n1]⟩ : Shape).Idx → α}
    (h : ∀ (p : Fin n0) (q : Fin n1), f (ix2 p q) = g (ix2 p q)) : f = g :=
  funext fun j => by rw [eq_ix2 j]; exact h (j 0) (j 1)

/-- A layer's value at `(p, q)` reads only row `p` of its input. -/
theorem layer_congr {R R' C : ℕ} {X : Fin R → Fin C → EReal} {X' : Fin R' → Fin C → EReal}
    {wa wa' : Fin C → Fin 64 → EReal} {ba ba' : Fin 64 → EReal} {wb wb' : Fin 64 → Fin 64 → EReal}
    {bb bb' g g' be be' mu mu' var var' : Fin 64 → EReal} (eps : EReal) {p : Fin R} {p' : Fin R'} {q q' : Fin 64}
    (hX : ∀ l, X p l = X' p' l) (hwa : ∀ l k, wa l k = wa' l k) (hba : ∀ k, ba k = ba' k)
    (hwb : ∀ k j, wb k j = wb' k j) (hbb : ∀ j, bb j = bb' j) (hg : ∀ j, g j = g' j) (hbe : ∀ j, be j = be' j)
    (hmu : ∀ j, mu j = mu' j) (hvar : ∀ j, var j = var' j) (hq : q = q') :
    Cert.Spec.layer X wa ba wb bb g be mu var eps p q
      = Cert.Spec.layer X' wa' ba' wb' bb' g' be' mu' var' eps p' q' := by
  subst hq
  obtain rfl : wa = wa' := funext fun l => funext (hwa l)
  obtain rfl : ba = ba' := funext hba
  obtain rfl : wb = wb' := funext fun k => funext (hwb k)
  obtain rfl : bb = bb' := funext hbb
  obtain rfl : g = g' := funext hg
  obtain rfl : be = be' := funext hbe
  obtain rfl : mu = mu' := funext hmu
  obtain rfl : var = var' := funext hvar
  simp only [Cert.Spec.layer, Cert.Spec.dense, hX]

/-- The head's value at `(p, q)` reads only row `p` of the pooled features. -/
theorem head_congr {G G' : ℕ} {P : Fin G → Fin 320 → EReal} {P' : Fin G' → Fin 320 → EReal}
    {w1 w1' : Fin 320 → Fin 64 → EReal} {b1 b1' : Fin 64 → EReal} {w2 w2' : Fin 64 → Fin 10 → EReal}
    {b2 b2' : Fin 10 → EReal} {p : Fin G} {p' : Fin G'} {q q' : Fin 10}
    (hP : ∀ l, P p l = P' p' l) (hw1 : ∀ l k, w1 l k = w1' l k) (hb1 : ∀ k, b1 k = b1' k)
    (hw2 : ∀ k j, w2 k j = w2' k j) (hb2 : ∀ j, b2 j = b2' j) (hq : q = q') :
    Cert.Spec.logSoftmax (Cert.Spec.logits P w1 b1 w2 b2 p) q
      = Cert.Spec.logSoftmax (Cert.Spec.logits P' w1' b1' w2' b2' p') q' := by
  subst hq
  obtain rfl : w1 = w1' := funext fun l => funext (hw1 l)
  obtain rfl : b1 = b1' := funext hb1
  obtain rfl : w2 = w2' := funext fun k => funext (hw2 k)
  obtain rfl : b2 = b2' := funext hb2
  have h : Cert.Spec.logits P w1 b1 w2 b2 p = Cert.Spec.logits P' w1 b1 w2 b2 p' :=
    funext fun j => by simp only [Cert.Spec.logits, Cert.Spec.dense, hP]
  rw [h]

end Cert.KernelIdeal.Hand.Val

end
-- ==== Proof.KI.ValFinal0.lean ====
/-
  The first layer's output array after its region, as one function of the arrays the region finds.

  The region walks ten grid points; point `t` reads rows `5000·t … 5000·t + 4999` of the aggregated input (all 128
  channels), reads the weights, biases and normalisation vectors whole, and writes back rows `5000·t … 5000·t + 4999`
  of the output (all 64 channels). A layer's value at a row reads that row of the input only, so what point `t` writes
  back is block `t` of one function of the whole arrays: the specification's `layer`. The ten blocks tile the
  `[50000, 64]` output (row `r` lies in block `r / 5000`), hence the array ends holding that function everywhere.
-/
import proofs.«109974_j38371237822822_1_alg».proof.Proof.KI.Reg0
import proofs.«109974_j38371237822822_1_alg».proof.Proof.KI.ValPay0
import proofs.«109974_j38371237822822_1_alg».proof.Proof.KI.ValRows
import Idealize.ShloMosaic.Lib.Pipeline.Value

noncomputable section

open scoped BigOperators

namespace Cert.KernelIdeal.Hand

open Cert.KernelIdeal Cert.KernelIdeal.Gen Cert.KernelIdeal.Hand.Val
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The first layer's output, index by index, from the arrays the region finds: window 0 the aggregated input,
    1 and 3 the weights, 2 and 4 the biases, 5 the scale, 6 the shift, 7 the running mean, 8 the running variance. -/
abbrev G0 (c : Dev nD) : S50000x64.Idx → Ideal .f32 := fun i =>
  Cert.Spec.layer (fun p l => (V c (Pipeline.arrRef spec0 0) : S50000x128.Idx → Ideal .f32) (ix2 p l))
    (fun l k => (V c (Pipeline.arrRef spec0 1) : S128x64.Idx → Ideal .bf16) (ix2 l k))
    (fun k => (V c (Pipeline.arrRef spec0 2) : S64.Idx → Ideal .f32) (ix1 k))
    (fun k q => (V c (Pipeline.arrRef spec0 3) : S64x64.Idx → Ideal .bf16) (ix2 k q))
    (fun q => (V c (Pipeline.arrRef spec0 4) : S64.Idx → Ideal .f32) (ix1 q))
    (fun q => (V c (Pipeline.arrRef spec0 5) : S64.Idx → Ideal .f32) (ix1 q))
    (fun q => (V c (Pipeline.arrRef spec0 6) : S64.Idx → Ideal .f32) (ix1 q))
    (fun q => (V c (Pipeline.arrRef spec0 7) : S64.Idx → Ideal .f32) (ix1 q))
    (fun q => (V c (Pipeline.arrRef spec0 8) : S64.Idx → Ideal .f32) (ix1 q))
    (Ideal.ofBits .f32 0x3727C5AC#32) (i 0) (i 1)

theorem hz2_0 : (![0, 0] : Fin 2 → Nat) = fun _ => 0 := funext fun a => by fin_cases a <;> rfl
theorem hz1_0 : (![0] : Fin 1 → Nat) = fun _ => 0 := funext fun a => by fin_cases a; rfl

/-- The index maps, decided over the ten points: the input's and the output's row block is the point's number and
    their one column block is 0; every other window has the one block 0. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0 ∧ win0_5.index t (0 : Fin 1) = 0 ∧ win0_6.index t (0 : Fin 1) = 0
    ∧ win0_7.index t (0 : Fin 1) = 0 ∧ win0_8.index t (0 : Fin 1) = 0
    ∧ win0_9.index t (0 : Fin 2) = t.val ∧ win0_9.index t (1 : Fin 2) = 0 :=
  (by decide +kernel : ∀ t : Fin grid0.N, _)

/-! ## Each input window's block, read off its array -/

/-- Window 0's block at point `t` is rows `5000·t … 5000·t + 4999` of the aggregated input: its row `p` is row `r` of
    the array whenever `r = 5000·t + p`. -/
theorem iblk0_0_apply (c : Dev nD) (t : Fin cfg0.N) (p : Fin 5000) (l : Fin 128) (r : Fin 50000)
    (hr : r.val = t.val * 5000 + p.val) :
    (iblk0 V c 0 t : Vec Ideal S5000x128 .f32) (ix2 p l) = (V c (Pipeline.arrRef spec0 0) : S50000x128.Idx → Ideal .f32) (ix2 r l) := by
  obtain ⟨e00, e01, -⟩ := idx_facts0 t
  unfold iblk0
  rw [View.read_apply]
  show (V c (Pipeline.arrRef spec0 0) : S50000x128.Idx → Ideal .f32) (((cfg0.win 0).blk t).view.emb (ix2 p l)) = _
  refine congrArg _ (funext fun a => Fin.ext ?_)
  match a with
  | ⟨0, _⟩ => show win0_0.index t (0 : Fin 2) * 5000 + 1 * p.val = r.val; omega
  | ⟨1, _⟩ => show win0_0.index t (1 : Fin 2) * 128 + 1 * l.val = l.val; omega

/-- Window 1 (the first weights) has one block, its whole `[128, 64]` array. -/
theorem iblk0_1_apply (c : Dev nD) (t : Fin cfg0.N) (l : Fin 128) (k : Fin 64) :
    (iblk0 V c 1 t : Vec Ideal S128x64 .bf16) (ix2 l k) = (V c (Pipeline.arrRef spec0 1) : S128x64.Idx → Ideal .bf16) (ix2 l k) := by
  obtain ⟨-, -, e10, e11, -, e30, e31, -, -, -, -, -, -, -⟩ := idx_facts0 t
  unfold iblk0
  rw [View.read_apply]
  show (V c (Pipeline.arrRef spec0 1) : S128x64.Idx → Ideal .bf16) (((cfg0.win 1).blk t).view.emb (ix2 l k)) = _
  refine congrArg _ (funext fun a => Fin.ext ?_)
  match a with
  | ⟨0, _⟩ => show win0_1.index t (0 : Fin 2) * 128 + 1 * l.val = l.val; omega
  | ⟨1, _⟩ => show win0_1.index t (1 : Fin 2) * 64 + 1 * k.val = k.val; omega

/-- Window 2 (the first bias) has one block, its whole `[64]` array. -/
theorem iblk0_2_apply (c : Dev nD) (t : Fin cfg0.N) (q : Fin 64) :
    (iblk0 V c 2 t : Vec Ideal S64 .f32) (ix1 q) = (V c (Pipeline.arrRef spec0 2) : S64.Idx → Ideal .f32) (ix1 q) := by
  obtain ⟨-, -, -, -, e2, -, -, e4, e5, e6, e7, e8, -, -⟩ := idx_facts0 t
  unfold iblk0
  rw [View.read_apply]
  show (V c (Pipeline.arrRef spec0 2) : S64.Idx → Ideal .f32) (((cfg0.win 2).blk t).view.emb (ix1 q)) = _
  refine congrArg _ (funext fun a => Fin.ext ?_)
  match a with
  | ⟨0, _⟩ => show win0_2.index t (0 : Fin 1) * 64 + 1 * q.val = q.val; omega

/-- Window 3 (the second weights) has one block, its whole `[64, 64]` array. -/
theorem iblk0_3_apply (c : Dev nD) (t : Fin cfg0.N) (l : Fin 64) (k : Fin 64) :
    (iblk0 V c 3 t : Vec Ideal S64x64 .bf16) (ix2 l k) = (V c (Pipeline.arrRef spec0 3) : S64x64.Idx → Ideal .bf16) (ix2 l k) := by
  obtain ⟨-, -, e10, e11, -, e30, e31, -, -, -, -, -, -, -⟩ := idx_facts0 t
  unfold iblk0
  rw [View.read_apply]
  show (V c (Pipeline.arrRef spec0 3) : S64x64.Idx → Ideal .bf16) (((cfg0.win 3).blk t).view.emb (ix2 l k)) = _
  refine congrArg _ (funext fun a => Fin.ext ?_)
  match a with
  | ⟨0, _⟩ => show win0_3.index t (0 : Fin 2) * 64 + 1 * l.val = l.val; omega
  | ⟨1, _⟩ => show win0_3.index t (1 : Fin 2) * 64 + 1 * k.val = k.val; omega

/-- Window 4 (the second bias) has one block, its whole `[64]` array. -/
theorem iblk0_4_apply (c : Dev nD) (t : Fin cfg0.N) (q : Fin 64) :
    (iblk0 V c 4 t : Vec Ideal S64 .f32) (ix1 q) = (V c (Pipeline.arrRef spec0 4) : S64.Idx → Ideal .f32) (ix1 q) := by
  obtain ⟨-, -, -, -, e2, -, -, e4, e5, e6, e7, e8, -, -⟩ := idx_facts0 t
  unfold iblk0
  rw [View.read_apply]
  show (V c (Pipeline.arrRef spec0 4) : S64.Idx → Ideal .f32) (((cfg0.win 4).blk t).view.emb (ix1 q)) = _
  refine congrArg _ (funext fun a => Fin.ext ?_)
  match a with
  | ⟨0, _⟩ => show win0_4.index t (0 : Fin 1) * 64 + 1 * q.val = q.val; omega

/-- Window 5 (the scale) has one block, its whole `[64]` array. -/
theorem iblk0_5_apply (c : Dev nD) (t : Fin cfg0.N) (q : Fin 64) :
    (iblk0 V c 5 t : Vec Ideal S64 .f32) (ix1 q) = (V c (Pipeline.arrRef spec0 5) : S64.Idx → Ideal .f32) (ix1 q) := by
  obtain ⟨-, -, -, -, e2, -, -, e4, e5, e6, e7, e8, -, -⟩ := idx_facts0 t
  unfold iblk0
  rw [View.read_apply]
  show (V c (Pipeline.arrRef spec0 5) : S64.Idx → Ideal .f32) (((cfg0.win 5).blk t).view.emb (ix1 q)) = _
  refine congrArg _ (funext fun a => Fin.ext ?_)
  match a with
  | ⟨0, _⟩ => show win0_5.index t (0 : Fin 1) * 64 + 1 * q.val = q.val; omega

/-- Window 6 (the shift) has one block, its whole `[64]` array. -/
theorem iblk0_6_apply (c : Dev nD) (t : Fin cfg0.N) (q : Fin 64) :
    (iblk0 V c 6 t : Vec Ideal S64 .f32) (ix1 q) = (V c (Pipeline.arrRef spec0 6) : S64.Idx → Ideal .f32) (ix1 q) := by
  obtain ⟨-, -, -, -, e2, -, -, e4, e5, e6, e7, e8, -, -⟩ := idx_facts0 t
  unfold iblk0
  rw [View.read_apply]
  show (V c (Pipeline.arrRef spec0 6) : S64.Idx → Ideal .f32) (((cfg0.win 6).blk t).view.emb (ix1 q)) = _
  refine congrArg _ (funext fun a => Fin.ext ?_)
  match a with
  | ⟨0, _⟩ => show win0_6.index t (0 : Fin 1) * 64 + 1 * q.val = q.val; omega

/-- Window 7 (the running mean) has one block, its whole `[64]` array. -/
theorem iblk0_7_apply (c : Dev nD) (t : Fin cfg0.N) (q : Fin 64) :
    (iblk0 V c 7 t : Vec Ideal S64 .f32) (ix1 q) = (V c (Pipeline.arrRef spec0 7) : S64.Idx → Ideal .f32) (ix1 q) := by
  obtain ⟨-, -, -, -, e2, -, -, e4, e5, e6, e7, e8, -, -⟩ := idx_facts0 t
  unfold iblk0
  rw [View.read_apply]
  show (V c (Pipeline.arrRef spec0 7) : S64.Idx → Ideal .f32) (((cfg0.win 7).blk t).view.emb (ix1 q)) = _
  refine congrArg _ (funext fun a => Fin.ext ?_)
  match a with
  | ⟨0, _⟩ => show win0_7.index t (0 : Fin 1) * 64 + 1 * q.val = q.val; omega

/-- Window 8 (the running variance) has one block, its whole `[64]` array. -/
theorem iblk0_8_apply (c : Dev nD) (t : Fin cfg0.N) (q : Fin 64) :
    (iblk0 V c 8 t : Vec Ideal S64 .f32) (ix1 q) = (V c (Pipeline.arrRef spec0 8) : S64.Idx → Ideal .f32) (ix1 q) := by
  obtain ⟨-, -, -, -, e2, -, -, e4, e5, e6, e7, e8, -, -⟩ := idx_facts0 t
  unfold iblk0
  rw [View.read_apply]
  show (V c (Pipeline.arrRef spec0 8) : S64.Idx → Ideal .f32) (((cfg0.win 8).blk t).view.emb (ix1 q)) = _
  refine congrArg _ (funext fun a => Fin.ext ?_)
  match a with
  | ⟨0, _⟩ => show win0_8.index t (0 : Fin 1) * 64 + 1 * q.val = q.val; omega

/-! ## What a point writes back, the cover, the array -/

/-- What point `t` writes back is block `t` of `G0`: rows `5000·t … 5000·t + 4999` of the layer of the whole arrays. -/
theorem flushed0_eq (c : Dev nD) (t : Fin cfg0.N) :
    (dat0 V c).flushed 9 t = ((cfg0.win 9).blk t).view.read (Elt Ideal) (G0 V c) := by
  show (cfg0.win 9).cut (grid0.coords t) ((dat0 V c).after 9 t) = _
  rw [after0_9]
  unfold out0_9
  rw [View.canon_unit_zero hz2_0]
  simp only [View.ld_unit_zero (S := S5000x128) hz2_0, View.ld_unit_zero (S := S128x64) hz2_0, View.ld_unit_zero (S := S64x64) hz2_0, View.ld_unit_zero (S := S64) hz1_0]
  obtain ⟨-, -, -, -, -, -, -, -, -, -, -, -, e90, e91⟩ := idx_facts0 t
  refine ext_ix2 (n0 := 5000) (n1 := 64) fun p q => ?_
  show Gen.k0_pay1 (F := Ideal) (iblk0 V c 0 t) (iblk0 V c 1 t) (iblk0 V c 2 t) (iblk0 V c 3 t) (iblk0 V c 4 t)
      (iblk0 V c 5 t) (iblk0 V c 8 t) (iblk0 V c 7 t) (iblk0 V c 6 t) (ix2 p q)
    = G0 V c (((cfg0.win 9).blk t).view.emb (ix2 p q))
  refine (pay0_apply (iblk0 V c 0 t) (iblk0 V c 1 t) (iblk0 V c 2 t) (iblk0 V c 3 t) (iblk0 V c 4 t) (iblk0 V c 5 t)
    (iblk0 V c 8 t) (iblk0 V c 7 t) (iblk0 V c 6 t) p q).trans ?_
  have h0 : ((((cfg0.win 9).blk t).view.emb (ix2 p q) : S50000x64.Idx) 0).val = t.val * 5000 + p.val := by
    show win0_9.index t (0 : Fin 2) * 5000 + 1 * p.val = _; omega
  have h1 : (((cfg0.win 9).blk t).view.emb (ix2 p q) : S50000x64.Idx) 1 = q := Fin.ext (by
    show win0_9.index t (1 : Fin 2) * 64 + 1 * q.val = _; omega)
  exact layer_congr _ (fun l => iblk0_0_apply V c t p l _ h0) (iblk0_1_apply V c t) (iblk0_2_apply V c t)
    (iblk0_3_apply V c t) (iblk0_4_apply V c t) (iblk0_5_apply V c t) (iblk0_6_apply V c t) (iblk0_7_apply V c t)
    (iblk0_8_apply V c t) h1.symm

/-- An index of the output is in point `t`'s block iff each coordinate is in the block's range on its axis. -/
theorem mem_blk0 (t : Fin cfg0.N) (i : S50000x64.Idx) :
    i ∈ ((cfg0.win 9).blk t).view.set ↔ ∀ a : Fin 2, win0_9.index t a * S5000x64.size a ≤ (i a).val
      ∧ (i a).val < win0_9.index t a * S5000x64.size a + S5000x64.size a := by
  show i ∈ ((View.whole main_v20).slice (win0_9.rect t)).set ↔ _
  rw [View.set_slice_whole, Rect.mem_set_unit]
  exact Iff.rfl

/-- Every index of the output is in the block of the point its row divided by 5000 names. -/
theorem cover0 (i : S50000x64.Idx) :
    ∃ t : Fin cfg0.N, (cfg0.win 9).flush t = true ∧ i ∈ ((cfg0.win 9).blk t).view.set := by
  have hi0 : (i 0).val < 50000 := (i 0).isLt
  have hi1 : (i 1).val < 64 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨-, -, -, -, -, -, -, -, -, -, -, -, e90, e91⟩ := idx_facts0 t
  refine ⟨t, flush0_9 t, ?_⟩
  rw [mem_blk0]
  intro a
  match a with
  | ⟨0, _⟩ =>
    show win0_9.index t (0 : Fin 2) * 5000 ≤ (i 0).val ∧ (i 0).val < win0_9.index t (0 : Fin 2) * 5000 + 5000
    omega
  | ⟨1, _⟩ =>
    show win0_9.index t (1 : Fin 2) * 64 ≤ (i 1).val ∧ (i 1).val < win0_9.index t (1 : Fin 2) * 64 + 64
    omega

/-- The output array after the region is `G0`: the layer of the arrays the region finds, index by index. -/
theorem final0 (c : Dev nD) : (dat0 (F := Ideal) V c).arrAt 9 cfg0.N = G0 V c :=
  (dat0 V c).arrAt_eq_of_cover 9 (G0 V c) (fun t _ => flushed0_eq V c t) (cover0)

end Cert.KernelIdeal.Hand

end
-- ==== Proof.KI.ValPay1.lean ====
/-
  The second layer's body, entry by entry over the extended reals.

  From its loaded blocks — a block `x` of 5000 rows of the aggregated input with 64 channels, the two weight
  matrices, the two biases, and the normalisation's scale `γ`, variance `σ²`, mean `μ` and shift `β` — the body
  computes at row `p` and channel `q`
      `(relu (relu (x · Wa + ba) · Wb + bb)[p,q] - μ[q]) · (γ[q] · (σ²[q] + ε)^(-1/2)) + β[q]`,
  which is the specification's `layer` at `(p, q)`. The body's value comes in three named pieces: the scaled
  difference, the shift `β` as loaded, and their sum with `β` broadcast over the rows. The narrowing of `x` and of the
  hidden activations to bf16 is the identity on the extended reals, each product into the zero splat is the plain sum
  over the contracted axis, and each `[64]` vector recast to `[1, 64]` and broadcast over the rows reads its entry `q`.
-/
import proofs.«109974_j38371237822822_1_alg».proof.Proof.Gen.KernelIdeal.Skeleton
import proofs.«109974_j38371237822822_1_alg».proof.Proof.KI.ValLib

noncomputable section

open scoped BigOperators

namespace Cert.KernelIdeal.Hand.Val

open Idealize.ShloMosaic Idealize.ShloMosaic.ValueIdx
open Cert.KernelIdeal Cert.KernelIdeal.Gen

variable [Facts]

/-- The second layer's payload at `(p, q)` is the specification's layer of the loaded blocks. The arguments are,
    in order, the input block, `Wa`, `ba`, `Wb`, `bb`, `γ`, `σ²`, `μ`, and then `β`. -/
theorem pay1_apply (v0 : Vec Ideal S5000x64 .f32) (v3 : Vec Ideal S64x64 .bf16) (v6 : Vec Ideal S64 .f32)
    (v14 : Vec Ideal S64x64 .bf16) (v17 v24 v26 v32 v40 : Vec Ideal S64 .f32) (p : Fin 5000) (q : Fin 64) :
    Gen.k1_pay1 (F := Ideal) (Gen.k1_pay2 v0 v3 v6 v14 v17 v24 v26 v32) (Gen.k1_pay3 v40) (ix2 p q)
      = Cert.Spec.layer (fun p l => v0 (ix2 p l)) (fun l k => v3 (ix2 l k)) (fun k => v6 (ix1 k))
          (fun k q => v14 (ix2 k q)) (fun q => v17 (ix1 q)) (fun q => v24 (ix1 q)) (fun q => v40 (ix1 q))
          (fun q => v32 (ix1 q)) (fun q => v26 (ix1 q)) (Ideal.ofBits .f32 0x3727C5AC#32) p q := by
  unfold Gen.k1_pay1 Gen.k1_pay2 Gen.k1_pay3
  simp only [shapeCast_self]
  simp only [addf_apply, mulf_apply, subf_apply, truncf_apply, rowBcast_apply,
    dense_apply dot_S5000x64_S64x64_S5000x64_1_0_0_1_n_n rfl]
  rfl

end Cert.KernelIdeal.Hand.Val

end
-- ==== Proof.KI.ValFinal1.lean ====
/-
  The second layer's output array after its region, as one function of the arrays the region finds.

  The region walks ten grid points; point `t` reads rows `5000·t … 5000·t + 4999` of the aggregated input (all 64
  channels), reads the weights, biases and normalisation vectors whole, and writes back rows `5000·t … 5000·t + 4999`
  of the output (all 64 channels). A layer's value at a row reads that row of the input only, so what point `t` writes
  back is block `t` of one function of the whole arrays: the specification's `layer`. The ten blocks tile the
  `[50000, 64]` output (row `r` lies in block `r / 5000`), hence the array ends holding that function everywhere.
-/
import proofs.«109974_j38371237822822_1_alg».proof.Proof.KI.Reg1
import proofs.«109974_j38371237822822_1_alg».proof.Proof.KI.ValPay1
import proofs.«109974_j38371237822822_1_alg».proof.Proof.KI.ValRows
import Idealize.ShloMosaic.Lib.Pipeline.Value

noncomputable section

open scoped BigOperators

namespace Cert.KernelIdeal.Hand

open Cert.KernelIdeal Cert.KernelIdeal.Gen Cert.KernelIdeal.Hand.Val
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The second layer's output, index by index, from the arrays the region finds: window 0 the aggregated input,
    1 and 3 the weights, 2 and 4 the biases, 5 the scale, 6 the shift, 7 the running mean, 8 the running variance. -/
abbrev G1 (c : Dev nD) : S50000x64.Idx → Ideal .f32 := fun i =>
  Cert.Spec.layer (fun p l => (V c (Pipeline.arrRef spec1 0) : S50000x64.Idx → Ideal .f32) (ix2 p l))
    (fun l k => (V c (Pipeline.arrRef spec1 1) : S64x64.Idx → Ideal .bf16) (ix2 l k))
    (fun k => (V c (Pipeline.arrRef spec1 2) : S64.Idx → Ideal .f32) (ix1 k))
    (fun k q => (V c (Pipeline.arrRef spec1 3) : S64x64.Idx → Ideal .bf16) (ix2 k q))
    (fun q => (V c (Pipeline.arrRef spec1 4) : S64.Idx → Ideal .f32) (ix1 q))
    (fun q => (V c (Pipeline.arrRef spec1 5) : S64.Idx → Ideal .f32) (ix1 q))
    (fun q => (V c (Pipeline.arrRef spec1 6) : S64.Idx → Ideal .f32) (ix1 q))
    (fun q => (V c (Pipeline.arrRef spec1 7) : S64.Idx → Ideal .f32) (ix1 q))
    (fun q => (V c (Pipeline.arrRef spec1 8) : S64.Idx → Ideal .f32) (ix1 q))
    (Ideal.ofBits .f32 0x3727C5AC#32) (i 0) (i 1)

theorem hz2_1 : (![0, 0] : Fin 2 → Nat) = fun _ => 0 := funext fun a => by fin_cases a <;> rfl
theorem hz1_1 : (![0] : Fin 1 → Nat) = fun _ => 0 := funext fun a => by fin_cases a; rfl

/-- The index maps, decided over the ten points: the input's and the output's row block is the point's number and
    their one column block is 0; every other window has the one block 0. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 1) = 0 ∧ win1_5.index t (0 : Fin 1) = 0 ∧ win1_6.index t (0 : Fin 1) = 0
    ∧ win1_7.index t (0 : Fin 1) = 0 ∧ win1_8.index t (0 : Fin 1) = 0
    ∧ win1_9.index t (0 : Fin 2) = t.val ∧ win1_9.index t (1 : Fin 2) = 0 :=
  (by decide +kernel : ∀ t : Fin grid1.N, _)

/-! ## Each input window's block, read off its array -/

/-- Window 0's block at point `t` is rows `5000·t … 5000·t + 4999` of the aggregated input: its row `p` is row `r` of
    the array whenever `r = 5000·t + p`. -/
theorem iblk1_0_apply (c : Dev nD) (t : Fin cfg1.N) (p : Fin 5000) (l : Fin 64) (r : Fin 50000)
    (hr : r.val = t.val * 5000 + p.val) :
    (iblk1 V c 0 t : Vec Ideal S5000x64 .f32) (ix2 p l) = (V c (Pipeline.arrRef spec1 0) : S50000x64.Idx → Ideal .f32) (ix2 r l) := by
  obtain ⟨e00, e01, -⟩ := idx_facts1 t
  unfold iblk1
  rw [View.read_apply]
  show (V c (Pipeline.arrRef spec1 0) : S50000x64.Idx → Ideal .f32) (((cfg1.win 0).blk t).view.emb (ix2 p l)) = _
  refine congrArg _ (funext fun a => Fin.ext ?_)
  match a with
  | ⟨0, _⟩ => show win1_0.index t (0 : Fin 2) * 5000 + 1 * p.val = r.val; omega
  | ⟨1, _⟩ => show win1_0.index t (1 : Fin 2) * 64 + 1 * l.val = l.val; omega

/-- Window 1 (the first weights) has one block, its whole `[64, 64]` array. -/
theorem iblk1_1_apply (c : Dev nD) (t : Fin cfg1.N) (l : Fin 64) (k : Fin 64) :
    (iblk1 V c 1 t : Vec Ideal S64x64 .bf16) (ix2 l k) = (V c (Pipeline.arrRef spec1 1) : S64x64.Idx → Ideal .bf16) (ix2 l k) := by
  obtain ⟨-, -, e10, e11, -, e30, e31, -, -, -, -, -, -, -⟩ := idx_facts1 t
  unfold iblk1
  rw [View.read_apply]
  show (V c (Pipeline.arrRef spec1 1) : S64x64.Idx → Ideal .bf16) (((cfg1.win 1).blk t).view.emb (ix2 l k)) = _
  refine congrArg _ (funext fun a => Fin.ext ?_)
  match a with
  | ⟨0, _⟩ => show win1_1.index t (0 : Fin 2) * 64 + 1 * l.val = l.val; omega
  | ⟨1, _⟩ => show win1_1.index t (1 : Fin 2) * 64 + 1 * k.val = k.val; omega

/-- Window 2 (the first bias) has one block, its whole `[64]` array. -/
theorem iblk1_2_apply (c : Dev nD) (t : Fin cfg1.N) (q : Fin 64) :
    (iblk1 V c 2 t : Vec Ideal S64 .f32) (ix1 q) = (V c (Pipeline.arrRef spec1 2) : S64.Idx → Ideal .f32) (ix1 q) := by
  obtain ⟨-, -, -, -, e2, -, -, e4, e5, e6, e7, e8, -, -⟩ := idx_facts1 t
  unfold iblk1
  rw [View.read_apply]
  show (V c (Pipeline.arrRef spec1 2) : S64.Idx → Ideal .f32) (((cfg1.win 2).blk t).view.emb (ix1 q)) = _
  refine congrArg _ (funext fun a => Fin.ext ?_)
  match a with
  | ⟨0, _⟩ => show win1_2.index t (0 : Fin 1) * 64 + 1 * q.val = q.val; omega

/-- Window 3 (the second weights) has one block, its whole `[64, 64]` array. -/
theorem iblk1_3_apply (c : Dev nD) (t : Fin cfg1.N) (l : Fin 64) (k : Fin 64) :
    (iblk1 V c 3 t : Vec Ideal S64x64 .bf16) (ix2 l k) = (V c (Pipeline.arrRef spec1 3) : S64x64.Idx → Ideal .bf16) (ix2 l k) := by
  obtain ⟨-, -, e10, e11, -, e30, e31, -, -, -, -, -, -, -⟩ := idx_facts1 t
  unfold iblk1
  rw [View.read_apply]
  show (V c (Pipeline.arrRef spec1 3) : S64x64.Idx → Ideal .bf16) (((cfg1.win 3).blk t).view.emb (ix2 l k)) = _
  refine congrArg _ (funext fun a => Fin.ext ?_)
  match a with
  | ⟨0, _⟩ => show win1_3.index t (0 : Fin 2) * 64 + 1 * l.val = l.val; omega
  | ⟨1, _⟩ => show win1_3.index t (1 : Fin 2) * 64 + 1 * k.val = k.val; omega

/-- Window 4 (the second bias) has one block, its whole `[64]` array. -/
theorem iblk1_4_apply (c : Dev nD) (t : Fin cfg1.N) (q : Fin 64) :
    (iblk1 V c 4 t : Vec Ideal S64 .f32) (ix1 q) = (V c (Pipeline.arrRef spec1 4) : S64.Idx → Ideal .f32) (ix1 q) := by
  obtain ⟨-, -, -, -, e2, -, -, e4, e5, e6, e7, e8, -, -⟩ := idx_facts1 t
  unfold iblk1
  rw [View.read_apply]
  show (V c (Pipeline.arrRef spec1 4) : S64.Idx → Ideal .f32) (((cfg1.win 4).blk t).view.emb (ix1 q)) = _
  refine congrArg _ (funext fun a => Fin.ext ?_)
  match a with
  | ⟨0, _⟩ => show win1_4.index t (0 : Fin 1) * 64 + 1 * q.val = q.val; omega

/-- Window 5 (the scale) has one block, its whole `[64]` array. -/
theorem iblk1_5_apply (c : Dev nD) (t : Fin cfg1.N) (q : Fin 64) :
    (iblk1 V c 5 t : Vec Ideal S64 .f32) (ix1 q) = (V c (Pipeline.arrRef spec1 5) : S64.Idx → Ideal .f32) (ix1 q) := by
  obtain ⟨-, -, -, -, e2, -, -, e4, e5, e6, e7, e8, -, -⟩ := idx_facts1 t
  unfold iblk1
  rw [View.read_apply]
  show (V c (Pipeline.arrRef spec1 5) : S64.Idx → Ideal .f32) (((cfg1.win 5).blk t).view.emb (ix1 q)) = _
  refine congrArg _ (funext fun a => Fin.ext ?_)
  match a with
  | ⟨0, _⟩ => show win1_5.index t (0 : Fin 1) * 64 + 1 * q.val = q.val; omega

/-- Window 6 (the shift) has one block, its whole `[64]` array. -/
theorem iblk1_6_apply (c : Dev nD) (t : Fin cfg1.N) (q : Fin 64) :
    (iblk1 V c 6 t : Vec Ideal S64 .f32) (ix1 q) = (V c (Pipeline.arrRef spec1 6) : S64.Idx → Ideal .f32) (ix1 q) := by
  obtain ⟨-, -, -, -, e2, -, -, e4, e5, e6, e7, e8, -, -⟩ := idx_facts1 t
  unfold iblk1
  rw [View.read_apply]
  show (V c (Pipeline.arrRef spec1 6) : S64.Idx → Ideal .f32) (((cfg1.win 6).blk t).view.emb (ix1 q)) = _
  refine congrArg _ (funext fun a => Fin.ext ?_)
  match a with
  | ⟨0, _⟩ => show win1_6.index t (0 : Fin 1) * 64 + 1 * q.val = q.val; omega

/-- Window 7 (the running mean) has one block, its whole `[64]` array. -/
theorem iblk1_7_apply (c : Dev nD) (t : Fin cfg1.N) (q : Fin 64) :
    (iblk1 V c 7 t : Vec Ideal S64 .f32) (ix1 q) = (V c (Pipeline.arrRef spec1 7) : S64.Idx → Ideal .f32) (ix1 q) := by
  obtain ⟨-, -, -, -, e2, -, -, e4, e5, e6, e7, e8, -, -⟩ := idx_facts1 t
  unfold iblk1
  rw [View.read_apply]
  show (V c (Pipeline.arrRef spec1 7) : S64.Idx → Ideal .f32) (((cfg1.win 7).blk t).view.emb (ix1 q)) = _
  refine congrArg _ (funext fun a => Fin.ext ?_)
  match a with
  | ⟨0, _⟩ => show win1_7.index t (0 : Fin 1) * 64 + 1 * q.val = q.val; omega

/-- Window 8 (the running variance) has one block, its whole `[64]` array. -/
theorem iblk1_8_apply (c : Dev nD) (t : Fin cfg1.N) (q : Fin 64) :
    (iblk1 V c 8 t : Vec Ideal S64 .f32) (ix1 q) = (V c (Pipeline.arrRef spec1 8) : S64.Idx → Ideal .f32) (ix1 q) := by
  obtain ⟨-, -, -, -, e2, -, -, e4, e5, e6, e7, e8, -, -⟩ := idx_facts1 t
  unfold iblk1
  rw [View.read_apply]
  show (V c (Pipeline.arrRef spec1 8) : S64.Idx → Ideal .f32) (((cfg1.win 8).blk t).view.emb (ix1 q)) = _
  refine congrArg _ (funext fun a => Fin.ext ?_)
  match a with
  | ⟨0, _⟩ => show win1_8.index t (0 : Fin 1) * 64 + 1 * q.val = q.val; omega

/-! ## What a point writes back, the cover, the array -/

/-- What point `t` writes back is block `t` of `G1`: rows `5000·t … 5000·t + 4999` of the layer of the whole arrays. -/
theorem flushed1_eq (c : Dev nD) (t : Fin cfg1.N) :
    (dat1 V c).flushed 9 t = ((cfg1.win 9).blk t).view.read (Elt Ideal) (G1 V c) := by
  show (cfg1.win 9).cut (grid1.coords t) ((dat1 V c).after 9 t) = _
  rw [after1_9]
  unfold out1_9
  rw [View.canon_unit_zero hz2_1]
  simp only [View.ld_unit_zero (S := S5000x64) hz2_1, View.ld_unit_zero (S := S64x64) hz2_1, View.ld_unit_zero (S := S64) hz1_1]
  obtain ⟨-, -, -, -, -, -, -, -, -, -, -, -, e90, e91⟩ := idx_facts1 t
  refine ext_ix2 (n0 := 5000) (n1 := 64) fun p q => ?_
  show Gen.k1_pay1 (F := Ideal) (Gen.k1_pay2 (iblk1 V c 0 t) (iblk1 V c 1 t) (iblk1 V c 2 t) (iblk1 V c 3 t) (iblk1 V c 4 t)
      (iblk1 V c 5 t) (iblk1 V c 8 t) (iblk1 V c 7 t)) (Gen.k1_pay3 (iblk1 V c 6 t)) (ix2 p q)
    = G1 V c (((cfg1.win 9).blk t).view.emb (ix2 p q))
  refine (pay1_apply (iblk1 V c 0 t) (iblk1 V c 1 t) (iblk1 V c 2 t) (iblk1 V c 3 t) (iblk1 V c 4 t) (iblk1 V c 5 t)
    (iblk1 V c 8 t) (iblk1 V c 7 t) (iblk1 V c 6 t) p q).trans ?_
  have h0 : ((((cfg1.win 9).blk t).view.emb (ix2 p q) : S50000x64.Idx) 0).val = t.val * 5000 + p.val := by
    show win1_9.index t (0 : Fin 2) * 5000 + 1 * p.val = _; omega
  have h1 : (((cfg1.win 9).blk t).view.emb (ix2 p q) : S50000x64.Idx) 1 = q := Fin.ext (by
    show win1_9.index t (1 : Fin 2) * 64 + 1 * q.val = _; omega)
  exact layer_congr _ (fun l => iblk1_0_apply V c t p l _ h0) (iblk1_1_apply V c t) (iblk1_2_apply V c t)
    (iblk1_3_apply V c t) (iblk1_4_apply V c t) (iblk1_5_apply V c t) (iblk1_6_apply V c t) (iblk1_7_apply V c t)
    (iblk1_8_apply V c t) h1.symm

/-- An index of the output is in point `t`'s block iff each coordinate is in the block's range on its axis. -/
theorem mem_blk1 (t : Fin cfg1.N) (i : S50000x64.Idx) :
    i ∈ ((cfg1.win 9).blk t).view.set ↔ ∀ a : Fin 2, win1_9.index t a * S5000x64.size a ≤ (i a).val
      ∧ (i a).val < win1_9.index t a * S5000x64.size a + S5000x64.size a := by
  show i ∈ ((View.whole main_v55).slice (win1_9.rect t)).set ↔ _
  rw [View.set_slice_whole, Rect.mem_set_unit]
  exact Iff.rfl

/-- Every index of the output is in the block of the point its row divided by 5000 names. -/
theorem cover1 (i : S50000x64.Idx) :
    ∃ t : Fin cfg1.N, (cfg1.win 9).flush t = true ∧ i ∈ ((cfg1.win 9).blk t).view.set := by
  have hi0 : (i 0).val < 50000 := (i 0).isLt
  have hi1 : (i 1).val < 64 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨-, -, -, -, -, -, -, -, -, -, -, -, e90, e91⟩ := idx_facts1 t
  refine ⟨t, flush1_9 t, ?_⟩
  rw [mem_blk1]
  intro a
  match a with
  | ⟨0, _⟩ =>
    show win1_9.index t (0 : Fin 2) * 5000 ≤ (i 0).val ∧ (i 0).val < win1_9.index t (0 : Fin 2) * 5000 + 5000
    omega
  | ⟨1, _⟩ =>
    show win1_9.index t (1 : Fin 2) * 64 ≤ (i 1).val ∧ (i 1).val < win1_9.index t (1 : Fin 2) * 64 + 64
    omega

/-- The output array after the region is `G1`: the layer of the arrays the region finds, index by index. -/
theorem final1 (c : Dev nD) : (dat1 (F := Ideal) V c).arrAt 9 cfg1.N = G1 V c :=
  (dat1 V c).arrAt_eq_of_cover 9 (G1 V c) (fun t _ => flushed1_eq V c t) (cover1)

end Cert.KernelIdeal.Hand

end
-- ==== Proof.KI.ValPay2.lean ====
/-
  The third layer's body, entry by entry over the extended reals.

  From its loaded blocks — a block `x` of 5000 rows of the aggregated input with 64 channels, the two weight
  matrices, the two biases, and the normalisation's scale `γ`, variance `σ²`, mean `μ` and shift `β` — the body
  computes at row `p` and channel `q`
      `(relu (relu (x · Wa + ba) · Wb + bb)[p,q] - μ[q]) · (γ[q] · (σ²[q] + ε)^(-1/2)) + β[q]`,
  which is the specification's `layer` at `(p, q)`. The body's value comes in three named pieces: the scaled
  difference, the shift `β` as loaded, and their sum with `β` broadcast over the rows. The narrowing of `x` and of the
  hidden activations to bf16 is the identity on the extended reals, each product into the zero splat is the plain sum
  over the contracted axis, and each `[64]` vector recast to `[1, 64]` and broadcast over the rows reads its entry `q`.
-/
import proofs.«109974_j38371237822822_1_alg».proof.Proof.Gen.KernelIdeal.Skeleton
import proofs.«109974_j38371237822822_1_alg».proof.Proof.KI.ValLib

noncomputable section

open scoped BigOperators

namespace Cert.KernelIdeal.Hand.Val

open Idealize.ShloMosaic Idealize.ShloMosaic.ValueIdx
open Cert.KernelIdeal Cert.KernelIdeal.Gen

variable [Facts]

/-- The third layer's payload at `(p, q)` is the specification's layer of the loaded blocks. The arguments are,
    in order, the input block, `Wa`, `ba`, `Wb`, `bb`, `γ`, `σ²`, `μ`, and then `β`. -/
theorem pay2_apply (v0 : Vec Ideal S5000x64 .f32) (v3 : Vec Ideal S64x64 .bf16) (v6 : Vec Ideal S64 .f32)
    (v14 : Vec Ideal S64x64 .bf16) (v17 v24 v26 v32 v40 : Vec Ideal S64 .f32) (p : Fin 5000) (q : Fin 64) :
    Gen.k2_pay1 (F := Ideal) (Gen.k2_pay2 v0 v3 v6 v14 v17 v24 v26 v32) (Gen.k2_pay3 v40) (ix2 p q)
      = Cert.Spec.layer (fun p l => v0 (ix2 p l)) (fun l k => v3 (ix2 l k)) (fun k => v6 (ix1 k))
          (fun k q => v14 (ix2 k q)) (fun q => v17 (ix1 q)) (fun q => v24 (ix1 q)) (fun q => v40 (ix1 q))
          (fun q => v32 (ix1 q)) (fun q => v26 (ix1 q)) (Ideal.ofBits .f32 0x3727C5AC#32) p q := by
  unfold Gen.k2_pay1 Gen.k2_pay2 Gen.k2_pay3
  simp only [shapeCast_self]
  simp only [addf_apply, mulf_apply, subf_apply, truncf_apply, rowBcast_apply,
    dense_apply dot_S5000x64_S64x64_S5000x64_1_0_0_1_n_n rfl]
  rfl

end Cert.KernelIdeal.Hand.Val

end
-- ==== Proof.KI.ValFinal2.lean ====
/-
  The third layer's output array after its region, as one function of the arrays the region finds.

  The region walks ten grid points; point `t` reads rows `5000·t … 5000·t + 4999` of the aggregated input (all 64
  channels), reads the weights, biases and normalisation vectors whole, and writes back rows `5000·t … 5000·t + 4999`
  of the output (all 64 channels). A layer's value at a row reads that row of the input only, so what point `t` writes
  back is block `t` of one function of the whole arrays: the specification's `layer`. The ten blocks tile the
  `[50000, 64]` output (row `r` lies in block `r / 5000`), hence the array ends holding that function everywhere.
-/
import proofs.«109974_j38371237822822_1_alg».proof.Proof.KI.Reg2
import proofs.«109974_j38371237822822_1_alg».proof.Proof.KI.ValPay2
import proofs.«109974_j38371237822822_1_alg».proof.Proof.KI.ValRows
import Idealize.ShloMosaic.Lib.Pipeline.Value

noncomputable section

open scoped BigOperators

namespace Cert.KernelIdeal.Hand

open Cert.KernelIdeal Cert.KernelIdeal.Gen Cert.KernelIdeal.Hand.Val
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The third layer's output, index by index, from the arrays the region finds: window 0 the aggregated input,
    1 and 3 the weights, 2 and 4 the biases, 5 the scale, 6 the shift, 7 the running mean, 8 the running variance. -/
abbrev G2 (c : Dev nD) : S50000x64.Idx → Ideal .f32 := fun i =>
  Cert.Spec.layer (fun p l => (V c (Pipeline.arrRef spec2 0) : S50000x64.Idx → Ideal .f32) (ix2 p l))
    (fun l k => (V c (Pipeline.arrRef spec2 1) : S64x64.Idx → Ideal .bf16) (ix2 l k))
    (fun k => (V c (Pipeline.arrRef spec2 2) : S64.Idx → Ideal .f32) (ix1 k))
    (fun k q => (V c (Pipeline.arrRef spec2 3) : S64x64.Idx → Ideal .bf16) (ix2 k q))
    (fun q => (V c (Pipeline.arrRef spec2 4) : S64.Idx → Ideal .f32) (ix1 q))
    (fun q => (V c (Pipeline.arrRef spec2 5) : S64.Idx → Ideal .f32) (ix1 q))
    (fun q => (V c (Pipeline.arrRef spec2 6) : S64.Idx → Ideal .f32) (ix1 q))
    (fun q => (V c (Pipeline.arrRef spec2 7) : S64.Idx → Ideal .f32) (ix1 q))
    (fun q => (V c (Pipeline.arrRef spec2 8) : S64.Idx → Ideal .f32) (ix1 q))
    (Ideal.ofBits .f32 0x3727C5AC#32) (i 0) (i 1)

theorem hz2_2 : (![0, 0] : Fin 2 → Nat) = fun _ => 0 := funext fun a => by fin_cases a <;> rfl
theorem hz1_2 : (![0] : Fin 1 → Nat) = fun _ => 0 := funext fun a => by fin_cases a; rfl

/-- The index maps, decided over the ten points: the input's and the output's row block is the point's number and
    their one column block is 0; every other window has the one block 0. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = 0 ∧ win2_3.index t (1 : Fin 2) = 0
    ∧ win2_4.index t (0 : Fin 1) = 0 ∧ win2_5.index t (0 : Fin 1) = 0 ∧ win2_6.index t (0 : Fin 1) = 0
    ∧ win2_7.index t (0 : Fin 1) = 0 ∧ win2_8.index t (0 : Fin 1) = 0
    ∧ win2_9.index t (0 : Fin 2) = t.val ∧ win2_9.index t (1 : Fin 2) = 0 :=
  (by decide +kernel : ∀ t : Fin grid2.N, _)

/-! ## Each input window's block, read off its array -/

/-- Window 0's block at point `t` is rows `5000·t … 5000·t + 4999` of the aggregated input: its row `p` is row `r` of
    the array whenever `r = 5000·t + p`. -/
theorem iblk2_0_apply (c : Dev nD) (t : Fin cfg2.N) (p : Fin 5000) (l : Fin 64) (r : Fin 50000)
    (hr : r.val = t.val * 5000 + p.val) :
    (iblk2 V c 0 t : Vec Ideal S5000x64 .f32) (ix2 p l) = (V c (Pipeline.arrRef spec2 0) : S50000x64.Idx → Ideal .f32) (ix2 r l) := by
  obtain ⟨e00, e01, -⟩ := idx_facts2 t
  unfold iblk2
  rw [View.read_apply]
  show (V c (Pipeline.arrRef spec2 0) : S50000x64.Idx → Ideal .f32) (((cfg2.win 0).blk t).view.emb (ix2 p l)) = _
  refine congrArg _ (funext fun a => Fin.ext ?_)
  match a with
  | ⟨0, _⟩ => show win2_0.index t (0 : Fin 2) * 5000 + 1 * p.val = r.val; omega
  | ⟨1, _⟩ => show win2_0.index t (1 : Fin 2) * 64 + 1 * l.val = l.val; omega

/-- Window 1 (the first weights) has one block, its whole `[64, 64]` array. -/
theorem iblk2_1_apply (c : Dev nD) (t : Fin cfg2.N) (l : Fin 64) (k : Fin 64) :
    (iblk2 V c 1 t : Vec Ideal S64x64 .bf16) (ix2 l k) = (V c (Pipeline.arrRef spec2 1) : S64x64.Idx → Ideal .bf16) (ix2 l k) := by
  obtain ⟨-, -, e10, e11, -, e30, e31, -, -, -, -, -, -, -⟩ := idx_facts2 t
  unfold iblk2
  rw [View.read_apply]
  show (V c (Pipeline.arrRef spec2 1) : S64x64.Idx → Ideal .bf16) (((cfg2.win 1).blk t).view.emb (ix2 l k)) = _
  refine congrArg _ (funext fun a => Fin.ext ?_)
  match a with
  | ⟨0, _⟩ => show win2_1.index t (0 : Fin 2) * 64 + 1 * l.val = l.val; omega
  | ⟨1, _⟩ => show win2_1.index t (1 : Fin 2) * 64 + 1 * k.val = k.val; omega

/-- Window 2 (the first bias) has one block, its whole `[64]` array. -/
theorem iblk2_2_apply (c : Dev nD) (t : Fin cfg2.N) (q : Fin 64) :
    (iblk2 V c 2 t : Vec Ideal S64 .f32) (ix1 q) = (V c (Pipeline.arrRef spec2 2) : S64.Idx → Ideal .f32) (ix1 q) := by
  obtain ⟨-, -, -, -, e2, -, -, e4, e5, e6, e7, e8, -, -⟩ := idx_facts2 t
  unfold iblk2
  rw [View.read_apply]
  show (V c (Pipeline.arrRef spec2 2) : S64.Idx → Ideal .f32) (((cfg2.win 2).blk t).view.emb (ix1 q)) = _
  refine congrArg _ (funext fun a => Fin.ext ?_)
  match a with
  | ⟨0, _⟩ => show win2_2.index t (0 : Fin 1) * 64 + 1 * q.val = q.val; omega

/-- Window 3 (the second weights) has one block, its whole `[64, 64]` array. -/
theorem iblk2_3_apply (c : Dev nD) (t : Fin cfg2.N) (l : Fin 64) (k : Fin 64) :
    (iblk2 V c 3 t : Vec Ideal S64x64 .bf16) (ix2 l k) = (V c (Pipeline.arrRef spec2 3) : S64x64.Idx → Ideal .bf16) (ix2 l k) := by
  obtain ⟨-, -, e10, e11, -, e30, e31, -, -, -, -, -, -, -⟩ := idx_facts2 t
  unfold iblk2
  rw [View.read_apply]
  show (V c (Pipeline.arrRef spec2 3) : S64x64.Idx → Ideal .bf16) (((cfg2.win 3).blk t).view.emb (ix2 l k)) = _
  refine congrArg _ (funext fun a => Fin.ext ?_)
  match a with
  | ⟨0, _⟩ => show win2_3.index t (0 : Fin 2) * 64 + 1 * l.val = l.val; omega
  | ⟨1, _⟩ => show win2_3.index t (1 : Fin 2) * 64 + 1 * k.val = k.val; omega

/-- Window 4 (the second bias) has one block, its whole `[64]` array. -/
theorem iblk2_4_apply (c : Dev nD) (t : Fin cfg2.N) (q : Fin 64) :
    (iblk2 V c 4 t : Vec Ideal S64 .f32) (ix1 q) = (V c (Pipeline.arrRef spec2 4) : S64.Idx → Ideal .f32) (ix1 q) := by
  obtain ⟨-, -, -, -, e2, -, -, e4, e5, e6, e7, e8, -, -⟩ := idx_facts2 t
  unfold iblk2
  rw [View.read_apply]
  show (V c (Pipeline.arrRef spec2 4) : S64.Idx → Ideal .f32) (((cfg2.win 4).blk t).view.emb (ix1 q)) = _
  refine congrArg _ (funext fun a => Fin.ext ?_)
  match a with
  | ⟨0, _⟩ => show win2_4.index t (0 : Fin 1) * 64 + 1 * q.val = q.val; omega

/-- Window 5 (the scale) has one block, its whole `[64]` array. -/
theorem iblk2_5_apply (c : Dev nD) (t : Fin cfg2.N) (q : Fin 64) :
    (iblk2 V c 5 t : Vec Ideal S64 .f32) (ix1 q) = (V c (Pipeline.arrRef spec2 5) : S64.Idx → Ideal .f32) (ix1 q) := by
  obtain ⟨-, -, -, -, e2, -, -, e4, e5, e6, e7, e8, -, -⟩ := idx_facts2 t
  unfold iblk2
  rw [View.read_apply]
  show (V c (Pipeline.arrRef spec2 5) : S64.Idx → Ideal .f32) (((cfg2.win 5).blk t).view.emb (ix1 q)) = _
  refine congrArg _ (funext fun a => Fin.ext ?_)
  match a with
  | ⟨0, _⟩ => show win2_5.index t (0 : Fin 1) * 64 + 1 * q.val = q.val; omega

/-- Window 6 (the shift) has one block, its whole `[64]` array. -/
theorem iblk2_6_apply (c : Dev nD) (t : Fin cfg2.N) (q : Fin 64) :
    (iblk2 V c 6 t : Vec Ideal S64 .f32) (ix1 q) = (V c (Pipeline.arrRef spec2 6) : S64.Idx → Ideal .f32) (ix1 q) := by
  obtain ⟨-, -, -, -, e2, -, -, e4, e5, e6, e7, e8, -, -⟩ := idx_facts2 t
  unfold iblk2
  rw [View.read_apply]
  show (V c (Pipeline.arrRef spec2 6) : S64.Idx → Ideal .f32) (((cfg2.win 6).blk t).view.emb (ix1 q)) = _
  refine congrArg _ (funext fun a => Fin.ext ?_)
  match a with
  | ⟨0, _⟩ => show win2_6.index t (0 : Fin 1) * 64 + 1 * q.val = q.val; omega

/-- Window 7 (the running mean) has one block, its whole `[64]` array. -/
theorem iblk2_7_apply (c : Dev nD) (t : Fin cfg2.N) (q : Fin 64) :
    (iblk2 V c 7 t : Vec Ideal S64 .f32) (ix1 q) = (V c (Pipeline.arrRef spec2 7) : S64.Idx → Ideal .f32) (ix1 q) := by
  obtain ⟨-, -, -, -, e2, -, -, e4, e5, e6, e7, e8, -, -⟩ := idx_facts2 t
  unfold iblk2
  rw [View.read_apply]
  show (V c (Pipeline.arrRef spec2 7) : S64.Idx → Ideal .f32) (((cfg2.win 7).blk t).view.emb (ix1 q)) = _
  refine congrArg _ (funext fun a => Fin.ext ?_)
  match a with
  | ⟨0, _⟩ => show win2_7.index t (0 : Fin 1) * 64 + 1 * q.val = q.val; omega

/-- Window 8 (the running variance) has one block, its whole `[64]` array. -/
theorem iblk2_8_apply (c : Dev nD) (t : Fin cfg2.N) (q : Fin 64) :
    (iblk2 V c 8 t : Vec Ideal S64 .f32) (ix1 q) = (V c (Pipeline.arrRef spec2 8) : S64.Idx → Ideal .f32) (ix1 q) := by
  obtain ⟨-, -, -, -, e2, -, -, e4, e5, e6, e7, e8, -, -⟩ := idx_facts2 t
  unfold iblk2
  rw [View.read_apply]
  show (V c (Pipeline.arrRef spec2 8) : S64.Idx → Ideal .f32) (((cfg2.win 8).blk t).view.emb (ix1 q)) = _
  refine congrArg _ (funext fun a => Fin.ext ?_)
  match a with
  | ⟨0, _⟩ => show win2_8.index t (0 : Fin 1) * 64 + 1 * q.val = q.val; omega

/-! ## What a point writes back, the cover, the array -/

/-- What point `t` writes back is block `t` of `G2`: rows `5000·t … 5000·t + 4999` of the layer of the whole arrays. -/
theorem flushed2_eq (c : Dev nD) (t : Fin cfg2.N) :
    (dat2 V c).flushed 9 t = ((cfg2.win 9).blk t).view.read (Elt Ideal) (G2 V c) := by
  show (cfg2.win 9).cut (grid2.coords t) ((dat2 V c).after 9 t) = _
  rw [after2_9]
  unfold out2_9
  rw [View.canon_unit_zero hz2_2]
  simp only [View.ld_unit_zero (S := S5000x64) hz2_2, View.ld_unit_zero (S := S64x64) hz2_2, View.ld_unit_zero (S := S64) hz1_2]
  obtain ⟨-, -, -, -, -, -, -, -, -, -, -, -, e90, e91⟩ := idx_facts2 t
  refine ext_ix2 (n0 := 5000) (n1 := 64) fun p q => ?_
  show Gen.k2_pay1 (F := Ideal) (Gen.k2_pay2 (iblk2 V c 0 t) (iblk2 V c 1 t) (iblk2 V c 2 t) (iblk2 V c 3 t) (iblk2 V c 4 t)
      (iblk2 V c 5 t) (iblk2 V c 8 t) (iblk2 V c 7 t)) (Gen.k2_pay3 (iblk2 V c 6 t)) (ix2 p q)
    = G2 V c (((cfg2.win 9).blk t).view.emb (ix2 p q))
  refine (pay2_apply (iblk2 V c 0 t) (iblk2 V c 1 t) (iblk2 V c 2 t) (iblk2 V c 3 t) (iblk2 V c 4 t) (iblk2 V c 5 t)
    (iblk2 V c 8 t) (iblk2 V c 7 t) (iblk2 V c 6 t) p q).trans ?_
  have h0 : ((((cfg2.win 9).blk t).view.emb (ix2 p q) : S50000x64.Idx) 0).val = t.val * 5000 + p.val := by
    show win2_9.index t (0 : Fin 2) * 5000 + 1 * p.val = _; omega
  have h1 : (((cfg2.win 9).blk t).view.emb (ix2 p q) : S50000x64.Idx) 1 = q := Fin.ext (by
    show win2_9.index t (1 : Fin 2) * 64 + 1 * q.val = _; omega)
  exact layer_congr _ (fun l => iblk2_0_apply V c t p l _ h0) (iblk2_1_apply V c t) (iblk2_2_apply V c t)
    (iblk2_3_apply V c t) (iblk2_4_apply V c t) (iblk2_5_apply V c t) (iblk2_6_apply V c t) (iblk2_7_apply V c t)
    (iblk2_8_apply V c t) h1.symm

/-- An index of the output is in point `t`'s block iff each coordinate is in the block's range on its axis. -/
theorem mem_blk2 (t : Fin cfg2.N) (i : S50000x64.Idx) :
    i ∈ ((cfg2.win 9).blk t).view.set ↔ ∀ a : Fin 2, win2_9.index t a * S5000x64.size a ≤ (i a).val
      ∧ (i a).val < win2_9.index t a * S5000x64.size a + S5000x64.size a := by
  show i ∈ ((View.whole main_v90).slice (win2_9.rect t)).set ↔ _
  rw [View.set_slice_whole, Rect.mem_set_unit]
  exact Iff.rfl

/-- Every index of the output is in the block of the point its row divided by 5000 names. -/
theorem cover2 (i : S50000x64.Idx) :
    ∃ t : Fin cfg2.N, (cfg2.win 9).flush t = true ∧ i ∈ ((cfg2.win 9).blk t).view.set := by
  have hi0 : (i 0).val < 50000 := (i 0).isLt
  have hi1 : (i 1).val < 64 := (i 1).isLt
  have hN : cfg2.N = 10 := N_2
  obtain ⟨t, ht⟩ : ∃ t : Fin cfg2.N, t.val = (i 0).val / 5000 := ⟨⟨(i 0).val / 5000, by rw [hN]; omega⟩, rfl⟩
  obtain ⟨-, -, -, -, -, -, -, -, -, -, -, -, e90, e91⟩ := idx_facts2 t
  refine ⟨t, flush2_9 t, ?_⟩
  rw [mem_blk2]
  intro a
  match a with
  | ⟨0, _⟩ =>
    show win2_9.index t (0 : Fin 2) * 5000 ≤ (i 0).val ∧ (i 0).val < win2_9.index t (0 : Fin 2) * 5000 + 5000
    omega
  | ⟨1, _⟩ =>
    show win2_9.index t (1 : Fin 2) * 64 ≤ (i 1).val ∧ (i 1).val < win2_9.index t (1 : Fin 2) * 64 + 64
    omega

/-- The output array after the region is `G2`: the layer of the arrays the region finds, index by index. -/
theorem final2 (c : Dev nD) : (dat2 (F := Ideal) V c).arrAt 9 cfg2.N = G2 V c :=
  (dat2 V c).arrAt_eq_of_cover 9 (G2 V c) (fun t _ => flushed2_eq V c t) (cover2)

end Cert.KernelIdeal.Hand

end
-- ==== Proof.KI.ValPay3.lean ====
/-
  The fourth layer's body, entry by entry over the extended reals.

  From its loaded blocks — a block `x` of 5000 rows of the aggregated input with 64 channels, the two weight
  matrices, the two biases, and the normalisation's scale `γ`, variance `σ²`, mean `μ` and shift `β` — the body
  computes at row `p` and channel `q`
      `(relu (relu (x · Wa + ba) · Wb + bb)[p,q] - μ[q]) · (γ[q] · (σ²[q] + ε)^(-1/2)) + β[q]`,
  which is the specification's `layer` at `(p, q)`. The body's value comes in three named pieces: the scaled
  difference, the shift `β` as loaded, and their sum with `β` broadcast over the rows. The narrowing of `x` and of the
  hidden activations to bf16 is the identity on the extended reals, each product into the zero splat is the plain sum
  over the contracted axis, and each `[64]` vector recast to `[1, 64]` and broadcast over the rows reads its entry `q`.
-/
import proofs.«109974_j38371237822822_1_alg».proof.Proof.Gen.KernelIdeal.Skeleton
import proofs.«109974_j38371237822822_1_alg».proof.Proof.KI.ValLib

noncomputable section

open scoped BigOperators

namespace Cert.KernelIdeal.Hand.Val

open Idealize.ShloMosaic Idealize.ShloMosaic.ValueIdx
open Cert.KernelIdeal Cert.KernelIdeal.Gen

variable [Facts]

/-- The fourth layer's payload at `(p, q)` is the specification's layer of the loaded blocks. The arguments are,
    in order, the input block, `Wa`, `ba`, `Wb`, `bb`, `γ`, `σ²`, `μ`, and then `β`. -/
theorem pay3_apply (v0 : Vec Ideal S5000x64 .f32) (v3 : Vec Ideal S64x64 .bf16) (v6 : Vec Ideal S64 .f32)
    (v14 : Vec Ideal S64x64 .bf16) (v17 v24 v26 v32 v40 : Vec Ideal S64 .f32) (p : Fin 5000) (q : Fin 64) :
    Gen.k3_pay1 (F := Ideal) (Gen.k3_pay2 v0 v3 v6 v14 v17 v24 v26 v32) (Gen.k3_pay3 v40) (ix2 p q)
      = Cert.Spec.layer (fun p l => v0 (ix2 p l)) (fun l k => v3 (ix2 l k)) (fun k => v6 (ix1 k))
          (fun k q => v14 (ix2 k q)) (fun q => v17 (ix1 q)) (fun q => v24 (ix1 q)) (fun q => v40 (ix1 q))
          (fun q => v32 (ix1 q)) (fun q => v26 (ix1 q)) (Ideal.ofBits .f32 0x3727C5AC#32) p q := by
  unfold Gen.k3_pay1 Gen.k3_pay2 Gen.k3_pay3
  simp only [shapeCast_self]
  simp only [addf_apply, mulf_apply, subf_apply, truncf_apply, rowBcast_apply,
    dense_apply dot_S5000x64_S64x64_S5000x64_1_0_0_1_n_n rfl]
  rfl

end Cert.KernelIdeal.Hand.Val

end
-- ==== Proof.KI.ValFinal3.lean ====
/-
  The fourth layer's output array after its region, as one function of the arrays the region finds.

  The region walks ten grid points; point `t` reads rows `5000·t … 5000·t + 4999` of the aggregated input (all 64
  channels), reads the weights, biases and normalisation vectors whole, and writes back rows `5000·t … 5000·t + 4999`
  of the output (all 64 channels). A layer's value at a row reads that row of the input only, so what point `t` writes
  back is block `t` of one function of the whole arrays: the specification's `layer`. The ten blocks tile the
  `[50000, 64]` output (row `r` lies in block `r / 5000`), hence the array ends holding that function everywhere.
-/
import proofs.«109974_j38371237822822_1_alg».proof.Proof.KI.Reg3
import proofs.«109974_j38371237822822_1_alg».proof.Proof.KI.ValPay3
import proofs.«109974_j38371237822822_1_alg».proof.Proof.KI.ValRows
import Idealize.ShloMosaic.Lib.Pipeline.Value

noncomputable section

open scoped BigOperators

namespace Cert.KernelIdeal.Hand

open Cert.KernelIdeal Cert.KernelIdeal.Gen Cert.KernelIdeal.Hand.Val
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The fourth layer's output, index by index, from the arrays the region finds: window 0 the aggregated input,
    1 and 3 the weights, 2 and 4 the biases, 5 the scale, 6 the shift, 7 the running mean, 8 the running variance. -/
abbrev G3 (c : Dev nD) : S50000x64.Idx → Ideal .f32 := fun i =>
  Cert.Spec.layer (fun p l => (V c (Pipeline.arrRef spec3 0) : S50000x64.Idx → Ideal .f32) (ix2 p l))
    (fun l k => (V c (Pipeline.arrRef spec3 1) : S64x64.Idx → Ideal .bf16) (ix2 l k))
    (fun k => (V c (Pipeline.arrRef spec3 2) : S64.Idx → Ideal .f32) (ix1 k))
    (fun k q => (V c (Pipeline.arrRef spec3 3) : S64x64.Idx → Ideal .bf16) (ix2 k q))
    (fun q => (V c (Pipeline.arrRef spec3 4) : S64.Idx → Ideal .f32) (ix1 q))
    (fun q => (V c (Pipeline.arrRef spec3 5) : S64.Idx → Ideal .f32) (ix1 q))
    (fun q => (V c (Pipeline.arrRef spec3 6) : S64.Idx → Ideal .f32) (ix1 q))
    (fun q => (V c (Pipeline.arrRef spec3 7) : S64.Idx → Ideal .f32) (ix1 q))
    (fun q => (V c (Pipeline.arrRef spec3 8) : S64.Idx → Ideal .f32) (ix1 q))
    (Ideal.ofBits .f32 0x3727C5AC#32) (i 0) (i 1)

theorem hz2_3 : (![0, 0] : Fin 2 → Nat) = fun _ => 0 := funext fun a => by fin_cases a <;> rfl
theorem hz1_3 : (![0] : Fin 1 → Nat) = fun _ => 0 := funext fun a => by fin_cases a; rfl

/-- The index maps, decided over the ten points: the input's and the output's row block is the point's number and
    their one column block is 0; every other window has the one block 0. -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 1) = 0
    ∧ win3_3.index t (0 : Fin 2) = 0 ∧ win3_3.index t (1 : Fin 2) = 0
    ∧ win3_4.index t (0 : Fin 1) = 0 ∧ win3_5.index t (0 : Fin 1) = 0 ∧ win3_6.index t (0 : Fin 1) = 0
    ∧ win3_7.index t (0 : Fin 1) = 0 ∧ win3_8.index t (0 : Fin 1) = 0
    ∧ win3_9.index t (0 : Fin 2) = t.val ∧ win3_9.index t (1 : Fin 2) = 0 :=
  (by decide +kernel : ∀ t : Fin grid3.N, _)

/-! ## Each input window's block, read off its array -/

/-- Window 0's block at point `t` is rows `5000·t … 5000·t + 4999` of the aggregated input: its row `p` is row `r` of
    the array whenever `r = 5000·t + p`. -/
theorem iblk3_0_apply (c : Dev nD) (t : Fin cfg3.N) (p : Fin 5000) (l : Fin 64) (r : Fin 50000)
    (hr : r.val = t.val * 5000 + p.val) :
    (iblk3 V c 0 t : Vec Ideal S5000x64 .f32) (ix2 p l) = (V c (Pipeline.arrRef spec3 0) : S50000x64.Idx → Ideal .f32) (ix2 r l) := by
  obtain ⟨e00, e01, -⟩ := idx_facts3 t
  unfold iblk3
  rw [View.read_apply]
  show (V c (Pipeline.arrRef spec3 0) : S50000x64.Idx → Ideal .f32) (((cfg3.win 0).blk t).view.emb (ix2 p l)) = _
  refine congrArg _ (funext fun a => Fin.ext ?_)
  match a with
  | ⟨0, _⟩ => show win3_0.index t (0 : Fin 2) * 5000 + 1 * p.val = r.val; omega
  | ⟨1, _⟩ => show win3_0.index t (1 : Fin 2) * 64 + 1 * l.val = l.val; omega

/-- Window 1 (the first weights) has one block, its whole `[64, 64]` array. -/
theorem iblk3_1_apply (c : Dev nD) (t : Fin cfg3.N) (l : Fin 64) (k : Fin 64) :
    (iblk3 V c 1 t : Vec Ideal S64x64 .bf16) (ix2 l k) = (V c (Pipeline.arrRef spec3 1) : S64x64.Idx → Ideal .bf16) (ix2 l k) := by
  obtain ⟨-, -, e10, e11, -, e30, e31, -, -, -, -, -, -, -⟩ := idx_facts3 t
  unfold iblk3
  rw [View.read_apply]
  show (V c (Pipeline.arrRef spec3 1) : S64x64.Idx → Ideal .bf16) (((cfg3.win 1).blk t).view.emb (ix2 l k)) = _
  refine congrArg _ (funext fun a => Fin.ext ?_)
  match a with
  | ⟨0, _⟩ => show win3_1.index t (0 : Fin 2) * 64 + 1 * l.val = l.val; omega
  | ⟨1, _⟩ => show win3_1.index t (1 : Fin 2) * 64 + 1 * k.val = k.val; omega

/-- Window 2 (the first bias) has one block, its whole `[64]` array. -/
theorem iblk3_2_apply (c : Dev nD) (t : Fin cfg3.N) (q : Fin 64) :
    (iblk3 V c 2 t : Vec Ideal S64 .f32) (ix1 q) = (V c (Pipeline.arrRef spec3 2) : S64.Idx → Ideal .f32) (ix1 q) := by
  obtain ⟨-, -, -, -, e2, -, -, e4, e5, e6, e7, e8, -, -⟩ := idx_facts3 t
  unfold iblk3
  rw [View.read_apply]
  show (V c (Pipeline.arrRef spec3 2) : S64.Idx → Ideal .f32) (((cfg3.win 2).blk t).view.emb (ix1 q)) = _
  refine congrArg _ (funext fun a => Fin.ext ?_)
  match a with
  | ⟨0, _⟩ => show win3_2.index t (0 : Fin 1) * 64 + 1 * q.val = q.val; omega

/-- Window 3 (the second weights) has one block, its whole `[64, 64]` array. -/
theorem iblk3_3_apply (c : Dev nD) (t : Fin cfg3.N) (l : Fin 64) (k : Fin 64) :
    (iblk3 V c 3 t : Vec Ideal S64x64 .bf16) (ix2 l k) = (V c (Pipeline.arrRef spec3 3) : S64x64.Idx → Ideal .bf16) (ix2 l k) := by
  obtain ⟨-, -, e10, e11, -, e30, e31, -, -, -, -, -, -, -⟩ := idx_facts3 t
  unfold iblk3
  rw [View.read_apply]
  show (V c (Pipeline.arrRef spec3 3) : S64x64.Idx → Ideal .bf16) (((cfg3.win 3).blk t).view.emb (ix2 l k)) = _
  refine congrArg _ (funext fun a => Fin.ext ?_)
  match a with
  | ⟨0, _⟩ => show win3_3.index t (0 : Fin 2) * 64 + 1 * l.val = l.val; omega
  | ⟨1, _⟩ => show win3_3.index t (1 : Fin 2) * 64 + 1 * k.val = k.val; omega

/-- Window 4 (the second bias) has one block, its whole `[64]` array. -/
theorem iblk3_4_apply (c : Dev nD) (t : Fin cfg3.N) (q : Fin 64) :
    (iblk3 V c 4 t : Vec Ideal S64 .f32) (ix1 q) = (V c (Pipeline.arrRef spec3 4) : S64.Idx → Ideal .f32) (ix1 q) := by
  obtain ⟨-, -, -, -, e2, -, -, e4, e5, e6, e7, e8, -, -⟩ := idx_facts3 t
  unfold iblk3
  rw [View.read_apply]
  show (V c (Pipeline.arrRef spec3 4) : S64.Idx → Ideal .f32) (((cfg3.win 4).blk t).view.emb (ix1 q)) = _
  refine congrArg _ (funext fun a => Fin.ext ?_)
  match a with
  | ⟨0, _⟩ => show win3_4.index t (0 : Fin 1) * 64 + 1 * q.val = q.val; omega

/-- Window 5 (the scale) has one block, its whole `[64]` array. -/
theorem iblk3_5_apply (c : Dev nD) (t : Fin cfg3.N) (q : Fin 64) :
    (iblk3 V c 5 t : Vec Ideal S64 .f32) (ix1 q) = (V c (Pipeline.arrRef spec3 5) : S64.Idx → Ideal .f32) (ix1 q) := by
  obtain ⟨-, -, -, -, e2, -, -, e4, e5, e6, e7, e8, -, -⟩ := idx_facts3 t
  unfold iblk3
  rw [View.read_apply]
  show (V c (Pipeline.arrRef spec3 5) : S64.Idx → Ideal .f32) (((cfg3.win 5).blk t).view.emb (ix1 q)) = _
  refine congrArg _ (funext fun a => Fin.ext ?_)
  match a with
  | ⟨0, _⟩ => show win3_5.index t (0 : Fin 1) * 64 + 1 * q.val = q.val; omega

/-- Window 6 (the shift) has one block, its whole `[64]` array. -/
theorem iblk3_6_apply (c : Dev nD) (t : Fin cfg3.N) (q : Fin 64) :
    (iblk3 V c 6 t : Vec Ideal S64 .f32) (ix1 q) = (V c (Pipeline.arrRef spec3 6) : S64.Idx → Ideal .f32) (ix1 q) := by
  obtain ⟨-, -, -, -, e2, -, -, e4, e5, e6, e7, e8, -, -⟩ := idx_facts3 t
  unfold iblk3
  rw [View.read_apply]
  show (V c (Pipeline.arrRef spec3 6) : S64.Idx → Ideal .f32) (((cfg3.win 6).blk t).view.emb (ix1 q)) = _
  refine congrArg _ (funext fun a => Fin.ext ?_)
  match a with
  | ⟨0, _⟩ => show win3_6.index t (0 : Fin 1) * 64 + 1 * q.val = q.val; omega

/-- Window 7 (the running mean) has one block, its whole `[64]` array. -/
theorem iblk3_7_apply (c : Dev nD) (t : Fin cfg3.N) (q : Fin 64) :
    (iblk3 V c 7 t : Vec Ideal S64 .f32) (ix1 q) = (V c (Pipeline.arrRef spec3 7) : S64.Idx → Ideal .f32) (ix1 q) := by
  obtain ⟨-, -, -, -, e2, -, -, e4, e5, e6, e7, e8, -, -⟩ := idx_facts3 t
  unfold iblk3
  rw [View.read_apply]
  show (V c (Pipeline.arrRef spec3 7) : S64.Idx → Ideal .f32) (((cfg3.win 7).blk t).view.emb (ix1 q)) = _
  refine congrArg _ (funext fun a => Fin.ext ?_)
  match a with
  | ⟨0, _⟩ => show win3_7.index t (0 : Fin 1) * 64 + 1 * q.val = q.val; omega

/-- Window 8 (the running variance) has one block, its whole `[64]` array. -/
theorem iblk3_8_apply (c : Dev nD) (t : Fin cfg3.N) (q : Fin 64) :
    (iblk3 V c 8 t : Vec Ideal S64 .f32) (ix1 q) = (V c (Pipeline.arrRef spec3 8) : S64.Idx → Ideal .f32) (ix1 q) := by
  obtain ⟨-, -, -, -, e2, -, -, e4, e5, e6, e7, e8, -, -⟩ := idx_facts3 t
  unfold iblk3
  rw [View.read_apply]
  show (V c (Pipeline.arrRef spec3 8) : S64.Idx → Ideal .f32) (((cfg3.win 8).blk t).view.emb (ix1 q)) = _
  refine congrArg _ (funext fun a => Fin.ext ?_)
  match a with
  | ⟨0, _⟩ => show win3_8.index t (0 : Fin 1) * 64 + 1 * q.val = q.val; omega

/-! ## What a point writes back, the cover, the array -/

/-- What point `t` writes back is block `t` of `G3`: rows `5000·t … 5000·t + 4999` of the layer of the whole arrays. -/
theorem flushed3_eq (c : Dev nD) (t : Fin cfg3.N) :
    (dat3 V c).flushed 9 t = ((cfg3.win 9).blk t).view.read (Elt Ideal) (G3 V c) := by
  show (cfg3.win 9).cut (grid3.coords t) ((dat3 V c).after 9 t) = _
  rw [after3_9]
  unfold out3_9
  rw [View.canon_unit_zero hz2_3]
  simp only [View.ld_unit_zero (S := S5000x64) hz2_3, View.ld_unit_zero (S := S64x64) hz2_3, View.ld_unit_zero (S := S64) hz1_3]
  obtain ⟨-, -, -, -, -, -, -, -, -, -, -, -, e90, e91⟩ := idx_facts3 t
  refine ext_ix2 (n0 := 5000) (n1 := 64) fun p q => ?_
  show Gen.k3_pay1 (F := Ideal) (Gen.k3_pay2 (iblk3 V c 0 t) (iblk3 V c 1 t) (iblk3 V c 2 t) (iblk3 V c 3 t) (iblk3 V c 4 t)
      (iblk3 V c 5 t) (iblk3 V c 8 t) (iblk3 V c 7 t)) (Gen.k3_pay3 (iblk3 V c 6 t)) (ix2 p q)
    = G3 V c (((cfg3.win 9).blk t).view.emb (ix2 p q))
  refine (pay3_apply (iblk3 V c 0 t) (iblk3 V c 1 t) (iblk3 V c 2 t) (iblk3 V c 3 t) (iblk3 V c 4 t) (iblk3 V c 5 t)
    (iblk3 V c 8 t) (iblk3 V c 7 t) (iblk3 V c 6 t) p q).trans ?_
  have h0 : ((((cfg3.win 9).blk t).view.emb (ix2 p q) : S50000x64.Idx) 0).val = t.val * 5000 + p.val := by
    show win3_9.index t (0 : Fin 2) * 5000 + 1 * p.val = _; omega
  have h1 : (((cfg3.win 9).blk t).view.emb (ix2 p q) : S50000x64.Idx) 1 = q := Fin.ext (by
    show win3_9.index t (1 : Fin 2) * 64 + 1 * q.val = _; omega)
  exact layer_congr _ (fun l => iblk3_0_apply V c t p l _ h0) (iblk3_1_apply V c t) (iblk3_2_apply V c t)
    (iblk3_3_apply V c t) (iblk3_4_apply V c t) (iblk3_5_apply V c t) (iblk3_6_apply V c t) (iblk3_7_apply V c t)
    (iblk3_8_apply V c t) h1.symm

/-- An index of the output is in point `t`'s block iff each coordinate is in the block's range on its axis. -/
theorem mem_blk3 (t : Fin cfg3.N) (i : S50000x64.Idx) :
    i ∈ ((cfg3.win 9).blk t).view.set ↔ ∀ a : Fin 2, win3_9.index t a * S5000x64.size a ≤ (i a).val
      ∧ (i a).val < win3_9.index t a * S5000x64.size a + S5000x64.size a := by
  show i ∈ ((View.whole main_v125).slice (win3_9.rect t)).set ↔ _
  rw [View.set_slice_whole, Rect.mem_set_unit]
  exact Iff.rfl

/-- Every index of the output is in the block of the point its row divided by 5000 names. -/
theorem cover3 (i : S50000x64.Idx) :
    ∃ t : Fin cfg3.N, (cfg3.win 9).flush t = true ∧ i ∈ ((cfg3.win 9).blk t).view.set := by
  have hi0 : (i 0).val < 50000 := (i 0).isLt
  have hi1 : (i 1).val < 64 := (i 1).isLt
  have hN : cfg3.N = 10 := N_3
  obtain ⟨t, ht⟩ : ∃ t : Fin cfg3.N, t.val = (i 0).val / 5000 := ⟨⟨(i 0).val / 5000, by rw [hN]; omega⟩, rfl⟩
  obtain ⟨-, -, -, -, -, -, -, -, -, -, -, -, e90, e91⟩ := idx_facts3 t
  refine ⟨t, flush3_9 t, ?_⟩
  rw [mem_blk3]
  intro a
  match a with
  | ⟨0, _⟩ =>
    show win3_9.index t (0 : Fin 2) * 5000 ≤ (i 0).val ∧ (i 0).val < win3_9.index t (0 : Fin 2) * 5000 + 5000
    omega
  | ⟨1, _⟩ =>
    show win3_9.index t (1 : Fin 2) * 64 ≤ (i 1).val ∧ (i 1).val < win3_9.index t (1 : Fin 2) * 64 + 64
    omega

/-- The output array after the region is `G3`: the layer of the arrays the region finds, index by index. -/
theorem final3 (c : Dev nD) : (dat3 (F := Ideal) V c).arrAt 9 cfg3.N = G3 V c :=
  (dat3 V c).arrAt_eq_of_cover 9 (G3 V c) (fun t _ => flushed3_eq V c t) (cover3)

end Cert.KernelIdeal.Hand

end
-- ==== Proof.KI.ValPay4.lean ====
/-
  The fifth layer's body, entry by entry over the extended reals.

  From its loaded blocks — a block `x` of 5000 rows of the aggregated input with 64 channels, the two weight
  matrices, the two biases, and the normalisation's scale `γ`, variance `σ²`, mean `μ` and shift `β` — the body
  computes at row `p` and channel `q`
      `(relu (relu (x · Wa + ba) · Wb + bb)[p,q] - μ[q]) · (γ[q] · (σ²[q] + ε)^(-1/2)) + β[q]`,
  which is the specification's `layer` at `(p, q)`. The body's value comes in three named pieces: the scaled
  difference, the shift `β` as loaded, and their sum with `β` broadcast over the rows. The narrowing of `x` and of the
  hidden activations to bf16 is the identity on the extended reals, each product into the zero splat is the plain sum
  over the contracted axis, and each `[64]` vector recast to `[1, 64]` and broadcast over the rows reads its entry `q`.
-/
import proofs.«109974_j38371237822822_1_alg».proof.Proof.Gen.KernelIdeal.Skeleton
import proofs.«109974_j38371237822822_1_alg».proof.Proof.KI.ValLib

noncomputable section

open scoped BigOperators

namespace Cert.KernelIdeal.Hand.Val

open Idealize.ShloMosaic Idealize.ShloMosaic.ValueIdx
open Cert.KernelIdeal Cert.KernelIdeal.Gen

variable [Facts]

/-- The fifth layer's payload at `(p, q)` is the specification's layer of the loaded blocks. The arguments are,
    in order, the input block, `Wa`, `ba`, `Wb`, `bb`, `γ`, `σ²`, `μ`, and then `β`. -/
theorem pay4_apply (v0 : Vec Ideal S5000x64 .f32) (v3 : Vec Ideal S64x64 .bf16) (v6 : Vec Ideal S64 .f32)
    (v14 : Vec Ideal S64x64 .bf16) (v17 v24 v26 v32 v40 : Vec Ideal S64 .f32) (p : Fin 5000) (q : Fin 64) :
    Gen.k4_pay1 (F := Ideal) (Gen.k4_pay2 v0 v3 v6 v14 v17 v24 v26 v32) (Gen.k4_pay3 v40) (ix2 p q)
      = Cert.Spec.layer (fun p l => v0 (ix2 p l)) (fun l k => v3 (ix2 l k)) (fun k => v6 (ix1 k))
          (fun k q => v14 (ix2 k q)) (fun q => v17 (ix1 q)) (fun q => v24 (ix1 q)) (fun q => v40 (ix1 q))
          (fun q => v32 (ix1 q)) (fun q => v26 (ix1 q)) (Ideal.ofBits .f32 0x3727C5AC#32) p q := by
  unfold Gen.k4_pay1 Gen.k4_pay2 Gen.k4_pay3
  simp only [shapeCast_self]
  simp only [addf_apply, mulf_apply, subf_apply, truncf_apply, rowBcast_apply,
    dense_apply dot_S5000x64_S64x64_S5000x64_1_0_0_1_n_n rfl]
  rfl

end Cert.KernelIdeal.Hand.Val

end
-- ==== Proof.KI.ValFinal4.lean ====
/-
  The fifth layer's output array after its region, as one function of the arrays the region finds.

  The region walks ten grid points; point `t` reads rows `5000·t … 5000·t + 4999` of the aggregated input (all 64
  channels), reads the weights, biases and normalisation vectors whole, and writes back rows `5000·t … 5000·t + 4999`
  of the output (all 64 channels). A layer's value at a row reads that row of the input only, so what point `t` writes
  back is block `t` of one function of the whole arrays: the specification's `layer`. The ten blocks tile the
  `[50000, 64]` output (row `r` lies in block `r / 5000`), hence the array ends holding that function everywhere.
-/
import proofs.«109974_j38371237822822_1_alg».proof.Proof.KI.Reg4
import proofs.«109974_j38371237822822_1_alg».proof.Proof.KI.ValPay4
import proofs.«109974_j38371237822822_1_alg».proof.Proof.KI.ValRows
import Idealize.ShloMosaic.Lib.Pipeline.Value

noncomputable section

open scoped BigOperators

namespace Cert.KernelIdeal.Hand

open Cert.KernelIdeal Cert.KernelIdeal.Gen Cert.KernelIdeal.Hand.Val
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The fifth layer's output, index by index, from the arrays the region finds: window 0 the aggregated input,
    1 and 3 the weights, 2 and 4 the biases, 5 the scale, 6 the shift, 7 the running mean, 8 the running variance. -/
abbrev G4 (c : Dev nD) : S50000x64.Idx → Ideal .f32 := fun i =>
  Cert.Spec.layer (fun p l => (V c (Pipeline.arrRef spec4 0) : S50000x64.Idx → Ideal .f32) (ix2 p l))
    (fun l k => (V c (Pipeline.arrRef spec4 1) : S64x64.Idx → Ideal .bf16) (ix2 l k))
    (fun k => (V c (Pipeline.arrRef spec4 2) : S64.Idx → Ideal .f32) (ix1 k))
    (fun k q => (V c (Pipeline.arrRef spec4 3) : S64x64.Idx → Ideal .bf16) (ix2 k q))
    (fun q => (V c (Pipeline.arrRef spec4 4) : S64.Idx → Ideal .f32) (ix1 q))
    (fun q => (V c (Pipeline.arrRef spec4 5) : S64.Idx → Ideal .f32) (ix1 q))
    (fun q => (V c (Pipeline.arrRef spec4 6) : S64.Idx → Ideal .f32) (ix1 q))
    (fun q => (V c (Pipeline.arrRef spec4 7) : S64.Idx → Ideal .f32) (ix1 q))
    (fun q => (V c (Pipeline.arrRef spec4 8) : S64.Idx → Ideal .f32) (ix1 q))
    (Ideal.ofBits .f32 0x3727C5AC#32) (i 0) (i 1)

theorem hz2_4 : (![0, 0] : Fin 2 → Nat) = fun _ => 0 := funext fun a => by fin_cases a <;> rfl
theorem hz1_4 : (![0] : Fin 1 → Nat) = fun _ => 0 := funext fun a => by fin_cases a; rfl

/-- The index maps, decided over the ten points: the input's and the output's row block is the point's number and
    their one column block is 0; every other window has the one block 0. -/
theorem idx_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 1) = 0
    ∧ win4_3.index t (0 : Fin 2) = 0 ∧ win4_3.index t (1 : Fin 2) = 0
    ∧ win4_4.index t (0 : Fin 1) = 0 ∧ win4_5.index t (0 : Fin 1) = 0 ∧ win4_6.index t (0 : Fin 1) = 0
    ∧ win4_7.index t (0 : Fin 1) = 0 ∧ win4_8.index t (0 : Fin 1) = 0
    ∧ win4_9.index t (0 : Fin 2) = t.val ∧ win4_9.index t (1 : Fin 2) = 0 :=
  (by decide +kernel : ∀ t : Fin grid4.N, _)

/-! ## Each input window's block, read off its array -/

/-- Window 0's block at point `t` is rows `5000·t … 5000·t + 4999` of the aggregated input: its row `p` is row `r` of
    the array whenever `r = 5000·t + p`. -/
theorem iblk4_0_apply (c : Dev nD) (t : Fin cfg4.N) (p : Fin 5000) (l : Fin 64) (r : Fin 50000)
    (hr : r.val = t.val * 5000 + p.val) :
    (iblk4 V c 0 t : Vec Ideal S5000x64 .f32) (ix2 p l) = (V c (Pipeline.arrRef spec4 0) : S50000x64.Idx → Ideal .f32) (ix2 r l) := by
  obtain ⟨e00, e01, -⟩ := idx_facts4 t
  unfold iblk4
  rw [View.read_apply]
  show (V c (Pipeline.arrRef spec4 0) : S50000x64.Idx → Ideal .f32) (((cfg4.win 0).blk t).view.emb (ix2 p l)) = _
  refine congrArg _ (funext fun a => Fin.ext ?_)
  match a with
  | ⟨0, _⟩ => show win4_0.index t (0 : Fin 2) * 5000 + 1 * p.val = r.val; omega
  | ⟨1, _⟩ => show win4_0.index t (1 : Fin 2) * 64 + 1 * l.val = l.val; omega

/-- Window 1 (the first weights) has one block, its whole `[64, 64]` array. -/
theorem iblk4_1_apply (c : Dev nD) (t : Fin cfg4.N) (l : Fin 64) (k : Fin 64) :
    (iblk4 V c 1 t : Vec Ideal S64x64 .bf16) (ix2 l k) = (V c (Pipeline.arrRef spec4 1) : S64x64.Idx → Ideal .bf16) (ix2 l k) := by
  obtain ⟨-, -, e10, e11, -, e30, e31, -, -, -, -, -, -, -⟩ := idx_facts4 t
  unfold iblk4
  rw [View.read_apply]
  show (V c (Pipeline.arrRef spec4 1) : S64x64.Idx → Ideal .bf16) (((cfg4.win 1).blk t).view.emb (ix2 l k)) = _
  refine congrArg _ (funext fun a => Fin.ext ?_)
  match a with
  | ⟨0, _⟩ => show win4_1.index t (0 : Fin 2) * 64 + 1 * l.val = l.val; omega
  | ⟨1, _⟩ => show win4_1.index t (1 : Fin 2) * 64 + 1 * k.val = k.val; omega

/-- Window 2 (the first bias) has one block, its whole `[64]` array. -/
theorem iblk4_2_apply (c : Dev nD) (t : Fin cfg4.N) (q : Fin 64) :
    (iblk4 V c 2 t : Vec Ideal S64 .f32) (ix1 q) = (V c (Pipeline.arrRef spec4 2) : S64.Idx → Ideal .f32) (ix1 q) := by
  obtain ⟨-, -, -, -, e2, -, -, e4, e5, e6, e7, e8, -, -⟩ := idx_facts4 t
  unfold iblk4
  rw [View.read_apply]
  show (V c (Pipeline.arrRef spec4 2) : S64.Idx → Ideal .f32) (((cfg4.win 2).blk t).view.emb (ix1 q)) = _
  refine congrArg _ (funext fun a => Fin.ext ?_)
  match a with
  | ⟨0, _⟩ => show win4_2.index t (0 : Fin 1) * 64 + 1 * q.val = q.val; omega

/-- Window 3 (the second weights) has one block, its whole `[64, 64]` array. -/
theorem iblk4_3_apply (c : Dev nD) (t : Fin cfg4.N) (l : Fin 64) (k : Fin 64) :
    (iblk4 V c 3 t : Vec Ideal S64x64 .bf16) (ix2 l k) = (V c (Pipeline.arrRef spec4 3) : S64x64.Idx → Ideal .bf16) (ix2 l k) := by
  obtain ⟨-, -, e10, e11, -, e30, e31, -, -, -, -, -, -, -⟩ := idx_facts4 t
  unfold iblk4
  rw [View.read_apply]
  show (V c (Pipeline.arrRef spec4 3) : S64x64.Idx → Ideal .bf16) (((cfg4.win 3).blk t).view.emb (ix2 l k)) = _
  refine congrArg _ (funext fun a => Fin.ext ?_)
  match a with
  | ⟨0, _⟩ => show win4_3.index t (0 : Fin 2) * 64 + 1 * l.val = l.val; omega
  | ⟨1, _⟩ => show win4_3.index t (1 : Fin 2) * 64 + 1 * k.val = k.val; omega

/-- Window 4 (the second bias) has one block, its whole `[64]` array. -/
theorem iblk4_4_apply (c : Dev nD) (t : Fin cfg4.N) (q : Fin 64) :
    (iblk4 V c 4 t : Vec Ideal S64 .f32) (ix1 q) = (V c (Pipeline.arrRef spec4 4) : S64.Idx → Ideal .f32) (ix1 q) := by
  obtain ⟨-, -, -, -, e2, -, -, e4, e5, e6, e7, e8, -, -⟩ := idx_facts4 t
  unfold iblk4
  rw [View.read_apply]
  show (V c (Pipeline.arrRef spec4 4) : S64.Idx → Ideal .f32) (((cfg4.win 4).blk t).view.emb (ix1 q)) = _
  refine congrArg _ (funext fun a => Fin.ext ?_)
  match a with
  | ⟨0, _⟩ => show win4_4.index t (0 : Fin 1) * 64 + 1 * q.val = q.val; omega

/-- Window 5 (the scale) has one block, its whole `[64]` array. -/
theorem iblk4_5_apply (c : Dev nD) (t : Fin cfg4.N) (q : Fin 64) :
    (iblk4 V c 5 t : Vec Ideal S64 .f32) (ix1 q) = (V c (Pipeline.arrRef spec4 5) : S64.Idx → Ideal .f32) (ix1 q) := by
  obtain ⟨-, -, -, -, e2, -, -, e4, e5, e6, e7, e8, -, -⟩ := idx_facts4 t
  unfold iblk4
  rw [View.read_apply]
  show (V c (Pipeline.arrRef spec4 5) : S64.Idx → Ideal .f32) (((cfg4.win 5).blk t).view.emb (ix1 q)) = _
  refine congrArg _ (funext fun a => Fin.ext ?_)
  match a with
  | ⟨0, _⟩ => show win4_5.index t (0 : Fin 1) * 64 + 1 * q.val = q.val; omega

/-- Window 6 (the shift) has one block, its whole `[64]` array. -/
theorem iblk4_6_apply (c : Dev nD) (t : Fin cfg4.N) (q : Fin 64) :
    (iblk4 V c 6 t : Vec Ideal S64 .f32) (ix1 q) = (V c (Pipeline.arrRef spec4 6) : S64.Idx → Ideal .f32) (ix1 q) := by
  obtain ⟨-, -, -, -, e2, -, -, e4, e5, e6, e7, e8, -, -⟩ := idx_facts4 t
  unfold iblk4
  rw [View.read_apply]
  show (V c (Pipeline.arrRef spec4 6) : S64.Idx → Ideal .f32) (((cfg4.win 6).blk t).view.emb (ix1 q)) = _
  refine congrArg _ (funext fun a => Fin.ext ?_)
  match a with
  | ⟨0, _⟩ => show win4_6.index t (0 : Fin 1) * 64 + 1 * q.val = q.val; omega

/-- Window 7 (the running mean) has one block, its whole `[64]` array. -/
theorem iblk4_7_apply (c : Dev nD) (t : Fin cfg4.N) (q : Fin 64) :
    (iblk4 V c 7 t : Vec Ideal S64 .f32) (ix1 q) = (V c (Pipeline.arrRef spec4 7) : S64.Idx → Ideal .f32) (ix1 q) := by
  obtain ⟨-, -, -, -, e2, -, -, e4, e5, e6, e7, e8, -, -⟩ := idx_facts4 t
  unfold iblk4
  rw [View.read_apply]
  show (V c (Pipeline.arrRef spec4 7) : S64.Idx → Ideal .f32) (((cfg4.win 7).blk t).view.emb (ix1 q)) = _
  refine congrArg _ (funext fun a => Fin.ext ?_)
  match a with
  | ⟨0, _⟩ => show win4_7.index t (0 : Fin 1) * 64 + 1 * q.val = q.val; omega

/-- Window 8 (the running variance) has one block, its whole `[64]` array. -/
theorem iblk4_8_apply (c : Dev nD) (t : Fin cfg4.N) (q : Fin 64) :
    (iblk4 V c 8 t : Vec Ideal S64 .f32) (ix1 q) = (V c (Pipeline.arrRef spec4 8) : S64.Idx → Ideal .f32) (ix1 q) := by
  obtain ⟨-, -, -, -, e2, -, -, e4, e5, e6, e7, e8, -, -⟩ := idx_facts4 t
  unfold iblk4
  rw [View.read_apply]
  show (V c (Pipeline.arrRef spec4 8) : S64.Idx → Ideal .f32) (((cfg4.win 8).blk t).view.emb (ix1 q)) = _
  refine congrArg _ (funext fun a => Fin.ext ?_)
  match a with
  | ⟨0, _⟩ => show win4_8.index t (0 : Fin 1) * 64 + 1 * q.val = q.val; omega

/-! ## What a point writes back, the cover, the array -/

/-- What point `t` writes back is block `t` of `G4`: rows `5000·t … 5000·t + 4999` of the layer of the whole arrays. -/
theorem flushed4_eq (c : Dev nD) (t : Fin cfg4.N) :
    (dat4 V c).flushed 9 t = ((cfg4.win 9).blk t).view.read (Elt Ideal) (G4 V c) := by
  show (cfg4.win 9).cut (grid4.coords t) ((dat4 V c).after 9 t) = _
  rw [after4_9]
  unfold out4_9
  rw [View.canon_unit_zero hz2_4]
  simp only [View.ld_unit_zero (S := S5000x64) hz2_4, View.ld_unit_zero (S := S64x64) hz2_4, View.ld_unit_zero (S := S64) hz1_4]
  obtain ⟨-, -, -, -, -, -, -, -, -, -, -, -, e90, e91⟩ := idx_facts4 t
  refine ext_ix2 (n0 := 5000) (n1 := 64) fun p q => ?_
  show Gen.k4_pay1 (F := Ideal) (Gen.k4_pay2 (iblk4 V c 0 t) (iblk4 V c 1 t) (iblk4 V c 2 t) (iblk4 V c 3 t) (iblk4 V c 4 t)
      (iblk4 V c 5 t) (iblk4 V c 8 t) (iblk4 V c 7 t)) (Gen.k4_pay3 (iblk4 V c 6 t)) (ix2 p q)
    = G4 V c (((cfg4.win 9).blk t).view.emb (ix2 p q))
  refine (pay4_apply (iblk4 V c 0 t) (iblk4 V c 1 t) (iblk4 V c 2 t) (iblk4 V c 3 t) (iblk4 V c 4 t) (iblk4 V c 5 t)
    (iblk4 V c 8 t) (iblk4 V c 7 t) (iblk4 V c 6 t) p q).trans ?_
  have h0 : ((((cfg4.win 9).blk t).view.emb (ix2 p q) : S50000x64.Idx) 0).val = t.val * 5000 + p.val := by
    show win4_9.index t (0 : Fin 2) * 5000 + 1 * p.val = _; omega
  have h1 : (((cfg4.win 9).blk t).view.emb (ix2 p q) : S50000x64.Idx) 1 = q := Fin.ext (by
    show win4_9.index t (1 : Fin 2) * 64 + 1 * q.val = _; omega)
  exact layer_congr _ (fun l => iblk4_0_apply V c t p l _ h0) (iblk4_1_apply V c t) (iblk4_2_apply V c t)
    (iblk4_3_apply V c t) (iblk4_4_apply V c t) (iblk4_5_apply V c t) (iblk4_6_apply V c t) (iblk4_7_apply V c t)
    (iblk4_8_apply V c t) h1.symm

/-- An index of the output is in point `t`'s block iff each coordinate is in the block's range on its axis. -/
theorem mem_blk4 (t : Fin cfg4.N) (i : S50000x64.Idx) :
    i ∈ ((cfg4.win 9).blk t).view.set ↔ ∀ a : Fin 2, win4_9.index t a * S5000x64.size a ≤ (i a).val
      ∧ (i a).val < win4_9.index t a * S5000x64.size a + S5000x64.size a := by
  show i ∈ ((View.whole main_v160).slice (win4_9.rect t)).set ↔ _
  rw [View.set_slice_whole, Rect.mem_set_unit]
  exact Iff.rfl

/-- Every index of the output is in the block of the point its row divided by 5000 names. -/
theorem cover4 (i : S50000x64.Idx) :
    ∃ t : Fin cfg4.N, (cfg4.win 9).flush t = true ∧ i ∈ ((cfg4.win 9).blk t).view.set := by
  have hi0 : (i 0).val < 50000 := (i 0).isLt
  have hi1 : (i 1).val < 64 := (i 1).isLt
  have hN : cfg4.N = 10 := N_4
  obtain ⟨t, ht⟩ : ∃ t : Fin cfg4.N, t.val = (i 0).val / 5000 := ⟨⟨(i 0).val / 5000, by rw [hN]; omega⟩, rfl⟩
  obtain ⟨-, -, -, -, -, -, -, -, -, -, -, -, e90, e91⟩ := idx_facts4 t
  refine ⟨t, flush4_9 t, ?_⟩
  rw [mem_blk4]
  intro a
  match a with
  | ⟨0, _⟩ =>
    show win4_9.index t (0 : Fin 2) * 5000 ≤ (i 0).val ∧ (i 0).val < win4_9.index t (0 : Fin 2) * 5000 + 5000
    omega
  | ⟨1, _⟩ =>
    show win4_9.index t (1 : Fin 2) * 64 ≤ (i 1).val ∧ (i 1).val < win4_9.index t (1 : Fin 2) * 64 + 64
    omega

/-- The output array after the region is `G4`: the layer of the arrays the region finds, index by index. -/
theorem final4 (c : Dev nD) : (dat4 (F := Ideal) V c).arrAt 9 cfg4.N = G4 V c :=
  (dat4 V c).arrAt_eq_of_cover 9 (G4 V c) (fun t _ => flushed4_eq V c t) (cover4)

end Cert.KernelIdeal.Hand

end
-- ==== Proof.KI.ValPay5.lean ====
/-
  The read-out head's body, entry by entry over the extended reals.

  From its loaded arrays — the pooled features `P` `[512, 320]`, the two weight matrices and the two biases — the
  body computes the logits `z = relu (P · W1 + b1) · W2 + b2` and then, row by row, their log-softmax with the row
  maximum subtracted first: at graph `p` and class `q` it is `(z[p,q] - m) - log ∑ⱼ exp (z[p,j] - m)`, `m` the
  maximum of row `p` — the specification's `logSoftmax` of its `logits` at row `p`.
-/
import proofs.«109974_j38371237822822_1_alg».proof.Proof.Gen.KernelIdeal.Skeleton
import proofs.«109974_j38371237822822_1_alg».proof.Proof.KI.ValLib

noncomputable section

open scoped BigOperators

namespace Cert.KernelIdeal.Hand.Val

open Idealize.ShloMosaic Idealize.ShloMosaic.ValueIdx
open Cert.KernelIdeal Cert.KernelIdeal.Gen

variable [Facts]

/-- The head's payload at `(p, q)` is the specification's log-softmax of the logits of row `p`, at class `q`. The
    payload's arguments are, in order, the pooled features, `W1`, `b1`, `W2`, `b2`. -/
theorem pay5_apply (v0 : Vec Ideal S512x320 .f32) (v3 : Vec Ideal S320x64 .bf16) (v6 : Vec Ideal S64 .f32)
    (v13 : Vec Ideal S64x10 .bf16) (v16 : Vec Ideal S10 .f32) (p : Fin 512) (q : Fin 10) :
    Gen.k5_pay1 (F := Ideal) v0 v3 v6 v13 v16 (ix2 p q)
      = Cert.Spec.logSoftmax (Cert.Spec.logits (fun p k => v0 (ix2 p k)) (fun k q => v3 (ix2 k q)) (fun q => v6 (ix1 q))
          (fun k q => v13 (ix2 k q)) (fun q => v16 (ix1 q)) p) q := by
  unfold Gen.k5_pay1
  simp only [shapeCast_self]
  refine (logSoftmax_apply _ _ _ _ _ _ _ p q).trans ?_
  simp only [affine_apply dot_S512x64_S64x10_S512x10_1_0_0_1_n_n rfl, truncf_apply,
    dense_apply dot_S512x320_S320x64_S512x64_1_0_0_1_n_n rfl]
  rfl

end Cert.KernelIdeal.Hand.Val

end
-- ==== Proof.KI.ValFinal5.lean ====
/-
  The read-out head's output array after its region, as one function of the arrays the region finds.

  The region has one grid point; it reads the pooled features, the two weight matrices and the two biases whole and
  writes the whole `[512, 10]` output back. So the array ends holding, at graph `p` and class `q`, the specification's
  log-softmax of the logits of row `p`.
-/
import proofs.«109974_j38371237822822_1_alg».proof.Proof.KI.Reg5
import proofs.«109974_j38371237822822_1_alg».proof.Proof.KI.ValPay5
import proofs.«109974_j38371237822822_1_alg».proof.Proof.KI.ValRows
import Idealize.ShloMosaic.Lib.Pipeline.Value

noncomputable section

open scoped BigOperators

namespace Cert.KernelIdeal.Hand

open Cert.KernelIdeal Cert.KernelIdeal.Gen Cert.KernelIdeal.Hand.Val
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The head's output, index by index, from the arrays the region finds: window 0 the pooled features, 1 and 3 the
    weights, 2 and 4 the biases. -/
abbrev G5 (c : Dev nD) : S512x10.Idx → Ideal .f32 := fun i =>
  Cert.Spec.logSoftmax (Cert.Spec.logits
    (fun p k => (V c (Pipeline.arrRef spec5 0) : S512x320.Idx → Ideal .f32) (ix2 p k))
    (fun k q => (V c (Pipeline.arrRef spec5 1) : S320x64.Idx → Ideal .bf16) (ix2 k q))
    (fun q => (V c (Pipeline.arrRef spec5 2) : S64.Idx → Ideal .f32) (ix1 q))
    (fun k q => (V c (Pipeline.arrRef spec5 3) : S64x10.Idx → Ideal .bf16) (ix2 k q))
    (fun q => (V c (Pipeline.arrRef spec5 4) : S10.Idx → Ideal .f32) (ix1 q)) (i 0)) (i 1)

theorem hz2_5 : (![0, 0] : Fin 2 → Nat) = fun _ => 0 := funext fun a => by fin_cases a <;> rfl
theorem hz1_5 : (![0] : Fin 1 → Nat) = fun _ => 0 := funext fun a => by fin_cases a; rfl

/-- The index maps, decided over the one point: every window has the one block 0. -/
theorem idx_facts5 : ∀ t : Fin cfg5.N,
    win5_0.index t (0 : Fin 2) = 0 ∧ win5_0.index t (1 : Fin 2) = 0
    ∧ win5_1.index t (0 : Fin 2) = 0 ∧ win5_1.index t (1 : Fin 2) = 0
    ∧ win5_2.index t (0 : Fin 1) = 0
    ∧ win5_3.index t (0 : Fin 2) = 0 ∧ win5_3.index t (1 : Fin 2) = 0
    ∧ win5_4.index t (0 : Fin 1) = 0
    ∧ win5_5.index t (0 : Fin 2) = 0 ∧ win5_5.index t (1 : Fin 2) = 0 :=
  (by decide +kernel : ∀ t : Fin grid5.N, _)

/-! ## Each input window's block, read off its array -/

/-- Window 0 (the pooled features) has one block, its whole `[512, 320]` array. -/
theorem iblk5_0_apply (c : Dev nD) (t : Fin cfg5.N) (l : Fin 512) (k : Fin 320) :
    (iblk5 V c 0 t : Vec Ideal S512x320 .f32) (ix2 l k) = (V c (Pipeline.arrRef spec5 0) : S512x320.Idx → Ideal .f32) (ix2 l k) := by
  obtain ⟨e00, e01, e10, e11, e2, e30, e31, e4, e50, e51⟩ := idx_facts5 t
  unfold iblk5
  rw [View.read_apply]
  show (V c (Pipeline.arrRef spec5 0) : S512x320.Idx → Ideal .f32) (((cfg5.win 0).blk t).view.emb (ix2 l k)) = _
  refine congrArg _ (funext fun a => Fin.ext ?_)
  match a with
  | ⟨0, _⟩ => show win5_0.index t (0 : Fin 2) * 512 + 1 * l.val = l.val; omega
  | ⟨1, _⟩ => show win5_0.index t (1 : Fin 2) * 320 + 1 * k.val = k.val; omega

/-- Window 1 (the first weights) has one block, its whole `[320, 64]` array. -/
theorem iblk5_1_apply (c : Dev nD) (t : Fin cfg5.N) (l : Fin 320) (k : Fin 64) :
    (iblk5 V c 1 t : Vec Ideal S320x64 .bf16) (ix2 l k) = (V c (Pipeline.arrRef spec5 1) : S320x64.Idx → Ideal .bf16) (ix2 l k) := by
  obtain ⟨e00, e01, e10, e11, e2, e30, e31, e4, e50, e51⟩ := idx_facts5 t
  unfold iblk5
  rw [View.read_apply]
  show (V c (Pipeline.arrRef spec5 1) : S320x64.Idx → Ideal .bf16) (((cfg5.win 1).blk t).view.emb (ix2 l k)) = _
  refine congrArg _ (funext fun a => Fin.ext ?_)
  match a with
  | ⟨0, _⟩ => show win5_1.index t (0 : Fin 2) * 320 + 1 * l.val = l.val; omega
  | ⟨1, _⟩ => show win5_1.index t (1 : Fin 2) * 64 + 1 * k.val = k.val; omega

/-- Window 2 (the first bias) has one block, its whole `[64]` array. -/
theorem iblk5_2_apply (c : Dev nD) (t : Fin cfg5.N) (q : Fin 64) :
    (iblk5 V c 2 t : Vec Ideal S64 .f32) (ix1 q) = (V c (Pipeline.arrRef spec5 2) : S64.Idx → Ideal .f32) (ix1 q) := by
  obtain ⟨e00, e01, e10, e11, e2, e30, e31, e4, e50, e51⟩ := idx_facts5 t
  unfold iblk5
  rw [View.read_apply]
  show (V c (Pipeline.arrRef spec5 2) : S64.Idx → Ideal .f32) (((cfg5.win 2).blk t).view.emb (ix1 q)) = _
  refine congrArg _ (funext fun a => Fin.ext ?_)
  match a with
  | ⟨0, _⟩ => show win5_2.index t (0 : Fin 1) * 64 + 1 * q.val = q.val; omega

/-- Window 3 (the second weights) has one block, its whole `[64, 10]` array. -/
theorem iblk5_3_apply (c : Dev nD) (t : Fin cfg5.N) (l : Fin 64) (k : Fin 10) :
    (iblk5 V c 3 t : Vec Ideal S64x10 .bf16) (ix2 l k) = (V c (Pipeline.arrRef spec5 3) : S64x10.Idx → Ideal .bf16) (ix2 l k) := by
  obtain ⟨e00, e01, e10, e11, e2, e30, e31, e4, e50, e51⟩ := idx_facts5 t
  unfold iblk5
  rw [View.read_apply]
  show (V c (Pipeline.arrRef spec5 3) : S64x10.Idx → Ideal .bf16) (((cfg5.win 3).blk t).view.emb (ix2 l k)) = _
  refine congrArg _ (funext fun a => Fin.ext ?_)
  match a with
  | ⟨0, _⟩ => show win5_3.index t (0 : Fin 2) * 64 + 1 * l.val = l.val; omega
  | ⟨1, _⟩ => show win5_3.index t (1 : Fin 2) * 10 + 1 * k.val = k.val; omega

/-- Window 4 (the second bias) has one block, its whole `[10]` array. -/
theorem iblk5_4_apply (c : Dev nD) (t : Fin cfg5.N) (q : Fin 10) :
    (iblk5 V c 4 t : Vec Ideal S10 .f32) (ix1 q) = (V c (Pipeline.arrRef spec5 4) : S10.Idx → Ideal .f32) (ix1 q) := by
  obtain ⟨e00, e01, e10, e11, e2, e30, e31, e4, e50, e51⟩ := idx_facts5 t
  unfold iblk5
  rw [View.read_apply]
  show (V c (Pipeline.arrRef spec5 4) : S10.Idx → Ideal .f32) (((cfg5.win 4).blk t).view.emb (ix1 q)) = _
  refine congrArg _ (funext fun a => Fin.ext ?_)
  match a with
  | ⟨0, _⟩ => show win5_4.index t (0 : Fin 1) * 10 + 1 * q.val = q.val; omega

/-! ## What the point writes back, the cover, the array -/

/-- What the point writes back is the whole of `G5`. -/
theorem flushed5_eq (c : Dev nD) (t : Fin cfg5.N) :
    (dat5 V c).flushed 5 t = ((cfg5.win 5).blk t).view.read (Elt Ideal) (G5 V c) := by
  show (cfg5.win 5).cut (grid5.coords t) ((dat5 V c).after 5 t) = _
  rw [after5_5]
  unfold out5_5
  rw [View.canon_unit_zero hz2_5]
  simp only [View.ld_unit_zero (S := S512x320) hz2_5, View.ld_unit_zero (S := S320x64) hz2_5,
    View.ld_unit_zero (S := S64x10) hz2_5, View.ld_unit_zero (S := S64) hz1_5, View.ld_unit_zero (S := S10) hz1_5]
  obtain ⟨-, -, -, -, -, -, -, -, e50, e51⟩ := idx_facts5 t
  refine ext_ix2 (n0 := 512) (n1 := 10) fun p q => ?_
  show Gen.k5_pay1 (F := Ideal) (iblk5 V c 0 t) (iblk5 V c 1 t) (iblk5 V c 2 t) (iblk5 V c 3 t) (iblk5 V c 4 t) (ix2 p q)
    = G5 V c (((cfg5.win 5).blk t).view.emb (ix2 p q))
  refine (pay5_apply (iblk5 V c 0 t) (iblk5 V c 1 t) (iblk5 V c 2 t) (iblk5 V c 3 t) (iblk5 V c 4 t) p q).trans ?_
  have h0 : (((cfg5.win 5).blk t).view.emb (ix2 p q) : S512x10.Idx) 0 = p := Fin.ext (by
    show win5_5.index t (0 : Fin 2) * 512 + 1 * p.val = _; omega)
  have h1 : (((cfg5.win 5).blk t).view.emb (ix2 p q) : S512x10.Idx) 1 = q := Fin.ext (by
    show win5_5.index t (1 : Fin 2) * 10 + 1 * q.val = _; omega)
  refine head_congr (fun l => ?_) (iblk5_1_apply V c t) (iblk5_2_apply V c t) (iblk5_3_apply V c t) (iblk5_4_apply V c t) h1.symm
  rw [h0]
  exact iblk5_0_apply V c t p l

/-- An index of the output is in the point's block iff each coordinate is in the block's range on its axis. -/
theorem mem_blk5 (t : Fin cfg5.N) (i : S512x10.Idx) :
    i ∈ ((cfg5.win 5).blk t).view.set ↔ ∀ a : Fin 2, win5_5.index t a * S512x10.size a ≤ (i a).val
      ∧ (i a).val < win5_5.index t a * S512x10.size a + S512x10.size a := by
  show i ∈ ((View.whole main_v176).slice (win5_5.rect t)).set ↔ _
  rw [View.set_slice_whole, Rect.mem_set_unit]
  exact Iff.rfl

/-- Every index of the output is in the one point's block. -/
theorem cover5 (i : S512x10.Idx) :
    ∃ t : Fin cfg5.N, (cfg5.win 5).flush t = true ∧ i ∈ ((cfg5.win 5).blk t).view.set := by
  have hi0 : (i 0).val < 512 := (i 0).isLt
  have hi1 : (i 1).val < 10 := (i 1).isLt
  have hN : cfg5.N = 1 := N_5
  obtain ⟨t, ht⟩ : ∃ t : Fin cfg5.N, t.val = 0 := ⟨⟨0, by rw [hN]; omega⟩, rfl⟩
  obtain ⟨-, -, -, -, -, -, -, -, e50, e51⟩ := idx_facts5 t
  refine ⟨t, flush5_5 t, ?_⟩
  rw [mem_blk5]
  intro a
  match a with
  | ⟨0, _⟩ =>
    show win5_5.index t (0 : Fin 2) * 512 ≤ (i 0).val ∧ (i 0).val < win5_5.index t (0 : Fin 2) * 512 + 512
    omega
  | ⟨1, _⟩ =>
    show win5_5.index t (1 : Fin 2) * 10 ≤ (i 1).val ∧ (i 1).val < win5_5.index t (1 : Fin 2) * 10 + 10
    omega

/-- The output array after the region is `G5`: the log-softmax of the logits of the arrays the region finds, index by index. -/
theorem final5 (c : Dev nD) : (dat5 (F := Ideal) V c).arrAt 5 cfg5.N = G5 V c :=
  (dat5 V c).arrAt_eq_of_cover 5 (G5 V c) (fun t _ => flushed5_eq V c t) (cover5)

end Cert.KernelIdeal.Hand

end
-- ==== Proof.KI.Chain.lean ====
/-
  The regions' outputs as the layers of the arguments.

  Region K's output array is the specification's layer of the arrays the region finds; the arrays it finds are the
  host stretch's functions of the previous region's output and of the arguments; so, by induction along the five
  layers, region K's output is layer K + 1 of the arguments. The second result is the five outputs side by side, and
  the first result is the head's log-softmax of the per-graph mean of those rows.
-/
import proofs.«109974_j38371237822822_1_alg».proof.Proof.KI.Run
import proofs.«109974_j38371237822822_1_alg».proof.Proof.KI.Entry
import proofs.«109974_j38371237822822_1_alg».proof.Proof.KI.KerFun
import proofs.«109974_j38371237822822_1_alg».proof.Proof.KI.ValFinal0
import proofs.«109974_j38371237822822_1_alg».proof.Proof.KI.ValFinal1
import proofs.«109974_j38371237822822_1_alg».proof.Proof.KI.ValFinal2
import proofs.«109974_j38371237822822_1_alg».proof.Proof.KI.ValFinal3
import proofs.«109974_j38371237822822_1_alg».proof.Proof.KI.ValFinal4
import proofs.«109974_j38371237822822_1_alg».proof.Proof.KI.ValFinal5

set_option maxRecDepth 16384

noncomputable section

namespace Cert.KernelIdeal.KerValue

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (c : Dev nD)

set_option maxHeartbeats 4000000 in
/-- Region 0 leaves layer one of the arguments. -/
theorem out1 : Hand.outs m 2 main_v20 c = kerH1 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  rw [Hand.outs_2 m c, Hand.final0]
  funext i
  show Cert.Spec.layer (fun p l => (Gen.V1 m c main_v17 : S50000x128.Idx → EReal) (ix2 p l))
    (fun l k => (Gen.V1 m c main_v18 : S128x64.Idx → EReal) (ix2 l k))
    (fun k => (Gen.V1 m c main_arg5 : S64.Idx → EReal) (ix1 k))
    (fun k q => (Gen.V1 m c main_v19 : S64x64.Idx → EReal) (ix2 k q))
    (fun q => (Gen.V1 m c main_arg7 : S64.Idx → EReal) (ix1 q))
    (fun q => (Gen.V1 m c main_arg8 : S64.Idx → EReal) (ix1 q))
    (fun q => (Gen.V1 m c main_arg9 : S64.Idx → EReal) (ix1 q))
    (fun q => (Gen.V1 m c main_arg10 : S64.Idx → EReal) (ix1 q))
    (fun q => (Gen.V1 m c main_arg11 : S64.Idx → EReal) (ix1 q))
    (Ideal.ofBits .f32 0x3727C5AC#32) (i 0) (i 1) = _
  rw [entry0_x m c, entry0_wa m c, entry0_wb m c, V1_back m c main_arg5, V1_back m c main_arg7, V1_back m c main_arg8,
    V1_back m c main_arg9, V1_back m c main_arg10, V1_back m c main_arg11]
  rfl

set_option maxHeartbeats 4000000 in
/-- Region 1 leaves layer 2 of the arguments. -/
theorem out2 : Hand.outs m 4 main_v55 c = kerH2 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) := by
  rw [Hand.outs_4 m c, Hand.final1]
  funext i
  show Cert.Spec.layer (fun p l => (Gen.V3 m (Hand.outs m) c main_v52 : S50000x64.Idx → EReal) (ix2 p l))
    (fun k q => (Gen.V3 m (Hand.outs m) c main_v53 : S64x64.Idx → EReal) (ix2 k q))
    (fun q => (Gen.V3 m (Hand.outs m) c main_v26 : S64.Idx → EReal) (ix1 q))
    (fun k q => (Gen.V3 m (Hand.outs m) c main_v54 : S64x64.Idx → EReal) (ix2 k q))
    (fun q => (Gen.V3 m (Hand.outs m) c main_v30 : S64.Idx → EReal) (ix1 q))
    (fun q => (Gen.V3 m (Hand.outs m) c main_v32 : S64.Idx → EReal) (ix1 q))
    (fun q => (Gen.V3 m (Hand.outs m) c main_v34 : S64.Idx → EReal) (ix1 q))
    (fun q => (Gen.V3 m (Hand.outs m) c main_v36 : S64.Idx → EReal) (ix1 q))
    (fun q => (Gen.V3 m (Hand.outs m) c main_v38 : S64.Idx → EReal) (ix1 q))
    (Ideal.ofBits .f32 0x3727C5AC#32) (i 0) (i 1) = _
  rw [entry1_x m (Hand.outs m) c, entry1_wa m (Hand.outs m) c, entry1_ba m (Hand.outs m) c, entry1_wb m (Hand.outs m) c, entry1_bb m (Hand.outs m) c, entry1_g m (Hand.outs m) c, entry1_be m (Hand.outs m) c, entry1_mu m (Hand.outs m) c, entry1_var m (Hand.outs m) c, out1 m c]
  rfl

set_option maxHeartbeats 4000000 in
/-- Region 2 leaves layer 3 of the arguments. -/
theorem out3 : Hand.outs m 6 main_v90 c = kerH3 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) := by
  rw [Hand.outs_6 m c, Hand.final2]
  funext i
  show Cert.Spec.layer (fun p l => (Gen.V5 m (Hand.outs m) c main_v87 : S50000x64.Idx → EReal) (ix2 p l))
    (fun k q => (Gen.V5 m (Hand.outs m) c main_v88 : S64x64.Idx → EReal) (ix2 k q))
    (fun q => (Gen.V5 m (Hand.outs m) c main_v61 : S64.Idx → EReal) (ix1 q))
    (fun k q => (Gen.V5 m (Hand.outs m) c main_v89 : S64x64.Idx → EReal) (ix2 k q))
    (fun q => (Gen.V5 m (Hand.outs m) c main_v65 : S64.Idx → EReal) (ix1 q))
    (fun q => (Gen.V5 m (Hand.outs m) c main_v67 : S64.Idx → EReal) (ix1 q))
    (fun q => (Gen.V5 m (Hand.outs m) c main_v69 : S64.Idx → EReal) (ix1 q))
    (fun q => (Gen.V5 m (Hand.outs m) c main_v71 : S64.Idx → EReal) (ix1 q))
    (fun q => (Gen.V5 m (Hand.outs m) c main_v73 : S64.Idx → EReal) (ix1 q))
    (Ideal.ofBits .f32 0x3727C5AC#32) (i 0) (i 1) = _
  rw [entry2_x m (Hand.outs m) c, entry2_wa m (Hand.outs m) c, entry2_ba m (Hand.outs m) c, entry2_wb m (Hand.outs m) c, entry2_bb m (Hand.outs m) c, entry2_g m (Hand.outs m) c, entry2_be m (Hand.outs m) c, entry2_mu m (Hand.outs m) c, entry2_var m (Hand.outs m) c, out2 m c]
  rfl

set_option maxHeartbeats 4000000 in
/-- Region 3 leaves layer 4 of the arguments. -/
theorem out4 : Hand.outs m 8 main_v125 c = kerH4 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) := by
  rw [Hand.outs_8 m c, Hand.final3]
  funext i
  show Cert.Spec.layer (fun p l => (Gen.V7 m (Hand.outs m) c main_v122 : S50000x64.Idx → EReal) (ix2 p l))
    (fun k q => (Gen.V7 m (Hand.outs m) c main_v123 : S64x64.Idx → EReal) (ix2 k q))
    (fun q => (Gen.V7 m (Hand.outs m) c main_v96 : S64.Idx → EReal) (ix1 q))
    (fun k q => (Gen.V7 m (Hand.outs m) c main_v124 : S64x64.Idx → EReal) (ix2 k q))
    (fun q => (Gen.V7 m (Hand.outs m) c main_v100 : S64.Idx → EReal) (ix1 q))
    (fun q => (Gen.V7 m (Hand.outs m) c main_v102 : S64.Idx → EReal) (ix1 q))
    (fun q => (Gen.V7 m (Hand.outs m) c main_v104 : S64.Idx → EReal) (ix1 q))
    (fun q => (Gen.V7 m (Hand.outs m) c main_v106 : S64.Idx → EReal) (ix1 q))
    (fun q => (Gen.V7 m (Hand.outs m) c main_v108 : S64.Idx → EReal) (ix1 q))
    (Ideal.ofBits .f32 0x3727C5AC#32) (i 0) (i 1) = _
  rw [entry3_x m (Hand.outs m) c, entry3_wa m (Hand.outs m) c, entry3_ba m (Hand.outs m) c, entry3_wb m (Hand.outs m) c, entry3_bb m (Hand.outs m) c, entry3_g m (Hand.outs m) c, entry3_be m (Hand.outs m) c, entry3_mu m (Hand.outs m) c, entry3_var m (Hand.outs m) c, out3 m c]
  rfl

set_option maxHeartbeats 4000000 in
/-- Region 4 leaves layer 5 of the arguments. -/
theorem out5 : Hand.outs m 10 main_v160 c = kerH5 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) := by
  rw [Hand.outs_10 m c, Hand.final4]
  funext i
  show Cert.Spec.layer (fun p l => (Gen.V9 m (Hand.outs m) c main_v157 : S50000x64.Idx → EReal) (ix2 p l))
    (fun k q => (Gen.V9 m (Hand.outs m) c main_v158 : S64x64.Idx → EReal) (ix2 k q))
    (fun q => (Gen.V9 m (Hand.outs m) c main_v131 : S64.Idx → EReal) (ix1 q))
    (fun k q => (Gen.V9 m (Hand.outs m) c main_v159 : S64x64.Idx → EReal) (ix2 k q))
    (fun q => (Gen.V9 m (Hand.outs m) c main_v135 : S64.Idx → EReal) (ix1 q))
    (fun q => (Gen.V9 m (Hand.outs m) c main_v137 : S64.Idx → EReal) (ix1 q))
    (fun q => (Gen.V9 m (Hand.outs m) c main_v139 : S64.Idx → EReal) (ix1 q))
    (fun q => (Gen.V9 m (Hand.outs m) c main_v141 : S64.Idx → EReal) (ix1 q))
    (fun q => (Gen.V9 m (Hand.outs m) c main_v143 : S64.Idx → EReal) (ix1 q))
    (Ideal.ofBits .f32 0x3727C5AC#32) (i 0) (i 1) = _
  rw [entry4_x m (Hand.outs m) c, entry4_wa m (Hand.outs m) c, entry4_ba m (Hand.outs m) c, entry4_wb m (Hand.outs m) c, entry4_bb m (Hand.outs m) c, entry4_g m (Hand.outs m) c, entry4_be m (Hand.outs m) c, entry4_mu m (Hand.outs m) c, entry4_var m (Hand.outs m) c, out4 m c]
  rfl

set_option maxHeartbeats 4000000 in
/-- The second result at the end of the run: the five layers of the arguments side by side. -/
theorem emb_val : (Gen.V12 m (Hand.outs m) c main_v161 : S50000x320.Idx → EReal) = kerEmb (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) := by
  rw [V12_emb m (Hand.outs m) c, out1 m c, out2 m c, out3 m c, out4 m c, out5 m c]
  rfl

set_option maxHeartbeats 4000000 in
/-- The first result at the end of the run: the head's log-probabilities of the arguments. -/
theorem logp_val : Gen.V12 m (Hand.outs m) c main_v176 = kerLogp (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) := by
  rw [V12_logp m (Hand.outs m) c, Hand.outs_12 m c, Hand.final5]
  funext i
  show Cert.Spec.logSoftmax (Cert.Spec.logits
    (fun p k => (Gen.V11 m (Hand.outs m) c main_v173 : S512x320.Idx → EReal) (ix2 p k))
    (fun k q => (Gen.V11 m (Hand.outs m) c main_v174 : S320x64.Idx → EReal) (ix2 k q))
    (fun q => (Gen.V11 m (Hand.outs m) c main_arg22 : S64.Idx → EReal) (ix1 q))
    (fun k q => (Gen.V11 m (Hand.outs m) c main_v175 : S64x10.Idx → EReal) (ix2 k q))
    (fun q => (Gen.V11 m (Hand.outs m) c main_arg24 : S10.Idx → EReal) (ix1 q)) (i 0)) (i 1) = _
  rw [entry5_pooled m (Hand.outs m) c, entry5_w1 m (Hand.outs m) c, entry5_w2 m (Hand.outs m) c,
    V11_to1 m (Hand.outs m) c main_arg22, V1_back m c main_arg22, V11_to1 m (Hand.outs m) c main_arg24, V1_back m c main_arg24,
    out1 m c, out2 m c, out3 m c, out4 m c, out5 m c]
  rfl

end Cert.KernelIdeal.KerValue

end
-- ==== Proof.RefProg.lean ====
/-
  The reference program as a line of operations, cut into six stretches.

  The reference is a straight line of 349 tensor operations (a called function's operations standing in its call's
  place). It is cut after each layer's last operation: the first stretch ends with layer one's output, the next four
  with the outputs of layers two to five, and the last holds the concatenation, the per-graph mean and the read-out.
  Each operation writes one buffer of its own, so what a buffer holds after the whole line is what it holds after
  the stretch that writes it, and a buffer a stretch does not write passes through it unchanged. The run of the
  whole line leaves every buffer at the fold of the six stretches, in order, over the launch contents.
-/
import proofs.«109974_j38371237822822_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem
  Idealize.ShloMosaic.StableHlo

variable {F : FTy → Type} [FloatOps F]

/-- Operations 1 … 50: everything up to the first layer's output. -/
abbrev ops0 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst (constant S_ .f32 0x00000000#32),
    unary main_cst main_v11 (broadcastInDim S50000x128 ![] bcast_S_S50000x128 : (⟨S_, .f32⟩ : BufTy).Contents (Elt F) → (⟨S50000x128, .f32⟩ : BufTy).Contents (Elt F)),
    unary main_v3 main_v12 (broadcastInDim S800000x1 ![0] bcast_S800000_S800000x1_0 : (⟨S800000, .i32⟩ : BufTy).Contents (Elt F) → (⟨S800000x1, .i32⟩ : BufTy).Contents (Elt F)),
    ternary main_v11 main_v12 main_v10 main_v13 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_1 (constant S_ .f32 0x3F800000#32),
    binary main_cst_1 main_arg3 main_v14 (addf : (⟨S_, .f32⟩ : BufTy).Contents (Elt F) → (⟨S_, .f32⟩ : BufTy).Contents (Elt F) → (⟨S_, .f32⟩ : BufTy).Contents (Elt F)),
    unary main_v14 main_v15 (broadcastInDim S50000x128 ![] bcast_S_S50000x128 : (⟨S_, .f32⟩ : BufTy).Contents (Elt F) → (⟨S50000x128, .f32⟩ : BufTy).Contents (Elt F)),
    binary main_v15 main_arg0 main_v16 (mulf : (⟨S50000x128, .f32⟩ : BufTy).Contents (Elt F) → (⟨S50000x128, .f32⟩ : BufTy).Contents (Elt F) → (⟨S50000x128, .f32⟩ : BufTy).Contents (Elt F)),
    binary main_v16 main_v13 main_v17 (addf : (⟨S50000x128, .f32⟩ : BufTy).Contents (Elt F) → (⟨S50000x128, .f32⟩ : BufTy).Contents (Elt F) → (⟨S50000x128, .f32⟩ : BufTy).Contents (Elt F)),
    binary main_v17 main_arg4 main_v18 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg5 main_v19 (broadcastInDim S1x64 ![1] bcast_S64_S1x64_1 : (⟨S64, .f32⟩ : BufTy).Contents (Elt F) → (⟨S1x64, .f32⟩ : BufTy).Contents (Elt F)),
    unary main_v19 main_v20 (broadcastInDim S50000x64 ![0, 1] bcast_S1x64_S50000x64_0_1 : (⟨S1x64, .f32⟩ : BufTy).Contents (Elt F) → (⟨S50000x64, .f32⟩ : BufTy).Contents (Elt F)),
    binary main_v18 main_v20 main_v21 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x64, .f32⟩) main_call0_v0) (broadcastInDim S50000x64 ![] bcast_S_S50000x64),
    TRef.binary (TRef.of (T := ⟨S50000x64, .f32⟩) main_v21) (TRef.of (T := ⟨S50000x64, .f32⟩) main_call0_v0) (TRef.of (T := ⟨S50000x64, .f32⟩) main_v22) maximumf,
    binary main_v22 main_arg6 main_v23 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg7 main_v24 (broadcastInDim S1x64 ![1] bcast_S64_S1x64_1 : (⟨S64, .f32⟩ : BufTy).Contents (Elt F) → (⟨S1x64, .f32⟩ : BufTy).Contents (Elt F)),
    unary main_v24 main_v25 (broadcastInDim S50000x64 ![0, 1] bcast_S1x64_S50000x64_0_1 : (⟨S1x64, .f32⟩ : BufTy).Contents (Elt F) → (⟨S50000x64, .f32⟩ : BufTy).Contents (Elt F)),
    binary main_v23 main_v25 main_v26 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x64, .f32⟩) main_call1_v0) (broadcastInDim S50000x64 ![] bcast_S_S50000x64),
    TRef.binary (TRef.of (T := ⟨S50000x64, .f32⟩) main_v26) (TRef.of (T := ⟨S50000x64, .f32⟩) main_call1_v0) (TRef.of (T := ⟨S50000x64, .f32⟩) main_v27) maximumf,
    unary main_arg10 main_v28 (broadcastInDim S1x64 ![1] bcast_S64_S1x64_1 : (⟨S64, .f32⟩ : BufTy).Contents (Elt F) → (⟨S1x64, .f32⟩ : BufTy).Contents (Elt F)),
    unary main_v28 main_v29 (broadcastInDim S50000x64 ![0, 1] bcast_S1x64_S50000x64_0_1 : (⟨S1x64, .f32⟩ : BufTy).Contents (Elt F) → (⟨S50000x64, .f32⟩ : BufTy).Contents (Elt F)),
    binary main_v27 main_v29 main_v30 (subf : (⟨S50000x64, .f32⟩ : BufTy).Contents (Elt F) → (⟨S50000x64, .f32⟩ : BufTy).Contents (Elt F) → (⟨S50000x64, .f32⟩ : BufTy).Contents (Elt F)),
    nullary main_cst_2 (constant S_ .f32 0x3727C5AC#32),
    unary main_cst_2 main_v31 (broadcastInDim S64 ![] bcast_S_S64 : (⟨S_, .f32⟩ : BufTy).Contents (Elt F) → (⟨S64, .f32⟩ : BufTy).Contents (Elt F)),
    binary main_arg11 main_v31 main_v32 (addf : (⟨S64, .f32⟩ : BufTy).Contents (Elt F) → (⟨S64, .f32⟩ : BufTy).Contents (Elt F) → (⟨S64, .f32⟩ : BufTy).Contents (Elt F)),
    unary main_v32 main_v33 (Host.sqrt : (⟨S64, .f32⟩ : BufTy).Contents (Elt F) → (⟨S64, .f32⟩ : BufTy).Contents (Elt F)),
    binary main_arg8 main_v33 main_v34 (Host.divf : (⟨S64, .f32⟩ : BufTy).Contents (Elt F) → (⟨S64, .f32⟩ : BufTy).Contents (Elt F) → (⟨S64, .f32⟩ : BufTy).Contents (Elt F)),
    unary main_v34 main_v35 (broadcastInDim S1x64 ![1] bcast_S64_S1x64_1 : (⟨S64, .f32⟩ : BufTy).Contents (Elt F) → (⟨S1x64, .f32⟩ : BufTy).Contents (Elt F)),
    unary main_v35 main_v36 (broadcastInDim S50000x64 ![0, 1] bcast_S1x64_S50000x64_0_1 : (⟨S1x64, .f32⟩ : BufTy).Contents (Elt F) → (⟨S50000x64, .f32⟩ : BufTy).Contents (Elt F)),
    binary main_v30 main_v36 main_v37 (mulf : (⟨S50000x64, .f32⟩ : BufTy).Contents (Elt F) → (⟨S50000x64, .f32⟩ : BufTy).Contents (Elt F) → (⟨S50000x64, .f32⟩ : BufTy).Contents (Elt F)),
    unary main_arg9 main_v38 (broadcastInDim S1x64 ![1] bcast_S64_S1x64_1 : (⟨S64, .f32⟩ : BufTy).Contents (Elt F) → (⟨S1x64, .f32⟩ : BufTy).Contents (Elt F)),
    unary main_v38 main_v39 (broadcastInDim S50000x64 ![0, 1] bcast_S1x64_S50000x64_0_1 : (⟨S1x64, .f32⟩ : BufTy).Contents (Elt F) → (⟨S50000x64, .f32⟩ : BufTy).Contents (Elt F)),
    binary main_v37 main_v39 main_v40 (addf : (⟨S50000x64, .f32⟩ : BufTy).Contents (Elt F) → (⟨S50000x64, .f32⟩ : BufTy).Contents (Elt F) → (⟨S50000x64, .f32⟩ : BufTy).Contents (Elt F)) ]

/-- The buffers the operations of this stretch write, one each, in order. -/
abbrev ops0_W : List (Ref sig .tc) := [main_v0, main_v1, main_v2, main_v3, main_c, main_v4, main_v5, main_c_0, main_v6, main_v7, main_v8, main_v9, main_v10, main_cst, main_v11, main_v12, main_v13, main_cst_1, main_v14, main_v15, main_v16, main_v17, main_v18, main_v19, main_v20, main_v21, main_call0_cst, main_call0_v0, main_v22, main_v23, main_v24, main_v25, main_v26, main_call1_cst, main_call1_v0, main_v27, main_v28, main_v29, main_v30, main_cst_2, main_v31, main_v32, main_v33, main_v34, main_v35, main_v36, main_v37, main_v38, main_v39, main_v40]

set_option maxRecDepth 8192 in
theorem ops0_fresh : (ops0 : List (HloOp τ sig (Elt F))).Forall fun op => op.fresh = ∅ := by
  simp only [List.Forall]; repeat' constructor

set_option maxRecDepth 8192 in
set_option maxHeartbeats 4000000 in
theorem ops0_sub : (ops0 : List (HloOp τ sig (Elt F))).Forall fun op => op.bufs ⊆ tcRefs τ sig := by
  simp only [List.Forall, nullary_bufs_sub, unary_bufs_sub, binary_bufs_sub, ternary_bufs_sub, reshape_bufs_sub, nary_bufs_sub,
    and_self]

set_option maxRecDepth 8192 in
set_option maxHeartbeats 4000000 in
theorem ops0_writes : (ops0 : List (HloOp τ sig (Elt F))).Forall fun op =>
    op.writes ⊆ (ops0_W.map (Proc.devRef (τ := τ) .tc)).toFinset := by
  simp only [List.Forall]
  repeat' constructor
  all_goals
    simp only [nullary_writes, unary_writes, binary_writes, ternary_writes, reshape_writes, nary_writes,
      Finset.singleton_subset_iff, List.mem_toFinset]
    exact List.mem_map_of_mem (by decide)

/-- A buffer this stretch does not write keeps its contents. -/
theorem ops0_keep (W : Valuation τ sig (Elt F)) (r : Ref sig .tc) (h : r ∉ ops0_W := by decide) :
    after ops0 W (Proc.devRef .tc r) = W (Proc.devRef .tc r) :=
  after_of_writes_sub ops0 W ops0_writes h

/-- Operations 51 … 114: the second layer. -/
abbrev ops1 : List (HloOp τ sig (Elt F)) :=
  [ unary main_arg12 main_v41 ((extractStridedSlice S1 ![0] · slices_S4_S1_0) : (⟨S4, .f32⟩ : BufTy).Contents (Elt F) → (⟨S1, .f32⟩ : BufTy).Contents (Elt F)),
    reshape main_v41 main_v42 rfl shapeCasts_S1_S_,
    unary main_arg13 main_v43 ((extractStridedSlice S1x64x64 ![0, 0, 0] · slices_S4x64x64_S1x64x64_0_0_0) : (⟨S4x64x64, .f32⟩ : BufTy).Contents (Elt F) → (⟨S1x64x64, .f32⟩ : BufTy).Contents (Elt F)),
    reshape main_v43 main_v44 rfl shapeCasts_S1x64x64_S64x64,
    unary main_arg14 main_v45 ((extractStridedSlice S1x64 ![0, 0] · slices_S4x64_S1x64_0_0) : (⟨S4x64, .f32⟩ : BufTy).Contents (Elt F) → (⟨S1x64, .f32⟩ : BufTy).Contents (Elt F)),
    reshape main_v45 main_v46 rfl shapeCasts_S1x64_S64,
    unary main_arg15 main_v47 ((extractStridedSlice S1x64x64 ![0, 0, 0] · slices_S4x64x64_S1x64x64_0_0_0) : (⟨S4x64x64, .f32⟩ : BufTy).Contents (Elt F) → (⟨S1x64x64, .f32⟩ : BufTy).Contents (Elt F)),
    reshape main_v47 main_v48 rfl shapeCasts_S1x64x64_S64x64,
    unary main_arg16 main_v49 ((extractStridedSlice S1x64 ![0, 0] · slices_S4x64_S1x64_0_0) : (⟨S4x64, .f32⟩ : BufTy).Contents (Elt F) → (⟨S1x64, .f32⟩ : BufTy).Contents (Elt F)),
    reshape main_v49 main_v50 rfl shapeCasts_S1x64_S64,
    unary main_arg17 main_v51 ((extractStridedSlice S1x64 ![0, 0] · slices_S4x64_S1x64_0_0) : (⟨S4x64, .f32⟩ : BufTy).Contents (Elt F) → (⟨S1x64, .f32⟩ : BufTy).Contents (Elt F)),
    reshape main_v51 main_v52 rfl shapeCasts_S1x64_S64,
    unary main_arg18 main_v53 ((extractStridedSlice S1x64 ![0, 0] · slices_S4x64_S1x64_0_0) : (⟨S4x64, .f32⟩ : BufTy).Contents (Elt F) → (⟨S1x64, .f32⟩ : BufTy).Contents (Elt F)),
    reshape main_v53 main_v54 rfl shapeCasts_S1x64_S64,
    unary main_arg19 main_v55 ((extractStridedSlice S1x64 ![0, 0] · slices_S4x64_S1x64_0_0) : (⟨S4x64, .f32⟩ : BufTy).Contents (Elt F) → (⟨S1x64, .f32⟩ : BufTy).Contents (Elt F)),
    reshape main_v55 main_v56 rfl shapeCasts_S1x64_S64,
    unary main_arg20 main_v57 ((extractStridedSlice S1x64 ![0, 0] · slices_S4x64_S1x64_0_0) : (⟨S4x64, .f32⟩ : BufTy).Contents (Elt F) → (⟨S1x64, .f32⟩ : BufTy).Contents (Elt F)),
    reshape main_v57 main_v58 rfl shapeCasts_S1x64_S64,
    nullary main_c_3 (constantI S_ 32 0#32),
    unary main_c_3 main_v59 (broadcastInDim S800000 ![] bcast_S_S800000 : (⟨S_, .i32⟩ : BufTy).Contents (Elt F) → (⟨S800000, .i32⟩ : BufTy).Contents (Elt F)),
    binary main_v1 main_v59 main_v60 (cmpi .slt : (⟨S800000, .i32⟩ : BufTy).Contents (Elt F) → (⟨S800000, .i32⟩ : BufTy).Contents (Elt F) → (⟨S800000, .i1⟩ : BufTy).Contents (Elt F)),
    nullary main_c_4 (constantI S_ 32 50000#32),
    unary main_c_4 main_v61 (broadcastInDim S800000 ![] bcast_S_S800000 : (⟨S_, .i32⟩ : BufTy).Contents (Elt F) → (⟨S800000, .i32⟩ : BufTy).Contents (Elt F)),
    binary main_v1 main_v61 main_v62 (addi : (⟨S800000, .i32⟩ : BufTy).Contents (Elt F) → (⟨S800000, .i32⟩ : BufTy).Contents (Elt F) → (⟨S800000, .i32⟩ : BufTy).Contents (Elt F)),
    ternary main_v60 main_v62 main_v1 main_v63 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v63 main_v64 (broadcastInDim S800000x1 ![0] bcast_S800000_S800000x1_0 : (⟨S800000, .i32⟩ : BufTy).Contents (Elt F) → (⟨S800000x1, .i32⟩ : BufTy).Contents (Elt F)),
    binary main_v40 main_v64 main_v65 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst_5 (constant S_ .f32 0x00000000#32),
    unary main_cst_5 main_v66 (broadcastInDim S50000x64 ![] bcast_S_S50000x64 : (⟨S_, .f32⟩ : BufTy).Contents (Elt F) → (⟨S50000x64, .f32⟩ : BufTy).Contents (Elt F)),
    unary main_v3 main_v67 (broadcastInDim S800000x1 ![0] bcast_S800000_S800000x1_0 : (⟨S800000, .i32⟩ : BufTy).Contents (Elt F) → (⟨S800000x1, .i32⟩ : BufTy).Contents (Elt F)),
    ternary main_v66 main_v67 main_v65 main_v68 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    nullary main_cst_6 (constant S_ .f32 0x3F800000#32),
    binary main_cst_6 main_v42 main_v69 (addf : (⟨S_, .f32⟩ : BufTy).Contents (Elt F) → (⟨S_, .f32⟩ : BufTy).Contents (Elt F) → (⟨S_, .f32⟩ : BufTy).Contents (Elt F)),
    unary main_v69 main_v70 (broadcastInDim S50000x64 ![] bcast_S_S50000x64 : (⟨S_, .f32⟩ : BufTy).Contents (Elt F) → (⟨S50000x64, .f32⟩ : BufTy).Contents (Elt F)),
    binary main_v70 main_v40 main_v71 (mulf : (⟨S50000x64, .f32⟩ : BufTy).Contents (Elt F) → (⟨S50000x64, .f32⟩ : BufTy).Contents (Elt F) → (⟨S50000x64, .f32⟩ : BufTy).Contents (Elt F)),
    binary main_v71 main_v68 main_v72 (addf : (⟨S50000x64, .f32⟩ : BufTy).Contents (Elt F) → (⟨S50000x64, .f32⟩ : BufTy).Contents (Elt F) → (⟨S50000x64, .f32⟩ : BufTy).Contents (Elt F)),
    binary main_v72 main_v44 main_v73 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_v46 main_v74 (broadcastInDim S1x64 ![1] bcast_S64_S1x64_1 : (⟨S64, .f32⟩ : BufTy).Contents (Elt F) → (⟨S1x64, .f32⟩ : BufTy).Contents (Elt F)),
    unary main_v74 main_v75 (broadcastInDim S50000x64 ![0, 1] bcast_S1x64_S50000x64_0_1 : (⟨S1x64, .f32⟩ : BufTy).Contents (Elt F) → (⟨S50000x64, .f32⟩ : BufTy).Contents (Elt F)),
    binary main_v73 main_v75 main_v76 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x64, .f32⟩) main_call2_v0) (broadcastInDim S50000x64 ![] bcast_S_S50000x64),
    TRef.binary (TRef.of (T := ⟨S50000x64, .f32⟩) main_v76) (TRef.of (T := ⟨S50000x64, .f32⟩) main_call2_v0) (TRef.of (T := ⟨S50000x64, .f32⟩) main_v77) maximumf,
    binary main_v77 main_v48 main_v78 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_v50 main_v79 (broadcastInDim S1x64 ![1] bcast_S64_S1x64_1 : (⟨S64, .f32⟩ : BufTy).Contents (Elt F) → (⟨S1x64, .f32⟩ : BufTy).Contents (Elt F)),
    unary main_v79 main_v80 (broadcastInDim S50000x64 ![0, 1] bcast_S1x64_S50000x64_0_1 : (⟨S1x64, .f32⟩ : BufTy).Contents (Elt F) → (⟨S50000x64, .f32⟩ : BufTy).Contents (Elt F)),
    binary main_v78 main_v80 main_v81 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x64, .f32⟩) main_call3_v0) (broadcastInDim S50000x64 ![] bcast_S_S50000x64),
    TRef.binary (TRef.of (T := ⟨S50000x64, .f32⟩) main_v81) (TRef.of (T := ⟨S50000x64, .f32⟩) main_call3_v0) (TRef.of (T := ⟨S50000x64, .f32⟩) main_v82) maximumf,
    unary main_v56 main_v83 (broadcastInDim S1x64 ![1] bcast_S64_S1x64_1 : (⟨S64, .f32⟩ : BufTy).Contents (Elt F) → (⟨S1x64, .f32⟩ : BufTy).Contents (Elt F)),
    unary main_v83 main_v84 (broadcastInDim S50000x64 ![0, 1] bcast_S1x64_S50000x64_0_1 : (⟨S1x64, .f32⟩ : BufTy).Contents (Elt F) → (⟨S50000x64, .f32⟩ : BufTy).Contents (Elt F)),
    binary main_v82 main_v84 main_v85 (subf : (⟨S50000x64, .f32⟩ : BufTy).Contents (Elt F) → (⟨S50000x64, .f32⟩ : BufTy).Contents (Elt F) → (⟨S50000x64, .f32⟩ : BufTy).Contents (Elt F)),
    nullary main_cst_7 (constant S_ .f32 0x3727C5AC#32),
    unary main_cst_7 main_v86 (broadcastInDim S64 ![] bcast_S_S64 : (⟨S_, .f32⟩ : BufTy).Contents (Elt F) → (⟨S64, .f32⟩ : BufTy).Contents (Elt F)),
    binary main_v58 main_v86 main_v87 (addf : (⟨S64, .f32⟩ : BufTy).Contents (Elt F) → (⟨S64, .f32⟩ : BufTy).Contents (Elt F) → (⟨S64, .f32⟩ : BufTy).Contents (Elt F)),
    unary main_v87 main_v88 (Host.sqrt : (⟨S64, .f32⟩ : BufTy).Contents (Elt F) → (⟨S64, .f32⟩ : BufTy).Contents (Elt F)),
    binary main_v52 main_v88 main_v89 (Host.divf : (⟨S64, .f32⟩ : BufTy).Contents (Elt F) → (⟨S64, .f32⟩ : BufTy).Contents (Elt F) → (⟨S64, .f32⟩ : BufTy).Contents (Elt F)),
    unary main_v89 main_v90 (broadcastInDim S1x64 ![1] bcast_S64_S1x64_1 : (⟨S64, .f32⟩ : BufTy).Contents (Elt F) → (⟨S1x64, .f32⟩ : BufTy).Contents (Elt F)),
    unary main_v90 main_v91 (broadcastInDim S50000x64 ![0, 1] bcast_S1x64_S50000x64_0_1 : (⟨S1x64, .f32⟩ : BufTy).Contents (Elt F) → (⟨S50000x64, .f32⟩ : BufTy).Contents (Elt F)),
    binary main_v85 main_v91 main_v92 (mulf : (⟨S50000x64, .f32⟩ : BufTy).Contents (Elt F) → (⟨S50000x64, .f32⟩ : BufTy).Contents (Elt F) → (⟨S50000x64, .f32⟩ : BufTy).Contents (Elt F)),
    unary main_v54 main_v93 (broadcastInDim S1x64 ![1] bcast_S64_S1x64_1 : (⟨S64, .f32⟩ : BufTy).Contents (Elt F) → (⟨S1x64, .f32⟩ : BufTy).Contents (Elt F)),
    unary main_v93 main_v94 (broadcastInDim S50000x64 ![0, 1] bcast_S1x64_S50000x64_0_1 : (⟨S1x64, .f32⟩ : BufTy).Contents (Elt F) → (⟨S50000x64, .f32⟩ : BufTy).Contents (Elt F)),
    binary main_v92 main_v94 main_v95 (addf : (⟨S50000x64, .f32⟩ : BufTy).Contents (Elt F) → (⟨S50000x64, .f32⟩ : BufTy).Contents (Elt F) → (⟨S50000x64, .f32⟩ : BufTy).Contents (Elt F)) ]

/-- The buffers the operations of this stretch write, one each, in order. -/
abbrev ops1_W : List (Ref sig .tc) := [main_v41, main_v42, main_v43, main_v44, main_v45, main_v46, main_v47, main_v48, main_v49, main_v50, main_v51, main_v52, main_v53, main_v54, main_v55, main_v56, main_v57, main_v58, main_c_3, main_v59, main_v60, main_c_4, main_v61, main_v62, main_v63, main_v64, main_v65, main_cst_5, main_v66, main_v67, main_v68, main_cst_6, main_v69, main_v70, main_v71, main_v72, main_v73, main_v74, main_v75, main_v76, main_call2_cst, main_call2_v0, main_v77, main_v78, main_v79, main_v80, main_v81, main_call3_cst, main_call3_v0, main_v82, main_v83, main_v84, main_v85, main_cst_7, main_v86, main_v87, main_v88, main_v89, main_v90, main_v91, main_v92, main_v93, main_v94, main_v95]

set_option maxRecDepth 8192 in
theorem ops1_fresh : (ops1 : List (HloOp τ sig (Elt F))).Forall fun op => op.fresh = ∅ := by
  simp only [List.Forall]; repeat' constructor

set_option maxRecDepth 8192 in
set_option maxHeartbeats 4000000 in
theorem ops1_sub : (ops1 : List (HloOp τ sig (Elt F))).Forall fun op => op.bufs ⊆ tcRefs τ sig := by
  simp only [List.Forall, nullary_bufs_sub, unary_bufs_sub, binary_bufs_sub, ternary_bufs_sub, reshape_bufs_sub, nary_bufs_sub,
    and_self]

set_option maxRecDepth 8192 in
set_option maxHeartbeats 4000000 in
theorem ops1_writes : (ops1 : List (HloOp τ sig (Elt F))).Forall fun op =>
    op.writes ⊆ (ops1_W.map (Proc.devRef (τ := τ) .tc)).toFinset := by
  simp only [List.Forall]
  repeat' constructor
  all_goals
    simp only [nullary_writes, unary_writes, binary_writes, ternary_writes, reshape_writes, nary_writes,
      Finset.singleton_subset_iff, List.mem_toFinset]
    exact List.mem_map_of_mem (by decide)

/-- A buffer this stretch does not write keeps its contents. -/
theorem ops1_keep (W : Valuation τ sig (Elt F)) (r : Ref sig .tc) (h : r ∉ ops1_W := by decide) :
    after ops1 W (Proc.devRef .tc r) = W (Proc.devRef .tc r) :=
  after_of_writes_sub ops1 W ops1_writes h

/-- Operations 115 … 178: the third layer. -/
abbrev ops2 : List (HloOp τ sig (Elt F)) :=
  [ unary main_arg12 main_v96 ((extractStridedSlice S1 ![1] · slices_S4_S1_1) : (⟨S4, .f32⟩ : BufTy).Contents (Elt F) → (⟨S1, .f32⟩ : BufTy).Contents (Elt F)),
    reshape main_v96 main_v97 rfl shapeCasts_S1_S_,
    unary main_arg13 main_v98 ((extractStridedSlice S1x64x64 ![1, 0, 0] · slices_S4x64x64_S1x64x64_1_0_0) : (⟨S4x64x64, .f32⟩ : BufTy).Contents (Elt F) → (⟨S1x64x64, .f32⟩ : BufTy).Contents (Elt F)),
    reshape main_v98 main_v99 rfl shapeCasts_S1x64x64_S64x64,
    unary main_arg14 main_v100 ((extractStridedSlice S1x64 ![1, 0] · slices_S4x64_S1x64_1_0) : (⟨S4x64, .f32⟩ : BufTy).Contents (Elt F) → (⟨S1x64, .f32⟩ : BufTy).Contents (Elt F)),
    reshape main_v100 main_v101 rfl shapeCasts_S1x64_S64,
    unary main_arg15 main_v102 ((extractStridedSlice S1x64x64 ![1, 0, 0] · slices_S4x64x64_S1x64x64_1_0_0) : (⟨S4x64x64, .f32⟩ : BufTy).Contents (Elt F) → (⟨S1x64x64, .f32⟩ : BufTy).Contents (Elt F)),
    reshape main_v102 main_v103 rfl shapeCasts_S1x64x64_S64x64,
    unary main_arg16 main_v104 ((extractStridedSlice S1x64 ![1, 0] · slices_S4x64_S1x64_1_0) : (⟨S4x64, .f32⟩ : BufTy).Contents (Elt F) → (⟨S1x64, .f32⟩ : BufTy).Contents (Elt F)),
    reshape main_v104 main_v105 rfl shapeCasts_S1x64_S64,
    unary main_arg17 main_v106 ((extractStridedSlice S1x64 ![1, 0] · slices_S4x64_S1x64_1_0) : (⟨S4x64, .f32⟩ : BufTy).Contents (Elt F) → (⟨S1x64, .f32⟩ : BufTy).Contents (Elt F)),
    reshape main_v106 main_v107 rfl shapeCasts_S1x64_S64,
    unary main_arg18 main_v108 ((extractStridedSlice S1x64 ![1, 0] · slices_S4x64_S1x64_1_0) : (⟨S4x64, .f32⟩ : BufTy).Contents (Elt F) → (⟨S1x64, .f32⟩ : BufTy).Contents (Elt F)),
    reshape main_v108 main_v109 rfl shapeCasts_S1x64_S64,
    unary main_arg19 main_v110 ((extractStridedSlice S1x64 ![1, 0] · slices_S4x64_S1x64_1_0) : (⟨S4x64, .f32⟩ : BufTy).Contents (Elt F) → (⟨S1x64, .f32⟩ : BufTy).Contents (Elt F)),
    reshape main_v110 main_v111 rfl shapeCasts_S1x64_S64,
    unary main_arg20 main_v112 ((extractStridedSlice S1x64 ![1, 0] · slices_S4x64_S1x64_1_0) : (⟨S4x64, .f32⟩ : BufTy).Contents (Elt F) → (⟨S1x64, .f32⟩ : BufTy).Contents (Elt F)),
    reshape main_v112 main_v113 rfl shapeCasts_S1x64_S64,
    nullary main_c_8 (constantI S_ 32 0#32),
    unary main_c_8 main_v114 (broadcastInDim S800000 ![] bcast_S_S800000 : (⟨S_, .i32⟩ : BufTy).Contents (Elt F) → (⟨S800000, .i32⟩ : BufTy).Contents (Elt F)),
    binary main_v1 main_v114 main_v115 (cmpi .slt : (⟨S800000, .i32⟩ : BufTy).Contents (Elt F) → (⟨S800000, .i32⟩ : BufTy).Contents (Elt F) → (⟨S800000, .i1⟩ : BufTy).Contents (Elt F)),
    nullary main_c_9 (constantI S_ 32 50000#32),
    unary main_c_9 main_v116 (broadcastInDim S800000 ![] bcast_S_S800000 : (⟨S_, .i32⟩ : BufTy).Contents (Elt F) → (⟨S800000, .i32⟩ : BufTy).Contents (Elt F)),
    binary main_v1 main_v116 main_v117 (addi : (⟨S800000, .i32⟩ : BufTy).Contents (Elt F) → (⟨S800000, .i32⟩ : BufTy).Contents (Elt F) → (⟨S800000, .i32⟩ : BufTy).Contents (Elt F)),
    ternary main_v115 main_v117 main_v1 main_v118 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v118 main_v119 (broadcastInDim S800000x1 ![0] bcast_S800000_S800000x1_0 : (⟨S800000, .i32⟩ : BufTy).Contents (Elt F) → (⟨S800000x1, .i32⟩ : BufTy).Contents (Elt F)),
    binary main_v95 main_v119 main_v120 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst_10 (constant S_ .f32 0x00000000#32),
    unary main_cst_10 main_v121 (broadcastInDim S50000x64 ![] bcast_S_S50000x64 : (⟨S_, .f32⟩ : BufTy).Contents (Elt F) → (⟨S50000x64, .f32⟩ : BufTy).Contents (Elt F)),
    unary main_v3 main_v122 (broadcastInDim S800000x1 ![0] bcast_S800000_S800000x1_0 : (⟨S800000, .i32⟩ : BufTy).Contents (Elt F) → (⟨S800000x1, .i32⟩ : BufTy).Contents (Elt F)),
    ternary main_v121 main_v122 main_v120 main_v123 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    nullary main_cst_11 (constant S_ .f32 0x3F800000#32),
    binary main_cst_11 main_v97 main_v124 (addf : (⟨S_, .f32⟩ : BufTy).Contents (Elt F) → (⟨S_, .f32⟩ : BufTy).Contents (Elt F) → (⟨S_, .f32⟩ : BufTy).Contents (Elt F)),
    unary main_v124 main_v125 (broadcastInDim S50000x64 ![] bcast_S_S50000x64 : (⟨S_, .f32⟩ : BufTy).Contents (Elt F) → (⟨S50000x64, .f32⟩ : BufTy).Contents (Elt F)),
    binary main_v125 main_v95 main_v126 (mulf : (⟨S50000x64, .f32⟩ : BufTy).Contents (Elt F) → (⟨S50000x64, .f32⟩ : BufTy).Contents (Elt F) → (⟨S50000x64, .f32⟩ : BufTy).Contents (Elt F)),
    binary main_v126 main_v123 main_v127 (addf : (⟨S50000x64, .f32⟩ : BufTy).Contents (Elt F) → (⟨S50000x64, .f32⟩ : BufTy).Contents (Elt F) → (⟨S50000x64, .f32⟩ : BufTy).Contents (Elt F)),
    binary main_v127 main_v99 main_v128 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_v101 main_v129 (broadcastInDim S1x64 ![1] bcast_S64_S1x64_1 : (⟨S64, .f32⟩ : BufTy).Contents (Elt F) → (⟨S1x64, .f32⟩ : BufTy).Contents (Elt F)),
    unary main_v129 main_v130 (broadcastInDim S50000x64 ![0, 1] bcast_S1x64_S50000x64_0_1 : (⟨S1x64, .f32⟩ : BufTy).Contents (Elt F) → (⟨S50000x64, .f32⟩ : BufTy).Contents (Elt F)),
    binary main_v128 main_v130 main_v131 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S50000x64, .f32⟩) main_call4_v0) (broadcastInDim S50000x64 ![] bcast_S_S50000x64),
    TRef.binary (TRef.of (T := ⟨S50000x64, .f32⟩) main_v131) (TRef.of (T := ⟨S50000x64, .f32⟩) main_call4_v0) (TRef.of (T := ⟨S50000x64, .f32⟩) main_v132) maximumf,
    binary main_v132 main_v103 main_v133 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_v105 main_v134 (broadcastInDim S1x64 ![1] bcast_S64_S1x64_1 : (⟨S64, .f32⟩ : BufTy).Contents (Elt F) → (⟨S1x64, .f32⟩ : BufTy).Contents (Elt F)),
    unary main_v134 main_v135 (broadcastInDim S50000x64 ![0, 1] bcast_S1x64_S50000x64_0_1 : (⟨S1x64, .f32⟩ : BufTy).Contents (Elt F) → (⟨S50000x64, .f32⟩ : BufTy).Contents (Elt F)),
    binary main_v133 main_v135 main_v136 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S50000x64, .f32⟩) main_call5_v0) (broadcastInDim S50000x64 ![] bcast_S_S50000x64),
    TRef.binary (TRef.of (T := ⟨S50000x64, .f32⟩) main_v136) (TRef.of (T := ⟨S50000x64, .f32⟩) main_call5_v0) (TRef.of (T := ⟨S50000x64, .f32⟩) main_v137) maximumf,
    unary main_v111 main_v138 (broadcastInDim S1x64 ![1] bcast_S64_S1x64_1 : (⟨S64, .f32⟩ : BufTy).Contents (Elt F) → (⟨S1x64, .f32⟩ : BufTy).Contents (Elt F)),
    unary main_v138 main_v139 (broadcastInDim S50000x64 ![0, 1] bcast_S1x64_S50000x64_0_1 : (⟨S1x64, .f32⟩ : BufTy).Contents (Elt F) → (⟨S50000x64, .f32⟩ : BufTy).Contents (Elt F)),
    binary main_v137 main_v139 main_v140 (subf : (⟨S50000x64, .f32⟩ : BufTy).Contents (Elt F) → (⟨S50000x64, .f32⟩ : BufTy).Contents (Elt F) → (⟨S50000x64, .f32⟩ : BufTy).Contents (Elt F)),
    nullary main_cst_12 (constant S_ .f32 0x3727C5AC#32),
    unary main_cst_12 main_v141 (broadcastInDim S64 ![] bcast_S_S64 : (⟨S_, .f32⟩ : BufTy).Contents (Elt F) → (⟨S64, .f32⟩ : BufTy).Contents (Elt F)),
    binary main_v113 main_v141 main_v142 (addf : (⟨S64, .f32⟩ : BufTy).Contents (Elt F) → (⟨S64, .f32⟩ : BufTy).Contents (Elt F) → (⟨S64, .f32⟩ : BufTy).Contents (Elt F)),
    unary main_v142 main_v143 (Host.sqrt : (⟨S64, .f32⟩ : BufTy).Contents (Elt F) → (⟨S64, .f32⟩ : BufTy).Contents (Elt F)),
    binary main_v107 main_v143 main_v144 (Host.divf : (⟨S64, .f32⟩ : BufTy).Contents (Elt F) → (⟨S64, .f32⟩ : BufTy).Contents (Elt F) → (⟨S64, .f32⟩ : BufTy).Contents (Elt F)),
    unary main_v144 main_v145 (broadcastInDim S1x64 ![1] bcast_S64_S1x64_1 : (⟨S64, .f32⟩ : BufTy).Contents (Elt F) → (⟨S1x64, .f32⟩ : BufTy).Contents (Elt F)),
    unary main_v145 main_v146 (broadcastInDim S50000x64 ![0, 1] bcast_S1x64_S50000x64_0_1 : (⟨S1x64, .f32⟩ : BufTy).Contents (Elt F) → (⟨S50000x64, .f32⟩ : BufTy).Contents (Elt F)),
    binary main_v140 main_v146 main_v147 (mulf : (⟨S50000x64, .f32⟩ : BufTy).Contents (Elt F) → (⟨S50000x64, .f32⟩ : BufTy).Contents (Elt F) → (⟨S50000x64, .f32⟩ : BufTy).Contents (Elt F)),
    unary main_v109 main_v148 (broadcastInDim S1x64 ![1] bcast_S64_S1x64_1 : (⟨S64, .f32⟩ : BufTy).Contents (Elt F) → (⟨S1x64, .f32⟩ : BufTy).Contents (Elt F)),
    unary main_v148 main_v149 (broadcastInDim S50000x64 ![0, 1] bcast_S1x64_S50000x64_0_1 : (⟨S1x64, .f32⟩ : BufTy).Contents (Elt F) → (⟨S50000x64, .f32⟩ : BufTy).Contents (Elt F)),
    binary main_v147 main_v149 main_v150 (addf : (⟨S50000x64, .f32⟩ : BufTy).Contents (Elt F) → (⟨S50000x64, .f32⟩ : BufTy).Contents (Elt F) → (⟨S50000x64, .f32⟩ : BufTy).Contents (Elt F)) ]

/-- The buffers the operations of this stretch write, one each, in order. -/
abbrev ops2_W : List (Ref sig .tc) := [main_v96, main_v97, main_v98, main_v99, main_v100, main_v101, main_v102, main_v103, main_v104, main_v105, main_v106, main_v107, main_v108, main_v109, main_v110, main_v111, main_v112, main_v113, main_c_8, main_v114, main_v115, main_c_9, main_v116, main_v117, main_v118, main_v119, main_v120, main_cst_10, main_v121, main_v122, main_v123, main_cst_11, main_v124, main_v125, main_v126, main_v127, main_v128, main_v129, main_v130, main_v131, main_call4_cst, main_call4_v0, main_v132, main_v133, main_v134, main_v135, main_v136, main_call5_cst, main_call5_v0, main_v137, main_v138, main_v139, main_v140, main_cst_12, main_v141, main_v142, main_v143, main_v144, main_v145, main_v146, main_v147, main_v148, main_v149, main_v150]

set_option maxRecDepth 8192 in
theorem ops2_fresh : (ops2 : List (HloOp τ sig (Elt F))).Forall fun op => op.fresh = ∅ := by
  simp only [List.Forall]; repeat' constructor

set_option maxRecDepth 8192 in
set_option maxHeartbeats 4000000 in
theorem ops2_sub : (ops2 : List (HloOp τ sig (Elt F))).Forall fun op => op.bufs ⊆ tcRefs τ sig := by
  simp only [List.Forall, nullary_bufs_sub, unary_bufs_sub, binary_bufs_sub, ternary_bufs_sub, reshape_bufs_sub, nary_bufs_sub,
    and_self]

set_option maxRecDepth 8192 in
set_option maxHeartbeats 4000000 in
theorem ops2_writes : (ops2 : List (HloOp τ sig (Elt F))).Forall fun op =>
    op.writes ⊆ (ops2_W.map (Proc.devRef (τ := τ) .tc)).toFinset := by
  simp only [List.Forall]
  repeat' constructor
  all_goals
    simp only [nullary_writes, unary_writes, binary_writes, ternary_writes, reshape_writes, nary_writes,
      Finset.singleton_subset_iff, List.mem_toFinset]
    exact List.mem_map_of_mem (by decide)

/-- A buffer this stretch does not write keeps its contents. -/
theorem ops2_keep (W : Valuation τ sig (Elt F)) (r : Ref sig .tc) (h : r ∉ ops2_W := by decide) :
    after ops2 W (Proc.devRef .tc r) = W (Proc.devRef .tc r) :=
  after_of_writes_sub ops2 W ops2_writes h

/-- Operations 179 … 242: the fourth layer. -/
abbrev ops3 : List (HloOp τ sig (Elt F)) :=
  [ unary main_arg12 main_v151 ((extractStridedSlice S1 ![2] · slices_S4_S1_2) : (⟨S4, .f32⟩ : BufTy).Contents (Elt F) → (⟨S1, .f32⟩ : BufTy).Contents (Elt F)),
    reshape main_v151 main_v152 rfl shapeCasts_S1_S_,
    unary main_arg13 main_v153 ((extractStridedSlice S1x64x64 ![2, 0, 0] · slices_S4x64x64_S1x64x64_2_0_0) : (⟨S4x64x64, .f32⟩ : BufTy).Contents (Elt F) → (⟨S1x64x64, .f32⟩ : BufTy).Contents (Elt F)),
    reshape main_v153 main_v154 rfl shapeCasts_S1x64x64_S64x64,
    unary main_arg14 main_v155 ((extractStridedSlice S1x64 ![2, 0] · slices_S4x64_S1x64_2_0) : (⟨S4x64, .f32⟩ : BufTy).Contents (Elt F) → (⟨S1x64, .f32⟩ : BufTy).Contents (Elt F)),
    reshape main_v155 main_v156 rfl shapeCasts_S1x64_S64,
    unary main_arg15 main_v157 ((extractStridedSlice S1x64x64 ![2, 0, 0] · slices_S4x64x64_S1x64x64_2_0_0) : (⟨S4x64x64, .f32⟩ : BufTy).Contents (Elt F) → (⟨S1x64x64, .f32⟩ : BufTy).Contents (Elt F)),
    reshape main_v157 main_v158 rfl shapeCasts_S1x64x64_S64x64,
    unary main_arg16 main_v159 ((extractStridedSlice S1x64 ![2, 0] · slices_S4x64_S1x64_2_0) : (⟨S4x64, .f32⟩ : BufTy).Contents (Elt F) → (⟨S1x64, .f32⟩ : BufTy).Contents (Elt F)),
    reshape main_v159 main_v160 rfl shapeCasts_S1x64_S64,
    unary main_arg17 main_v161 ((extractStridedSlice S1x64 ![2, 0] · slices_S4x64_S1x64_2_0) : (⟨S4x64, .f32⟩ : BufTy).Contents (Elt F) → (⟨S1x64, .f32⟩ : BufTy).Contents (Elt F)),
    reshape main_v161 main_v162 rfl shapeCasts_S1x64_S64,
    unary main_arg18 main_v163 ((extractStridedSlice S1x64 ![2, 0] · slices_S4x64_S1x64_2_0) : (⟨S4x64, .f32⟩ : BufTy).Contents (Elt F) → (⟨S1x64, .f32⟩ : BufTy).Contents (Elt F)),
    reshape main_v163 main_v164 rfl shapeCasts_S1x64_S64,
    unary main_arg19 main_v165 ((extractStridedSlice S1x64 ![2, 0] · slices_S4x64_S1x64_2_0) : (⟨S4x64, .f32⟩ : BufTy).Contents (Elt F) → (⟨S1x64, .f32⟩ : BufTy).Contents (Elt F)),
    reshape main_v165 main_v166 rfl shapeCasts_S1x64_S64,
    unary main_arg20 main_v167 ((extractStridedSlice S1x64 ![2, 0] · slices_S4x64_S1x64_2_0) : (⟨S4x64, .f32⟩ : BufTy).Contents (Elt F) → (⟨S1x64, .f32⟩ : BufTy).Contents (Elt F)),
    reshape main_v167 main_v168 rfl shapeCasts_S1x64_S64,
    nullary main_c_13 (constantI S_ 32 0#32),
    unary main_c_13 main_v169 (broadcastInDim S800000 ![] bcast_S_S800000 : (⟨S_, .i32⟩ : BufTy).Contents (Elt F) → (⟨S800000, .i32⟩ : BufTy).Contents (Elt F)),
    binary main_v1 main_v169 main_v170 (cmpi .slt : (⟨S800000, .i32⟩ : BufTy).Contents (Elt F) → (⟨S800000, .i32⟩ : BufTy).Contents (Elt F) → (⟨S800000, .i1⟩ : BufTy).Contents (Elt F)),
    nullary main_c_14 (constantI S_ 32 50000#32),
    unary main_c_14 main_v171 (broadcastInDim S800000 ![] bcast_S_S800000 : (⟨S_, .i32⟩ : BufTy).Contents (Elt F) → (⟨S800000, .i32⟩ : BufTy).Contents (Elt F)),
    binary main_v1 main_v171 main_v172 (addi : (⟨S800000, .i32⟩ : BufTy).Contents (Elt F) → (⟨S800000, .i32⟩ : BufTy).Contents (Elt F) → (⟨S800000, .i32⟩ : BufTy).Contents (Elt F)),
    ternary main_v170 main_v172 main_v1 main_v173 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v173 main_v174 (broadcastInDim S800000x1 ![0] bcast_S800000_S800000x1_0 : (⟨S800000, .i32⟩ : BufTy).Contents (Elt F) → (⟨S800000x1, .i32⟩ : BufTy).Contents (Elt F)),
    binary main_v150 main_v174 main_v175 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst_15 (constant S_ .f32 0x00000000#32),
    unary main_cst_15 main_v176 (broadcastInDim S50000x64 ![] bcast_S_S50000x64 : (⟨S_, .f32⟩ : BufTy).Contents (Elt F) → (⟨S50000x64, .f32⟩ : BufTy).Contents (Elt F)),
    unary main_v3 main_v177 (broadcastInDim S800000x1 ![0] bcast_S800000_S800000x1_0 : (⟨S800000, .i32⟩ : BufTy).Contents (Elt F) → (⟨S800000x1, .i32⟩ : BufTy).Contents (Elt F)),
    ternary main_v176 main_v177 main_v175 main_v178 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    nullary main_cst_16 (constant S_ .f32 0x3F800000#32),
    binary main_cst_16 main_v152 main_v179 (addf : (⟨S_, .f32⟩ : BufTy).Contents (Elt F) → (⟨S_, .f32⟩ : BufTy).Contents (Elt F) → (⟨S_, .f32⟩ : BufTy).Contents (Elt F)),
    unary main_v179 main_v180 (broadcastInDim S50000x64 ![] bcast_S_S50000x64 : (⟨S_, .f32⟩ : BufTy).Contents (Elt F) → (⟨S50000x64, .f32⟩ : BufTy).Contents (Elt F)),
    binary main_v180 main_v150 main_v181 (mulf : (⟨S50000x64, .f32⟩ : BufTy).Contents (Elt F) → (⟨S50000x64, .f32⟩ : BufTy).Contents (Elt F) → (⟨S50000x64, .f32⟩ : BufTy).Contents (Elt F)),
    binary main_v181 main_v178 main_v182 (addf : (⟨S50000x64, .f32⟩ : BufTy).Contents (Elt F) → (⟨S50000x64, .f32⟩ : BufTy).Contents (Elt F) → (⟨S50000x64, .f32⟩ : BufTy).Contents (Elt F)),
    binary main_v182 main_v154 main_v183 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_v156 main_v184 (broadcastInDim S1x64 ![1] bcast_S64_S1x64_1 : (⟨S64, .f32⟩ : BufTy).Contents (Elt F) → (⟨S1x64, .f32⟩ : BufTy).Contents (Elt F)),
    unary main_v184 main_v185 (broadcastInDim S50000x64 ![0, 1] bcast_S1x64_S50000x64_0_1 : (⟨S1x64, .f32⟩ : BufTy).Contents (Elt F) → (⟨S50000x64, .f32⟩ : BufTy).Contents (Elt F)),
    binary main_v183 main_v185 main_v186 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S50000x64, .f32⟩) main_call6_v0) (broadcastInDim S50000x64 ![] bcast_S_S50000x64),
    TRef.binary (TRef.of (T := ⟨S50000x64, .f32⟩) main_v186) (TRef.of (T := ⟨S50000x64, .f32⟩) main_call6_v0) (TRef.of (T := ⟨S50000x64, .f32⟩) main_v187) maximumf,
    binary main_v187 main_v158 main_v188 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_v160 main_v189 (broadcastInDim S1x64 ![1] bcast_S64_S1x64_1 : (⟨S64, .f32⟩ : BufTy).Contents (Elt F) → (⟨S1x64, .f32⟩ : BufTy).Contents (Elt F)),
    unary main_v189 main_v190 (broadcastInDim S50000x64 ![0, 1] bcast_S1x64_S50000x64_0_1 : (⟨S1x64, .f32⟩ : BufTy).Contents (Elt F) → (⟨S50000x64, .f32⟩ : BufTy).Contents (Elt F)),
    binary main_v188 main_v190 main_v191 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S50000x64, .f32⟩) main_call7_v0) (broadcastInDim S50000x64 ![] bcast_S_S50000x64),
    TRef.binary (TRef.of (T := ⟨S50000x64, .f32⟩) main_v191) (TRef.of (T := ⟨S50000x64, .f32⟩) main_call7_v0) (TRef.of (T := ⟨S50000x64, .f32⟩) main_v192) maximumf,
    unary main_v166 main_v193 (broadcastInDim S1x64 ![1] bcast_S64_S1x64_1 : (⟨S64, .f32⟩ : BufTy).Contents (Elt F) → (⟨S1x64, .f32⟩ : BufTy).Contents (Elt F)),
    unary main_v193 main_v194 (broadcastInDim S50000x64 ![0, 1] bcast_S1x64_S50000x64_0_1 : (⟨S1x64, .f32⟩ : BufTy).Contents (Elt F) → (⟨S50000x64, .f32⟩ : BufTy).Contents (Elt F)),
    binary main_v192 main_v194 main_v195 (subf : (⟨S50000x64, .f32⟩ : BufTy).Contents (Elt F) → (⟨S50000x64, .f32⟩ : BufTy).Contents (Elt F) → (⟨S50000x64, .f32⟩ : BufTy).Contents (Elt F)),
    nullary main_cst_17 (constant S_ .f32 0x3727C5AC#32),
    unary main_cst_17 main_v196 (broadcastInDim S64 ![] bcast_S_S64 : (⟨S_, .f32⟩ : BufTy).Contents (Elt F) → (⟨S64, .f32⟩ : BufTy).Contents (Elt F)),
    binary main_v168 main_v196 main_v197 (addf : (⟨S64, .f32⟩ : BufTy).Contents (Elt F) → (⟨S64, .f32⟩ : BufTy).Contents (Elt F) → (⟨S64, .f32⟩ : BufTy).Contents (Elt F)),
    unary main_v197 main_v198 (Host.sqrt : (⟨S64, .f32⟩ : BufTy).Contents (Elt F) → (⟨S64, .f32⟩ : BufTy).Contents (Elt F)),
    binary main_v162 main_v198 main_v199 (Host.divf : (⟨S64, .f32⟩ : BufTy).Contents (Elt F) → (⟨S64, .f32⟩ : BufTy).Contents (Elt F) → (⟨S64, .f32⟩ : BufTy).Contents (Elt F)),
    unary main_v199 main_v200 (broadcastInDim S1x64 ![1] bcast_S64_S1x64_1 : (⟨S64, .f32⟩ : BufTy).Contents (Elt F) → (⟨S1x64, .f32⟩ : BufTy).Contents (Elt F)),
    unary main_v200 main_v201 (broadcastInDim S50000x64 ![0, 1] bcast_S1x64_S50000x64_0_1 : (⟨S1x64, .f32⟩ : BufTy).Contents (Elt F) → (⟨S50000x64, .f32⟩ : BufTy).Contents (Elt F)),
    binary main_v195 main_v201 main_v202 (mulf : (⟨S50000x64, .f32⟩ : BufTy).Contents (Elt F) → (⟨S50000x64, .f32⟩ : BufTy).Contents (Elt F) → (⟨S50000x64, .f32⟩ : BufTy).Contents (Elt F)),
    unary main_v164 main_v203 (broadcastInDim S1x64 ![1] bcast_S64_S1x64_1 : (⟨S64, .f32⟩ : BufTy).Contents (Elt F) → (⟨S1x64, .f32⟩ : BufTy).Contents (Elt F)),
    unary main_v203 main_v204 (broadcastInDim S50000x64 ![0, 1] bcast_S1x64_S50000x64_0_1 : (⟨S1x64, .f32⟩ : BufTy).Contents (Elt F) → (⟨S50000x64, .f32⟩ : BufTy).Contents (Elt F)),
    binary main_v202 main_v204 main_v205 (addf : (⟨S50000x64, .f32⟩ : BufTy).Contents (Elt F) → (⟨S50000x64, .f32⟩ : BufTy).Contents (Elt F) → (⟨S50000x64, .f32⟩ : BufTy).Contents (Elt F)) ]

/-- The buffers the operations of this stretch write, one each, in order. -/
abbrev ops3_W : List (Ref sig .tc) := [main_v151, main_v152, main_v153, main_v154, main_v155, main_v156, main_v157, main_v158, main_v159, main_v160, main_v161, main_v162, main_v163, main_v164, main_v165, main_v166, main_v167, main_v168, main_c_13, main_v169, main_v170, main_c_14, main_v171, main_v172, main_v173, main_v174, main_v175, main_cst_15, main_v176, main_v177, main_v178, main_cst_16, main_v179, main_v180, main_v181, main_v182, main_v183, main_v184, main_v185, main_v186, main_call6_cst, main_call6_v0, main_v187, main_v188, main_v189, main_v190, main_v191, main_call7_cst, main_call7_v0, main_v192, main_v193, main_v194, main_v195, main_cst_17, main_v196, main_v197, main_v198, main_v199, main_v200, main_v201, main_v202, main_v203, main_v204, main_v205]

set_option maxRecDepth 8192 in
theorem ops3_fresh : (ops3 : List (HloOp τ sig (Elt F))).Forall fun op => op.fresh = ∅ := by
  simp only [List.Forall]; repeat' constructor

set_option maxRecDepth 8192 in
set_option maxHeartbeats 4000000 in
theorem ops3_sub : (ops3 : List (HloOp τ sig (Elt F))).Forall fun op => op.bufs ⊆ tcRefs τ sig := by
  simp only [List.Forall, nullary_bufs_sub, unary_bufs_sub, binary_bufs_sub, ternary_bufs_sub, reshape_bufs_sub, nary_bufs_sub,
    and_self]

set_option maxRecDepth 8192 in
set_option maxHeartbeats 4000000 in
theorem ops3_writes : (ops3 : List (HloOp τ sig (Elt F))).Forall fun op =>
    op.writes ⊆ (ops3_W.map (Proc.devRef (τ := τ) .tc)).toFinset := by
  simp only [List.Forall]
  repeat' constructor
  all_goals
    simp only [nullary_writes, unary_writes, binary_writes, ternary_writes, reshape_writes, nary_writes,
      Finset.singleton_subset_iff, List.mem_toFinset]
    exact List.mem_map_of_mem (by decide)

/-- A buffer this stretch does not write keeps its contents. -/
theorem ops3_keep (W : Valuation τ sig (Elt F)) (r : Ref sig .tc) (h : r ∉ ops3_W := by decide) :
    after ops3 W (Proc.devRef .tc r) = W (Proc.devRef .tc r) :=
  after_of_writes_sub ops3 W ops3_writes h

/-- Operations 243 … 306: the fifth layer. -/
abbrev ops4 : List (HloOp τ sig (Elt F)) :=
  [ unary main_arg12 main_v206 ((extractStridedSlice S1 ![3] · slices_S4_S1_3) : (⟨S4, .f32⟩ : BufTy).Contents (Elt F) → (⟨S1, .f32⟩ : BufTy).Contents (Elt F)),
    reshape main_v206 main_v207 rfl shapeCasts_S1_S_,
    unary main_arg13 main_v208 ((extractStridedSlice S1x64x64 ![3, 0, 0] · slices_S4x64x64_S1x64x64_3_0_0) : (⟨S4x64x64, .f32⟩ : BufTy).Contents (Elt F) → (⟨S1x64x64, .f32⟩ : BufTy).Contents (Elt F)),
    reshape main_v208 main_v209 rfl shapeCasts_S1x64x64_S64x64,
    unary main_arg14 main_v210 ((extractStridedSlice S1x64 ![3, 0] · slices_S4x64_S1x64_3_0) : (⟨S4x64, .f32⟩ : BufTy).Contents (Elt F) → (⟨S1x64, .f32⟩ : BufTy).Contents (Elt F)),
    reshape main_v210 main_v211 rfl shapeCasts_S1x64_S64,
    unary main_arg15 main_v212 ((extractStridedSlice S1x64x64 ![3, 0, 0] · slices_S4x64x64_S1x64x64_3_0_0) : (⟨S4x64x64, .f32⟩ : BufTy).Contents (Elt F) → (⟨S1x64x64, .f32⟩ : BufTy).Contents (Elt F)),
    reshape main_v212 main_v213 rfl shapeCasts_S1x64x64_S64x64,
    unary main_arg16 main_v214 ((extractStridedSlice S1x64 ![3, 0] · slices_S4x64_S1x64_3_0) : (⟨S4x64, .f32⟩ : BufTy).Contents (Elt F) → (⟨S1x64, .f32⟩ : BufTy).Contents (Elt F)),
    reshape main_v214 main_v215 rfl shapeCasts_S1x64_S64,
    unary main_arg17 main_v216 ((extractStridedSlice S1x64 ![3, 0] · slices_S4x64_S1x64_3_0) : (⟨S4x64, .f32⟩ : BufTy).Contents (Elt F) → (⟨S1x64, .f32⟩ : BufTy).Contents (Elt F)),
    reshape main_v216 main_v217 rfl shapeCasts_S1x64_S64,
    unary main_arg18 main_v218 ((extractStridedSlice S1x64 ![3, 0] · slices_S4x64_S1x64_3_0) : (⟨S4x64, .f32⟩ : BufTy).Contents (Elt F) → (⟨S1x64, .f32⟩ : BufTy).Contents (Elt F)),
    reshape main_v218 main_v219 rfl shapeCasts_S1x64_S64,
    unary main_arg19 main_v220 ((extractStridedSlice S1x64 ![3, 0] · slices_S4x64_S1x64_3_0) : (⟨S4x64, .f32⟩ : BufTy).Contents (Elt F) → (⟨S1x64, .f32⟩ : BufTy).Contents (Elt F)),
    reshape main_v220 main_v221 rfl shapeCasts_S1x64_S64,
    unary main_arg20 main_v222 ((extractStridedSlice S1x64 ![3, 0] · slices_S4x64_S1x64_3_0) : (⟨S4x64, .f32⟩ : BufTy).Contents (Elt F) → (⟨S1x64, .f32⟩ : BufTy).Contents (Elt F)),
    reshape main_v222 main_v223 rfl shapeCasts_S1x64_S64,
    nullary main_c_18 (constantI S_ 32 0#32),
    unary main_c_18 main_v224 (broadcastInDim S800000 ![] bcast_S_S800000 : (⟨S_, .i32⟩ : BufTy).Contents (Elt F) → (⟨S800000, .i32⟩ : BufTy).Contents (Elt F)),
    binary main_v1 main_v224 main_v225 (cmpi .slt : (⟨S800000, .i32⟩ : BufTy).Contents (Elt F) → (⟨S800000, .i32⟩ : BufTy).Contents (Elt F) → (⟨S800000, .i1⟩ : BufTy).Contents (Elt F)),
    nullary main_c_19 (constantI S_ 32 50000#32),
    unary main_c_19 main_v226 (broadcastInDim S800000 ![] bcast_S_S800000 : (⟨S_, .i32⟩ : BufTy).Contents (Elt F) → (⟨S800000, .i32⟩ : BufTy).Contents (Elt F)),
    binary main_v1 main_v226 main_v227 (addi : (⟨S800000, .i32⟩ : BufTy).Contents (Elt F) → (⟨S800000, .i32⟩ : BufTy).Contents (Elt F) → (⟨S800000, .i32⟩ : BufTy).Contents (Elt F)),
    ternary main_v225 main_v227 main_v1 main_v228 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v228 main_v229 (broadcastInDim S800000x1 ![0] bcast_S800000_S800000x1_0 : (⟨S800000, .i32⟩ : BufTy).Contents (Elt F) → (⟨S800000x1, .i32⟩ : BufTy).Contents (Elt F)),
    binary main_v205 main_v229 main_v230 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst_20 (constant S_ .f32 0x00000000#32),
    unary main_cst_20 main_v231 (broadcastInDim S50000x64 ![] bcast_S_S50000x64 : (⟨S_, .f32⟩ : BufTy).Contents (Elt F) → (⟨S50000x64, .f32⟩ : BufTy).Contents (Elt F)),
    unary main_v3 main_v232 (broadcastInDim S800000x1 ![0] bcast_S800000_S800000x1_0 : (⟨S800000, .i32⟩ : BufTy).Contents (Elt F) → (⟨S800000x1, .i32⟩ : BufTy).Contents (Elt F)),
    ternary main_v231 main_v232 main_v230 main_v233 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    nullary main_cst_21 (constant S_ .f32 0x3F800000#32),
    binary main_cst_21 main_v207 main_v234 (addf : (⟨S_, .f32⟩ : BufTy).Contents (Elt F) → (⟨S_, .f32⟩ : BufTy).Contents (Elt F) → (⟨S_, .f32⟩ : BufTy).Contents (Elt F)),
    unary main_v234 main_v235 (broadcastInDim S50000x64 ![] bcast_S_S50000x64 : (⟨S_, .f32⟩ : BufTy).Contents (Elt F) → (⟨S50000x64, .f32⟩ : BufTy).Contents (Elt F)),
    binary main_v235 main_v205 main_v236 (mulf : (⟨S50000x64, .f32⟩ : BufTy).Contents (Elt F) → (⟨S50000x64, .f32⟩ : BufTy).Contents (Elt F) → (⟨S50000x64, .f32⟩ : BufTy).Contents (Elt F)),
    binary main_v236 main_v233 main_v237 (addf : (⟨S50000x64, .f32⟩ : BufTy).Contents (Elt F) → (⟨S50000x64, .f32⟩ : BufTy).Contents (Elt F) → (⟨S50000x64, .f32⟩ : BufTy).Contents (Elt F)),
    binary main_v237 main_v209 main_v238 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_v211 main_v239 (broadcastInDim S1x64 ![1] bcast_S64_S1x64_1 : (⟨S64, .f32⟩ : BufTy).Contents (Elt F) → (⟨S1x64, .f32⟩ : BufTy).Contents (Elt F)),
    unary main_v239 main_v240 (broadcastInDim S50000x64 ![0, 1] bcast_S1x64_S50000x64_0_1 : (⟨S1x64, .f32⟩ : BufTy).Contents (Elt F) → (⟨S50000x64, .f32⟩ : BufTy).Contents (Elt F)),
    binary main_v238 main_v240 main_v241 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S50000x64, .f32⟩) main_call8_v0) (broadcastInDim S50000x64 ![] bcast_S_S50000x64),
    TRef.binary (TRef.of (T := ⟨S50000x64, .f32⟩) main_v241) (TRef.of (T := ⟨S50000x64, .f32⟩) main_call8_v0) (TRef.of (T := ⟨S50000x64, .f32⟩) main_v242) maximumf,
    binary main_v242 main_v213 main_v243 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_v215 main_v244 (broadcastInDim S1x64 ![1] bcast_S64_S1x64_1 : (⟨S64, .f32⟩ : BufTy).Contents (Elt F) → (⟨S1x64, .f32⟩ : BufTy).Contents (Elt F)),
    unary main_v244 main_v245 (broadcastInDim S50000x64 ![0, 1] bcast_S1x64_S50000x64_0_1 : (⟨S1x64, .f32⟩ : BufTy).Contents (Elt F) → (⟨S50000x64, .f32⟩ : BufTy).Contents (Elt F)),
    binary main_v243 main_v245 main_v246 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S50000x64, .f32⟩) main_call9_v0) (broadcastInDim S50000x64 ![] bcast_S_S50000x64),
    TRef.binary (TRef.of (T := ⟨S50000x64, .f32⟩) main_v246) (TRef.of (T := ⟨S50000x64, .f32⟩) main_call9_v0) (TRef.of (T := ⟨S50000x64, .f32⟩) main_v247) maximumf,
    unary main_v221 main_v248 (broadcastInDim S1x64 ![1] bcast_S64_S1x64_1 : (⟨S64, .f32⟩ : BufTy).Contents (Elt F) → (⟨S1x64, .f32⟩ : BufTy).Contents (Elt F)),
    unary main_v248 main_v249 (broadcastInDim S50000x64 ![0, 1] bcast_S1x64_S50000x64_0_1 : (⟨S1x64, .f32⟩ : BufTy).Contents (Elt F) → (⟨S50000x64, .f32⟩ : BufTy).Contents (Elt F)),
    binary main_v247 main_v249 main_v250 (subf : (⟨S50000x64, .f32⟩ : BufTy).Contents (Elt F) → (⟨S50000x64, .f32⟩ : BufTy).Contents (Elt F) → (⟨S50000x64, .f32⟩ : BufTy).Contents (Elt F)),
    nullary main_cst_22 (constant S_ .f32 0x3727C5AC#32),
    unary main_cst_22 main_v251 (broadcastInDim S64 ![] bcast_S_S64 : (⟨S_, .f32⟩ : BufTy).Contents (Elt F) → (⟨S64, .f32⟩ : BufTy).Contents (Elt F)),
    binary main_v223 main_v251 main_v252 (addf : (⟨S64, .f32⟩ : BufTy).Contents (Elt F) → (⟨S64, .f32⟩ : BufTy).Contents (Elt F) → (⟨S64, .f32⟩ : BufTy).Contents (Elt F)),
    unary main_v252 main_v253 (Host.sqrt : (⟨S64, .f32⟩ : BufTy).Contents (Elt F) → (⟨S64, .f32⟩ : BufTy).Contents (Elt F)),
    binary main_v217 main_v253 main_v254 (Host.divf : (⟨S64, .f32⟩ : BufTy).Contents (Elt F) → (⟨S64, .f32⟩ : BufTy).Contents (Elt F) → (⟨S64, .f32⟩ : BufTy).Contents (Elt F)),
    unary main_v254 main_v255 (broadcastInDim S1x64 ![1] bcast_S64_S1x64_1 : (⟨S64, .f32⟩ : BufTy).Contents (Elt F) → (⟨S1x64, .f32⟩ : BufTy).Contents (Elt F)),
    unary main_v255 main_v256 (broadcastInDim S50000x64 ![0, 1] bcast_S1x64_S50000x64_0_1 : (⟨S1x64, .f32⟩ : BufTy).Contents (Elt F) → (⟨S50000x64, .f32⟩ : BufTy).Contents (Elt F)),
    binary main_v250 main_v256 main_v257 (mulf : (⟨S50000x64, .f32⟩ : BufTy).Contents (Elt F) → (⟨S50000x64, .f32⟩ : BufTy).Contents (Elt F) → (⟨S50000x64, .f32⟩ : BufTy).Contents (Elt F)),
    unary main_v219 main_v258 (broadcastInDim S1x64 ![1] bcast_S64_S1x64_1 : (⟨S64, .f32⟩ : BufTy).Contents (Elt F) → (⟨S1x64, .f32⟩ : BufTy).Contents (Elt F)),
    unary main_v258 main_v259 (broadcastInDim S50000x64 ![0, 1] bcast_S1x64_S50000x64_0_1 : (⟨S1x64, .f32⟩ : BufTy).Contents (Elt F) → (⟨S50000x64, .f32⟩ : BufTy).Contents (Elt F)),
    binary main_v257 main_v259 main_v260 (addf : (⟨S50000x64, .f32⟩ : BufTy).Contents (Elt F) → (⟨S50000x64, .f32⟩ : BufTy).Contents (Elt F) → (⟨S50000x64, .f32⟩ : BufTy).Contents (Elt F)) ]

/-- The buffers the operations of this stretch write, one each, in order. -/
abbrev ops4_W : List (Ref sig .tc) := [main_v206, main_v207, main_v208, main_v209, main_v210, main_v211, main_v212, main_v213, main_v214, main_v215, main_v216, main_v217, main_v218, main_v219, main_v220, main_v221, main_v222, main_v223, main_c_18, main_v224, main_v225, main_c_19, main_v226, main_v227, main_v228, main_v229, main_v230, main_cst_20, main_v231, main_v232, main_v233, main_cst_21, main_v234, main_v235, main_v236, main_v237, main_v238, main_v239, main_v240, main_v241, main_call8_cst, main_call8_v0, main_v242, main_v243, main_v244, main_v245, main_v246, main_call9_cst, main_call9_v0, main_v247, main_v248, main_v249, main_v250, main_cst_22, main_v251, main_v252, main_v253, main_v254, main_v255, main_v256, main_v257, main_v258, main_v259, main_v260]

set_option maxRecDepth 8192 in
theorem ops4_fresh : (ops4 : List (HloOp τ sig (Elt F))).Forall fun op => op.fresh = ∅ := by
  simp only [List.Forall]; repeat' constructor

set_option maxRecDepth 8192 in
set_option maxHeartbeats 4000000 in
theorem ops4_sub : (ops4 : List (HloOp τ sig (Elt F))).Forall fun op => op.bufs ⊆ tcRefs τ sig := by
  simp only [List.Forall, nullary_bufs_sub, unary_bufs_sub, binary_bufs_sub, ternary_bufs_sub, reshape_bufs_sub, nary_bufs_sub,
    and_self]

set_option maxRecDepth 8192 in
set_option maxHeartbeats 4000000 in
theorem ops4_writes : (ops4 : List (HloOp τ sig (Elt F))).Forall fun op =>
    op.writes ⊆ (ops4_W.map (Proc.devRef (τ := τ) .tc)).toFinset := by
  simp only [List.Forall]
  repeat' constructor
  all_goals
    simp only [nullary_writes, unary_writes, binary_writes, ternary_writes, reshape_writes, nary_writes,
      Finset.singleton_subset_iff, List.mem_toFinset]
    exact List.mem_map_of_mem (by decide)

/-- A buffer this stretch does not write keeps its contents. -/
theorem ops4_keep (W : Valuation τ sig (Elt F)) (r : Ref sig .tc) (h : r ∉ ops4_W := by decide) :
    after ops4 W (Proc.devRef .tc r) = W (Proc.devRef .tc r) :=
  after_of_writes_sub ops4 W ops4_writes h

/-- Operations 307 … 349: the five outputs side by side, the per-graph mean and the read-out. -/
abbrev ops5 : List (HloOp τ sig (Elt F)) :=
  [ nary ![main_v40, main_v95, main_v150, main_v205, main_v260] main_v261 (fun u => concatenate S50000x320 1 [⟨S50000x64, u 0⟩, ⟨S50000x64, u 1⟩, ⟨S50000x64, u 2⟩, ⟨S50000x64, u 3⟩, ⟨S50000x64, u 4⟩] concatenates_S50000x64_S50000x64_S50000x64_S50000x64_S50000x64_S50000x320_d1),
    nullary main_cst_23 (constant S_ .f32 0x00000000#32),
    unary main_cst_23 main_v262 (broadcastInDim S512x320 ![] bcast_S_S512x320 : (⟨S_, .f32⟩ : BufTy).Contents (Elt F) → (⟨S512x320, .f32⟩ : BufTy).Contents (Elt F)),
    unary main_arg2 main_v263 (broadcastInDim S50000x1 ![0] bcast_S50000_S50000x1_0 : (⟨S50000, .i32⟩ : BufTy).Contents (Elt F) → (⟨S50000x1, .i32⟩ : BufTy).Contents (Elt F)),
    ternary main_v262 main_v263 main_v261 main_v264 ((fun x i u => Host.scatterAdd scatter_S512x320_S50000x1_S50000x320_1_0_0_1 x i u) : (⟨S512x320, .f32⟩ : BufTy).Contents (Elt F) → (⟨S50000x1, .i32⟩ : BufTy).Contents (Elt F) → (⟨S50000x320, .f32⟩ : BufTy).Contents (Elt F) → (⟨S512x320, .f32⟩ : BufTy).Contents (Elt F)),
    nullary main_cst_24 (constant S_ .f32 0x3F800000#32),
    unary main_cst_24 main_v265 (broadcastInDim S50000 ![] bcast_S_S50000 : (⟨S_, .f32⟩ : BufTy).Contents (Elt F) → (⟨S50000, .f32⟩ : BufTy).Contents (Elt F)),
    nullary main_cst_25 (constant S_ .f32 0x00000000#32),
    unary main_cst_25 main_v266 (broadcastInDim S512 ![] bcast_S_S512 : (⟨S_, .f32⟩ : BufTy).Contents (Elt F) → (⟨S512, .f32⟩ : BufTy).Contents (Elt F)),
    unary main_arg2 main_v267 (broadcastInDim S50000x1 ![0] bcast_S50000_S50000x1_0 : (⟨S50000, .i32⟩ : BufTy).Contents (Elt F) → (⟨S50000x1, .i32⟩ : BufTy).Contents (Elt F)),
    ternary main_v266 main_v267 main_v265 main_v268 ((fun x i u => Host.scatterAdd scatter_S512_S50000x1_S50000_n_0_0_1 x i u) : (⟨S512, .f32⟩ : BufTy).Contents (Elt F) → (⟨S50000x1, .i32⟩ : BufTy).Contents (Elt F) → (⟨S50000, .f32⟩ : BufTy).Contents (Elt F) → (⟨S512, .f32⟩ : BufTy).Contents (Elt F)),
    nullary main_cst_26 (constant S_ .f32 0x3F800000#32),
    unary main_cst_26 main_v269 (broadcastInDim S512 ![] bcast_S_S512 : (⟨S_, .f32⟩ : BufTy).Contents (Elt F) → (⟨S512, .f32⟩ : BufTy).Contents (Elt F)),
    binary main_v268 main_v269 main_v270 (maximumf : (⟨S512, .f32⟩ : BufTy).Contents (Elt F) → (⟨S512, .f32⟩ : BufTy).Contents (Elt F) → (⟨S512, .f32⟩ : BufTy).Contents (Elt F)),
    unary main_v270 main_v271 (broadcastInDim S512x1 ![0] bcast_S512_S512x1_0 : (⟨S512, .f32⟩ : BufTy).Contents (Elt F) → (⟨S512x1, .f32⟩ : BufTy).Contents (Elt F)),
    unary main_v271 main_v272 (broadcastInDim S512x320 ![0, 1] bcast_S512x1_S512x320_0_1 : (⟨S512x1, .f32⟩ : BufTy).Contents (Elt F) → (⟨S512x320, .f32⟩ : BufTy).Contents (Elt F)),
    binary main_v264 main_v272 main_v273 (Host.divf : (⟨S512x320, .f32⟩ : BufTy).Contents (Elt F) → (⟨S512x320, .f32⟩ : BufTy).Contents (Elt F) → (⟨S512x320, .f32⟩ : BufTy).Contents (Elt F)),
    binary main_v273 main_arg21 main_v274 ((fun l r => Host.dotGeneral dot_S512x320_S320x64_S512x64_1_0_0_1_n_n none l r) : (⟨S512x320, .f32⟩ : BufTy).Contents (Elt F) → (⟨S320x64, .f32⟩ : BufTy).Contents (Elt F) → (⟨S512x64, .f32⟩ : BufTy).Contents (Elt F)),
    unary main_arg22 main_v275 (broadcastInDim S1x64 ![1] bcast_S64_S1x64_1 : (⟨S64, .f32⟩ : BufTy).Contents (Elt F) → (⟨S1x64, .f32⟩ : BufTy).Contents (Elt F)),
    unary main_v275 main_v276 (broadcastInDim S512x64 ![0, 1] bcast_S1x64_S512x64_0_1 : (⟨S1x64, .f32⟩ : BufTy).Contents (Elt F) → (⟨S512x64, .f32⟩ : BufTy).Contents (Elt F)),
    binary main_v274 main_v276 main_v277 (addf : (⟨S512x64, .f32⟩ : BufTy).Contents (Elt F) → (⟨S512x64, .f32⟩ : BufTy).Contents (Elt F) → (⟨S512x64, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S512x64, .f32⟩) main_call10_v0) (broadcastInDim S512x64 ![] bcast_S_S512x64),
    TRef.binary (TRef.of (T := ⟨S512x64, .f32⟩) main_v277) (TRef.of (T := ⟨S512x64, .f32⟩) main_call10_v0) (TRef.of (T := ⟨S512x64, .f32⟩) main_v278) maximumf,
    binary main_v278 main_arg23 main_v279 ((fun l r => Host.dotGeneral dot_S512x64_S64x10_S512x10_1_0_0_1_n_n none l r) : (⟨S512x64, .f32⟩ : BufTy).Contents (Elt F) → (⟨S64x10, .f32⟩ : BufTy).Contents (Elt F) → (⟨S512x10, .f32⟩ : BufTy).Contents (Elt F)),
    unary main_arg24 main_v280 (broadcastInDim S1x10 ![1] bcast_S10_S1x10_1 : (⟨S10, .f32⟩ : BufTy).Contents (Elt F) → (⟨S1x10, .f32⟩ : BufTy).Contents (Elt F)),
    unary main_v280 main_v281 (broadcastInDim S512x10 ![0, 1] bcast_S1x10_S512x10_0_1 : (⟨S1x10, .f32⟩ : BufTy).Contents (Elt F) → (⟨S512x10, .f32⟩ : BufTy).Contents (Elt F)),
    binary main_v279 main_v281 main_v282 (addf : (⟨S512x10, .f32⟩ : BufTy).Contents (Elt F) → (⟨S512x10, .f32⟩ : BufTy).Contents (Elt F) → (⟨S512x10, .f32⟩ : BufTy).Contents (Elt F)),
    TRef.nullary (TRef.of (T := ⟨S_, .f32⟩) main_call11_cst) (constant S_ .f32 0xFF800000#32),
    TRef.binary (TRef.of (T := ⟨S512x10, .f32⟩) main_v282) (TRef.of (T := ⟨S_, .f32⟩) main_call11_cst) (TRef.of (T := ⟨S512, .f32⟩) main_call11_v0) (fun x v => Host.reduce FloatOps.maximumf x v reducesTo_S512x10_S512_d1 h_S_),
    TRef.nullary (TRef.of (T := ⟨S_, .f32⟩) main_call11_cst_0) (constant S_ .f32 0xFF800000#32),
    TRef.unary (TRef.of (T := ⟨S_, .f32⟩) main_call11_cst_0) (TRef.of (T := ⟨S512, .f32⟩) main_call11_v1) (broadcastInDim S512 ![] bcast_S_S512),
    TRef.binary (TRef.of (T := ⟨S512, .f32⟩) main_call11_v1) (TRef.of (T := ⟨S512, .f32⟩) main_call11_v0) (TRef.of (T := ⟨S512, .f32⟩) main_call11_v2) maximumf,
    TRef.unary (TRef.of (T := ⟨S512, .f32⟩) main_call11_v2) (TRef.of (T := ⟨S512x1, .f32⟩) main_call11_v3) (broadcastInDim S512x1 ![0] bcast_S512_S512x1_0),
    TRef.unary (TRef.of (T := ⟨S512x1, .f32⟩) main_call11_v3) (TRef.of (T := ⟨S512x10, .f32⟩) main_call11_v4) (broadcastInDim S512x10 ![0, 1] bcast_S512x1_S512x10_0_1),
    TRef.binary (TRef.of (T := ⟨S512x10, .f32⟩) main_v282) (TRef.of (T := ⟨S512x10, .f32⟩) main_call11_v4) (TRef.of (T := ⟨S512x10, .f32⟩) main_call11_v5) subf,
    TRef.unary (TRef.of (T := ⟨S512x10, .f32⟩) main_call11_v5) (TRef.of (T := ⟨S512x10, .f32⟩) main_call11_v6) Host.exp,
    TRef.nullary (TRef.of (T := ⟨S_, .f32⟩) main_call11_cst_1) (constant S_ .f32 0x00000000#32),
    TRef.binary (TRef.of (T := ⟨S512x10, .f32⟩) main_call11_v6) (TRef.of (T := ⟨S_, .f32⟩) main_call11_cst_1) (TRef.of (T := ⟨S512, .f32⟩) main_call11_v7) (fun x v => Host.reduceAdd x v reducesTo_S512x10_S512_d1 h_S_),
    TRef.unary (TRef.of (T := ⟨S512, .f32⟩) main_call11_v7) (TRef.of (T := ⟨S512x1, .f32⟩) main_call11_v8) (broadcastInDim S512x1 ![0] bcast_S512_S512x1_0),
    TRef.unary (TRef.of (T := ⟨S512x1, .f32⟩) main_call11_v8) (TRef.of (T := ⟨S512x1, .f32⟩) main_call11_v9) Host.log,
    TRef.unary (TRef.of (T := ⟨S512x1, .f32⟩) main_call11_v9) (TRef.of (T := ⟨S512x10, .f32⟩) main_call11_v10) (broadcastInDim S512x10 ![0, 1] bcast_S512x1_S512x10_0_1),
    TRef.binary (TRef.of (T := ⟨S512x10, .f32⟩) main_call11_v5) (TRef.of (T := ⟨S512x10, .f32⟩) main_call11_v10) (TRef.of (T := ⟨S512x10, .f32⟩) main_v283) subf ]

/-- The buffers the operations of this stretch write, one each, in order. -/
abbrev ops5_W : List (Ref sig .tc) := [main_v261, main_cst_23, main_v262, main_v263, main_v264, main_cst_24, main_v265, main_cst_25, main_v266, main_v267, main_v268, main_cst_26, main_v269, main_v270, main_v271, main_v272, main_v273, main_v274, main_v275, main_v276, main_v277, main_call10_cst, main_call10_v0, main_v278, main_v279, main_v280, main_v281, main_v282, main_call11_cst, main_call11_v0, main_call11_cst_0, main_call11_v1, main_call11_v2, main_call11_v3, main_call11_v4, main_call11_v5, main_call11_v6, main_call11_cst_1, main_call11_v7, main_call11_v8, main_call11_v9, main_call11_v10, main_v283]

set_option maxRecDepth 8192 in
theorem ops5_fresh : (ops5 : List (HloOp τ sig (Elt F))).Forall fun op => op.fresh = ∅ := by
  simp only [List.Forall]; repeat' constructor

set_option maxRecDepth 8192 in
set_option maxHeartbeats 4000000 in
theorem ops5_sub : (ops5 : List (HloOp τ sig (Elt F))).Forall fun op => op.bufs ⊆ tcRefs τ sig := by
  simp only [List.Forall, nullary_bufs_sub, unary_bufs_sub, binary_bufs_sub, ternary_bufs_sub, reshape_bufs_sub, nary_bufs_sub,
    and_self]

set_option maxRecDepth 8192 in
set_option maxHeartbeats 4000000 in
theorem ops5_writes : (ops5 : List (HloOp τ sig (Elt F))).Forall fun op =>
    op.writes ⊆ (ops5_W.map (Proc.devRef (τ := τ) .tc)).toFinset := by
  simp only [List.Forall]
  repeat' constructor
  all_goals
    simp only [nullary_writes, unary_writes, binary_writes, ternary_writes, reshape_writes, nary_writes,
      Finset.singleton_subset_iff, List.mem_toFinset]
    exact List.mem_map_of_mem (by decide)

/-- A buffer this stretch does not write keeps its contents. -/
theorem ops5_keep (W : Valuation τ sig (Elt F)) (r : Ref sig .tc) (h : r ∉ ops5_W := by decide) :
    after ops5 W (Proc.devRef .tc r) = W (Proc.devRef .tc r) :=
  after_of_writes_sub ops5 W ops5_writes h

/-! ## The program is the six stretches in order -/

/-- The whole line. -/
abbrev opsAll : List (HloOp τ sig (Elt F)) := ops0 ++ ops1 ++ ops2 ++ ops3 ++ ops4 ++ ops5

set_option maxRecDepth 8192 in
set_option maxHeartbeats 4000000 in
theorem main_eq (c : Dev nD) : main (F := F) c = seq (opsAll (F := F)) := rfl

theorem scopedRefs_eq : (Finset.univ.filter fun b : Ref sig .tc => b.isScoped) = ∅ := by decide
theorem scopedSems_eq : (Finset.univ.filter fun sm : SemLoc sig => sm.isScoped .tc) = ∅ := by decide

/-- The fold over two lines one after the other is the fold over the second of the fold over the first. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- The fold over the whole line is the six folds in order. -/
theorem after_all (V : Valuation τ sig (Elt F)) :
    after (opsAll (F := F)) V = after ops5 (after ops4 (after ops3 (after ops2 (after ops1 (after ops0 V))))) := by
  unfold opsAll
  rw [after_append, after_append, after_append, after_append, after_append]

theorem opsAll_sub : (opsAll : List (HloOp τ sig (Elt F))).Forall fun op => op.bufs ⊆ tcRefs τ sig := by
  rw [List.forall_iff_forall_mem]
  intro op hop
  simp only [opsAll, List.mem_append] at hop
  rcases hop with ((((h | h) | h) | h) | h) | h
  · exact List.forall_iff_forall_mem.mp ops0_sub op h
  · exact List.forall_iff_forall_mem.mp ops1_sub op h
  · exact List.forall_iff_forall_mem.mp ops2_sub op h
  · exact List.forall_iff_forall_mem.mp ops3_sub op h
  · exact List.forall_iff_forall_mem.mp ops4_sub op h
  · exact List.forall_iff_forall_mem.mp ops5_sub op h

theorem opsAll_fresh : ∀ op ∈ (opsAll : List (HloOp τ sig (Elt F))), op.fresh = ∅ := by
  intro op hop
  simp only [opsAll, List.mem_append] at hop
  rcases hop with ((((h | h) | h) | h) | h) | h
  · exact List.forall_iff_forall_mem.mp ops0_fresh op h
  · exact List.forall_iff_forall_mem.mp ops1_fresh op h
  · exact List.forall_iff_forall_mem.mp ops2_fresh op h
  · exact List.forall_iff_forall_mem.mp ops3_fresh op h
  · exact List.forall_iff_forall_mem.mp ops4_fresh op h
  · exact List.forall_iff_forall_mem.mp ops5_fresh op h

/-- THE RAW RUN. From any memory with zero counters every weakly fair execution of the reference terminates, and
    every buffer b of core d ends at the six folds, in order, over the launch contents, read at b. -/
theorem run_raw (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b)
        = after ops5 (after ops4 (after ops3 (after ops2 (after ops1 (after ops0 (launchContents m d)))))) (Proc.devRef .tc b) :=
  (θ_run defs _ _).mono (fun r h d b => (h d b).trans (congrFun (after_all (launchContents m d)) _))
    (run_seq scopedRefs_eq scopedSems_eq defs main (fun _ => opsAll) main_eq (fun _ => opsAll_sub) m ρ
      (fun _ => opsAll_fresh))

end Cert.ReferenceIdeal.RefValue

end
-- ==== Proof.RefOps.lean ====
/-
  The host stretches of the reference between its dense blocks, each as one named function of its operands.

  A message-passing layer first gathers, for every edge, the source node's row, and adds it into the destination
  node's row (a scatter-add into zeros); the layer's input is then (1 + ε)·h plus that neighbour sum. The last four
  layers take their parameters as slice k of arrays stacked on a leading axis of extent 4. The five layers' outputs are
  laid side by side along the channels, and the read-out pools that array per graph: the per-graph sums of the rows
  divided by the per-graph node counts, a count below one replaced by one.

  Each definition below is exactly that stretch's operations applied to its operands. A gather or a scatter-add is
  never read at an index here or later: both programs apply the same stretch to the same operands, so it is carried
  as one function.
-/
import Idealize.ShloMosaic.PureOps.Ideal
import proofs.«109974_j38371237822822_1_alg».proof.Proof.Gen.ReferenceIdeal

noncomputable section

namespace Cert.ReferenceIdeal.RefValue

open Cert.ReferenceIdeal Cert.ReferenceIdeal.Gen Idealize.ShloMosaic

/-! ## The edge list as start indices -/

/-- Row r of the [2, E] edge list as a vector of E node numbers. -/
def edgeRow (r : Nat) (hr : S2x800000.Slices ![r, 0] S1x800000) (ei : IVec S2x800000 32) : IVec S800000 32 :=
  shapeCast S800000 (extractStridedSlice S1x800000 ![r, 0] ei hr) shapeCasts_S1x800000_S800000

/-- The gather's start indices: each edge's source node (row 0), a negative number wrapped by the node count, as a
    column [E, 1]. -/
def srcIdx (ei : IVec S2x800000 32) : IVec S800000x1 32 :=
  broadcastInDim S800000x1 ![0] bcast_S800000_S800000x1_0
    (select
      (cmpi .slt (edgeRow 0 slices_S2x800000_S1x800000_0_0 ei) (broadcastInDim S800000 ![] bcast_S_S800000 (constantI S_ 32 0#32)))
      (addi (edgeRow 0 slices_S2x800000_S1x800000_0_0 ei) (broadcastInDim S800000 ![] bcast_S_S800000 (constantI S_ 32 50000#32)))
      (edgeRow 0 slices_S2x800000_S1x800000_0_0 ei))

/-- The scatter's indices: each edge's destination node (row 1), as a column [E, 1]. -/
def dstIdx (ei : IVec S2x800000 32) : IVec S800000x1 32 :=
  broadcastInDim S800000x1 ![0] bcast_S800000_S800000x1_0 (edgeRow 1 slices_S2x800000_S1x800000_1_0 ei)

/-! ## A layer's input: (1 + ε)·h plus the sum of the neighbours' rows -/

/-- The first layer's input, over the 128 input features. -/
def aggPre128 (h : FVec Ideal S50000x128 .f32) (ei : IVec S2x800000 32) (eps : FVec Ideal S_ .f32) :
    FVec Ideal S50000x128 .f32 :=
  addf
    (mulf (broadcastInDim S50000x128 ![] bcast_S_S50000x128 (addf (constant S_ .f32 0x3F800000#32) eps)) h)
    (Host.scatterAdd scatter_S50000x128_S800000x1_S800000x128_1_0_0_1
      (broadcastInDim S50000x128 ![] bcast_S_S50000x128 (constant S_ .f32 0x00000000#32))
      (dstIdx ei)
      (Host.gather gather_S50000x128_S800000x1_S800000x128_1_0_n_n_0_1_1128 h (srcIdx ei)))

/-- A later layer's input, over the 64 hidden channels. -/
def aggPre64 (h : FVec Ideal S50000x64 .f32) (ei : IVec S2x800000 32) (eps : FVec Ideal S_ .f32) :
    FVec Ideal S50000x64 .f32 :=
  addf
    (mulf (broadcastInDim S50000x64 ![] bcast_S_S50000x64 (addf (constant S_ .f32 0x3F800000#32) eps)) h)
    (Host.scatterAdd scatter_S50000x64_S800000x1_S800000x64_1_0_0_1
      (broadcastInDim S50000x64 ![] bcast_S_S50000x64 (constant S_ .f32 0x00000000#32))
      (dstIdx ei)
      (Host.gather gather_S50000x64_S800000x1_S800000x64_1_0_n_n_0_1_164 h (srcIdx ei)))

/-! ## Slice k of the stacked parameters -/

/-- Entry k of a vector of four scalars, as a scalar. -/
def sliceScalar (k : Nat) (hk : S4.Slices ![k] S1) (v : FVec Ideal S4 .f32) : FVec Ideal S_ .f32 :=
  shapeCast S_ (extractStridedSlice S1 ![k] v hk) shapeCasts_S1_S_

/-- Matrix k of four stacked 64 × 64 matrices. -/
def sliceMat (k : Nat) (hk : S4x64x64.Slices ![k, 0, 0] S1x64x64) (v : FVec Ideal S4x64x64 .f32) : FVec Ideal S64x64 .f32 :=
  shapeCast S64x64 (extractStridedSlice S1x64x64 ![k, 0, 0] v hk) shapeCasts_S1x64x64_S64x64

/-- Row k of four stacked vectors of 64 channels. -/
def sliceVec (k : Nat) (hk : S4x64.Slices ![k, 0] S1x64) (v : FVec Ideal S4x64 .f32) : FVec Ideal S64 .f32 :=
  shapeCast S64 (extractStridedSlice S1x64 ![k, 0] v hk) shapeCasts_S1x64_S64

/-! ## The five outputs side by side, and the per-graph mean -/

/-- The five layers' outputs laid side by side along the channels: [N, 5·64]. -/
def embCat (h1 h2 h3 h4 h5 : FVec Ideal S50000x64 .f32) : FVec Ideal S50000x320 .f32 :=
  concatenate S50000x320 1 [⟨S50000x64, h1⟩, ⟨S50000x64, h2⟩, ⟨S50000x64, h3⟩, ⟨S50000x64, h4⟩, ⟨S50000x64, h5⟩]
    concatenates_S50000x64_S50000x64_S50000x64_S50000x64_S50000x64_S50000x320_d1

/-- The per-graph sums of the rows of em: a scatter-add of the rows into zeros at each node's graph number. -/
def segSums (em : FVec Ideal S50000x320 .f32) (batch : IVec S50000 32) : FVec Ideal S512x320 .f32 :=
  Host.scatterAdd scatter_S512x320_S50000x1_S50000x320_1_0_0_1
    (broadcastInDim S512x320 ![] bcast_S_S512x320 (constant S_ .f32 0x00000000#32))
    (broadcastInDim S50000x1 ![0] bcast_S50000_S50000x1_0 batch) em

/-- The per-graph node counts: a scatter-add of ones into zeros at each node's graph number. -/
def segCounts (batch : IVec S50000 32) : FVec Ideal S512 .f32 :=
  Host.scatterAdd scatter_S512_S50000x1_S50000_n_0_0_1
    (broadcastInDim S512 ![] bcast_S_S512 (constant S_ .f32 0x00000000#32))
    (broadcastInDim S50000x1 ![0] bcast_S50000_S50000x1_0 batch)
    (broadcastInDim S50000 ![] bcast_S_S50000 (constant S_ .f32 0x3F800000#32))

/-- The pooled rows: the per-graph sums divided by max(count, 1), the divisor laid along the 320 channels. -/
def pooledMean (em : FVec Ideal S50000x320 .f32) (batch : IVec S50000 32) : FVec Ideal S512x320 .f32 :=
  Host.divf (segSums em batch)
    (broadcastInDim S512x320 ![0, 1] bcast_S512x1_S512x320_0_1
      (broadcastInDim S512x1 ![0] bcast_S512_S512x1_0
        (maximumf (segCounts batch) (broadcastInDim S512 ![] bcast_S_S512 (constant S_ .f32 0x3F800000#32)))))

end Cert.ReferenceIdeal.RefValue

end
-- ==== Proof.RefLayer.lean ====
/-
  One layer's dense block, as the reference prints it, is the specification's layer.

  After the aggregation a layer is: the product of the aggregated rows with Wa, plus ba laid along every row, clamped
  below at zero; the product of that with Wb, plus bb, clamped again; minus μ; times γ / sqrt(σ² + ε); plus β. Every
  vector of 64 channels reaches the [N, 64] array by the two broadcasts [64] → [1, 64] → [N, 64], so at row p and channel
  q it reads the vector's entry q. A product's entry (p, q) is the sum over k of x[p, k]·w[k, q]. The only step that is
  not the same expression on both sides is the scale: the reference divides γ by the square root, the specification
  multiplies γ by the reciprocal square root, and the two agree when σ² + ε is positive.
-/
import Idealize.ShloMosaic.Lib.KernelVsHost
import Idealize.ShloMosaic.Lib.IdealHost
import proofs.«109974_j38371237822822_1_alg».proof.Proof.Gen.ReferenceIdeal
import proofs.«109974_j38371237822822_1_alg».proof.Proof.Spec
import proofs.«109974_j38371237822822_1_alg».proof.Proof.LibDotRows

noncomputable section

open scoped BigOperators

namespace Cert.ReferenceIdeal.RefValue

open Cert.ReferenceIdeal Cert.ReferenceIdeal.Gen Idealize.ShloMosaic Idealize.ShloMosaic.ValueIdx

/-! ## The two broadcasts of a channel vector, and the zero splat -/

/-- A vector of 64 channels laid along every one of the N rows: [64] → [1, 64] → [N, 64]. -/
def rowBc (v : FVec Ideal S64 .f32) : FVec Ideal S50000x64 .f32 :=
  broadcastInDim S50000x64 ![0, 1] bcast_S1x64_S50000x64_0_1 (broadcastInDim S1x64 ![1] bcast_S64_S1x64_1 v)

/-- At row p and channel q the broadcast reads the vector's entry q. -/
theorem rowBc_apply (v : FVec Ideal S64 .f32) (p : Fin 50000) (q : Fin 64) : rowBc v (ix2 p q) = v (ix1 q) := by
  unfold rowBc
  rw [broadcastInDim_oneRow_apply bcast_S1x64_S50000x64_0_1 _ p q]
  exact broadcastInDim_apply ![1] bcast_S64_S1x64_1 v (ix2 (0 : Fin 1) q) (ix1 q) (fun a => match a with
    | ⟨0, _⟩ => by show q.val = if (64 : Nat) = 1 then 0 else q.val; rw [if_neg (by decide)])

/-- The [N, 64] array of zeros a ReLU compares with. -/
def zeroSplat : FVec Ideal S50000x64 .f32 :=
  broadcastInDim S50000x64 ![] bcast_S_S50000x64 (constant S_ .f32 0x00000000#32)

theorem zeroSplat_apply (i : S50000x64.Idx) : zeroSplat i = 0 := by
  unfold zeroSplat
  rw [broadcastInDim_scalar_apply, constant_apply, Ideal.ofBits_zero_f32]

/-! ## The layer -/

/-- One layer's operations after the aggregation, as printed; d is the first product's dimension numbers
    (an [N, C] left operand against a [C, 64] right one). -/
def layerOps {C : Nat} (d : DotDims ⟨2, ![50000, C]⟩ ⟨2, ![C, 64]⟩ S50000x64)
    (hpre : FVec Ideal ⟨2, ![50000, C]⟩ .f32) (wa : FVec Ideal ⟨2, ![C, 64]⟩ .f32) (ba : FVec Ideal S64 .f32)
    (wb : FVec Ideal S64x64 .f32) (bb g be mu var : FVec Ideal S64 .f32) : FVec Ideal S50000x64 .f32 :=
  addf
    (mulf
      (subf
        (maximumf
          (addf
            (Host.dotGeneral dot_S50000x64_S64x64_S50000x64_1_0_0_1_n_n none
              (maximumf (addf (Host.dotGeneral d none hpre wa) (rowBc ba)) zeroSplat) wb)
            (rowBc bb))
          zeroSplat)
        (rowBc mu))
      (rowBc (Host.divf g (Host.sqrt (addf var (broadcastInDim S64 ![] bcast_S_S64 (constant S_ .f32 0x3727C5AC#32)))))))
    (rowBc be)

/-- The first dense map and its ReLU, at row p and channel k. -/
theorem dense1_apply {C : Nat} (hpre : FVec Ideal ⟨2, ![50000, C]⟩ .f32) (wa : FVec Ideal ⟨2, ![C, 64]⟩ .f32)
    (ba : FVec Ideal S64 .f32) (p : Fin 50000) (k : Fin 64) :
    maximumf (addf (Host.dotGeneral (DotDims.plain 50000 C 64) none hpre wa) (rowBc ba)) zeroSplat (ix2 p k)
      = Cert.Spec.dense (fun p l => hpre (ix2 p l)) (fun l k => wa (ix2 l k)) (fun k => ba (ix1 k)) p k := by
  rw [maximumf_apply, addf_apply, Cert.Lib.DotRows.dotGeneral_plain_apply, rowBc_apply, zeroSplat_apply]
  rfl

/-- The scale γ / sqrt(σ² + ε) at channel q, as the product with the reciprocal square root. -/
theorem scale_apply (g var : FVec Ideal S64 .f32) (q : Fin 64)
    (hq : 0 < var (ix1 q) + Ideal.ofBits .f32 0x3727C5AC#32) :
    Host.divf g (Host.sqrt (addf var (broadcastInDim S64 ![] bcast_S_S64 (constant S_ .f32 0x3727C5AC#32)))) (ix1 q)
      = g (ix1 q) * Ideal.rsqrt (var (ix1 q) + Ideal.ofBits .f32 0x3727C5AC#32) := by
  rw [Cert.Spec.scale_eq _ _ hq]
  show Ideal.div (g (ix1 q)) (Ideal.sqrt (var (ix1 q) + broadcastInDim S64 ![] bcast_S_S64 (constant (F := Ideal) S_ .f32 0x3727C5AC#32) (ix1 q))) = _
  rw [broadcastInDim_scalar_apply, constant_apply]

/-- THE LAYER. With the first product's dimension numbers the plain ones, the printed operations at index i are the
    specification's layer at row i 0 and channel i 1, provided every σ² + ε is positive. -/
theorem layerOps_apply {C : Nat} (hpre : FVec Ideal ⟨2, ![50000, C]⟩ .f32) (wa : FVec Ideal ⟨2, ![C, 64]⟩ .f32)
    (ba : FVec Ideal S64 .f32) (wb : FVec Ideal S64x64 .f32) (bb g be mu var : FVec Ideal S64 .f32)
    (hvar : ∀ q : Fin 64, 0 < var (ix1 q) + Ideal.ofBits .f32 0x3727C5AC#32) (i : S50000x64.Idx) :
    layerOps (DotDims.plain 50000 C 64) hpre wa ba wb bb g be mu var i
      = Cert.Spec.layer (fun p l => hpre (ix2 p l)) (fun l k => wa (ix2 l k)) (fun k => ba (ix1 k))
          (fun k q => wb (ix2 k q)) (fun q => bb (ix1 q)) (fun q => g (ix1 q)) (fun q => be (ix1 q))
          (fun q => mu (ix1 q)) (fun q => var (ix1 q)) (Ideal.ofBits .f32 0x3727C5AC#32) (i 0) (i 1) := by
  obtain ⟨p, q, rfl⟩ : ∃ (p : Fin 50000) (q : Fin 64), i = ix2 p q := ⟨i 0, i 1, eq_ix2 i⟩
  show layerOps (DotDims.plain 50000 C 64) hpre wa ba wb bb g be mu var (ix2 p q) = Cert.Spec.layer _ _ _ _ _ _ _ _ _ _ p q
  unfold layerOps
  rw [addf_apply, mulf_apply, subf_apply, maximumf_apply, addf_apply, rowBc_apply, rowBc_apply, rowBc_apply, rowBc_apply,
    zeroSplat_apply, scale_apply g var q (hvar q)]
  rw [show dot_S50000x64_S64x64_S50000x64_1_0_0_1_n_n = DotDims.plain 50000 64 64 from rfl,
    Cert.Lib.DotRows.dotGeneral_plain_apply]
  simp only [dense1_apply]
  rfl

end Cert.ReferenceIdeal.RefValue

end
-- ==== Proof.RefHead.lean ====
/-
  The read-out, as the reference prints it, is the specification's log-softmax of the logits.

  The logits are relu(pooled · W1 + b1) · W2 + b2, each bias laid along every row by the two broadcasts
  [n] → [1, n] → [G, n]. The log-softmax is printed in full: the row maximum m (a max-reduce from -∞, compared once
  more with -∞, which changes nothing), laid along the row as a column [G, 1] → [G, 10]; s = z - m; the row sum of
  exp s from zero; its logarithm, taken on the column [G, 1]; and s minus that, laid along the row again. A column
  broadcast along a row reads the column's entry for that row, so entry (p, q) is
  (z[p,q] - m[p]) - log Σⱼ exp (z[p,j] - m[p]).
-/
import Idealize.ShloMosaic.Lib.KernelVsHost
import Idealize.ShloMosaic.Lib.IdealHost
import proofs.«109974_j38371237822822_1_alg».proof.Proof.Gen.ReferenceIdeal
import proofs.«109974_j38371237822822_1_alg».proof.Proof.Spec
import proofs.«109974_j38371237822822_1_alg».proof.Proof.LibDotRows
import proofs.«109974_j38371237822822_1_alg».proof.Proof.LibRowReduce

noncomputable section

open scoped BigOperators

namespace Cert.ReferenceIdeal.RefValue

open Cert.ReferenceIdeal Cert.ReferenceIdeal.Gen Idealize.ShloMosaic Idealize.ShloMosaic.ValueIdx

/-! ## The broadcasts of the read-out -/

/-- A vector of n entries laid along every one of G rows: [n] → [1, n] → [G, n], read at (p, q). -/
theorem rowBc2_apply {G n : Nat} (hn : n ≠ 1) (h1 : (⟨1, ![n]⟩ : Shape).BroadcastsInDim ⟨2, ![1, n]⟩ ![1])
    (h2 : (⟨2, ![1, n]⟩ : Shape).BroadcastsInDim ⟨2, ![G, n]⟩ ![0, 1]) (v : FVec Ideal ⟨1, ![n]⟩ .f32) (p : Fin G) (q : Fin n) :
    broadcastInDim ⟨2, ![G, n]⟩ ![0, 1] h2 (broadcastInDim ⟨2, ![1, n]⟩ ![1] h1 v) (ix2 p q) = v (ix1 q) := by
  rw [broadcastInDim_oneRow_apply h2 _ p q]
  exact broadcastInDim_apply ![1] h1 v (ix2 (0 : Fin 1) q) (ix1 q) (fun a => match a with
    | ⟨0, _⟩ => by show q.val = if n = 1 then 0 else q.val; rw [if_neg hn])

/-- A vector of G entries as a column [G, 1], read at row p. -/
theorem col_apply (v : FVec Ideal S512 .f32) (p : Fin 512) :
    broadcastInDim S512x1 ![0] bcast_S512_S512x1_0 v (ix2 p (0 : Fin 1)) = v (ix1 p) :=
  broadcastInDim_apply ![0] bcast_S512_S512x1_0 v (ix2 p (0 : Fin 1)) (ix1 p) (fun a => match a with
    | ⟨0, _⟩ => by show p.val = if (512 : Nat) = 1 then 0 else p.val; rw [if_neg (by decide)])

/-- A column [G, 1] laid along the ten classes, read at (p, q): the column's entry for row p. -/
theorem colBc_apply (y : FVec Ideal S512x1 .f32) (p : Fin 512) (q : Fin 10) :
    broadcastInDim S512x10 ![0, 1] bcast_S512x1_S512x10_0_1 y (ix2 p q) = y (ix2 p (0 : Fin 1)) :=
  broadcastInDim_apply ![0, 1] bcast_S512x1_S512x10_0_1 y (ix2 p q) (ix2 p (0 : Fin 1)) (fun a => match a with
    | ⟨0, _⟩ => by show p.val = if (512 : Nat) = 1 then 0 else p.val; rw [if_neg (by decide)]
    | ⟨1, _⟩ => by show (0 : Nat) = if (1 : Nat) = 1 then 0 else q.val; rw [if_pos rfl])

/-! ## The logits -/

/-- The read-out's two dense maps, as printed. -/
def logitsOps (pooled : FVec Ideal S512x320 .f32) (w1 : FVec Ideal S320x64 .f32) (b1 : FVec Ideal S64 .f32)
    (w2 : FVec Ideal S64x10 .f32) (b2 : FVec Ideal S10 .f32) : FVec Ideal S512x10 .f32 :=
  addf
    (Host.dotGeneral dot_S512x64_S64x10_S512x10_1_0_0_1_n_n none
      (maximumf
        (addf (Host.dotGeneral dot_S512x320_S320x64_S512x64_1_0_0_1_n_n none pooled w1)
          (broadcastInDim S512x64 ![0, 1] bcast_S1x64_S512x64_0_1 (broadcastInDim S1x64 ![1] bcast_S64_S1x64_1 b1)))
        (broadcastInDim S512x64 ![] bcast_S_S512x64 (constant S_ .f32 0x00000000#32)))
      w2)
    (broadcastInDim S512x10 ![0, 1] bcast_S1x10_S512x10_0_1 (broadcastInDim S1x10 ![1] bcast_S10_S1x10_1 b2))

/-- The hidden row of the read-out at graph p and channel k. -/
theorem hidden_apply (pooled : FVec Ideal S512x320 .f32) (w1 : FVec Ideal S320x64 .f32) (b1 : FVec Ideal S64 .f32)
    (p : Fin 512) (k : Fin 64) :
    maximumf
        (addf (Host.dotGeneral dot_S512x320_S320x64_S512x64_1_0_0_1_n_n none pooled w1)
          (broadcastInDim S512x64 ![0, 1] bcast_S1x64_S512x64_0_1 (broadcastInDim S1x64 ![1] bcast_S64_S1x64_1 b1)))
        (broadcastInDim S512x64 ![] bcast_S_S512x64 (constant S_ .f32 0x00000000#32)) (ix2 p k)
      = Cert.Spec.dense (fun p k => pooled (ix2 p k)) (fun k q => w1 (ix2 k q)) (fun q => b1 (ix1 q)) p k := by
  rw [maximumf_apply, addf_apply,
    show dot_S512x320_S320x64_S512x64_1_0_0_1_n_n = DotDims.plain 512 320 64 from rfl,
    Cert.Lib.DotRows.dotGeneral_plain_apply, rowBc2_apply (by decide), broadcastInDim_scalar_apply, constant_apply,
    Ideal.ofBits_zero_f32]
  rfl

/-- The printed logits at index (p, q) are the specification's. -/
theorem logitsOps_apply (pooled : FVec Ideal S512x320 .f32) (w1 : FVec Ideal S320x64 .f32) (b1 : FVec Ideal S64 .f32)
    (w2 : FVec Ideal S64x10 .f32) (b2 : FVec Ideal S10 .f32) (p : Fin 512) (q : Fin 10) :
    logitsOps pooled w1 b1 w2 b2 (ix2 p q)
      = Cert.Spec.logits (fun p k => pooled (ix2 p k)) (fun k q => w1 (ix2 k q)) (fun q => b1 (ix1 q))
          (fun k q => w2 (ix2 k q)) (fun q => b2 (ix1 q)) p q := by
  unfold logitsOps
  rw [addf_apply, show dot_S512x64_S64x10_S512x10_1_0_0_1_n_n = DotDims.plain 512 64 10 from rfl,
    Cert.Lib.DotRows.dotGeneral_plain_apply, rowBc2_apply (by decide)]
  show (∑ k : Fin 64, _ * w2 (ix2 k q)) + b2 (ix1 q) = (∑ k : Fin 64, _ * w2 (ix2 k q)) + b2 (ix1 q)
  exact congrArg (· + b2 (ix1 q)) (Finset.sum_congr rfl fun k _ => by rw [hidden_apply])

/-! ## The log-softmax -/

/-- The row maximum as printed: a max-reduce from -∞, then a maximum with the -∞ splat. -/
def rowMaxOps (z : FVec Ideal S512x10 .f32) : FVec Ideal S512 .f32 :=
  maximumf (broadcastInDim S512 ![] bcast_S_S512 (constant S_ .f32 0xFF800000#32))
    (Host.reduce FloatOps.maximumf z (constant (F := Ideal) S_ .f32 0xFF800000#32) reducesTo_S512x10_S512_d1 h_S_)

/-- z minus its row maximum, as printed. -/
def shiftOps (z : FVec Ideal S512x10 .f32) : FVec Ideal S512x10 .f32 :=
  subf z (broadcastInDim S512x10 ![0, 1] bcast_S512x1_S512x10_0_1 (broadcastInDim S512x1 ![0] bcast_S512_S512x1_0 (rowMaxOps z)))

/-- The log-softmax of the rows of z, as printed. -/
def logSoftmaxOps (z : FVec Ideal S512x10 .f32) : FVec Ideal S512x10 .f32 :=
  subf (shiftOps z)
    (broadcastInDim S512x10 ![0, 1] bcast_S512x1_S512x10_0_1
      (Host.log (broadcastInDim S512x1 ![0] bcast_S512_S512x1_0
        (Host.reduceAdd (Host.exp (shiftOps z)) (constant (F := Ideal) S_ .f32 0x00000000#32) reducesTo_S512x10_S512_d1 h_S_))))

/-- The printed row maximum at row p is the maximum of the row's ten entries. -/
theorem rowMaxOps_apply (z : FVec Ideal S512x10 .f32) (p : Fin 512) :
    rowMaxOps z (ix1 p) = Cert.LibRowReduce.rowMax fun k => z (ix2 p k) := by
  unfold rowMaxOps
  rw [maximumf_apply, broadcastInDim_scalar_apply, constant_apply, Cert.LibRowReduce.max_negInf,
    Cert.LibRowReduce.hostReduce_max_row z (constant (F := Ideal) S_ .f32 0xFF800000#32) (fun _ => rfl)
      reducesTo_S512x10_S512_d1 (by decide) h_S_ p]

/-- The shifted logits at (p, q). -/
theorem shiftOps_apply (z : FVec Ideal S512x10 .f32) (p : Fin 512) (q : Fin 10) :
    shiftOps z (ix2 p q) = z (ix2 p q) - Cert.LibRowReduce.rowMax fun k => z (ix2 p k) := by
  unfold shiftOps
  rw [subf_apply, colBc_apply, col_apply, rowMaxOps_apply]

/-- The printed log-softmax at (p, q) is the specification's, of row p of z. -/
theorem logSoftmaxOps_apply (z : FVec Ideal S512x10 .f32) (p : Fin 512) (q : Fin 10) :
    logSoftmaxOps z (ix2 p q) = Cert.Spec.logSoftmax (fun k => z (ix2 p k)) q := by
  unfold logSoftmaxOps
  rw [subf_apply, colBc_apply]
  show shiftOps z (ix2 p q) - Ideal.log (broadcastInDim S512x1 ![0] bcast_S512_S512x1_0
      (Host.reduceAdd (Host.exp (shiftOps z)) (constant (F := Ideal) S_ .f32 0x00000000#32) reducesTo_S512x10_S512_d1 h_S_)
      (ix2 p (0 : Fin 1))) = _
  rw [col_apply, Cert.LibRowReduce.hostReduceAdd_row (Host.exp (shiftOps z)) (constant (F := Ideal) S_ .f32 0x00000000#32)
    (fun _ => Ideal.ofBits_zero_f32) reducesTo_S512x10_S512_d1 (by decide) h_S_ p, shiftOps_apply]
  unfold Cert.Spec.logSoftmax
  congr 2
  refine Finset.sum_congr rfl fun j _ => ?_
  show Ideal.exp (shiftOps z (ix2 p j)) = _
  rw [shiftOps_apply]

/-! ## The read-out -/

/-- The read-out's operations from the pooled rows, as printed. -/
def headOps (pooled : FVec Ideal S512x320 .f32) (w1 : FVec Ideal S320x64 .f32) (b1 : FVec Ideal S64 .f32)
    (w2 : FVec Ideal S64x10 .f32) (b2 : FVec Ideal S10 .f32) : FVec Ideal S512x10 .f32 :=
  logSoftmaxOps (logitsOps pooled w1 b1 w2 b2)

/-- THE READ-OUT. The printed operations at index i are the specification's log-softmax of the logits of graph i 0,
    at class i 1. -/
theorem headOps_apply (pooled : FVec Ideal S512x320 .f32) (w1 : FVec Ideal S320x64 .f32) (b1 : FVec Ideal S64 .f32)
    (w2 : FVec Ideal S64x10 .f32) (b2 : FVec Ideal S10 .f32) (i : S512x10.Idx) :
    headOps pooled w1 b1 w2 b2 i
      = Cert.Spec.logSoftmax
          (Cert.Spec.logits (fun p k => pooled (ix2 p k)) (fun k q => w1 (ix2 k q)) (fun q => b1 (ix1 q))
            (fun k q => w2 (ix2 k q)) (fun q => b2 (ix1 q)) (i 0)) (i 1) := by
  obtain ⟨p, q, rfl⟩ : ∃ (p : Fin 512) (q : Fin 10), i = ix2 p q := ⟨i 0, i 1, eq_ix2 i⟩
  show headOps pooled w1 b1 w2 b2 (ix2 p q) = Cert.Spec.logSoftmax (Cert.Spec.logits _ _ _ _ _ p) q
  unfold headOps
  rw [logSoftmaxOps_apply]
  exact congrArg (fun f => Cert.Spec.logSoftmax f q) (funext fun k => logitsOps_apply pooled w1 b1 w2 b2 p k)

end Cert.ReferenceIdeal.RefValue

end
-- ==== Proof.RefStretch.lean ====
/-
  Each stretch of the reference, read at the buffer it ends with, over arbitrary contents of the buffers it reads.

  Read at one buffer, a stretch is the composition of the operations that lead to that buffer. The first stretch
  leaves the two rows of the edge list in two buffers of their own and ends with the printed layer of the aggregated
  input features. Each of the next four reads the previous layer's buffer, the two edge-row buffers and the stacked
  parameters, and ends with the printed layer of the aggregation. The last stretch lays the five layer buffers side by
  side and ends with the printed read-out of their per-graph mean. The aggregation of a later layer is stated here
  over the two edge rows as it finds them in their buffers; over the rows of the edge list it is the aggregation
  stretch of the earlier module.
-/
import proofs.«109974_j38371237822822_1_alg».proof.Proof.RefProg
import proofs.«109974_j38371237822822_1_alg».proof.Proof.RefOps
import proofs.«109974_j38371237822822_1_alg».proof.Proof.RefLayer
import proofs.«109974_j38371237822822_1_alg».proof.Proof.RefHead

set_option maxRecDepth 16384
set_option Elab.async false

noncomputable section

namespace Cert.ReferenceIdeal.RefValue

open Cert.ReferenceIdeal Cert.ReferenceIdeal.Gen Idealize.ShloMosaic Idealize.ShloMosaic.TcCoe Idealize.SL.Sem
  Idealize.ShloMosaic.StableHlo

/-- A later layer's input from the previous output h and the two edge rows e0 (sources) and e1 (destinations) as
    vectors: (1 + ε)·h plus the scatter-add, at the destinations, of the rows of h gathered at the sources. -/
def aggRows64 (h : FVec Ideal S50000x64 .f32) (e0 e1 : IVec S800000 32) (eps : FVec Ideal S_ .f32) :
    FVec Ideal S50000x64 .f32 :=
  addf
    (mulf (broadcastInDim S50000x64 ![] bcast_S_S50000x64 (addf (constant S_ .f32 0x3F800000#32) eps)) h)
    (Host.scatterAdd scatter_S50000x64_S800000x1_S800000x64_1_0_0_1
      (broadcastInDim S50000x64 ![] bcast_S_S50000x64 (constant S_ .f32 0x00000000#32))
      (broadcastInDim S800000x1 ![0] bcast_S800000_S800000x1_0 e1)
      (Host.gather gather_S50000x64_S800000x1_S800000x64_1_0_n_n_0_1_164 h
        (broadcastInDim S800000x1 ![0] bcast_S800000_S800000x1_0
          (select (cmpi .slt e0 (broadcastInDim S800000 ![] bcast_S_S800000 (constantI S_ 32 0#32)))
            (addi e0 (broadcastInDim S800000 ![] bcast_S_S800000 (constantI S_ 32 50000#32))) e0))))

/-- Over the two rows of the edge list this is the aggregation stretch. -/
theorem aggRows64_eq (h : FVec Ideal S50000x64 .f32) (ei : IVec S2x800000 32) (eps : FVec Ideal S_ .f32) :
    aggRows64 h (edgeRow 0 slices_S2x800000_S1x800000_0_0 ei) (edgeRow 1 slices_S2x800000_S1x800000_1_0 ei) eps
      = aggPre64 h ei eps := rfl

variable (W : Valuation τ sig (Elt Ideal))

/-! ## The first stretch -/

set_option maxHeartbeats 8000000 in
/-- The first stretch leaves row 0 of the edge list in its own buffer. -/
theorem s0_row0 :
    (after ops0 W (Proc.devRef .tc main_v1) : S800000.Idx → BitVec 32)
      = edgeRow 0 slices_S2x800000_S1x800000_0_0 (W (Proc.devRef .tc main_arg1)) := by
  after_results_simp
  rfl

set_option maxHeartbeats 8000000 in
/-- The first stretch leaves row 1 of the edge list in its own buffer. -/
theorem s0_row1 :
    (after ops0 W (Proc.devRef .tc main_v3) : S800000.Idx → BitVec 32)
      = edgeRow 1 slices_S2x800000_S1x800000_1_0 (W (Proc.devRef .tc main_arg1)) := by
  after_results_simp
  rfl

set_option maxHeartbeats 8000000 in
/-- The first stretch ends with the printed layer of the aggregated input features. -/
theorem s0_out :
    (after ops0 W (Proc.devRef .tc main_v40) : S50000x64.Idx → EReal)
      = layerOps (DotDims.plain 50000 128 64) (aggPre128 (W (Proc.devRef .tc main_arg0)) (W (Proc.devRef .tc main_arg1)) (W (Proc.devRef .tc main_arg3)))
          (W (Proc.devRef .tc main_arg4)) (W (Proc.devRef .tc main_arg5)) (W (Proc.devRef .tc main_arg6)) (W (Proc.devRef .tc main_arg7)) (W (Proc.devRef .tc main_arg8)) (W (Proc.devRef .tc main_arg9))
          (W (Proc.devRef .tc main_arg10)) (W (Proc.devRef .tc main_arg11)) := by
  after_results_simp
  rfl

/-! ## The four later layers -/

set_option maxHeartbeats 8000000 in
/-- Stretch 1: layer 2's output buffer holds the printed layer, with slice 0 of the stacked parameters, of the
    aggregation of the previous layer's buffer along the two edge rows. -/
theorem s1_out :
    (after ops1 W (Proc.devRef .tc main_v95) : S50000x64.Idx → EReal)
      = layerOps (DotDims.plain 50000 64 64)
          (aggRows64 (W (Proc.devRef .tc main_v40)) (W (Proc.devRef .tc main_v1)) (W (Proc.devRef .tc main_v3)) (sliceScalar 0 slices_S4_S1_0 (W (Proc.devRef .tc main_arg12))))
          (sliceMat 0 slices_S4x64x64_S1x64x64_0_0_0 (W (Proc.devRef .tc main_arg13))) (sliceVec 0 slices_S4x64_S1x64_0_0 (W (Proc.devRef .tc main_arg14)))
          (sliceMat 0 slices_S4x64x64_S1x64x64_0_0_0 (W (Proc.devRef .tc main_arg15))) (sliceVec 0 slices_S4x64_S1x64_0_0 (W (Proc.devRef .tc main_arg16)))
          (sliceVec 0 slices_S4x64_S1x64_0_0 (W (Proc.devRef .tc main_arg17))) (sliceVec 0 slices_S4x64_S1x64_0_0 (W (Proc.devRef .tc main_arg18)))
          (sliceVec 0 slices_S4x64_S1x64_0_0 (W (Proc.devRef .tc main_arg19))) (sliceVec 0 slices_S4x64_S1x64_0_0 (W (Proc.devRef .tc main_arg20))) := by
  after_results_simp
  rfl

set_option maxHeartbeats 8000000 in
/-- Stretch 2: layer 3's output buffer holds the printed layer, with slice 1 of the stacked parameters, of the
    aggregation of the previous layer's buffer along the two edge rows. -/
theorem s2_out :
    (after ops2 W (Proc.devRef .tc main_v150) : S50000x64.Idx → EReal)
      = layerOps (DotDims.plain 50000 64 64)
          (aggRows64 (W (Proc.devRef .tc main_v95)) (W (Proc.devRef .tc main_v1)) (W (Proc.devRef .tc main_v3)) (sliceScalar 1 slices_S4_S1_1 (W (Proc.devRef .tc main_arg12))))
          (sliceMat 1 slices_S4x64x64_S1x64x64_1_0_0 (W (Proc.devRef .tc main_arg13))) (sliceVec 1 slices_S4x64_S1x64_1_0 (W (Proc.devRef .tc main_arg14)))
          (sliceMat 1 slices_S4x64x64_S1x64x64_1_0_0 (W (Proc.devRef .tc main_arg15))) (sliceVec 1 slices_S4x64_S1x64_1_0 (W (Proc.devRef .tc main_arg16)))
          (sliceVec 1 slices_S4x64_S1x64_1_0 (W (Proc.devRef .tc main_arg17))) (sliceVec 1 slices_S4x64_S1x64_1_0 (W (Proc.devRef .tc main_arg18)))
          (sliceVec 1 slices_S4x64_S1x64_1_0 (W (Proc.devRef .tc main_arg19))) (sliceVec 1 slices_S4x64_S1x64_1_0 (W (Proc.devRef .tc main_arg20))) := by
  after_results_simp
  rfl

set_option maxHeartbeats 8000000 in
/-- Stretch 3: layer 4's output buffer holds the printed layer, with slice 2 of the stacked parameters, of the
    aggregation of the previous layer's buffer along the two edge rows. -/
theorem s3_out :
    (after ops3 W (Proc.devRef .tc main_v205) : S50000x64.Idx → EReal)
      = layerOps (DotDims.plain 50000 64 64)
          (aggRows64 (W (Proc.devRef .tc main_v150)) (W (Proc.devRef .tc main_v1)) (W (Proc.devRef .tc main_v3)) (sliceScalar 2 slices_S4_S1_2 (W (Proc.devRef .tc main_arg12))))
          (sliceMat 2 slices_S4x64x64_S1x64x64_2_0_0 (W (Proc.devRef .tc main_arg13))) (sliceVec 2 slices_S4x64_S1x64_2_0 (W (Proc.devRef .tc main_arg14)))
          (sliceMat 2 slices_S4x64x64_S1x64x64_2_0_0 (W (Proc.devRef .tc main_arg15))) (sliceVec 2 slices_S4x64_S1x64_2_0 (W (Proc.devRef .tc main_arg16)))
          (sliceVec 2 slices_S4x64_S1x64_2_0 (W (Proc.devRef .tc main_arg17))) (sliceVec 2 slices_S4x64_S1x64_2_0 (W (Proc.devRef .tc main_arg18)))
          (sliceVec 2 slices_S4x64_S1x64_2_0 (W (Proc.devRef .tc main_arg19))) (sliceVec 2 slices_S4x64_S1x64_2_0 (W (Proc.devRef .tc main_arg20))) := by
  after_results_simp
  rfl

set_option maxHeartbeats 8000000 in
/-- Stretch 4: layer 5's output buffer holds the printed layer, with slice 3 of the stacked parameters, of the
    aggregation of the previous layer's buffer along the two edge rows. -/
theorem s4_out :
    (after ops4 W (Proc.devRef .tc main_v260) : S50000x64.Idx → EReal)
      = layerOps (DotDims.plain 50000 64 64)
          (aggRows64 (W (Proc.devRef .tc main_v205)) (W (Proc.devRef .tc main_v1)) (W (Proc.devRef .tc main_v3)) (sliceScalar 3 slices_S4_S1_3 (W (Proc.devRef .tc main_arg12))))
          (sliceMat 3 slices_S4x64x64_S1x64x64_3_0_0 (W (Proc.devRef .tc main_arg13))) (sliceVec 3 slices_S4x64_S1x64_3_0 (W (Proc.devRef .tc main_arg14)))
          (sliceMat 3 slices_S4x64x64_S1x64x64_3_0_0 (W (Proc.devRef .tc main_arg15))) (sliceVec 3 slices_S4x64_S1x64_3_0 (W (Proc.devRef .tc main_arg16)))
          (sliceVec 3 slices_S4x64_S1x64_3_0 (W (Proc.devRef .tc main_arg17))) (sliceVec 3 slices_S4x64_S1x64_3_0 (W (Proc.devRef .tc main_arg18)))
          (sliceVec 3 slices_S4x64_S1x64_3_0 (W (Proc.devRef .tc main_arg19))) (sliceVec 3 slices_S4x64_S1x64_3_0 (W (Proc.devRef .tc main_arg20))) := by
  after_results_simp
  rfl

/-! ## The last stretch -/

set_option maxHeartbeats 8000000 in
/-- The last stretch leaves the five layer buffers side by side in the second result's buffer. -/
theorem s5_emb :
    (after ops5 W (Proc.devRef .tc main_v261) : S50000x320.Idx → EReal)
      = embCat (W (Proc.devRef .tc main_v40)) (W (Proc.devRef .tc main_v95)) (W (Proc.devRef .tc main_v150)) (W (Proc.devRef .tc main_v205)) (W (Proc.devRef .tc main_v260)) := by
  after_results_simp
  rfl

set_option maxHeartbeats 8000000 in
/-- The last stretch ends with the printed read-out of the per-graph mean of the five layer buffers side by side. -/
theorem s5_logp :
    (after ops5 W (Proc.devRef .tc main_v283) : S512x10.Idx → EReal)
      = headOps
          (pooledMean (embCat (W (Proc.devRef .tc main_v40)) (W (Proc.devRef .tc main_v95)) (W (Proc.devRef .tc main_v150)) (W (Proc.devRef .tc main_v205)) (W (Proc.devRef .tc main_v260)))
            (W (Proc.devRef .tc main_arg2)))
          (W (Proc.devRef .tc main_arg21)) (W (Proc.devRef .tc main_arg22)) (W (Proc.devRef .tc main_arg23)) (W (Proc.devRef .tc main_arg24)) := by
  after_results_simp
  rfl

end Cert.ReferenceIdeal.RefValue

end
-- ==== Proof.RefFun.lean ====
/-
  What the reference computes, as explicit functions of its twenty-five arguments.

  Arguments, by position: x0 the node features [N, 128]; x1 the edge list [2, E]; x2 each node's graph number [N];
  x3 the first layer's ε; x4 … x11 the first layer's Wa, ba, Wb, bb, γ, β, μ, σ²; x12 … x20 the same nine parameters
  of the four later layers, stacked on a leading axis of extent 4; x21 … x24 the read-out's W1, b1, W2, b2.

  Layer one is the specification's layer applied to the aggregated input features; layer k + 2 is the specification's
  layer applied to the aggregation of layer k + 1's output, with slice k of the stacked parameters. The second result
  is the five outputs side by side; the first is the log-softmax of the read-out's logits of the per-graph mean of
  those rows.
-/
import Idealize.ShloMosaic.Lib.ValueIdx
import proofs.«109974_j38371237822822_1_alg».proof.Proof.Spec
import proofs.«109974_j38371237822822_1_alg».proof.Proof.RefOps

noncomputable section

namespace Cert.ReferenceIdeal.RefValue

open Cert.ReferenceIdeal Cert.ReferenceIdeal.Gen Idealize.ShloMosaic Idealize.ShloMosaic.ValueIdx

/-- A layer's output array: the specification's layer at every row and channel, with ε the f32 word of 1e-5. -/
def layerOut {C : Nat} (hpre : FVec Ideal ⟨2, ![50000, C]⟩ .f32) (wa : FVec Ideal ⟨2, ![C, 64]⟩ .f32)
    (ba : FVec Ideal S64 .f32) (wb : FVec Ideal S64x64 .f32) (bb g be mu var : FVec Ideal S64 .f32) :
    FVec Ideal S50000x64 .f32 :=
  fun i => Cert.Spec.layer (fun p l => hpre (ix2 p l)) (fun l k => wa (ix2 l k)) (fun k => ba (ix1 k))
    (fun k q => wb (ix2 k q)) (fun q => bb (ix1 q)) (fun q => g (ix1 q)) (fun q => be (ix1 q))
    (fun q => mu (ix1 q)) (fun q => var (ix1 q)) (Ideal.ofBits .f32 0x3727C5AC#32) (i 0) (i 1)

/-- The read-out's result array: the log-softmax of the logits of the pooled rows. -/
def headOut (pooled : FVec Ideal S512x320 .f32) (w1 : FVec Ideal S320x64 .f32) (b1 : FVec Ideal S64 .f32)
    (w2 : FVec Ideal S64x10 .f32) (b2 : FVec Ideal S10 .f32) : FVec Ideal S512x10 .f32 :=
  fun i => Cert.Spec.logSoftmax
    (Cert.Spec.logits (fun p k => pooled (ix2 p k)) (fun k q => w1 (ix2 k q)) (fun q => b1 (ix1 q))
      (fun k q => w2 (ix2 k q)) (fun q => b2 (ix1 q)) (i 0)) (i 1)

/-- Layer one's output. -/
def refH1 (x0 : FVec Ideal S50000x128 .f32) (x1 : IVec S2x800000 32) (x3 : FVec Ideal S_ .f32)
    (x4 : FVec Ideal S128x64 .f32) (x5 : FVec Ideal S64 .f32) (x6 : FVec Ideal S64x64 .f32) (x7 x8 x9 x10 x11 : FVec Ideal S64 .f32) : FVec Ideal S50000x64 .f32 :=
  layerOut (aggPre128 x0 x1 x3) x4 x5 x6 x7 x8 x9 x10 x11

/-- A later layer's output from the previous layer's output h, with slice k of the stacked parameters. -/
def refNext (k : Nat) (hs : S4.Slices ![k] S1) (hm : S4x64x64.Slices ![k, 0, 0] S1x64x64) (hv : S4x64.Slices ![k, 0] S1x64)
    (h : FVec Ideal S50000x64 .f32) (x1 : IVec S2x800000 32)
    (x12 : FVec Ideal S4 .f32) (x13 : FVec Ideal S4x64x64 .f32) (x14 : FVec Ideal S4x64 .f32) (x15 : FVec Ideal S4x64x64 .f32)
    (x16 x17 x18 x19 x20 : FVec Ideal S4x64 .f32) : FVec Ideal S50000x64 .f32 :=
  layerOut (aggPre64 h x1 (sliceScalar k hs x12)) (sliceMat k hm x13) (sliceVec k hv x14) (sliceMat k hm x15)
    (sliceVec k hv x16) (sliceVec k hv x17) (sliceVec k hv x18) (sliceVec k hv x19) (sliceVec k hv x20)

/-- Layer two's output. -/
def refH2 (x0 : FVec Ideal S50000x128 .f32) (x1 : IVec S2x800000 32) (x3 : FVec Ideal S_ .f32)
    (x4 : FVec Ideal S128x64 .f32) (x5 : FVec Ideal S64 .f32) (x6 : FVec Ideal S64x64 .f32) (x7 x8 x9 x10 x11 : FVec Ideal S64 .f32)
    (x12 : FVec Ideal S4 .f32) (x13 : FVec Ideal S4x64x64 .f32) (x14 : FVec Ideal S4x64 .f32) (x15 : FVec Ideal S4x64x64 .f32)
    (x16 x17 x18 x19 x20 : FVec Ideal S4x64 .f32) : FVec Ideal S50000x64 .f32 :=
  refNext 0 slices_S4_S1_0 slices_S4x64x64_S1x64x64_0_0_0 slices_S4x64_S1x64_0_0 (refH1 x0 x1 x3 x4 x5 x6 x7 x8 x9 x10 x11)
    x1 x12 x13 x14 x15 x16 x17 x18 x19 x20

/-- Layer three's output. -/
def refH3 (x0 : FVec Ideal S50000x128 .f32) (x1 : IVec S2x800000 32) (x3 : FVec Ideal S_ .f32)
    (x4 : FVec Ideal S128x64 .f32) (x5 : FVec Ideal S64 .f32) (x6 : FVec Ideal S64x64 .f32) (x7 x8 x9 x10 x11 : FVec Ideal S64 .f32)
    (x12 : FVec Ideal S4 .f32) (x13 : FVec Ideal S4x64x64 .f32) (x14 : FVec Ideal S4x64 .f32) (x15 : FVec Ideal S4x64x64 .f32)
    (x16 x17 x18 x19 x20 : FVec Ideal S4x64 .f32) : FVec Ideal S50000x64 .f32 :=
  refNext 1 slices_S4_S1_1 slices_S4x64x64_S1x64x64_1_0_0 slices_S4x64_S1x64_1_0 (refH2 x0 x1 x3 x4 x5 x6 x7 x8 x9 x10 x11 x12 x13 x14 x15 x16 x17 x18 x19 x20)
    x1 x12 x13 x14 x15 x16 x17 x18 x19 x20

/-- Layer four's output. -/
def refH4 (x0 : FVec Ideal S50000x128 .f32) (x1 : IVec S2x800000 32) (x3 : FVec Ideal S_ .f32)
    (x4 : FVec Ideal S128x64 .f32) (x5 : FVec Ideal S64 .f32) (x6 : FVec Ideal S64x64 .f32) (x7 x8 x9 x10 x11 : FVec Ideal S64 .f32)
    (x12 : FVec Ideal S4 .f32) (x13 : FVec Ideal S4x64x64 .f32) (x14 : FVec Ideal S4x64 .f32) (x15 : FVec Ideal S4x64x64 .f32)
    (x16 x17 x18 x19 x20 : FVec Ideal S4x64 .f32) : FVec Ideal S50000x64 .f32 :=
  refNext 2 slices_S4_S1_2 slices_S4x64x64_S1x64x64_2_0_0 slices_S4x64_S1x64_2_0 (refH3 x0 x1 x3 x4 x5 x6 x7 x8 x9 x10 x11 x12 x13 x14 x15 x16 x17 x18 x19 x20)
    x1 x12 x13 x14 x15 x16 x17 x18 x19 x20

/-- Layer five's output. -/
def refH5 (x0 : FVec Ideal S50000x128 .f32) (x1 : IVec S2x800000 32) (x3 : FVec Ideal S_ .f32)
    (x4 : FVec Ideal S128x64 .f32) (x5 : FVec Ideal S64 .f32) (x6 : FVec Ideal S64x64 .f32) (x7 x8 x9 x10 x11 : FVec Ideal S64 .f32)
    (x12 : FVec Ideal S4 .f32) (x13 : FVec Ideal S4x64x64 .f32) (x14 : FVec Ideal S4x64 .f32) (x15 : FVec Ideal S4x64x64 .f32)
    (x16 x17 x18 x19 x20 : FVec Ideal S4x64 .f32) : FVec Ideal S50000x64 .f32 :=
  refNext 3 slices_S4_S1_3 slices_S4x64x64_S1x64x64_3_0_0 slices_S4x64_S1x64_3_0 (refH4 x0 x1 x3 x4 x5 x6 x7 x8 x9 x10 x11 x12 x13 x14 x15 x16 x17 x18 x19 x20)
    x1 x12 x13 x14 x15 x16 x17 x18 x19 x20

/-- THE SECOND RESULT: the five layers' outputs side by side, [N, 320]. -/
def refEmb (x0 : FVec Ideal S50000x128 .f32) (x1 : IVec S2x800000 32) (x3 : FVec Ideal S_ .f32)
    (x4 : FVec Ideal S128x64 .f32) (x5 : FVec Ideal S64 .f32) (x6 : FVec Ideal S64x64 .f32) (x7 x8 x9 x10 x11 : FVec Ideal S64 .f32)
    (x12 : FVec Ideal S4 .f32) (x13 : FVec Ideal S4x64x64 .f32) (x14 : FVec Ideal S4x64 .f32) (x15 : FVec Ideal S4x64x64 .f32)
    (x16 x17 x18 x19 x20 : FVec Ideal S4x64 .f32) : FVec Ideal S50000x320 .f32 :=
  embCat (refH1 x0 x1 x3 x4 x5 x6 x7 x8 x9 x10 x11) (refH2 x0 x1 x3 x4 x5 x6 x7 x8 x9 x10 x11 x12 x13 x14 x15 x16 x17 x18 x19 x20) (refH3 x0 x1 x3 x4 x5 x6 x7 x8 x9 x10 x11 x12 x13 x14 x15 x16 x17 x18 x19 x20) (refH4 x0 x1 x3 x4 x5 x6 x7 x8 x9 x10 x11 x12 x13 x14 x15 x16 x17 x18 x19 x20) (refH5 x0 x1 x3 x4 x5 x6 x7 x8 x9 x10 x11 x12 x13 x14 x15 x16 x17 x18 x19 x20)

/-- THE FIRST RESULT: the log-probabilities [G, 10]. -/
def refLogp (x0 : FVec Ideal S50000x128 .f32) (x1 : IVec S2x800000 32) (x2 : IVec S50000 32) (x3 : FVec Ideal S_ .f32)
    (x4 : FVec Ideal S128x64 .f32) (x5 : FVec Ideal S64 .f32) (x6 : FVec Ideal S64x64 .f32) (x7 x8 x9 x10 x11 : FVec Ideal S64 .f32)
    (x12 : FVec Ideal S4 .f32) (x13 : FVec Ideal S4x64x64 .f32) (x14 : FVec Ideal S4x64 .f32) (x15 : FVec Ideal S4x64x64 .f32)
    (x16 x17 x18 x19 x20 : FVec Ideal S4x64 .f32)
    (x21 : FVec Ideal S320x64 .f32) (x22 : FVec Ideal S64 .f32) (x23 : FVec Ideal S64x10 .f32) (x24 : FVec Ideal S10 .f32) :
    FVec Ideal S512x10 .f32 :=
  headOut (pooledMean (refEmb x0 x1 x3 x4 x5 x6 x7 x8 x9 x10 x11 x12 x13 x14 x15 x16 x17 x18 x19 x20) x2) x21 x22 x23 x24

end Cert.ReferenceIdeal.RefValue

end
-- ==== Proof.RefSlice.lean ====
/-
  Row k of the stacked channel vectors, read at a channel: entry (k, q) of the stack.

  The slice [k : k + 1, 0 : 64] of a [4, 64] array is a [1, 64] array whose entry (0, q) is the array's entry (k, q),
  and recasting [1, 64] as [64] keeps the row-major position, so entry q of the result is entry (0, q) of the slice.
-/
import Idealize.ShloMosaic.Lib.Pipeline.Value
import Idealize.ShloMosaic.Lib.ValueIdx
import proofs.«109974_j38371237822822_1_alg».proof.Proof.RefOps

noncomputable section

namespace Cert.ReferenceIdeal.RefValue

open Cert.ReferenceIdeal Cert.ReferenceIdeal.Gen Idealize.ShloMosaic Idealize.ShloMosaic.ValueIdx

/-- Row k of four stacked vectors of 64 channels, at channel q, is the stack's entry (k, q). -/
theorem sliceVec_apply (k : Nat) (hk : S4x64.Slices ![k, 0] S1x64) (hk4 : k < 4) (v : FVec Ideal S4x64 .f32) (q : Fin 64) :
    sliceVec k hk v (ix1 q) = v (ix2 (⟨k, hk4⟩ : Fin 4) q) := by
  unfold sliceVec
  rw [shapeCast_apply (extractStridedSlice S1x64 ![k, 0] v hk) shapeCasts_S1x64_S64 (ix1 q) (ix2 (0 : Fin 1) q)
    (by rw [Shape.rowMajor_val_two, Shape.rowMajor_val_one]; show (0 : Nat) * 64 + q.val = q.val; omega)]
  exact extractStridedSlice_apply ![k, 0] v hk (ix2 (0 : Fin 1) q) (ix2 (⟨k, hk4⟩ : Fin 4) q) (fun a => match a with
    | ⟨0, _⟩ => by show k = k + 0; omega
    | ⟨1, _⟩ => by show q.val = 0 + q.val; omega)

end Cert.ReferenceIdeal.RefValue

end
-- ==== Proof.RefNext.lean ====
/-
  From the printed operations to the explicit functions, one link at a time.

  Each link is stated over arbitrary arrays standing for the reference's stages, with the stage equations as
  hypotheses: if a stage is the printed layer of a stage that is the aggregation of a stage equal to the previous
  layer's explicit output, then it is the next layer's explicit output; likewise for the first layer, for the five
  outputs side by side, and for the read-out of the per-graph mean. The positivity of σ² + ε for slice k of the
  stacked variances is read off the stack at row k.
-/
import proofs.«109974_j38371237822822_1_alg».proof.Proof.RefFun
import proofs.«109974_j38371237822822_1_alg».proof.Proof.RefLayer
import proofs.«109974_j38371237822822_1_alg».proof.Proof.RefHead
import proofs.«109974_j38371237822822_1_alg».proof.Proof.RefSlice

noncomputable section

namespace Cert.ReferenceIdeal.RefValue

open Cert.ReferenceIdeal Cert.ReferenceIdeal.Gen Idealize.ShloMosaic Idealize.ShloMosaic.ValueIdx

/-- THE FIRST LAYER: a stage that is the printed layer of the aggregated input features is layer one's output. -/
theorem first_layer (x0 : FVec Ideal S50000x128 .f32) (x1 : IVec S2x800000 32) (x3 : FVec Ideal S_ .f32)
    (x4 : FVec Ideal S128x64 .f32) (x5 : FVec Ideal S64 .f32) (x6 : FVec Ideal S64x64 .f32) (x7 x8 x9 x10 x11 : FVec Ideal S64 .f32)
    (hv1 : ∀ q : Fin 64, 0 < x11 (ix1 q) + Ideal.ofBits .f32 0x3727C5AC#32)
    (vOut : FVec Ideal S50000x64 .f32) (vPre : FVec Ideal S50000x128 .f32)
    (sOut : vOut = layerOps (DotDims.plain 50000 128 64) vPre x4 x5 x6 x7 x8 x9 x10 x11)
    (sPre : vPre = aggPre128 x0 x1 x3) :
    vOut = refH1 x0 x1 x3 x4 x5 x6 x7 x8 x9 x10 x11 := by
  rw [sOut, sPre]
  funext i
  exact layerOps_apply (C := 128) _ _ _ _ _ _ _ _ _ hv1 i

/-- A LATER LAYER: a stage that is the printed layer, with slice k of the stacked parameters, of the aggregation of a
    stage equal to the previous layer's output H, is the next layer's output from H. -/
theorem next_layer (k : Nat) (hs : S4.Slices ![k] S1) (hm : S4x64x64.Slices ![k, 0, 0] S1x64x64)
    (hv : S4x64.Slices ![k, 0] S1x64) (hk4 : k < 4) (x1 : IVec S2x800000 32)
    (x12 : FVec Ideal S4 .f32) (x13 : FVec Ideal S4x64x64 .f32) (x14 : FVec Ideal S4x64 .f32) (x15 : FVec Ideal S4x64x64 .f32)
    (x16 x17 x18 x19 x20 : FVec Ideal S4x64 .f32)
    (hvs : ∀ (k : Fin 4) (q : Fin 64), 0 < x20 (ix2 k q) + Ideal.ofBits .f32 0x3727C5AC#32)
    (vOut vPre vPrev H : FVec Ideal S50000x64 .f32)
    (sOut : vOut = layerOps (DotDims.plain 50000 64 64) vPre (sliceMat k hm x13) (sliceVec k hv x14) (sliceMat k hm x15)
      (sliceVec k hv x16) (sliceVec k hv x17) (sliceVec k hv x18) (sliceVec k hv x19) (sliceVec k hv x20))
    (sPre : vPre = aggPre64 vPrev x1 (sliceScalar k hs x12)) (hPrev : vPrev = H) :
    vOut = refNext k hs hm hv H x1 x12 x13 x14 x15 x16 x17 x18 x19 x20 := by
  rw [sOut, sPre, hPrev]
  funext i
  exact layerOps_apply (C := 64) _ _ _ _ _ _ _ _ _
    (fun q => by rw [sliceVec_apply k hv hk4]; exact hvs ⟨k, hk4⟩ q) i

/-- THE READ-OUT: a stage that is the printed read-out of a stage that is the per-graph mean of a stage equal to E is
    the explicit read-out of the per-graph mean of E. -/
theorem head_link (x2 : IVec S50000 32) (x21 : FVec Ideal S320x64 .f32) (x22 : FVec Ideal S64 .f32)
    (x23 : FVec Ideal S64x10 .f32) (x24 : FVec Ideal S10 .f32)
    (vOut : FVec Ideal S512x10 .f32) (vPool : FVec Ideal S512x320 .f32) (vEm E : FVec Ideal S50000x320 .f32)
    (sOut : vOut = headOps vPool x21 x22 x23 x24) (sPool : vPool = pooledMean vEm x2) (hEm : vEm = E) :
    vOut = headOut (pooledMean E x2) x21 x22 x23 x24 := by
  rw [sOut, sPool, hEm]
  funext i
  exact headOps_apply _ _ _ _ _ i

end Cert.ReferenceIdeal.RefValue

end
-- ==== Proof.RefPos.lean ====
/-
  The condition under which the reference's scale γ / sqrt(σ² + ε) is the product with the reciprocal square root:
  σ² + ε positive, at every channel of a variance vector, and at every row and channel of four stacked ones. Here ε is
  the f32 word of 1e-5.
-/
import Idealize.ShloMosaic.PureOps.Ideal
import Idealize.ShloMosaic.Lib.ValueIdx
import proofs.«109974_j38371237822822_1_alg».proof.Proof.Gen.ReferenceIdeal

noncomputable section

namespace Cert.ReferenceIdeal.RefValue

open Cert.ReferenceIdeal Idealize.ShloMosaic Idealize.ShloMosaic.ValueIdx

/-- σ² + ε is positive at every channel of the variance vector v. -/
def VarPos (v : FVec Ideal S64 .f32) : Prop :=
  ∀ q : Fin 64, 0 < v (ix1 q) + Ideal.ofBits .f32 0x3727C5AC#32

/-- σ² + ε is positive at every row and channel of the four stacked variance vectors v. -/
def VarPos4 (v : FVec Ideal S4x64 .f32) : Prop :=
  ∀ (k : Fin 4) (q : Fin 64), 0 < v (ix2 k q) + Ideal.ofBits .f32 0x3727C5AC#32

end Cert.ReferenceIdeal.RefValue

end
-- ==== Proof.RefRun.lean ====
/-
  The reference's run, with its two results as explicit functions of the arguments.

  The raw run leaves every buffer at the six stretches folded, in order, over the launch contents. Following the
  folds one at a time: the arguments and, once written, the two edge rows and each layer's output pass unchanged
  through every later stretch, since each stretch writes only its own buffers. So the first stretch ends with layer
  one's explicit output; each later stretch finds the previous explicit output, the edge rows and the parameters in
  the buffers it reads and ends with the next explicit output; and the last stretch finds all five, lays them side by
  side (the second result) and ends with the explicit read-out of their per-graph mean (the first result). The two
  positivity conditions on σ² + ε are used where a layer's scale is rewritten.
-/
import proofs.«109974_j38371237822822_1_alg».proof.Proof.RefProg
import proofs.«109974_j38371237822822_1_alg».proof.Proof.RefStretch
import proofs.«109974_j38371237822822_1_alg».proof.Proof.RefNext
import proofs.«109974_j38371237822822_1_alg».proof.Proof.RefPos

set_option maxRecDepth 16384

noncomputable section

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx

/-! ## One link per later stretch -/

/-- Stretch 1 as a link: if the buffers it reads hold the two rows of the edge list x1, the previous layer's output H
    and the stacked parameters, its last buffer holds the next layer's output from H. -/
theorem link1 (W' : Valuation τ sig (Elt Ideal)) (x1 : IVec S2x800000 32)
    (x12 : FVec Ideal S4 .f32) (x13 : FVec Ideal S4x64x64 .f32) (x14 : FVec Ideal S4x64 .f32) (x15 : FVec Ideal S4x64x64 .f32)
    (x16 x17 x18 x19 x20 : FVec Ideal S4x64 .f32) (H : FVec Ideal S50000x64 .f32)
    (hrow0 : (W' (Proc.devRef .tc main_v1) : S800000.Idx → BitVec 32) = edgeRow 0 slices_S2x800000_S1x800000_0_0 x1)
    (hrow1 : (W' (Proc.devRef .tc main_v3) : S800000.Idx → BitVec 32) = edgeRow 1 slices_S2x800000_S1x800000_1_0 x1)
    (hprev : (W' (Proc.devRef .tc main_v40) : S50000x64.Idx → EReal) = H)
    (b12 : (W' (Proc.devRef .tc main_arg12) : FVec Ideal S4 .f32) = x12)
    (b13 : (W' (Proc.devRef .tc main_arg13) : FVec Ideal S4x64x64 .f32) = x13)
    (b14 : (W' (Proc.devRef .tc main_arg14) : FVec Ideal S4x64 .f32) = x14)
    (b15 : (W' (Proc.devRef .tc main_arg15) : FVec Ideal S4x64x64 .f32) = x15)
    (b16 : (W' (Proc.devRef .tc main_arg16) : FVec Ideal S4x64 .f32) = x16)
    (b17 : (W' (Proc.devRef .tc main_arg17) : FVec Ideal S4x64 .f32) = x17)
    (b18 : (W' (Proc.devRef .tc main_arg18) : FVec Ideal S4x64 .f32) = x18)
    (b19 : (W' (Proc.devRef .tc main_arg19) : FVec Ideal S4x64 .f32) = x19)
    (b20 : (W' (Proc.devRef .tc main_arg20) : FVec Ideal S4x64 .f32) = x20)
    (hvs : VarPos4 x20) :
    (after ops1 W' (Proc.devRef .tc main_v95) : S50000x64.Idx → EReal)
      = refNext 0 slices_S4_S1_0 slices_S4x64x64_S1x64x64_0_0_0 slices_S4x64_S1x64_0_0 H x1 x12 x13 x14 x15 x16 x17 x18 x19 x20 := by
  rw [s1_out W', hrow0, hrow1, hprev, b12, b13, b14, b15, b16, b17, b18, b19, b20, aggRows64_eq]
  exact next_layer 0 slices_S4_S1_0 slices_S4x64x64_S1x64x64_0_0_0 slices_S4x64_S1x64_0_0 (by decide) x1 x12 x13 x14 x15 x16 x17 x18 x19 x20 hvs
    _ (aggPre64 H x1 (sliceScalar 0 slices_S4_S1_0 x12)) H H rfl rfl rfl

/-- Stretch 2 as a link: if the buffers it reads hold the two rows of the edge list x1, the previous layer's output H
    and the stacked parameters, its last buffer holds the next layer's output from H. -/
theorem link2 (W' : Valuation τ sig (Elt Ideal)) (x1 : IVec S2x800000 32)
    (x12 : FVec Ideal S4 .f32) (x13 : FVec Ideal S4x64x64 .f32) (x14 : FVec Ideal S4x64 .f32) (x15 : FVec Ideal S4x64x64 .f32)
    (x16 x17 x18 x19 x20 : FVec Ideal S4x64 .f32) (H : FVec Ideal S50000x64 .f32)
    (hrow0 : (W' (Proc.devRef .tc main_v1) : S800000.Idx → BitVec 32) = edgeRow 0 slices_S2x800000_S1x800000_0_0 x1)
    (hrow1 : (W' (Proc.devRef .tc main_v3) : S800000.Idx → BitVec 32) = edgeRow 1 slices_S2x800000_S1x800000_1_0 x1)
    (hprev : (W' (Proc.devRef .tc main_v95) : S50000x64.Idx → EReal) = H)
    (b12 : (W' (Proc.devRef .tc main_arg12) : FVec Ideal S4 .f32) = x12)
    (b13 : (W' (Proc.devRef .tc main_arg13) : FVec Ideal S4x64x64 .f32) = x13)
    (b14 : (W' (Proc.devRef .tc main_arg14) : FVec Ideal S4x64 .f32) = x14)
    (b15 : (W' (Proc.devRef .tc main_arg15) : FVec Ideal S4x64x64 .f32) = x15)
    (b16 : (W' (Proc.devRef .tc main_arg16) : FVec Ideal S4x64 .f32) = x16)
    (b17 : (W' (Proc.devRef .tc main_arg17) : FVec Ideal S4x64 .f32) = x17)
    (b18 : (W' (Proc.devRef .tc main_arg18) : FVec Ideal S4x64 .f32) = x18)
    (b19 : (W' (Proc.devRef .tc main_arg19) : FVec Ideal S4x64 .f32) = x19)
    (b20 : (W' (Proc.devRef .tc main_arg20) : FVec Ideal S4x64 .f32) = x20)
    (hvs : VarPos4 x20) :
    (after ops2 W' (Proc.devRef .tc main_v150) : S50000x64.Idx → EReal)
      = refNext 1 slices_S4_S1_1 slices_S4x64x64_S1x64x64_1_0_0 slices_S4x64_S1x64_1_0 H x1 x12 x13 x14 x15 x16 x17 x18 x19 x20 := by
  rw [s2_out W', hrow0, hrow1, hprev, b12, b13, b14, b15, b16, b17, b18, b19, b20, aggRows64_eq]
  exact next_layer 1 slices_S4_S1_1 slices_S4x64x64_S1x64x64_1_0_0 slices_S4x64_S1x64_1_0 (by decide) x1 x12 x13 x14 x15 x16 x17 x18 x19 x20 hvs
    _ (aggPre64 H x1 (sliceScalar 1 slices_S4_S1_1 x12)) H H rfl rfl rfl

/-- Stretch 3 as a link: if the buffers it reads hold the two rows of the edge list x1, the previous layer's output H
    and the stacked parameters, its last buffer holds the next layer's output from H. -/
theorem link3 (W' : Valuation τ sig (Elt Ideal)) (x1 : IVec S2x800000 32)
    (x12 : FVec Ideal S4 .f32) (x13 : FVec Ideal S4x64x64 .f32) (x14 : FVec Ideal S4x64 .f32) (x15 : FVec Ideal S4x64x64 .f32)
    (x16 x17 x18 x19 x20 : FVec Ideal S4x64 .f32) (H : FVec Ideal S50000x64 .f32)
    (hrow0 : (W' (Proc.devRef .tc main_v1) : S800000.Idx → BitVec 32) = edgeRow 0 slices_S2x800000_S1x800000_0_0 x1)
    (hrow1 : (W' (Proc.devRef .tc main_v3) : S800000.Idx → BitVec 32) = edgeRow 1 slices_S2x800000_S1x800000_1_0 x1)
    (hprev : (W' (Proc.devRef .tc main_v150) : S50000x64.Idx → EReal) = H)
    (b12 : (W' (Proc.devRef .tc main_arg12) : FVec Ideal S4 .f32) = x12)
    (b13 : (W' (Proc.devRef .tc main_arg13) : FVec Ideal S4x64x64 .f32) = x13)
    (b14 : (W' (Proc.devRef .tc main_arg14) : FVec Ideal S4x64 .f32) = x14)
    (b15 : (W' (Proc.devRef .tc main_arg15) : FVec Ideal S4x64x64 .f32) = x15)
    (b16 : (W' (Proc.devRef .tc main_arg16) : FVec Ideal S4x64 .f32) = x16)
    (b17 : (W' (Proc.devRef .tc main_arg17) : FVec Ideal S4x64 .f32) = x17)
    (b18 : (W' (Proc.devRef .tc main_arg18) : FVec Ideal S4x64 .f32) = x18)
    (b19 : (W' (Proc.devRef .tc main_arg19) : FVec Ideal S4x64 .f32) = x19)
    (b20 : (W' (Proc.devRef .tc main_arg20) : FVec Ideal S4x64 .f32) = x20)
    (hvs : VarPos4 x20) :
    (after ops3 W' (Proc.devRef .tc main_v205) : S50000x64.Idx → EReal)
      = refNext 2 slices_S4_S1_2 slices_S4x64x64_S1x64x64_2_0_0 slices_S4x64_S1x64_2_0 H x1 x12 x13 x14 x15 x16 x17 x18 x19 x20 := by
  rw [s3_out W', hrow0, hrow1, hprev, b12, b13, b14, b15, b16, b17, b18, b19, b20, aggRows64_eq]
  exact next_layer 2 slices_S4_S1_2 slices_S4x64x64_S1x64x64_2_0_0 slices_S4x64_S1x64_2_0 (by decide) x1 x12 x13 x14 x15 x16 x17 x18 x19 x20 hvs
    _ (aggPre64 H x1 (sliceScalar 2 slices_S4_S1_2 x12)) H H rfl rfl rfl

/-- Stretch 4 as a link: if the buffers it reads hold the two rows of the edge list x1, the previous layer's output H
    and the stacked parameters, its last buffer holds the next layer's output from H. -/
theorem link4 (W' : Valuation τ sig (Elt Ideal)) (x1 : IVec S2x800000 32)
    (x12 : FVec Ideal S4 .f32) (x13 : FVec Ideal S4x64x64 .f32) (x14 : FVec Ideal S4x64 .f32) (x15 : FVec Ideal S4x64x64 .f32)
    (x16 x17 x18 x19 x20 : FVec Ideal S4x64 .f32) (H : FVec Ideal S50000x64 .f32)
    (hrow0 : (W' (Proc.devRef .tc main_v1) : S800000.Idx → BitVec 32) = edgeRow 0 slices_S2x800000_S1x800000_0_0 x1)
    (hrow1 : (W' (Proc.devRef .tc main_v3) : S800000.Idx → BitVec 32) = edgeRow 1 slices_S2x800000_S1x800000_1_0 x1)
    (hprev : (W' (Proc.devRef .tc main_v205) : S50000x64.Idx → EReal) = H)
    (b12 : (W' (Proc.devRef .tc main_arg12) : FVec Ideal S4 .f32) = x12)
    (b13 : (W' (Proc.devRef .tc main_arg13) : FVec Ideal S4x64x64 .f32) = x13)
    (b14 : (W' (Proc.devRef .tc main_arg14) : FVec Ideal S4x64 .f32) = x14)
    (b15 : (W' (Proc.devRef .tc main_arg15) : FVec Ideal S4x64x64 .f32) = x15)
    (b16 : (W' (Proc.devRef .tc main_arg16) : FVec Ideal S4x64 .f32) = x16)
    (b17 : (W' (Proc.devRef .tc main_arg17) : FVec Ideal S4x64 .f32) = x17)
    (b18 : (W' (Proc.devRef .tc main_arg18) : FVec Ideal S4x64 .f32) = x18)
    (b19 : (W' (Proc.devRef .tc main_arg19) : FVec Ideal S4x64 .f32) = x19)
    (b20 : (W' (Proc.devRef .tc main_arg20) : FVec Ideal S4x64 .f32) = x20)
    (hvs : VarPos4 x20) :
    (after ops4 W' (Proc.devRef .tc main_v260) : S50000x64.Idx → EReal)
      = refNext 3 slices_S4_S1_3 slices_S4x64x64_S1x64x64_3_0_0 slices_S4x64_S1x64_3_0 H x1 x12 x13 x14 x15 x16 x17 x18 x19 x20 := by
  rw [s4_out W', hrow0, hrow1, hprev, b12, b13, b14, b15, b16, b17, b18, b19, b20, aggRows64_eq]
  exact next_layer 3 slices_S4_S1_3 slices_S4x64x64_S1x64x64_3_0_0 slices_S4x64_S1x64_3_0 (by decide) x1 x12 x13 x14 x15 x16 x17 x18 x19 x20 hvs
    _ (aggPre64 H x1 (sliceScalar 3 slices_S4_S1_3 x12)) H H rfl rfl rfl

/-! ## The six folds, one after the other -/

section Chain

variable (W : Valuation τ sig (Elt Ideal))

/-- The buffers after the first stretch, … , after the sixth. -/
abbrev st1 : Valuation τ sig (Elt Ideal) := after ops0 W
abbrev st2 : Valuation τ sig (Elt Ideal) := after ops1 (st1 W)
abbrev st3 : Valuation τ sig (Elt Ideal) := after ops2 (st2 W)
abbrev st4 : Valuation τ sig (Elt Ideal) := after ops3 (st3 W)
abbrev st5 : Valuation τ sig (Elt Ideal) := after ops4 (st4 W)
abbrev st6 : Valuation τ sig (Elt Ideal) := after ops5 (st5 W)

/-- A buffer none of the first j stretches writes holds its launch contents after them. -/
theorem a1 (r : Ref sig .tc) (h0 : r ∉ ops0_W := by decide) : st1 W (Proc.devRef .tc r) = W (Proc.devRef .tc r) :=
  ops0_keep W r h0
theorem a2 (r : Ref sig .tc) (h1 : r ∉ ops1_W := by decide) (h0 : r ∉ ops0_W := by decide) :
    st2 W (Proc.devRef .tc r) = W (Proc.devRef .tc r) := (ops1_keep (st1 W) r h1).trans (a1 W r h0)
theorem a3 (r : Ref sig .tc) (h2 : r ∉ ops2_W := by decide) (h1 : r ∉ ops1_W := by decide) (h0 : r ∉ ops0_W := by decide) :
    st3 W (Proc.devRef .tc r) = W (Proc.devRef .tc r) := (ops2_keep (st2 W) r h2).trans (a2 W r h1 h0)
theorem a4 (r : Ref sig .tc) (h3 : r ∉ ops3_W := by decide) (h2 : r ∉ ops2_W := by decide) (h1 : r ∉ ops1_W := by decide)
    (h0 : r ∉ ops0_W := by decide) : st4 W (Proc.devRef .tc r) = W (Proc.devRef .tc r) :=
  (ops3_keep (st3 W) r h3).trans (a3 W r h2 h1 h0)
theorem a5 (r : Ref sig .tc) (h4 : r ∉ ops4_W := by decide) (h3 : r ∉ ops3_W := by decide) (h2 : r ∉ ops2_W := by decide)
    (h1 : r ∉ ops1_W := by decide) (h0 : r ∉ ops0_W := by decide) : st5 W (Proc.devRef .tc r) = W (Proc.devRef .tc r) :=
  (ops4_keep (st4 W) r h4).trans (a4 W r h3 h2 h1 h0)
theorem a6 (r : Ref sig .tc) (h5 : r ∉ ops5_W := by decide) (h4 : r ∉ ops4_W := by decide) (h3 : r ∉ ops3_W := by decide)
    (h2 : r ∉ ops2_W := by decide) (h1 : r ∉ ops1_W := by decide) (h0 : r ∉ ops0_W := by decide) :
    st6 W (Proc.devRef .tc r) = W (Proc.devRef .tc r) := (ops5_keep (st5 W) r h5).trans (a5 W r h4 h3 h2 h1 h0)

/-- A buffer the stretches after the first do not write holds after them what the first stretch left. -/
theorem k2 (r : Ref sig .tc) (h1 : r ∉ ops1_W := by decide) : st2 W (Proc.devRef .tc r) = st1 W (Proc.devRef .tc r) :=
  ops1_keep (st1 W) r h1
theorem k3 (r : Ref sig .tc) (h2 : r ∉ ops2_W := by decide) : st3 W (Proc.devRef .tc r) = st2 W (Proc.devRef .tc r) :=
  ops2_keep (st2 W) r h2
theorem k4 (r : Ref sig .tc) (h3 : r ∉ ops3_W := by decide) : st4 W (Proc.devRef .tc r) = st3 W (Proc.devRef .tc r) :=
  ops3_keep (st3 W) r h3
theorem k5 (r : Ref sig .tc) (h4 : r ∉ ops4_W := by decide) : st5 W (Proc.devRef .tc r) = st4 W (Proc.devRef .tc r) :=
  ops4_keep (st4 W) r h4

variable (hv1 : VarPos (W (Proc.devRef .tc main_arg11))) (hvs : VarPos4 (W (Proc.devRef .tc main_arg20)))
include hv1

/-- After the first stretch: layer one's output. -/
theorem out1 : (st1 W (Proc.devRef .tc main_v40) : S50000x64.Idx → EReal) = refH1 (W (Proc.devRef .tc main_arg0)) (W (Proc.devRef .tc main_arg1)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) :=
  first_layer (W (Proc.devRef .tc main_arg0)) (W (Proc.devRef .tc main_arg1)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) hv1 _ _ (s0_out W) rfl

include hvs

/-- After the second stretch: layer two's output. -/
theorem out2 : (st2 W (Proc.devRef .tc main_v95) : S50000x64.Idx → EReal) = refH2 (W (Proc.devRef .tc main_arg0)) (W (Proc.devRef .tc main_arg1)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (W (Proc.devRef .tc main_arg18)) (W (Proc.devRef .tc main_arg19)) (W (Proc.devRef .tc main_arg20)) :=
  link1 (st1 W) (W (Proc.devRef .tc main_arg1)) (W (Proc.devRef .tc main_arg12)) (W (Proc.devRef .tc main_arg13)) (W (Proc.devRef .tc main_arg14)) (W (Proc.devRef .tc main_arg15)) (W (Proc.devRef .tc main_arg16)) (W (Proc.devRef .tc main_arg17)) (W (Proc.devRef .tc main_arg18)) (W (Proc.devRef .tc main_arg19)) (W (Proc.devRef .tc main_arg20)) (refH1 (W (Proc.devRef .tc main_arg0)) (W (Proc.devRef .tc main_arg1)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)))
    (s0_row0 W) (s0_row1 W) (out1 W hv1)
    (a1 W main_arg12) (a1 W main_arg13) (a1 W main_arg14) (a1 W main_arg15) (a1 W main_arg16) (a1 W main_arg17)
    (a1 W main_arg18) (a1 W main_arg19) (a1 W main_arg20) hvs

/-- After the third stretch: layer three's output. -/
theorem out3 : (st3 W (Proc.devRef .tc main_v150) : S50000x64.Idx → EReal) = refH3 (W (Proc.devRef .tc main_arg0)) (W (Proc.devRef .tc main_arg1)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (W (Proc.devRef .tc main_arg18)) (W (Proc.devRef .tc main_arg19)) (W (Proc.devRef .tc main_arg20)) :=
  link2 (st2 W) (W (Proc.devRef .tc main_arg1)) (W (Proc.devRef .tc main_arg12)) (W (Proc.devRef .tc main_arg13)) (W (Proc.devRef .tc main_arg14)) (W (Proc.devRef .tc main_arg15)) (W (Proc.devRef .tc main_arg16)) (W (Proc.devRef .tc main_arg17)) (W (Proc.devRef .tc main_arg18)) (W (Proc.devRef .tc main_arg19)) (W (Proc.devRef .tc main_arg20)) (refH2 (W (Proc.devRef .tc main_arg0)) (W (Proc.devRef .tc main_arg1)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (W (Proc.devRef .tc main_arg18)) (W (Proc.devRef .tc main_arg19)) (W (Proc.devRef .tc main_arg20)))
    ((k2 W main_v1).trans (s0_row0 W)) ((k2 W main_v3).trans (s0_row1 W)) (out2 W hv1 hvs)
    (a2 W main_arg12) (a2 W main_arg13) (a2 W main_arg14) (a2 W main_arg15) (a2 W main_arg16) (a2 W main_arg17)
    (a2 W main_arg18) (a2 W main_arg19) (a2 W main_arg20) hvs

/-- After the fourth stretch: layer four's output. -/
theorem out4 : (st4 W (Proc.devRef .tc main_v205) : S50000x64.Idx → EReal) = refH4 (W (Proc.devRef .tc main_arg0)) (W (Proc.devRef .tc main_arg1)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (W (Proc.devRef .tc main_arg18)) (W (Proc.devRef .tc main_arg19)) (W (Proc.devRef .tc main_arg20)) :=
  link3 (st3 W) (W (Proc.devRef .tc main_arg1)) (W (Proc.devRef .tc main_arg12)) (W (Proc.devRef .tc main_arg13)) (W (Proc.devRef .tc main_arg14)) (W (Proc.devRef .tc main_arg15)) (W (Proc.devRef .tc main_arg16)) (W (Proc.devRef .tc main_arg17)) (W (Proc.devRef .tc main_arg18)) (W (Proc.devRef .tc main_arg19)) (W (Proc.devRef .tc main_arg20)) (refH3 (W (Proc.devRef .tc main_arg0)) (W (Proc.devRef .tc main_arg1)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (W (Proc.devRef .tc main_arg18)) (W (Proc.devRef .tc main_arg19)) (W (Proc.devRef .tc main_arg20)))
    ((k3 W main_v1).trans ((k2 W main_v1).trans (s0_row0 W))) ((k3 W main_v3).trans ((k2 W main_v3).trans (s0_row1 W)))
    (out3 W hv1 hvs)
    (a3 W main_arg12) (a3 W main_arg13) (a3 W main_arg14) (a3 W main_arg15) (a3 W main_arg16) (a3 W main_arg17)
    (a3 W main_arg18) (a3 W main_arg19) (a3 W main_arg20) hvs

/-- After the fifth stretch: layer five's output. -/
theorem out5 : (st5 W (Proc.devRef .tc main_v260) : S50000x64.Idx → EReal) = refH5 (W (Proc.devRef .tc main_arg0)) (W (Proc.devRef .tc main_arg1)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (W (Proc.devRef .tc main_arg18)) (W (Proc.devRef .tc main_arg19)) (W (Proc.devRef .tc main_arg20)) :=
  link4 (st4 W) (W (Proc.devRef .tc main_arg1)) (W (Proc.devRef .tc main_arg12)) (W (Proc.devRef .tc main_arg13)) (W (Proc.devRef .tc main_arg14)) (W (Proc.devRef .tc main_arg15)) (W (Proc.devRef .tc main_arg16)) (W (Proc.devRef .tc main_arg17)) (W (Proc.devRef .tc main_arg18)) (W (Proc.devRef .tc main_arg19)) (W (Proc.devRef .tc main_arg20)) (refH4 (W (Proc.devRef .tc main_arg0)) (W (Proc.devRef .tc main_arg1)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (W (Proc.devRef .tc main_arg18)) (W (Proc.devRef .tc main_arg19)) (W (Proc.devRef .tc main_arg20)))
    ((k4 W main_v1).trans ((k3 W main_v1).trans ((k2 W main_v1).trans (s0_row0 W))))
    ((k4 W main_v3).trans ((k3 W main_v3).trans ((k2 W main_v3).trans (s0_row1 W))))
    (out4 W hv1 hvs)
    (a4 W main_arg12) (a4 W main_arg13) (a4 W main_arg14) (a4 W main_arg15) (a4 W main_arg16) (a4 W main_arg17)
    (a4 W main_arg18) (a4 W main_arg19) (a4 W main_arg20) hvs

/-- What the last stretch finds in the five layer buffers. -/
theorem in6_1 : (st5 W (Proc.devRef .tc main_v40) : S50000x64.Idx → EReal) = refH1 (W (Proc.devRef .tc main_arg0)) (W (Proc.devRef .tc main_arg1)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) :=
  (k5 W main_v40).trans ((k4 W main_v40).trans ((k3 W main_v40).trans ((k2 W main_v40).trans (out1 W hv1))))
theorem in6_2 : (st5 W (Proc.devRef .tc main_v95) : S50000x64.Idx → EReal) = refH2 (W (Proc.devRef .tc main_arg0)) (W (Proc.devRef .tc main_arg1)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (W (Proc.devRef .tc main_arg18)) (W (Proc.devRef .tc main_arg19)) (W (Proc.devRef .tc main_arg20)) :=
  (k5 W main_v95).trans ((k4 W main_v95).trans ((k3 W main_v95).trans (out2 W hv1 hvs)))
theorem in6_3 : (st5 W (Proc.devRef .tc main_v150) : S50000x64.Idx → EReal) = refH3 (W (Proc.devRef .tc main_arg0)) (W (Proc.devRef .tc main_arg1)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (W (Proc.devRef .tc main_arg18)) (W (Proc.devRef .tc main_arg19)) (W (Proc.devRef .tc main_arg20)) :=
  (k5 W main_v150).trans ((k4 W main_v150).trans (out3 W hv1 hvs))
theorem in6_4 : (st5 W (Proc.devRef .tc main_v205) : S50000x64.Idx → EReal) = refH4 (W (Proc.devRef .tc main_arg0)) (W (Proc.devRef .tc main_arg1)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (W (Proc.devRef .tc main_arg18)) (W (Proc.devRef .tc main_arg19)) (W (Proc.devRef .tc main_arg20)) :=
  (k5 W main_v205).trans (out4 W hv1 hvs)

/-- The five layer buffers side by side, as the last stretch finds them, are the second result's explicit function. -/
theorem emb_in6 :
    embCat (st5 W (Proc.devRef .tc main_v40)) (st5 W (Proc.devRef .tc main_v95)) (st5 W (Proc.devRef .tc main_v150))
        (st5 W (Proc.devRef .tc main_v205)) (st5 W (Proc.devRef .tc main_v260))
      = refEmb (W (Proc.devRef .tc main_arg0)) (W (Proc.devRef .tc main_arg1)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (W (Proc.devRef .tc main_arg18)) (W (Proc.devRef .tc main_arg19)) (W (Proc.devRef .tc main_arg20)) := by
  rw [in6_1 W hv1 hvs, in6_2 W hv1 hvs, in6_3 W hv1 hvs, in6_4 W hv1 hvs, out5 W hv1 hvs]
  rfl

/-- After the sixth stretch: the second result. -/
theorem out_emb : (st6 W (Proc.devRef .tc main_v261) : S50000x320.Idx → EReal) = refEmb (W (Proc.devRef .tc main_arg0)) (W (Proc.devRef .tc main_arg1)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (W (Proc.devRef .tc main_arg18)) (W (Proc.devRef .tc main_arg19)) (W (Proc.devRef .tc main_arg20)) :=
  (s5_emb (st5 W)).trans (emb_in6 W hv1 hvs)

/-- After the sixth stretch: the first result. -/
theorem out_logp : (st6 W (Proc.devRef .tc main_v283) : S512x10.Idx → EReal) = refLogp (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (W (Proc.devRef .tc main_arg18)) (W (Proc.devRef .tc main_arg19)) (W (Proc.devRef .tc main_arg20)) (W (Proc.devRef .tc main_arg21)) (W (Proc.devRef .tc main_arg22)) (W (Proc.devRef .tc main_arg23)) (W (Proc.devRef .tc main_arg24)) := by
  have e := s5_logp (st5 W)
  rw [a5 W main_arg2, a5 W main_arg21, a5 W main_arg22, a5 W main_arg23, a5 W main_arg24] at e
  exact head_link (W (Proc.devRef .tc main_arg2)) (W (Proc.devRef .tc main_arg21)) (W (Proc.devRef .tc main_arg22)) (W (Proc.devRef .tc main_arg23)) (W (Proc.devRef .tc main_arg24)) _ _ _ _ e rfl
    (emb_in6 W hv1 hvs)

end Chain

/-- THE REFERENCE'S RUN. From any memory with zero counters in which σ² + ε is positive for the first layer's
    variances and for every row of the stacked ones, every weakly fair execution of the reference terminates with the
    log-probabilities at refLogp of the arguments, the concatenated layer outputs at refEmb of the arguments, and the
    arguments unchanged. -/
theorem ref_run (m' : (ℓ : Loc nD τ sig) → Buf (Elt Ideal) ℓ) (ρ' : Dev nD → PrngReg)
    (hv1 : ∀ c : Dev nD, VarPos (m' ((c.tc : Thread nD τ).loc main_arg11)))
    (hvs : ∀ c : Dev nD, VarPos4 (m' ((c.tc : Thread nD τ).loc main_arg20))) :
    θ_run defs (onTc (τ := τ) (main (F := Ideal))) ⟨m', fun _ => 0, ρ'⟩ fun r => ∀ c : Dev nD,
      r.2.mem ((c.tc : Thread nD τ).loc main_v283) = refLogp (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11)) (m' ((c.tc : Thread nD τ).loc main_arg12)) (m' ((c.tc : Thread nD τ).loc main_arg13)) (m' ((c.tc : Thread nD τ).loc main_arg14)) (m' ((c.tc : Thread nD τ).loc main_arg15)) (m' ((c.tc : Thread nD τ).loc main_arg16)) (m' ((c.tc : Thread nD τ).loc main_arg17)) (m' ((c.tc : Thread nD τ).loc main_arg18)) (m' ((c.tc : Thread nD τ).loc main_arg19)) (m' ((c.tc : Thread nD τ).loc main_arg20)) (m' ((c.tc : Thread nD τ).loc main_arg21)) (m' ((c.tc : Thread nD τ).loc main_arg22)) (m' ((c.tc : Thread nD τ).loc main_arg23)) (m' ((c.tc : Thread nD τ).loc main_arg24))
      ∧ r.2.mem ((c.tc : Thread nD τ).loc main_v261) = refEmb (m' ((c.tc : Thread nD τ).loc main_arg0)) (m' ((c.tc : Thread nD τ).loc main_arg1)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11)) (m' ((c.tc : Thread nD τ).loc main_arg12)) (m' ((c.tc : Thread nD τ).loc main_arg13)) (m' ((c.tc : Thread nD τ).loc main_arg14)) (m' ((c.tc : Thread nD τ).loc main_arg15)) (m' ((c.tc : Thread nD τ).loc main_arg16)) (m' ((c.tc : Thread nD τ).loc main_arg17)) (m' ((c.tc : Thread nD τ).loc main_arg18)) (m' ((c.tc : Thread nD τ).loc main_arg19)) (m' ((c.tc : Thread nD τ).loc main_arg20))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11)
      ∧ r.2.mem ((c.tc : Thread nD τ).loc main_arg12) = m' ((c.tc : Thread nD τ).loc main_arg12)
      ∧ r.2.mem ((c.tc : Thread nD τ).loc main_arg13) = m' ((c.tc : Thread nD τ).loc main_arg13)
      ∧ r.2.mem ((c.tc : Thread nD τ).loc main_arg14) = m' ((c.tc : Thread nD τ).loc main_arg14)
      ∧ r.2.mem ((c.tc : Thread nD τ).loc main_arg15) = m' ((c.tc : Thread nD τ).loc main_arg15)
      ∧ r.2.mem ((c.tc : Thread nD τ).loc main_arg16) = m' ((c.tc : Thread nD τ).loc main_arg16)
      ∧ r.2.mem ((c.tc : Thread nD τ).loc main_arg17) = m' ((c.tc : Thread nD τ).loc main_arg17)
      ∧ r.2.mem ((c.tc : Thread nD τ).loc main_arg18) = m' ((c.tc : Thread nD τ).loc main_arg18)
      ∧ r.2.mem ((c.tc : Thread nD τ).loc main_arg19) = m' ((c.tc : Thread nD τ).loc main_arg19)
      ∧ r.2.mem ((c.tc : Thread nD τ).loc main_arg20) = m' ((c.tc : Thread nD τ).loc main_arg20)
      ∧ r.2.mem ((c.tc : Thread nD τ).loc main_arg21) = m' ((c.tc : Thread nD τ).loc main_arg21)
      ∧ r.2.mem ((c.tc : Thread nD τ).loc main_arg22) = m' ((c.tc : Thread nD τ).loc main_arg22)
      ∧ r.2.mem ((c.tc : Thread nD τ).loc main_arg23) = m' ((c.tc : Thread nD τ).loc main_arg23)
      ∧ r.2.mem ((c.tc : Thread nD τ).loc main_arg24) = m' ((c.tc : Thread nD τ).loc main_arg24) :=
  (θ_run defs _ _).mono
    (fun r h c => ⟨(h c main_v283).trans (out_logp (launchContents m' c) (hv1 c) (hvs c)),
      (h c main_v261).trans (out_emb (launchContents m' c) (hv1 c) (hvs c)),
      (h c main_arg0).trans (a6 (launchContents m' c) main_arg0),
      (h c main_arg1).trans (a6 (launchContents m' c) main_arg1),
      (h c main_arg2).trans (a6 (launchContents m' c) main_arg2),
      (h c main_arg3).trans (a6 (launchContents m' c) main_arg3),
      (h c main_arg4).trans (a6 (launchContents m' c) main_arg4),
      (h c main_arg5).trans (a6 (launchContents m' c) main_arg5),
      (h c main_arg6).trans (a6 (launchContents m' c) main_arg6),
      (h c main_arg7).trans (a6 (launchContents m' c) main_arg7),
      (h c main_arg8).trans (a6 (launchContents m' c) main_arg8),
      (h c main_arg9).trans (a6 (launchContents m' c) main_arg9),
      (h c main_arg10).trans (a6 (launchContents m' c) main_arg10),
      (h c main_arg11).trans (a6 (launchContents m' c) main_arg11),
      (h c main_arg12).trans (a6 (launchContents m' c) main_arg12),
      (h c main_arg13).trans (a6 (launchContents m' c) main_arg13),
      (h c main_arg14).trans (a6 (launchContents m' c) main_arg14),
      (h c main_arg15).trans (a6 (launchContents m' c) main_arg15),
      (h c main_arg16).trans (a6 (launchContents m' c) main_arg16),
      (h c main_arg17).trans (a6 (launchContents m' c) main_arg17),
      (h c main_arg18).trans (a6 (launchContents m' c) main_arg18),
      (h c main_arg19).trans (a6 (launchContents m' c) main_arg19),
      (h c main_arg20).trans (a6 (launchContents m' c) main_arg20),
      (h c main_arg21).trans (a6 (launchContents m' c) main_arg21),
      (h c main_arg22).trans (a6 (launchContents m' c) main_arg22),
      (h c main_arg23).trans (a6 (launchContents m' c) main_arg23),
      (h c main_arg24).trans (a6 (launchContents m' c) main_arg24)⟩)
    (run_raw (F := Ideal) m' ρ')

end Cert.ReferenceIdeal.RefValue

end
-- ==== Proof.Bridge.lean ====
/-
  The two programs' host stretches, and hence the functions composed from them and the specification's layers, are
  the same functions: each program names its shapes, its gather and scatter dimension records and its side conditions
  in its own namespace, but the names unfold to the same literals, and the side conditions are propositions.
-/
import proofs.«109974_j38371237822822_1_alg».proof.Proof.KI.KerFun
import proofs.«109974_j38371237822822_1_alg».proof.Proof.RefFun

set_option maxRecDepth 65536

noncomputable section

namespace Cert.Bridge

open Idealize.ShloMosaic

theorem aggPre128_eq : @Cert.KernelIdeal.KerValue.aggPre128 = @Cert.ReferenceIdeal.RefValue.aggPre128 := rfl
theorem aggPre64_eq : @Cert.KernelIdeal.KerValue.aggPre64 = @Cert.ReferenceIdeal.RefValue.aggPre64 := rfl
theorem embCat_eq : @Cert.KernelIdeal.KerValue.embCat = @Cert.ReferenceIdeal.RefValue.embCat := rfl
theorem pooledMean_eq : @Cert.KernelIdeal.KerValue.pooledMean = @Cert.ReferenceIdeal.RefValue.pooledMean := rfl

/-- The second result: the five layers' outputs side by side. -/
theorem emb_eq : @Cert.KernelIdeal.KerValue.kerEmb = @Cert.ReferenceIdeal.RefValue.refEmb := rfl

/-- The first result: the log-probabilities. -/
theorem logp_eq : @Cert.KernelIdeal.KerValue.kerLogp = @Cert.ReferenceIdeal.RefValue.refLogp := rfl

end Cert.Bridge

end
-- ==== Proof.PreDecode.lean ====
/-
  What the added precondition says at the extended reals. The precondition is a conjunction of all-reductions, one
  per input; its last two conjuncts are "every entry of `v + ε` is positive" for the first layer's running variance
  and for the stacked running variances of the other four layers. Read out of the conjunction and of the two
  all-reductions, entry by entry, that is `0 < v[i] + ε`, the fact under which the reciprocal square root and the
  quotient by the square root agree.
-/
import proofs.«109974_j38371237822822_1_alg».proof.Pre_finite_inputs
import Idealize.ShloMosaic.PureOps.Ideal
import Idealize.ShloMosaic.PureOps.Ideal.Laws
import Idealize.ShloMosaic.Lib.ReduceAll
import Idealize.ShloMosaic.Lib.Affine
import Idealize.ShloMosaic.Lib.ValueIdx

noncomputable section

namespace Cert.PreDecode

open Idealize.ShloMosaic Cert.Pre_finite_inputs Cert.Pre_finite_inputs.Facts

variable [Cert.Pre_finite_inputs.Facts]

instance : Subsingleton S_.Idx := ⟨fun a b => funext fun d => d.elim0⟩

/-- The comparison "greater than" answering one means the strict order. -/
theorem lt_of_cmp_ogt (a b : EReal) (h : Ideal.cmp .ogt a b = 1#1) : b < a := by
  unfold Ideal.cmp at h
  by_contra hn
  simp [hn] at h

/-- Under the precondition every entry of both running-variance inputs plus `ε` is positive. -/
theorem var_pos (a0 : FVec Ideal S50000x128 .f32) (a1 : IVec S2x800000 32) (a2 : IVec S50000 32) (a3 : FVec Ideal S_ .f32) (a4 : FVec Ideal S128x64 .f32) (a5 : FVec Ideal S64 .f32) (a6 : FVec Ideal S64x64 .f32) (a7 : FVec Ideal S64 .f32) (a8 : FVec Ideal S64 .f32) (a9 : FVec Ideal S64 .f32) (a10 : FVec Ideal S64 .f32) (a11 : FVec Ideal S64 .f32) (a12 : FVec Ideal S4 .f32) (a13 : FVec Ideal S4x64x64 .f32) (a14 : FVec Ideal S4x64 .f32) (a15 : FVec Ideal S4x64x64 .f32) (a16 : FVec Ideal S4x64 .f32) (a17 : FVec Ideal S4x64 .f32) (a18 : FVec Ideal S4x64 .f32) (a19 : FVec Ideal S4x64 .f32) (a20 : FVec Ideal S4x64 .f32) (a21 : FVec Ideal S320x64 .f32) (a22 : FVec Ideal S64 .f32) (a23 : FVec Ideal S64x10 .f32) (a24 : FVec Ideal S10 .f32)
    (h : fn (F := Ideal) a0 a1 a2 a3 a4 a5 a6 a7 a8 a9 a10 a11 a12 a13 a14 a15 a16 a17 a18 a19 a20 a21 a22 a23 a24 = fun _ => 1#1) :
    (∀ i : S64.Idx, 0 < a11 i + Ideal.ofBits .f32 0x3727C5AC#32) ∧ (∀ i : S4x64.Idx, 0 < a20 i + Ideal.ofBits .f32 0x3727C5AC#32) := by
  have h0 := congrFun h ValueIdx.ix0
  dsimp only [fn, fn_part1, fn_part2, fn_part3, fn_part4, fn_part5, fn_part6, fn_part7] at h0
  obtain ⟨h1, h2⟩ := IntOp.andi_eq_one.mp h0
  obtain ⟨-, h3⟩ := IntOp.andi_eq_one.mp h1
  refine ⟨fun i => ?_, fun i => ?_⟩
  · have e := Host.reduce_andi_all _ _ _ _ _ h3 i
    have e' : Ideal.ofBits .f32 0x00000000#32 < a11 i + Ideal.ofBits .f32 0x3727C5AC#32 := lt_of_cmp_ogt _ _ e
    rw [Ideal.ofBits_zero_f32] at e'
    exact e'
  · have e := Host.reduce_andi_all _ _ _ _ _ h2 i
    have e' : Ideal.ofBits .f32 0x00000000#32 < a20 i + Ideal.ofBits .f32 0x3727C5AC#32 := lt_of_cmp_ogt _ _ e
    rw [Ideal.ofBits_zero_f32] at e'
    exact e'

end Cert.PreDecode

end
-- ==== Proof.Claims.lean ====
/-
  The five claims.

  The two kernel programs' frames come from the run over the segments. The reference's frame and its results come
  from its run read stretch by stretch. The idealization rewrote nothing, so there is nothing to preserve. For the
  comparison: under the precondition every running variance plus ε is positive, so the reference's quotient by the
  square root is the kernel's product with the reciprocal square root; both programs then end at the same two
  functions of the arguments — the five layers side by side, and the head's log-probabilities of their per-graph mean.
-/
import proofs.«109974_j38371237822822_1_alg».proof.Defs
import proofs.«109974_j38371237822822_1_alg».proof.Proof.Gen.Kernel
import proofs.«109974_j38371237822822_1_alg».proof.Proof.Gen.KernelIdeal
import proofs.«109974_j38371237822822_1_alg».proof.Proof.Gen.ReferenceIdeal
import proofs.«109974_j38371237822822_1_alg».proof.Proof.Gen.Pre_finite_inputs
import proofs.«109974_j38371237822822_1_alg».proof.Proof.KB.Run
import proofs.«109974_j38371237822822_1_alg».proof.Proof.KI.Run
import proofs.«109974_j38371237822822_1_alg».proof.Proof.KI.Chain
import proofs.«109974_j38371237822822_1_alg».proof.Proof.RefRun
import proofs.«109974_j38371237822822_1_alg».proof.Proof.Bridge
import proofs.«109974_j38371237822822_1_alg».proof.Proof.PreDecode

set_option maxRecDepth 16384

noncomputable section

namespace Cert.Proof.Claims

open Idealize.ShloMosaic Idealize.ShloMosaic.TcCoe Idealize.ShloMosaic.ValueIdx Idealize.SL.Sem
open Cert.Kernel.Gen Cert.KernelIdeal.Gen Cert.ReferenceIdeal.Gen Cert.Pre_finite_inputs.Gen

theorem frame_k : Cert.frame_Kernel := fun m ρ _ => Cert.Kernel.Hand.frame m ρ

theorem frame_ki : Cert.frame_KernelIdeal := fun m ρ _ => Cert.KernelIdeal.Hand.frame m ρ

/-- Under the precondition, on the reference's own memory: every running variance plus ε is positive. -/
theorem ref_pos (m : (ℓ : Loc Cert.ReferenceIdeal.nD Cert.ReferenceIdeal.τ Cert.ReferenceIdeal.sig) → Buf (Elt Ideal) ℓ)
    (hpre : Cert.Pre_ReferenceIdeal m) :
    (∀ c : Dev Cert.ReferenceIdeal.nD, Cert.ReferenceIdeal.RefValue.VarPos (m ((c.tc : Thread Cert.ReferenceIdeal.nD Cert.ReferenceIdeal.τ).loc Cert.ReferenceIdeal.main_arg11)))
    ∧ (∀ c : Dev Cert.ReferenceIdeal.nD, Cert.ReferenceIdeal.RefValue.VarPos4 (m ((c.tc : Thread Cert.ReferenceIdeal.nD Cert.ReferenceIdeal.τ).loc Cert.ReferenceIdeal.main_arg20))) :=
  ⟨fun c q => (Cert.PreDecode.var_pos _ _ _ _ _ _ _ _ _ _ _ _ _ _ _ _ _ _ _ _ _ _ _ _ _ (hpre c)).1 (ix1 q),
   fun c k q => (Cert.PreDecode.var_pos _ _ _ _ _ _ _ _ _ _ _ _ _ _ _ _ _ _ _ _ _ _ _ _ _ (hpre c)).2 (ix2 k q)⟩

theorem frame_ri : Cert.frame_ReferenceIdeal := fun m ρ hpre =>
  (θ_run Cert.ReferenceIdeal.defs _ _).mono (fun _ h c => (h c).2.2)
    (Cert.ReferenceIdeal.RefValue.ref_run m ρ (ref_pos m hpre).1 (ref_pos m hpre).2)

theorem preserves : Cert.preserves_Kernel_KernelIdeal := trivial

set_option maxHeartbeats 4000000 in
theorem algebraic : Cert.algebraic_KernelIdeal_ReferenceIdeal := by
  intro m ρ m' ρ' hpre hagree
  have hpre' : Cert.Pre_ReferenceIdeal m' := fun c => by
    obtain ⟨e0, e1, e2, e3, e4, e5, e6, e7, e8, e9, e10, e11, e12, e13, e14, e15, e16, e17, e18, e19, e20, e21, e22, e23, e24⟩ := hagree c
    rw [e0, e1, e2, e3, e4, e5, e6, e7, e8, e9, e10, e11, e12, e13, e14, e15, e16, e17, e18, e19, e20, e21, e22, e23, e24]
    exact hpre c
  refine ⟨fun c => Cert.KernelIdeal.KerValue.kerLogp (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)),
    fun c => Cert.KernelIdeal.KerValue.kerEmb (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)), ?_, ?_⟩
  · refine (θ_run Cert.KernelIdeal.defs _ _).mono (fun r h c => ?_) (Cert.KernelIdeal.Hand.run_vals (F := Ideal) m ρ)
    obtain ⟨h0, h1, hargs⟩ := h c
    exact ⟨h0.trans (Cert.KernelIdeal.KerValue.logp_val m c), h1.trans (Cert.KernelIdeal.KerValue.emb_val m c), hargs⟩
  · refine (θ_run Cert.ReferenceIdeal.defs _ _).mono (fun r h c => ?_)
      (Cert.ReferenceIdeal.RefValue.ref_run m' ρ' (ref_pos m' hpre').1 (ref_pos m' hpre').2)
    obtain ⟨h0, h1, hargs⟩ := h c
    obtain ⟨e0, e1, e2, e3, e4, e5, e6, e7, e8, e9, e10, e11, e12, e13, e14, e15, e16, e17, e18, e19, e20, e21, e22, e23, e24⟩ := hagree c
    refine ⟨h0.trans ?_, h1.trans ?_, hargs⟩
    · rw [e0, e1, e2, e3, e4, e5, e6, e7, e8, e9, e10, e11, e12, e13, e14, e15, e16, e17, e18, e19, e20, e21, e22, e23, e24, Cert.Bridge.logp_eq]
    · rw [e0, e1, e3, e4, e5, e6, e7, e8, e9, e10, e11, e12, e13, e14, e15, e16, e17, e18, e19, e20, Cert.Bridge.emb_eq]

end Cert.Proof.Claims

end
-- ==== Proof.lean ====
/-
  The certificate's claim: the three frames, the (empty) idealization ledger, and the equality of the idealized
  kernel program and the idealized reference on the extended reals. Each is proved in Proof/Claims.lean; the
  witnesses of the programs' stated side conditions are the generated instances.
-/
import proofs.«109974_j38371237822822_1_alg».proof.Defs
import proofs.«109974_j38371237822822_1_alg».proof.Proof.Gen.Kernel
import proofs.«109974_j38371237822822_1_alg».proof.Proof.Gen.KernelIdeal
import proofs.«109974_j38371237822822_1_alg».proof.Proof.Gen.ReferenceIdeal
import proofs.«109974_j38371237822822_1_alg».proof.Proof.Gen.Pre_finite_inputs
import proofs.«109974_j38371237822822_1_alg».proof.Proof.Claims

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  Cert.Proof.Claims.frame_k, Cert.Proof.Claims.frame_ki, Cert.Proof.Claims.frame_ri, Cert.Proof.Claims.preserves, Cert.Proof.Claims.algebraic⟩

end Cert.Proof

end
